-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S1024 32) (main_arg1 : FVec F S100000x64 .f32) (main_arg2 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg0 main_v9
  let main_c_3 : IVec S_ 32 := constantI S_ 32 99999#32
  let main_v11 : IVec S1024 32 := broadcastInDim S1024 ![] bcast_S_S1024 main_c_3
  let main_v12 : IVec S1024 1 := cmpi .sle main_arg0 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024 : Shape := ⟨1, ![1024]⟩
abbrev S100000x64 : Shape := ⟨2, ![100000, 64]⟩
abbrev S64x100000 : Shape := ⟨2, ![64, 100000]⟩
abbrev S57344x128 : Shape := ⟨2, ![57344, 128]⟩
abbrev S64x8192 : Shape := ⟨2, ![64, 8192]⟩
abbrev S8192x128 : Shape := ⟨2, ![8192, 128]⟩
abbrev S64x64 : Shape := ⟨2, ![64, 64]⟩
abbrev S8192x64 : Shape := ⟨2, ![8192, 64]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S16 : Shape := ⟨1, ![16]⟩
abbrev S1024x1 : Shape := ⟨2, ![1024, 1]⟩
abbrev S100000x1024 : Shape := ⟨2, ![100000, 1024]⟩
abbrev S64x4096 : Shape := ⟨2, ![64, 4096]⟩
abbrev S4096x1024 : Shape := ⟨2, ![4096, 1024]⟩
abbrev S1024x64 : Shape := ⟨2, ![1024, 64]⟩
abbrev S1024x100000 : Shape := ⟨2, ![1024, 100000]⟩

abbrev nBuf : Table → Nat
  | .hbm => 14
  | .local .tc .vmem => 12
  | .local .scVector .vmem => 3
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S64x100000, .f32⟩
  | .hbm, ⟨4, _⟩ => ⟨S57344x128, .f32⟩
  | .hbm, ⟨5, _⟩ => ⟨S1024x128, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1024, .i32⟩
  | .hbm, ⟨10, _⟩ => ⟨S1024x1, .i32⟩
  | .hbm, ⟨11, _⟩ => ⟨S64x100000, .f32⟩
  | .hbm, ⟨12, _⟩ => ⟨S100000x1024, .f32⟩
  | .hbm, ⟨13, _⟩ => ⟨S1024x100000, .f32⟩
  | .local .tc .vmem, ⟨0, _⟩ => ⟨S64x8192, .f32⟩
  | .local .tc .vmem, ⟨1, _⟩ => ⟨S64x8192, .f32⟩
  | .local .tc .vmem, ⟨2, _⟩ => ⟨S64x8192, .f32⟩
  | .local .tc .vmem, ⟨3, _⟩ => ⟨S64x8192, .f32⟩
  | .local .tc .vmem, ⟨4, _⟩ => ⟨S8192x128, .f32⟩
  | .local .tc .vmem, ⟨5, _⟩ => ⟨S8192x128, .f32⟩
  | .local .tc .vmem, ⟨6, _⟩ => ⟨S1024x128, .f32⟩
  | .local .tc .vmem, ⟨7, _⟩ => ⟨S1024x1, .i32⟩
  | .local .tc .vmem, ⟨8, _⟩ => ⟨S64x4096, .f32⟩
  | .local .tc .vmem, ⟨9, _⟩ => ⟨S64x4096, .f32⟩
  | .local .tc .vmem, ⟨10, _⟩ => ⟨S4096x1024, .f32⟩
  | .local .tc .vmem, ⟨11, _⟩ => ⟨S4096x1024, .f32⟩
  | .local .scVector .vmem, ⟨0, _⟩ => ⟨S32, .i32⟩
  | .local .scVector .vmem, ⟨1, _⟩ => ⟨S32, .i32⟩
  | .local .scVector .vmem, ⟨2, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v1_scv : Ref sig .scVector := ⟨.hbm, 4, rfl⟩
abbrev main_arg0_scv : Ref sig .scVector := ⟨.hbm, 0, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c7_i32 : BitVec 32 := 7#32
  let v0 : BitVec 32 := Scalar.addi arg0 c7_i32
  let c12_i32 : BitVec 32 := 12#32
  let v1 : BitVec 32 := Scalar.minsi v0 c12_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r1 : BitVec 32 := 0#32
  ![v2.toNat, 0]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S100000x64_S64x100000_1_0 : S100000x64.Transposes [1, 0] S64x100000
  iota_S64x64_d0_w32 : S64x64.Iotas .tc 32 [0]
  iota_S64x64_d1_w32 : S64x64.Iotas .tc 32 [1]
  natLt_1_32 : 1 < 32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S8192x128_S8192x64_0_0 : ∀ a, (![0, 0] : Fin 2 → Nat) a + S8192x64.size a ≤ S8192x128.size a
  h_S8192x64 : 0 < S8192x64.numel
  inb_S8192x128_S8192x64_0_64 : ∀ a, (![0, 64] : Fin 2 → Nat) a + S8192x64.size a ≤ S8192x128.size a
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  inb_S57344x128_S57344x128_0_0 : ∀ a, (![0, 0] : Fin 2 → Nat) a + S57344x128.size a ≤ S57344x128.size a
  gathers_S57344x128_S32x128 : S57344x128.Gathers 0 S32x128
  bcast_S_S1024 : S_.BroadcastsInDim S1024 (![] : Fin 0 → Fin S1024.rank)
  shapeCasts_S1024_S1024x1 : S1024.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S1024x128_o0_64_S1024x64 : S1024x128.Slices ![0, 64] S1024x64
  slices_S1024x128_o0_0_S1024x64 : S1024x128.Slices ![0, 0] S1024x64
  broadcasts_S1024x1_S1024x64 : S1024x1.Broadcasts S1024x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S64x8192_S64x64_S8192x64_0_0_1_1_n_n_wf : DotDims.WF S64x8192 S64x64 S8192x64 [0] [0] [1] [1] [] []
  dot_S64x4096_S1024x64_S4096x1024_0_1_1_0_n_n_wf : DotDims.WF S64x4096 S1024x64 S4096x1024 [0] [1] [1] [0] [] []
  hcc1_scratch3 : 6 + S_.numel ≤ 15
  hcc1_scoped0 : 7 + S_.numel ≤ 15
  hcc1_scoped1 : 8 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x8192.size a < S64x100000.size a
  hwx0_0 : ∀ i : grid0.Coords, EltTy.bits .f32 = 32 ∨ (Rect.unit (s := S64x100000) (fun a => cc0_transform_0 i a * S64x8192.size a) (fun a => (Pipeline.Clip.of (cc0_transform_0 i a) (S64x8192.size a) (S64x100000.size a)).extent (S64x8192.size a)) fun a => Pipeline.Clip.inb (Pipeline.Clip.ok_of (hstart0_0 i a))).WholeWords (EltTy.packing .f32)
  hwxs0_0 : ∀ i : grid0.Coords, EltTy.bits .f32 = 32 ∨ (Rect.unit (s := S64x8192) (fun _ => 0) (fun a => (Pipeline.Clip.of (cc0_transform_0 i a) (S64x8192.size a) (S64x100000.size a)).extent (S64x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x8192.size a < S64x100000.size a
  hwx0_1 : ∀ i : grid0.Coords, EltTy.bits .f32 = 32 ∨ (Rect.unit (s := S64x100000) (fun a => cc0_transform_1 i a * S64x8192.size a) (fun a => (Pipeline.Clip.of (cc0_transform_1 i a) (S64x8192.size a) (S64x100000.size a)).extent (S64x8192.size a)) fun a => Pipeline.Clip.inb (Pipeline.Clip.ok_of (hstart0_1 i a))).WholeWords (EltTy.packing .f32)
  hwxs0_1 : ∀ i : grid0.Coords, EltTy.bits .f32 = 32 ∨ (Rect.unit (s := S64x8192) (fun _ => 0) (fun a => (Pipeline.Clip.of (cc0_transform_1 i a) (S64x8192.size a) (S64x100000.size a)).extent (S64x8192.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S57344x128.size a
  hwx0_2 : ∀ i : grid0.Coords, EltTy.bits .f32 = 32 ∨ (Rect.block (s := S57344x128) S8192x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S32.size a ≤ S1024.size a
  k1_off2_inb : ∀ i : grid1.Coords, ∀ a, (k1_off2 i) a + S32x128.size a ≤ S1024x128.size a
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S1024x1.size a
  hwx2_1 : ∀ i : grid2.Coords, EltTy.bits .i32 = 32 ∨ (Rect.block (s := S1024x1) S1024x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S64x4096.size a < S64x100000.size a
  hwx2_2 : ∀ i : grid2.Coords, EltTy.bits .f32 = 32 ∨ (Rect.unit (s := S64x100000) (fun a => cc2_transform_2 i a * S64x4096.size a) (fun a => (Pipeline.Clip.of (cc2_transform_2 i a) (S64x4096.size a) (S64x100000.size a)).extent (S64x4096.size a)) fun a => Pipeline.Clip.inb (Pipeline.Clip.ok_of (hstart2_2 i a))).WholeWords (EltTy.packing .f32)
  hwxs2_2 : ∀ i : grid2.Coords, EltTy.bits .f32 = 32 ∨ (Rect.unit (s := S64x4096) (fun _ => 0) (fun a => (Pipeline.Clip.of (cc2_transform_2 i a) (S64x4096.size a) (S64x100000.size a)).extent (S64x4096.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S4096x1024.size a < S100000x1024.size a
  hwx2_3 : ∀ i : grid2.Coords, EltTy.bits .f32 = 32 ∨ (Rect.unit (s := S100000x1024) (fun a => cc2_transform_3 i a * S4096x1024.size a) (fun a => (Pipeline.Clip.of (cc2_transform_3 i a) (S4096x1024.size a) (S100000x1024.size a)).extent (S4096x1024.size a)) fun a => Pipeline.Clip.inb (Pipeline.Clip.ok_of (hstart2_3 i a))).WholeWords (EltTy.packing .f32)
  hwxs2_3 : ∀ i : grid2.Coords, EltTy.bits .f32 = 32 ∨ (Rect.unit (s := S4096x1024) (fun _ => 0) (fun a => (Pipeline.Clip.of (cc2_transform_3 i a) (S4096x1024.size a) (S100000x1024.size a)).extent (S4096x1024.size a)) fun a => (Nat.zero_add _).trans_le (Pipeline.Clip.extent_le (Pipeline.Clip.ok_of (hstart2_3 i a)))).WholeWords (EltTy.packing .f32)

variable [Facts₀]

abbrev cc1_scratch3 : DmaSems sig S_ := SemArray.consecutive 6 S_ hcc1_scratch3
abbrev cc1_scoped0 : DmaSems sig S_ := SemArray.consecutive 7 S_ hcc1_scoped0
abbrev cc1_scoped1 : DmaSems sig S_ := SemArray.consecutive 8 S_ hcc1_scoped1
def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf
def dot_S64x4096_S1024x64_S4096x1024_0_1_1_0_n_n : DotDims S64x4096 S1024x64 S4096x1024 where
  lhsContracting := [0]
  rhsContracting := [1]
  lhsNonContracting := [1]
  rhsNonContracting := [0]
  lhsBatch := []
  rhsBatch := []
  wf := dot_S64x4096_S1024x64_S4096x1024_0_1_1_0_n_n_wf

abbrev win0_0 : Pipeline.Window sig grid0 :=
  Pipeline.Window.ofSpecClip (Memref.whole main_v0) S64x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v2) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v7) S64x4096.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v8) S4096x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩

abbrev nBuf : Space → Nat
  | .hbm => 28
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S1024x64, .f32⟩
  | .hbm, ⟨22, _⟩ => ⟨S1024x64, .i1⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S64x100000, .f32⟩
  | .hbm, ⟨27, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  transposes_S100000x64_S64x100000_1_0 : S100000x64.Transposes [1, 0] S64x100000
  gather_S100000x64_S1024x1_S1024x64_1_0_n_n_0_1_164_wf : GatherDims.WF S100000x64 S1024x1 S1024x64 [1] [0] [] [0] [] 1 ![1, 64]
  dot_S1024x64_S64x100000_S1024x100000_1_0_0_1_n_n_wf : DotDims.WF S1024x64 S64x100000 S1024x100000 [1] [0] [0] [1] [] []

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.PreFacts.lean ====
/-
  What the input-domain precondition says of the three arguments, read back from its printed form.

  The precondition is the conjunction of three universally quantified statements, each printed as a
  reduction by "and" of a one-bit array down to a single bit, and the claim is that the final bit is 1:
    * every entry x of the table satisfies |x| < +infinity;
    * every entry x of W satisfies |x| < +infinity;
    * every index n satisfies 0 <= n and n <= 99999, both read as signed 32-bit integers.
  A conjunction of bits is 1 exactly when both bits are 1, and a reduction by "and" that starts at 1 and
  ends at 1 met only 1s; so each quantified statement holds at every position.
-/
import proofs.«218829_g6193342841233_cont_9to1_m_903_15_alg».proof.Defs
import proofs.«218829_g6193342841233_cont_9to1_m_903_15_alg».proof.Proof.Gen.Pre_input_domain
import Idealize.ShloMosaic.Lib.ReduceAll
import Idealize.ShloMosaic.Lib.ValueIdx

noncomputable section

namespace Cert.PreFacts

open Idealize.ShloMosaic Cert.Pre_input_domain

/-- A rank-0 array has exactly one position. -/
instance subsingleton_scalar_idx : Subsingleton S_.Idx := ⟨fun a b => funext fun d => d.elim0⟩

/-- The precondition split into its three "for all" bits, each still in reduced form: the final bit is
    the "and" of the three, so all three are 1. -/
theorem three_bits {F : FTy → Type} [FloatOps F] (idx : IVec S1024 32) (table W : FVec F S100000x64 .f32)
    (h : fn (F := F) idx table W = fun _ => 1#1) :
    (∀ j : S100000x64.Idx, cmpf .olt (Host.absf table)
        (broadcastInDim S100000x64 ![] Facts.bcast_S_S100000x64 (constant S_ .f32 0x7F800000#32)) j = 1#1)
    ∧ (∀ j : S100000x64.Idx, cmpf .olt (Host.absf W)
        (broadcastInDim S100000x64 ![] Facts.bcast_S_S100000x64 (constant S_ .f32 0x7F800000#32)) j = 1#1)
    ∧ (∀ i : S1024.Idx, andi (cmpi .sge idx (broadcastInDim S1024 ![] Facts.bcast_S_S1024 (constantI S_ 32 0#32)))
        (cmpi .sle idx (broadcastInDim S1024 ![] Facts.bcast_S_S1024 (constantI S_ 32 99999#32))) i = 1#1) := by
  have e := congrFun h ValueIdx.ix0
  dsimp only [fn] at e
  simp only [andi, IntOp.andi_eq_one] at e
  obtain ⟨⟨e1, e2⟩, e3⟩ := e
  exact ⟨fun j => Host.reduce_andi_all _ _ _ _ _ e1 j, fun j => Host.reduce_andi_all _ _ _ _ _ e2 j,
    fun i => Host.reduce_andi_all _ _ _ _ _ e3 i⟩

/-- Every index lies in [0, 99999] as a signed integer. The bit at position i is the "and" of the two
    signed comparisons idx[i] >= 0 and idx[i] <= 99999 (the constants are broadcast scalars, so the
    comparand at every position is the constant itself); a signed comparison bit is 1 exactly when the
    signed readings compare that way, and the two constants read 0 and 99999. -/
theorem idx_range {F : FTy → Type} [FloatOps F] (idx : IVec S1024 32) (table W : FVec F S100000x64 .f32)
    (h : fn (F := F) idx table W = fun _ => 1#1) :
    ∀ i : S1024.Idx, 0 ≤ (idx i).toInt ∧ (idx i).toInt ≤ 99999 := by
  intro i
  have e : IntOp.andi (IntOp.cmpi .sge (idx i) 0#32) (IntOp.cmpi .sle (idx i) 99999#32) = 1#1 :=
    (three_bits idx table W h).2.2 i
  obtain ⟨h0, h1⟩ := IntOp.andi_eq_one.1 e
  rw [IntOp.cmpi_sge] at h0
  rw [IntOp.cmpi_sle] at h1
  have z : (0#32 : BitVec 32).toInt = 0 := by decide
  have n : (99999#32 : BitVec 32).toInt = 99999 := by decide
  rw [z] at h0
  rw [n] at h1
  exact ⟨h0, h1⟩

/-- The bit pattern 0x7F800000 (sign 0, exponent all ones, fraction 0) denotes +infinity. -/
theorem inf_bits : Ideal.ofBits .f32 0x7F800000#32 = (⊤ : EReal) := by
  simp [Ideal.ofBits, Ideal.ieee]

/-- An extended real whose absolute value max(x, -x) is strictly below +infinity is a real number:
    at x = -infinity the negation is +infinity and at x = +infinity x itself is, so in both cases the
    maximum is +infinity, which is not below itself. -/
theorem real_of_abs_lt_inf (x : EReal)
    (e : Ideal.cmp .olt (max x (-x)) (Ideal.ofBits .f32 0x7F800000#32) = 1#1) : ∃ r : ℝ, x = (r : EReal) := by
  rw [inf_bits] at e
  -- the ordered "less than" bit is the truth value of the strict inequality
  have e' : BitVec.ofBool (decide (max x (-x) < (⊤ : EReal))) = 1#1 := e
  have hlt : max x (-x) < (⊤ : EReal) := by
    by_contra hn
    rw [decide_eq_false hn] at e'
    exact absurd e' (by decide)
  induction x using EReal.rec with
  | bot => simp at hlt
  | top => simp at hlt
  | coe r => exact ⟨r, rfl⟩

/-- Every table entry is a real number: its bit in the first "for all" says |x| < +infinity, where the
    absolute value over the extended reals is max(x, -x) and the comparand is the broadcast constant. -/
theorem table_finite (idx : IVec S1024 32) (table W : FVec Ideal S100000x64 .f32)
    (h : fn (F := Ideal) idx table W = fun _ => 1#1) : ∀ j : S100000x64.Idx, ∃ x : ℝ, table j = (x : EReal) :=
  fun j => real_of_abs_lt_inf (table j) ((three_bits idx table W h).1 j)

/-- Every entry of W is a real number, by the second "for all" in the same way. -/
theorem W_finite (idx : IVec S1024 32) (table W : FVec Ideal S100000x64 .f32)
    (h : fn (F := Ideal) idx table W = fun _ => 1#1) : ∀ j : S100000x64.Idx, ∃ x : ℝ, W j = (x : EReal) :=
  fun j => real_of_abs_lt_inf (W j) ((three_bits idx table W h).2.1 j)

end Cert.PreFacts

end
-- ==== Proof.RefRun.lean ====
/-
  The reference's run.

  The reference is `take(table, indices, axis = 0) @ W.T`: no kernel, and twenty-five tensor operations once
  its two calls are unfolded. The calls are of functions the program outlines (`_take`, and inside it `_where`);
  a call means the callee's body substituted at the call site, so here the callee's operations are listed in
  place, over the buffers that call names. The program is then one straight line of operations, and the library's theorem for
  such a line says: every fair execution ends, and each buffer ends at the fold of the operations over the
  contents the run started from. Reading that fold at the result buffer gives one closed term of the three
  arguments, `result` below; reading it at an argument buffer gives the argument back, since no operation
  writes there.

  The term, stage by stage (`n = 100000` rows):
    * `wrapIdx`   — an index below zero counts from the end: `i < 0 ? i + n : i`;
    * `idxCol`    — the indices as a column, the form the gather takes;
    * `inRange`   — per row, `0 ≤ i ∧ i ≤ n - 1`, the conjunction over the column's single entry;
    * `rows`      — the gather of whole rows of the table (each start clamped into the table);
    * `emb`       — the row where the index is in range, the fill value (a quiet NaN) elsewhere;
    * `result`    — `emb` times the transpose of `W`, contracting the 64 columns.
-/
import proofs.«218829_g6193342841233_cont_9to1_m_903_15_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- An index below zero counts from the end of the table: `i < 0 ? i + 100000 : i`, entry by entry. -/
def wrapIdx (idx : IVec S1024 32) : IVec S1024 32 :=
  select (cmpi .slt idx (broadcastInDim S1024 ![] bcast_S_S1024 (constantI S_ 32 0#32)))
    (addi idx (broadcastInDim S1024 ![] bcast_S_S1024 (constantI S_ 32 100000#32))) idx

/-- The wrapped indices as a column of one-entry index vectors. -/
def idxCol (idx : IVec S1024 32) : IVec S1024x1 32 :=
  broadcastInDim S1024x1 ![0] bcast_S1024_S1024x1_0 (wrapIdx idx)

/-- Per row, whether the wrapped index lies in `[0, 99999]`: both comparisons, signed, and their conjunction
    reduced over the column's one entry (from `true`). -/
def inRange (idx : IVec S1024 32) : IVec S1024 1 :=
  Host.reduce IntOp.andi
    (andi (cmpi .sge (idxCol idx) (broadcastInDim S1024x1 ![] bcast_S_S1024x1 (constantI S_ 32 0#32)))
      (cmpi .sle (idxCol idx)
        (broadcastInDim S1024x1 ![0, 1] bcast_S1x1_S1024x1_0_1
          (broadcastInDim S1x1 ![1] bcast_S1_S1x1_1 (constantI S1 32 99999#32)))))
    (constantI S_ 1 1#1) reducesTo_S1024x1_S1024_d1 h_S_

/-- The gathered rows: row `b` is the table's row at the (clamped) wrapped index `b`. -/
def rows (idx : IVec S1024 32) (table : FVec F S100000x64 .f32) : FVec F S1024x64 .f32 :=
  Host.gather gather_S100000x64_S1024x1_S1024x64_1_0_n_n_0_1_164 table (idxCol idx)

/-- The looked-up rows: the gathered row where the index is in range, the fill value elsewhere. -/
def emb (idx : IVec S1024 32) (table : FVec F S100000x64 .f32) : FVec F S1024x64 .f32 :=
  select (broadcastInDim S1024x64 ![0] bcast_S1024_S1024x64_0 (inRange idx)) (rows idx table)
    (broadcastInDim S1024x64 ![] bcast_S_S1024x64 (constant S_ .f32 0x7FC00000#32))

/-- The reference's result as one term of its arguments: the looked-up rows times the transpose of `W`. -/
def result (idx : IVec S1024 32) (table W : FVec F S100000x64 .f32) : FVec F S1024x100000 .f32 :=
  Host.dotGeneral dot_S1024x64_S64x100000_S1024x100000_1_0_0_1_n_n none (emb idx table)
    (transpose S64x100000 [1, 0] W transposes_S100000x64_S64x100000_1_0)

/-! ## The program as a list of operations -/

/-- @main's twenty-five operations in order, the two calls unfolded: `_take`'s twenty-three over the buffers
    of its call (the select of `_where` among them, at that inner call's buffer), then the transpose and the
    contraction. -/
abbrev ops : List (HloOp τ sig (Elt F)) :=
  [ TRef.nullary main_call0.c (constantI S_ 32 0#32),
    TRef.unary main_call0.c main_call0.v0 (broadcastInDim S1024 ![] bcast_S_S1024),
    TRef.binary (.of main_arg0) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0) main_call0.v2 main_call0.v3 addi,
    TRef.ternary main_call0.v1 main_call0.v3 (.of main_arg0) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select,
    unary main_arg2 main_v1 ((transpose S64x100000 [1, 0] · transposes_S100000x64_S64x100000_1_0) : (⟨S100000x64, .f32⟩ : BufTy).Contents (Elt F) → (⟨S64x100000, .f32⟩ : BufTy).Contents (Elt F)),
    binary main_v0 main_v1 main_v2 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)) ]

set_option maxRecDepth 1024 in
/-- @main is that straight line: with the two functions' definitions unfolded at their calls, both sides are one
    chain of steps once the sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own memory only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub ..⟩

/-- Every buffer of every device ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the four buffers of interest -/

/-- The operations of a called function are stated over references that carry the type of the tensor value they
    hold; contents are moved to the buffer's own type when written and back when read. There and back is the
    identity. -/
theorem ofBuf_toBuf {T : BufTy} (x : TRef sig T) (v : T.Contents (Elt F)) : x.ofBuf (x.toBuf v) = v := by
  obtain ⟨r, rfl, _, _⟩ := x
  rfl

attribute [local irreducible] Host.reduce Host.gather in
/-- At the result buffer the fold is the composed term. Each operation's result is read at its own buffer as its
    function's value and at every other buffer as what was there, and the moves between a value's type and its
    buffer's cancel in pairs; what is left is the composed term, up to the three moves at literal buffers (the
    two arguments read, the looked-up rows handed to the contraction), which are the identity by computation.
    The functions that search or sum over an operand's entries stay folded meanwhile (the equation never looks
    inside them). -/
theorem out_eq (V : Valuation τ sig (Elt F)) :
    after ops V (main_v2 : DevRef τ sig)
      = result (V (main_arg0 : DevRef τ sig)) (V (main_arg1 : DevRef τ sig)) (V (main_arg2 : DevRef τ sig)) := by
  after_results
  simp only [ofBuf_toBuf]
  rfl

/-- No operation writes an argument's buffer. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

/-- On every device, for any float values, from any memory with zero counters: every weakly fair execution of
    @main terminates, the result buffer holds `result` of the arguments' launch contents, and the three
    arguments are unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v2)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v2).trans (out_eq _), (h c main_arg0).trans (arg0_eq _),
      (h c main_arg1).trans (arg1_eq _), (h c main_arg2).trans (arg2_eq _)⟩)
    (run_all m ρ)

end Cert.ReferenceIdeal.RefRun

end
-- ==== Proof.K.Setup.lean ====
/-
  The program as the launch theorems see it, and the one resource algebra every part of the proof shares.

  The device runs @main on its TensorCore and the gather kernel's tasks on the vector subcores of both
  SparseCores. Three protocols meet in the ghost state, side by side: the SparseCore launch handshakes (rounds
  named by call numbers), the two TensorCore pipelines' staging cells (rounds with unnamed duties), and the
  counters of the local copies a vector subcore makes and waits for itself.
-/
import proofs.«218829_g6193342841233_cont_9to1_m_903_15_alg».proof.Proof.Gen.Kernel
import proofs.«218829_g6193342841233_cont_9to1_m_903_15_alg».proof.Proof.Gen.Kernel.Skeleton
import proofs.«218829_g6193342841233_cont_9to1_m_903_15_alg».proof.Proof.Gen.Kernel.Launch
import proofs.«218829_g6193342841233_cont_9to1_m_903_15_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the two TensorCore pipelines over the kernels' own. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore dispatch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- Neither pipeline has prefetched tables: the one admissible choice. -/
abbrev adm : (p : Fin 2) → (pcfgs (F := F) p).Adm := fun _ => ⟨fun i => i.elim0, trivial⟩

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds, named by call number. -/
abbrev UH : Type := URounds (GSem nD τ sig) ℕ
/-- The pipelines' staging cells' rounds. -/
abbrev UP : Type := UR sig nD τ
/-- Handshakes, pipelines, and the counters of a subcore's own copies. -/
abbrev UU : Type := UH × (UP × Counters)

abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP embR; infer_instance

end Cert.Kernel.Hand

end
-- ==== Proof.K.LaunchElem.lean ====
/-
  The launch element of the ghost state: what the program's proof starts from.

  Beside the launch handshakes' rounds, the element funds the staging cells of both TensorCore pipelines (their
  launch ghost state and duty tokens, handed to @main's proof per device) and the unit of the copy counters.
  No kernel of this program has a protocol of its own across the launch, so the kernels' proofs consume nothing.
-/
import proofs.«218829_g6193342841233_cont_9to1_m_903_15_alg».proof.Proof.K.Setup

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The two pipelines at their one admissible (empty) choice of tables: the printed configurations. -/
abbrev cfgs' : Fin 2 → Pipeline.Cfg sig Λ₀ := Pipeline.pin (pcfgs (F := F)) adm

/-- Their staging cells are pairwise distinct. -/
theorem cells_inj : Function.Injective (Pipeline.cellOf (nD := nD) (τ := τ) (cfgs' (F := F))) := Gen.cellOf_inj

/-- The launch element: the handshakes' cells and tokens, the pipelines' cells and tokens, the counters' unit. -/
def u₀ : UU :=
  (initOf (K (F := F)).hsCells (K (F := F)).hsToks,
    (initOf (Pipeline.cells (cfgs' (F := F)) cells_inj) (Pipeline.launchToks (cfgs' (F := F)) cells_inj), 1))

/-- What @main's proof on device `d` starts from beside the arrays: both pipelines' launch ghost state and tokens. -/
def G (d : Dev nD) : sProp (MM F) :=
  bigSep Finset.univ fun p : Fin 2 => iprop(Pipeline.cellsGhost (cfgs' (F := F)) EP p d ∗ Pipeline.toksInit (cfgs' (F := F)) EP p d)

theorem bigSep_emp' {I : Type} (s : Finset I) : (bigSep s fun _ => iprop(emp)) = (iprop(emp) : sProp (MM F)) := bigSep_emp_const s

/-- The element splits into the handshakes' part and the pipelines' part (the counters' unit is dropped). -/
theorem ownU_split3 (a : UH) (b : UP) (c : Counters) :
    (ownU ((a, (b, c)) : UU) : sProp (MM F)) ⊢ iprop(BI.own (EH a) ∗ BI.own (EP b)) := by
  refine (ownU_pair a (b, c)).trans (sep_mono .rfl ?_)
  exact (own_pair_emb (embR : Emb (UP × Counters) (MM F)) b c).trans sep_elim_left

end Cert.Kernel.Hand

end
-- ==== Proof.K.Main.lean ====
/-
  @main on the TensorCore, step by step.

  @main transposes the table, runs the repack call, starts the gather on the SparseCores and waits for it, computes the
  half selector and transposes the projection matrix, runs the projection call and transposes its result. Between steps
  the TensorCore's state is every unscoped buffer whole at a valuation; a host operation moves the valuation to the
  operation's result; each call replaces the one array it writes by contents of which a relation is known. What the
  three calls do is taken here as three step rules, hypotheses of this module, which composes them
  with the host operations and records, as a pure relation, how the final valuation arises from the launch one.
-/
import proofs.«218829_g6193342841233_cont_9to1_m_903_15_alg».proof.Proof.K.LaunchElem
import Idealize.ShloMosaic.Lib.Pipeline.Frame

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

/-! ## The host operations, and the arrays the calls write -/

abbrev v1' : DevRef τ sig := Proc.devRef .tc (main_v1 : Ref sig .tc)
abbrev v2' : DevRef τ sig := Proc.devRef .tc (main_v2 : Ref sig .tc)
abbrev v8' : DevRef τ sig := Proc.devRef .tc (main_v8 : Ref sig .tc)

/-- The table transposed. -/
abbrev opTab : HloOp τ sig (Elt F) := StableHlo.unary main_arg1 main_v0 ((transpose S64x100000 [1, 0] · transposes_S100000x64_S64x100000_1_0) : (⟨S100000x64, .f32⟩ : BufTy).Contents (Elt F) → (⟨S64x100000, .f32⟩ : BufTy).Contents (Elt F))
/-! The half selector: the split row number 57344 (`opC`), spread over the batch (`opB`), compared with the indices (`opG`),
    the bit widened (`opE`) and made a column (`opR`). -/

/-- The split row number. -/
abbrev opC : HloOp τ sig (Elt F) := StableHlo.nullary main_c (constantI S_ 32 57344#32)
abbrev opB : HloOp τ sig (Elt F) := StableHlo.unary main_c main_v3 (broadcastInDim S1024 ![] bcast_S_S1024 : (⟨S_, .i32⟩ : BufTy).Contents (Elt F) → (⟨S1024, .i32⟩ : BufTy).Contents (Elt F))
abbrev opG : HloOp τ sig (Elt F) := StableHlo.binary main_arg0 main_v3 main_v4 (cmpi .sge : (⟨S1024, .i32⟩ : BufTy).Contents (Elt F) → (⟨S1024, .i32⟩ : BufTy).Contents (Elt F) → (⟨S1024, .i1⟩ : BufTy).Contents (Elt F))
abbrev opE : HloOp τ sig (Elt F) := StableHlo.unary main_v4 main_v5 ((extui 32 · natLt_1_32) : (⟨S1024, .i1⟩ : BufTy).Contents (Elt F) → (⟨S1024, .i32⟩ : BufTy).Contents (Elt F))
abbrev opR : HloOp τ sig (Elt F) := StableHlo.reshape main_v5 main_v6 rfl shapeCasts_S1024_S1024x1
/-- The projection matrix transposed. -/
abbrev opW : HloOp τ sig (Elt F) := StableHlo.unary main_arg2 main_v7 ((transpose S64x100000 [1, 0] · transposes_S100000x64_S64x100000_1_0) : (⟨S100000x64, .f32⟩ : BufTy).Contents (Elt F) → (⟨S64x100000, .f32⟩ : BufTy).Contents (Elt F))
/-- The projection's result transposed: the program's result. -/
abbrev opOut : HloOp τ sig (Elt F) := StableHlo.unary main_v8 main_v9 ((transpose S1024x100000 [1, 0] · transposes_S100000x1024_S1024x100000_1_0) : (⟨S100000x1024, .f32⟩ : BufTy).Contents (Elt F) → (⟨S1024x100000, .f32⟩ : BufTy).Contents (Elt F))

/-- The host operations between the gather and the projection, in order. -/
abbrev midOps : List (HloOp τ sig (Elt F)) := [opC, opB, opG, opE, opR, opW]

section Steps

variable (P : (K (F := F)).Pay (nD := nD) (Val := Elt F) (Name := ℕ) (U := UU))
-- What is known of the repacked table, of the gathered rows, of the projection's result, each given the valuation its
-- call was entered at; and what the gather needs of the valuation it is entered at.
variable (Out0 : Dev nD → Valuation τ sig (Elt F) → (v1' : DevRef τ sig).ty.Contents (Elt F) → Prop)
  (PreSC : Dev nD → Valuation τ sig (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- How a final valuation arises from the launch one: through the three calls' relations and the host operations. -/
def Reach (d : Dev nD) (W0 Wf : Valuation τ sig (Elt F)) : Prop :=
  ∃ f1 f2 A8, Out0 d ((opTab (F := F)).result W0) f1
    ∧ OutSC d (Function.update ((opTab (F := F)).result W0) v1' f1) f2
    ∧ Out1 d (StableHlo.after (midOps (F := F)) (Function.update (Function.update ((opTab (F := F)).result W0) v1' f1) v2' f2)) A8
    ∧ Wf = (opOut (F := F)).result (Function.update (StableHlo.after (midOps (F := F)) (Function.update (Function.update ((opTab (F := F)).result W0) v1' f1) v2' f2)) v8' A8)

variable (κ : GSem nD τ sig → ℕ)

/-- The repack call's step rule. -/
def StepR0 : Prop := ∀ (d : Dev nD) (W : Valuation τ sig (Elt F)) (Φ : PUnit → sProp (MM F)),
  iprop((K (F := F)).ctx EH P κ ∗ (K (F := F)).tcSt EH d 0 ∗ boundary (T d : Thread nD τ) ∗ held (T d) (ucRefs τ sig) W
      ∗ Pipeline.cellsGhost (cfgs' (F := F)) EP 0 d ∗ Pipeline.toksInit (cfgs' (F := F)) EP 0 d
      ∗ (∀ f1, iprop(⌜Out0 d W f1⌝ ∗ (K (F := F)).tcSt EH d 0 ∗ boundary (T d : Thread nD τ) ∗ held (T d) (ucRefs τ sig) (Function.update W v1' f1)) -∗ Φ ⟨⟩))
    ⊢ wp frame (wpE ((K (F := F)).defs (D (F := F))) 𝒱 (T d) none) Set.univ (Prog.lift (.customCall (SparseCore.inner (Pipeline.entry 0)) ())) Φ

/-- The gather's step rule. -/
def StepSC : Prop := ∀ (d : Dev nD) (W : Valuation τ sig (Elt F)) (Φ : PUnit → sProp (MM F)), PreSC d W →
  iprop((K (F := F)).ctx EH P κ ∗ (K (F := F)).tcSt EH d 0 ∗ held (T d) (ucRefs τ sig) W
      ∗ (∀ f2, iprop(⌜OutSC d W f2⌝ ∗ (K (F := F)).tcSt EH d 1 ∗ held (T d) (ucRefs τ sig) (Function.update W v2' f2)) -∗ Φ ⟨⟩))
    ⊢ wp frame (wpE ((K (F := F)).defs (D (F := F))) 𝒱 (T d) none) Set.univ ((K (F := F)).run d 0) Φ

/-- The projection call's step rule. -/
def StepR1 : Prop := ∀ (d : Dev nD) (W : Valuation τ sig (Elt F)) (Φ : PUnit → sProp (MM F)),
  iprop((K (F := F)).ctx EH P κ ∗ (K (F := F)).tcSt EH d 1 ∗ boundary (T d : Thread nD τ) ∗ held (T d) (ucRefs τ sig) W
      ∗ Pipeline.cellsGhost (cfgs' (F := F)) EP 1 d ∗ Pipeline.toksInit (cfgs' (F := F)) EP 1 d
      ∗ (∀ A8, iprop(⌜Out1 d W A8⌝ ∗ (K (F := F)).tcSt EH d 1 ∗ boundary (T d : Thread nD τ) ∗ held (T d) (ucRefs τ sig) (Function.update W v8' A8)) -∗ Φ ⟨⟩))
    ⊢ wp frame (wpE ((K (F := F)).defs (D (F := F))) 𝒱 (T d) none) Set.univ (Prog.lift (.customCall (SparseCore.inner (Pipeline.entry 1)) ())) Φ

/-- The launch valuation of device `d`. -/
def W₀ (m : (ℓ : Loc nD τ sig) → Buf (Elt F) ℓ) (d : Dev nD) : Valuation τ sig (Elt F) := fun b => m (d, b)

/-- What @main leaves: every unscoped buffer whole, at a valuation reached from the launch one. -/
def FIN (m : (ℓ : Loc nD τ sig) → Buf (Elt F) ℓ) (d : Dev nD) : sProp (MM F) :=
  iprop(∃ Wf, ⌜Reach Out0 OutSC Out1 d (W₀ m d) Wf⌝ ∗ held (T d) (ucRefs τ sig) Wf)

theorem G_split (d : Dev nD) : (G (F := F) d : sProp (MM F))
    = iprop((Pipeline.cellsGhost (cfgs' (F := F)) EP 0 d ∗ Pipeline.toksInit (cfgs' (F := F)) EP 0 d)
        ∗ (Pipeline.cellsGhost (cfgs' (F := F)) EP 1 d ∗ Pipeline.toksInit (cfgs' (F := F)) EP 1 d)) := by
  unfold G
  rw [show (Finset.univ : Finset (Fin 2)) = {0, 1} by decide, SparseCore.bigSep_insert' (by decide), bigSep_singleton]

theorem hmain (m : (ℓ : Loc nD τ sig) → Buf (Elt F) ℓ) (ρ : Dev nD → PrngReg)
    (h0 : StepR0 P Out0 κ) (hsc : StepSC P PreSC OutSC κ) (h1 : StepR1 P Out1 κ)
    (hpre : ∀ d f1, Out0 d ((opTab (F := F)).result (W₀ m d)) f1 → PreSC d (Function.update ((opTab (F := F)).result (W₀ m d)) v1' f1))
    (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN Out0 OutSC Out1 m d) := by
  unfold SparseCore.Cfg.tcRes
  rw [show unscopedBufs d (fun b => m ((T d : Thread nD τ).loc b)) = held (T d : Thread nD τ) (ucRefs τ sig) (W₀ m d) from unscopedBufs_held d (W₀ m d), G_split]
  simp only [main, wp_bind, wp_pure]
  iintro ⟨#Hctx, Hst, ⟨Hb, Hheld, -, -⟩, ⟨Hg0, Ht0⟩, ⟨Hg1, Ht1⟩⟩
  -- the table transposed
  iapply (wp_hlo_within 𝒱 (T d) none Set.univ (op := opTab) (S := ucRefs τ sig) (sub_ucRefs _ (StableHlo.unary_bufs_sub ..)) (V := W₀ m d)) $$ [Hb Hheld]
  · isplitl [Hb] <;> iassumption
  iintro ⟨Hb, Hheld⟩
  rw [wp_ret]; imodintro
  -- the repack call
  iapply (h0 d _ _) $$ [Hst Hb Hheld Hg0 Ht0 Hg1 Ht1]
  isplitr; · iexact Hctx
  isplitl [Hst]; · iexact Hst
  isplitl [Hb]; · iexact Hb
  isplitl [Hheld]; · iexact Hheld
  isplitl [Hg0]; · iexact Hg0
  isplitl [Ht0]; · iexact Ht0
  iintro %f1 ⟨%hf1, Hst, Hb, Hheld⟩
  -- the gather on the SparseCores
  iapply (hsc d _ _ (hpre d f1 hf1)) $$ [Hst Hb Hheld Hg1 Ht1]
  isplitr; · iexact Hctx
  isplitl [Hst]; · iexact Hst
  isplitl [Hheld]; · iexact Hheld
  iintro %f2 ⟨%hf2, Hst, Hheld⟩
  -- the selector and the projection matrix
  iapply (wp_hlo_within 𝒱 (T d) none Set.univ (op := opC) (S := ucRefs τ sig) (sub_ucRefs _ (StableHlo.nullary_bufs_sub ..))) $$ [Hb Hheld]
  · isplitl [Hb] <;> iassumption
  iintro ⟨Hb, Hheld⟩
  rw [wp_ret]; imodintro
  iapply (wp_hlo_within 𝒱 (T d) none Set.univ (op := opB) (S := ucRefs τ sig) (sub_ucRefs _ (StableHlo.unary_bufs_sub ..))) $$ [Hb Hheld]
  · isplitl [Hb] <;> iassumption
  iintro ⟨Hb, Hheld⟩
  rw [wp_ret]; imodintro
  iapply (wp_hlo_within 𝒱 (T d) none Set.univ (op := opG) (S := ucRefs τ sig) (sub_ucRefs _ (StableHlo.binary_bufs_sub ..))) $$ [Hb Hheld]
  · isplitl [Hb] <;> iassumption
  iintro ⟨Hb, Hheld⟩
  rw [wp_ret]; imodintro
  iapply (wp_hlo_within 𝒱 (T d) none Set.univ (op := opE) (S := ucRefs τ sig) (sub_ucRefs _ (StableHlo.unary_bufs_sub ..))) $$ [Hb Hheld]
  · isplitl [Hb] <;> iassumption
  iintro ⟨Hb, Hheld⟩
  rw [wp_ret]; imodintro
  iapply (wp_hlo_within 𝒱 (T d) none Set.univ (op := opR) (S := ucRefs τ sig) (sub_ucRefs _ (StableHlo.reshape_bufs_sub ..))) $$ [Hb Hheld]
  · isplitl [Hb] <;> iassumption
  iintro ⟨Hb, Hheld⟩
  rw [wp_ret]; imodintro
  iapply (wp_hlo_within 𝒱 (T d) none Set.univ (op := opW) (S := ucRefs τ sig) (sub_ucRefs _ (StableHlo.unary_bufs_sub ..))) $$ [Hb Hheld]
  · isplitl [Hb] <;> iassumption
  iintro ⟨Hb, Hheld⟩
  rw [wp_ret]; imodintro
  -- the projection call
  iapply (h1 d _ _) $$ [Hst Hb Hheld Hg1 Ht1]
  isplitr; · iexact Hctx
  isplitl [Hst]; · iexact Hst
  isplitl [Hb]; · iexact Hb
  isplitl [Hheld]; · iexact Hheld
  isplitl [Hg1]; · iexact Hg1
  isplitl [Ht1]; · iexact Ht1
  iintro %A8 ⟨%hA8, Hst, Hb, Hheld⟩
  -- its result transposed
  iapply (wp_hlo_within 𝒱 (T d) none Set.univ (op := opOut) (S := ucRefs τ sig) (sub_ucRefs _ (StableHlo.unary_bufs_sub ..))) $$ [Hb Hheld]
  · isplitl [Hb] <;> iassumption
  iintro ⟨Hb, Hheld⟩
  rw [wp_ret]; imodintro; imodintro
  isplitl [Hst]; · iexact Hst
  unfold FIN
  iexists _
  isplitr
  · ipureintro; exact ⟨f1, f2, A8, hf1, hf2, hA8, rfl⟩
  iexact Hheld

end Steps

end Cert.Kernel.Hand

end
-- ==== Proof.K.RegionStep.lean ====
/-
  A TensorCore pallas_call inside the SparseCore program, as one step of @main's proof.

  @main's line for the call is the pipeline's entry label lifted into the SparseCore program's signature. A proof
  about the call under the pipelines' own body table is a proof about the lifted call; the call itself runs by the
  region rule from the region's record: from the boundary, the record's entry thread state, the level facts and
  this pipeline's share of the launch ghost state, to the boundary and the record's exit thread state.
-/
import proofs.«218829_g6193342841233_cont_9to1_m_903_15_alg».proof.Proof.K.LaunchElem

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

-- the rules are stated for an arbitrary thread; at the TensorCore's thread their hypotheses meet the goal only after
-- definitions in their types are unfolded
set_option backward.isDefEq.respectTransparency.types false in
theorem region_step
    (rdats : (p : Fin 2) → (c : Dev nD) → Pipeline.RDat τ (Elt F) (HIx 1) ℕ UU ℕ (cfgs' (F := F) p) c)
    (p : Fin 2)
    (R : Pipeline.RDat.RegionSeg (pcfgs (F := F)) adm rdats (none : HIx 1) (defs₀ (F := F)) 𝒱₀ (K (F := F)).L (K (F := F)).lev p)
    (d : Dev nD) (Φ : PUnit → sProp (MM F)) :
    iprop(levAts (K (F := F)).L (K (F := F)).lev ∗ boundary (T d : Thread nD τ) ∗ R.pre d
        ∗ Pipeline.cellsGhost (cfgs' (F := F)) EP p d ∗ Pipeline.toksInit (cfgs' (F := F)) EP p d
        ∗ (iprop(boundary (T d : Thread nD τ) ∗ R.post d) -∗ Φ ⟨⟩))
      ⊢ wp frame (wpE ((K (F := F)).defs (D (F := F))) 𝒱 (T d) none) Set.univ
          (Prog.lift (.customCall (SparseCore.inner (Pipeline.entry p)) ())) Φ := by
  have hlift := (K (F := F)).wp_liftProg (nD := nD) (Name := ℕ) (U := UU) (D (F := F)) 𝒱 (T d) Set.univ none
    (Prog.op (.customCall (Pipeline.entry p) ()) fun _ => .ret ⟨⟩) Φ
  refine BIBase.Entails.trans ?_ hlift
  iintro ⟨Hlev, Hb, Hpre, Hg, Ht, Hk⟩
  iapply (Pipeline.RDat.RegionSeg.wp (pcfgs (F := F)) adm rdats (none : HIx 1) cells_inj EP (defs₀ (F := F)) 𝒱₀
    (K (F := F)).L (K (F := F)).lev R d none (fun u hu => nomatch hu) (fun _ => .ret ⟨⟩) Φ)
  isplitl [Hk]
  · iintro H
    rw [wp_ret]
    imodintro
    iapply Hk; iexact H
  isplitl [Hb]; · iexact Hb
  isplitl [Hpre]; · iexact Hpre
  isplitl [Hlev]; · iexact Hlev
  isplitl [Hg] <;> iassumption

end Cert.Kernel.Hand

end
-- ==== Proof.K.TcOwes.lean ====
/-
  The TensorCore's debts across a pipeline region.

  Between SparseCore calls the TensorCore owes the start signals of the calls still to come, and every wait it has
  recorded sits at or below the level of the calls already made. A pipeline region in between borrows that state: it
  waits only on its own staging cells, at the index of a kernel's own waits, whose level is zero — so what it hands back
  is again a state between calls.
-/
import proofs.«218829_g6193342841233_cont_9to1_m_903_15_alg».proof.Proof.K.LaunchElem

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The pairs the TensorCore's recorded waits may name before call `n`: those at or below level `8 n`. -/
def RcN (d : Dev nD) (n : ℕ) : Set (SemLoc sig × HIx 1) := {p | (K (F := F)).lev ((T d : Thread nD τ), p.1) p.2 ≤ 8 * n}

/-- The state between calls lends its debts to a region, and takes them back with whatever pairs at the kernels' own
    index the region's waits recorded. -/
theorem tcSt_open (d : Dev nD) (n : ℕ) (WP : Set (SemLoc sig × HIx 1)) (hWP : ∀ p ∈ WP, p.2 = none) :
    ((K (F := F)).tcSt EH d n : sProp (MM F))
      ⊢ iprop(Pipeline.owesWithin d ((K (F := F)).Otc d n) (RcN (F := F) d n)
          ∗ (Pipeline.owesWithin d ((K (F := F)).Otc d n) (RcN (F := F) d n ∪ WP) -∗ (K (F := F)).tcSt EH d n)) := by
  unfold SparseCore.Cfg.tcSt Pipeline.owesWithin
  iintro ⟨⟨%W, %hW, HO⟩, Hrest⟩
  isplitl [HO]
  · iexists W
    isplitr; · ipureintro; exact fun p hp => hW p (Finset.mem_coe.mp hp)
    iexact HO
  iintro ⟨%W', %hW', HO'⟩
  isplitl [HO']
  · iexists W'
    isplitr
    · ipureintro
      intro p hp
      rcases hW' (Finset.mem_coe.mpr hp) with h | h
      · exact h
      · rw [hWP p h, SparseCore.Cfg.lev_none]; exact Nat.zero_le _
    iexact HO'
  iexact Hrest

/-- The start signals still owed are owed at call indices, never at the kernels' own. -/
theorem Otc_none (d : Dev nD) (n : ℕ) (g : GSem nD τ sig) : (K (F := F)).Otc d n g none = 0 := by
  unfold SparseCore.Cfg.Otc
  simp only [tallyAt, tallyOn]
  have hs : ∀ (g' : GSem nD τ sig), (Pi.single g' (Finsupp.single (some (0 : Fin 1)) 1) : CellTallies nD τ sig (HIx 1)) g none = 0 := fun g' => by
    by_cases e : g = g'
    · subst e; rw [Pi.single_eq_same]; exact Finsupp.single_eq_of_ne (by simp)
    · rw [Pi.single_eq_of_ne e]; rfl
  simp [Finset.sum_apply, Finsupp.finset_sum_apply, hs, apply_ite]
  split
  · rw [Pi.add_apply, Finsupp.add_apply, hs, hs]
  · rfl

end Cert.Kernel.Hand

end
-- ==== Proof.K.RegionGlue.lean ====
/-
  A pipeline region's record as a step of @main's proof between SparseCore calls.

  The record's entry thread state is every unscoped buffer whole at the valuation @main has reached, beside the
  TensorCore's debts; its exit state the same with the one array the region writes at contents of which the record's
  relation holds. The debts are the state between calls, lent to the region and taken back (TcOwes); the buffers move
  between the pipeline library's spelling and the host operations' by renaming.
-/
import proofs.«218829_g6193342841233_cont_9to1_m_903_15_alg».proof.Proof.K.Main
import proofs.«218829_g6193342841233_cont_9to1_m_903_15_alg».proof.Proof.K.RegionStep
import proofs.«218829_g6193342841233_cont_9to1_m_903_15_alg».proof.Proof.K.TcOwes

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs unscopedBufs_held)

variable {F : FTy → Type} [FloatOps F] [∀ e, Nonempty (Elt F e)]

/-- Replacing one TensorCore array's contents, in the two spellings of "every unscoped buffer at a valuation". -/
theorem update_coe (d : Dev nD) (W : Valuation τ sig (Elt F)) (r : Ref sig .tc) (A : Buf (Elt F) ((d.tc : Thread nD τ).loc r)) :
    (Function.update (fun b : Ref sig .tc => (W b : Buf (Elt F) ((d.tc : Thread nD τ).loc b))) r A)
      = fun b : Ref sig .tc => (Function.update W (Proc.devRef .tc r) A (Proc.devRef .tc b) : Buf (Elt F) ((d.tc : Thread nD τ).loc b)) := by
  funext b
  by_cases h : b = r
  · subst h; rw [Function.update_self, Function.update_self]
  · rw [Function.update_of_ne h, Function.update_of_ne (fun e => h (Proc.devRef_injective _ e))]

theorem step_of_region (P : (K (F := F)).Pay (nD := nD) (Val := Elt F) (Name := ℕ) (U := UU)) (κ : GSem nD τ sig → ℕ) (n : ℕ) (p : Fin 2)
    (rdats : (p : Fin 2) → (c : Dev nD) → Pipeline.RDat τ (Elt F) (HIx 1) ℕ UU ℕ (cfgs' (F := F) p) c)
    (R : Pipeline.RDat.RegionSeg (pcfgs (F := F)) adm rdats (none : HIx 1) (defs₀ (F := F)) 𝒱₀ (K (F := F)).L (K (F := F)).lev p)
    (d : Dev nD) (W : Valuation τ sig (Elt F)) (r : Ref sig .tc)
    (Rel : Buf (Elt F) ((d.tc : Thread nD τ).loc r) → Prop)
    (WP : Set (SemLoc sig × HIx 1)) (hWP : ∀ x ∈ WP, x.2 = none)
    (hpre : R.pre d = iprop(unscopedBufs d (fun b : Ref sig .tc => (W b : Buf (Elt F) ((d.tc : Thread nD τ).loc b)))
        ∗ Pipeline.owesWithin d ((K (F := F)).Otc d n) (RcN (F := F) d n ∪ WP)))
    (hpost : R.post d = iprop(∃ A, ⌜Rel A⌝ ∗ unscopedBufs d (Function.update (fun b : Ref sig .tc => (W b : Buf (Elt F) ((d.tc : Thread nD τ).loc b))) r A)
        ∗ Pipeline.owesWithin d ((K (F := F)).Otc d n) (RcN (F := F) d n ∪ WP)))
    (Φ : PUnit → sProp (MM F)) :
    iprop((K (F := F)).ctx EH P κ ∗ (K (F := F)).tcSt EH d n ∗ boundary (T d : Thread nD τ) ∗ held (T d) (ucRefs τ sig) W
        ∗ Pipeline.cellsGhost (cfgs' (F := F)) EP p d ∗ Pipeline.toksInit (cfgs' (F := F)) EP p d
        ∗ (∀ A, iprop(⌜Rel A⌝ ∗ (K (F := F)).tcSt EH d n ∗ boundary (T d : Thread nD τ) ∗ held (T d) (ucRefs τ sig) (Function.update W (Proc.devRef .tc r) A)) -∗ Φ ⟨⟩))
      ⊢ wp frame (wpE ((K (F := F)).defs (D (F := F))) 𝒱 (T d) none) Set.univ
          (Prog.lift (.customCall (SparseCore.inner (Pipeline.entry p)) ())) Φ := by
  iintro ⟨#Hctx, Hst, Hb, Hheld, Hg, Ht, Hk⟩
  ihave Hlev := (SparseCore.Cfg.ctx_levAts (K := K (F := F)) κ) $$ Hctx
  ihave Ho := (tcSt_open (F := F) d n WP hWP) $$ Hst
  icases Ho with ⟨Howes, Hback⟩
  iapply (region_step rdats p R d Φ) $$ [Hlev Hb Hheld Hg Ht Hk Howes Hback]
  isplitl [Hlev]; · iexact Hlev
  isplitl [Hb]; · iexact Hb
  isplitl [Hheld Howes]
  · rw [hpre, unscopedBufs_held d W]
    isplitl [Hheld]; · iexact Hheld
    iapply (Pipeline.owesWithin_mono d _ (Set.subset_union_left)); iexact Howes
  isplitl [Hg]; · iexact Hg
  isplitl [Ht]; · iexact Ht
  iintro ⟨Hb, Hpost⟩
  ihave Hp := (Entails.of_eq hpost) $$ Hpost
  icases Hp with ⟨%A, %hA, Hbufs, Howes⟩
  ispecialize Hk $$ %A
  iapply Hk
  isplitr; · ipureintro; exact hA
  isplitl [Hback Howes]; · iapply Hback; iexact Howes
  isplitl [Hb]; · iexact Hb
  have e : (unscopedBufs d (Function.update (fun b : Ref sig .tc => (W b : Buf (Elt F) ((d.tc : Thread nD τ).loc b))) r A) : sProp (MM F))
      = held (T d) (ucRefs τ sig) (Function.update W (Proc.devRef .tc r) A) := by
    rw [update_coe d W r A]; exact unscopedBufs_held d (Function.update W (Proc.devRef .tc r) A)
  ihave Hh := (Entails.of_eq e) $$ Hbufs
  iexact Hh

end Cert.Kernel.Hand

end
-- ==== Proof.K.Region0.lean ====
/-
  REGION 0 of the kernel's @main, the repack call: its proof data and its body's obligation.

  The call reads the transposed table (64 × 100000) through two windows of 64 × 8192 columns — window 0 at column block
  t, window 1 at column block min (t + 7, 12), t = 0‥6 — and writes row block t (8192 rows × 128 columns) of the paired
  table: row l of that block holds column 8192·t + l of the transposed table in its first 64 entries and column
  8192·(t + 7) + l in its last 64. Each half is produced on the matrix unit as (block)ᵀ · I, I the 64 × 64 identity.
  Column block 12 overhangs the table (100000 = 12·8192 + 1696): at the last two points window 1's buffer holds, past
  its column 1696, words nothing names, and the second product carries them into the output block. So the proof data
  CONSTRAINS what the body leaves in the output's buffer — the pair of products of two buffers that hold the table's
  blocks wherever a fetch filled them — rather than naming it. Everything here is generic in the float instance; what
  the products are at real-number arithmetic is read off in a separate module.
-/
import proofs.«218829_g6193342841233_cont_9to1_m_903_15_alg».proof.Proof.K.Setup
import Idealize.ShloMosaic.Lib.Pipeline.FrameBody

noncomputable section

namespace Cert.Kernel.Hand

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The body on three whole buffers -/

/-- The rectangle both loads of an input block read: all of it. -/
abbrev rIn : Rect S64x8192 := Rect.unit (s := S64x8192) ![0, 0] S64x8192.size inb_S64x8192_S64x8192_0_0

/-- What the body leaves in the output block, from what its two input buffers read (`lo` window 0's, `hi` window
    1's): the first product stored in columns 0‥63, the second in columns 64‥127. The two stores tile the block, so
    nothing of what the buffer held before remains. -/
def out2 (lo hi : S64x8192.Idx → Elt F .f32) : S8192x128.Idx → Elt F .f32 :=
  View.canon [⟨Rect.unit (s := S8192x128) ![0, 64] S8192x64.size inb_S8192x128_S8192x64_0_64, k0_pay3 (View.ld hi rIn)⟩,
    ⟨Rect.unit (s := S8192x128) ![0, 0] S8192x64.size inb_S8192x128_S8192x64_0_0, k0_pay2 (View.ld lo rIn)⟩]

/-- The body, on any three whole buffers: two loads and a store per half; the inputs are handed back as found, the
    output at `out2` of what they read. -/
theorem sound_body0 (c : Dev nD) (i : grid0.Coords)
    (M0 : Memref sig .tc .vmem S64x8192 .f32) (h0 : M0.IsWhole) (M1 : Memref sig .tc .vmem S64x8192 .f32) (h1 : M1.IsWhole)
    (M2 : Memref sig .tc .vmem S8192x128 .f32) (h2 : M2.IsWhole)
    (Y0 Y1 : S64x8192.Idx → Elt F .f32) (Y2 : S8192x128.Idx → Elt F .f32) (E : Set ℕ) (Q : PUnit → sProp 𝕄) :
    iprop(owns (c : Thread nD τ) M0 fullShare Y0 ∗ owns (c : Thread nD τ) M1 fullShare Y1 ∗ owns (c : Thread nD τ) M2 fullShare Y2
        ∗ (iprop(owns (c : Thread nD τ) M0 fullShare Y0 ∗ owns (c : Thread nD τ) M1 fullShare Y1
            ∗ owns (c : Thread nD τ) M2 fullShare (out2 Y0 Y1)) -∗ Q ⟨⟩))
      ⊢ wp frame (wpE (defs₀ (F := F)) 𝒱₀ c none) E (cc0__repack_body i M0 h0 M1 h1 M2 h2) Q := by
  unfold owns
  rw [h0.set_eq_univ, h1.set_eq_univ, h2.set_eq_univ]
  iintro ⟨⟨%f0, %hf0, H0⟩, ⟨%f1, %hf1, H1⟩, ⟨%f2, %hf2, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr; swap; (· iexact H2)
  ipureintro
  exact View.read_writes_junk_eq_canon _ _

/-! ## The proof data -/

variable (O : Dev nD → CellTallies nD τ sig (HIx 1)) (Rc : Dev nD → Set (SemLoc sig × HIx 1))
variable (V : (c : Dev nD) → (b : Ref sig .tc) → Buf (Elt F) ((c : Thread nD τ).loc b))

/-- What a fetch of window 0 at point `t` leaves in a buffer that held `d`: column block `t` of the transposed table
    (whole: blocks 0‥6 lie inside it); -/
def fet0 (c : Dev nD) (t : Fin cfg0.N) (d : S64x8192.Idx → Elt F .f32) : S64x8192.Idx → Elt F .f32 :=
  win0_0.fill (grid0.coords t) d ((win0_0.blk t).view.read (Elt F) (V c main_v0))
/-- of window 1: column block min (t + 7, 12), on the columns inside the table; `d` past its end. -/
def fet1 (c : Dev nD) (t : Fin cfg0.N) (d : S64x8192.Idx → Elt F .f32) : S64x8192.Idx → Elt F .f32 :=
  win0_1.fill (grid0.coords t) d ((win0_1.blk t).view.read (Elt F) (V c main_v0))

/-- The repack pipeline's proof data on device `c`, entered with the TensorCore's buffers at `V c`: the transposed
    table behind both input windows (half its share each), the paired table behind the output; the inputs' buffers
    come back as found; the output's buffer comes back at the pair of products of two buffers a fetch may have
    left; the invariant is the scoped buffers the pipeline does not stage; the core owes `O c` throughout, its
    recorded waits within `Rc c`. -/
def rdat0 (c : Dev nD) : Pipeline.RDat τ (Elt F) (HIx 1) ℕ UU ℕ cfg0 c where
  A w := V c (Pipeline.arrRef spec0 w)
  after w t Y X := match w with
    | ⟨0, _⟩ => X = Y
    | ⟨1, _⟩ => X = Y
    | ⟨2, _⟩ => ∃ d0 d1, X = out2 (fet0 V c t d0) (fet1 V c t d1)
  Φ _ := Pipeline.scopedRest (Ix := HIx 1) (Name := ℕ) (U := UU) (Lvl := ℕ) (Val := Elt F) spec0 c
  q w := match w with
    | ⟨0, _⟩ => fullShare.left
    | ⟨1, _⟩ => fullShare.right
    | ⟨2, _⟩ => fullShare
  owed _ := O c
  recorded _ := Rc c

/-- The same data at the type the pipelines' family is stated at: the pinned configuration is `cfg0` by unfolding. -/
example (c : Dev nD) : Pipeline.RDat τ (Elt F) (HIx 1) ℕ UU ℕ (Pipeline.pin (pcfgs (F := F)) adm 0) c := rdat0 O Rc V c

/-- An input window's cuts are a function of its block index. -/
theorem clip0_0 (t t' : Fin cfg0.N) (h : (cfg0.win 0).index t = (cfg0.win 0).index t') :
    (cfg0.win 0).clip (cfg0.grid.coords t) = (cfg0.win 0).clip (cfg0.grid.coords t') := by
  funext a
  show Pipeline.Clip.of ((cfg0.win 0).index t a) _ _ = Pipeline.Clip.of ((cfg0.win 0).index t' a) _ _
  rw [h]
theorem clip0_1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]

/-- Whatever the body finds in window 0's buffer is a fetched block; -/
theorem finds0 (c : Dev nD) (t : Fin cfg0.N) (Y) (h : (rdat0 O Rc V c).Finds 0 t Y) : ∃ d, Y = fet0 V c t d :=
  (rdat0 O Rc V c).finds_in_eq_fetched 0 rfl clip0_0 (fun _ _ _ h => h) t Y h
/-- in window 1's likewise (at the last point it is not fetched: its block index did not move, and the body left
    the buffer as found). -/
theorem finds1 (c : Dev nD) (t : Fin cfg0.N) (Y) (h : (rdat0 O Rc V c).Finds 1 t Y) : ∃ d, Y = fet1 V c t d :=
  (rdat0 O Rc V c).finds_in_eq_fetched 1 rfl clip0_1 (fun _ _ _ h => h) t Y h

/-! ## The body obligation -/

/-- At every point, from the invariant, what the core owes and the three current buffers at anything they may hold,
    the body runs to the same with the output's buffer in the relation. -/
theorem body0 (c : Dev nD) : (rdat0 O Rc V c).BodyObligation (defs₀ (F := F)) 𝒱₀ (none : HIx 1) Set.univ := fun t Y hY => by
  obtain ⟨d0, e0⟩ := finds0 O Rc V c t (Y 0) (hY 0)
  obtain ⟨d1, e1⟩ := finds1 O Rc V c t (Y 1) (hY 1)
  rw [bigSep_W0, bigSep_W0,
    show (rdat0 O Rc V c).Φ t.succ = (rdat0 O Rc V c).Φ t.castSucc from rfl,
    show (rdat0 O Rc V c).owesAt none t.succ = (rdat0 O Rc V c).owesAt none t.castSucc from rfl]
  iintro ⟨HΦ, HO, H0, H1, H2⟩
  iapply (sound_body0 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Y 0) (Y 1) (Y 2) Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists Y 0; isplitr; · ipureintro; rfl
    iexact H0
  isplitl [H1]
  · iexists Y 1; isplitr; · ipureintro; rfl
    iexact H1
  iexists out2 (Y 0) (Y 1); isplitr; swap; (· iexact H2)
  ipureintro
  exact ⟨d0, d1, by rw [e0, e1]⟩

end Cert.Kernel.Hand

end
-- ==== Proof.K.Region0Seg.lean ====
/-
  REGION 0 of the kernel's @main as a segment between two thread states of the TensorCore.

  Before the region the TensorCore holds every unscoped buffer whole; the region takes out the two arrays its windows
  name — the transposed table, which BOTH input windows read (so each holds half of its share), and the paired table,
  which the output window writes — runs the pipeline, and puts them back: the transposed table as it was, the paired
  table at some contents the seven write-backs may have left. What the core owes the SparseCores rides through
  unchanged; the pipeline's own waits sit at an index the core owes nothing at.
-/
import proofs.«218829_g6193342841233_cont_9to1_m_903_15_alg».proof.Proof.K.Region0

noncomputable section

namespace Cert.Kernel.Hand

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (O : Dev nD → CellTallies nD τ sig (HIx 1)) (Rc : Dev nD → Set (SemLoc sig × HIx 1))
variable (V : (c : Dev nD) → (b : Ref sig .tc) → Buf (Elt F) ((c : Thread nD τ).loc b))

/-- A whole buffer at share `q`, written `pt`. -/
abbrev pt (c : Dev nD) (b : Ref sig .tc) (q : PosShare TreeShare) (f : Buf (Elt F) ((c : Thread nD τ).loc b)) : sProp 𝕄 :=
  ((c : Thread nD τ).loc b) ↦{q} f

/-- The whole share of the transposed table is the two halves the input windows hold. -/
theorem v0_halves (c : Dev nD) (f : Buf (Elt F) ((c : Thread nD τ).loc main_v0)) :
    (pt c main_v0 fullShare f : sProp 𝕄) ⊣⊢ iprop(pt c main_v0 fullShare.left f ∗ pt c main_v0 fullShare.right f) :=
  pointsTo_share (PosShare.mem_left_op_right fullShare)

/-- The buffers behind the three windows are two: the transposed table and the paired table. -/
theorem arrBufs0_eq (c : Dev nD) (W : (b : Ref sig .tc) → Buf (Elt F) ((c : Thread nD τ).loc b)) :
    (Pipeline.arrBufs (Ix := HIx 1) (Name := ℕ) (U := UU) (Lvl := ℕ) spec0 c W : sProp 𝕄)
      = iprop(pt c main_v0 fullShare (W main_v0) ∗ pt c main_v1 fullShare (W main_v1)) := by
  unfold Pipeline.arrBufs
  rw [bigSep_eq_bigSepL_of_eq [main_v0, main_v1] (by decide) (by decide)]
  rfl

/-- The pipeline's arrays, window by window. -/
theorem arrays0_eq (c : Dev nD) (Fa : (w : Fin cfg0.W) → Buf (Elt F) ((cfg0.win w).arr.view.loc (c : Thread nD τ))) :
    ((rdat0 O Rc V c).arrays Fa : sProp 𝕄)
      = iprop(pt c main_v0 fullShare.left (Fa 0) ∗ pt c main_v0 fullShare.right (Fa 1) ∗ pt c main_v1 fullShare (Fa 2)) := by
  unfold Pipeline.RDat.arrays
  rw [bigSep_W0]
  simp only [Memref.view_whole, View.set_whole]
  rfl

/-- The pipeline's arrays after the write-backs below point `n`, window by window. -/
theorem arraysAt0_eq (c : Dev nD) (n : Nat) :
    ((rdat0 O Rc V c).arraysAt n : sProp 𝕄)
      = iprop((∃ Fa, ⌜(rdat0 O Rc V c).ArrAt 0 n Fa⌝ ∗ pt c main_v0 fullShare.left Fa)
          ∗ (∃ Fa, ⌜(rdat0 O Rc V c).ArrAt 1 n Fa⌝ ∗ pt c main_v0 fullShare.right Fa)
          ∗ (∃ Fa, ⌜(rdat0 O Rc V c).ArrAt 2 n Fa⌝ ∗ pt c main_v1 fullShare Fa)) := by
  unfold Pipeline.RDat.arraysAt
  rw [bigSep_W0]
  simp only [Memref.view_whole, View.set_whole]
  rfl

/-- What the paired table may hold once every write-back of the region has landed: its contents at entry, each row
    block overwritten, in point order, by what the body may have left in the output's buffer at that point. -/
def Out0 (c : Dev nD) (f : Buf (Elt F) ((c : Thread nD τ).loc main_v1)) : Prop := (rdat0 O Rc V c).ArrAt 2 cfg0.N f

/-- The TensorCore's unscoped buffers are the two arrays' and the rest. -/
theorem unscoped_split0 (c : Dev nD) (W : (b : Ref sig .tc) → Buf (Elt F) ((c : Thread nD τ).loc b)) :
    (unscopedBufs c W : sProp 𝕄)
      = iprop((pt c main_v0 fullShare (W main_v0) ∗ pt c main_v1 fullShare (W main_v1))
          ∗ Pipeline.unscopedRest (Ix := HIx 1) (Name := ℕ) (U := UU) (Lvl := ℕ) spec0 c W) := by
  rw [← arrBufs0_eq]
  exact Pipeline.unscopedBufs_split₀ cfgs 0 winFacts₀0.arr_unscoped c W

/-- The rest does not read the paired table. -/
theorem unscopedRest0_update (c : Dev nD) (f : Buf (Elt F) ((c : Thread nD τ).loc main_v1)) :
    (Pipeline.unscopedRest (Ix := HIx 1) (Name := ℕ) (U := UU) (Lvl := ℕ) spec0 c (Function.update (V c) main_v1 f) : sProp 𝕄)
      = Pipeline.unscopedRest (Ix := HIx 1) (Name := ℕ) (U := UU) (Lvl := ℕ) spec0 c (V c) := by
  unfold Pipeline.unscopedRest
  exact bigSep_congr fun b hb => by
    have hne : b ≠ main_v1 := fun h => (Finset.mem_sdiff.mp hb).2 (h ▸ Finset.mem_image.mpr ⟨2, Finset.mem_univ _, rfl⟩)
    rw [Function.update_of_ne hne]

/-- REGION 0 over the thread state "every unscoped buffer of the TensorCore at `V c`, and what the core owes": entered
    by taking the two arrays out of the unscoped buffers, the transposed table halved between the two input windows;
    left with them put back, the paired table at some contents the write-backs may have left (`Out0`). Nothing
    enters the invariant but the scoped buffers the pipeline does not stage; the kernel has no semaphore of its own;
    the waits of the staging cells sit at the index the core owes nothing at (`hO`). -/
def region0 (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) :
    Pipeline.RDat.RegionSeg (pcfgs (F := F)) adm rdats (none : HIx 1) (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := by rw [h0 c]; exact body0 O Rc V c
  hwaits c := Pipeline.RDat.cellsWaits_intro _ _ _ _ c (R := levAts (K (F := F)).L (K (F := F)).lev) fun w s t => by
    rw [h0 c]; exact (K (F := F)).mayWait_none _ (hO c)
  pre c := iprop(unscopedBufs c (V c) ∗ (rdat0 O Rc V c).owesAt none 0)
  post c := iprop(∃ A : Buf (Elt F) ((c : Thread nD τ).loc main_v1),
    ⌜Out0 O Rc V c A⌝ ∗ unscopedBufs c (Function.update (V c) main_v1 A) ∗ (rdat0 O Rc V c).owesAt none (Fin.last _))
  X _ := BI.emp
  Y _ := BI.emp
  Z c := Pipeline.unscopedRest (Ix := HIx 1) (Name := ℕ) (U := UU) (Lvl := ℕ) spec0 c (V c)
  hentry c := by
    rw [Pipeline.ownSems0_none, h0 c, arrays0_eq, unscoped_split0]
    iintro ⟨⟨⟨⟨H0, H1⟩, Hrest⟩, HO⟩, -, -⟩
    ihave H0' := (v0_halves c (V c main_v0)).1 $$ H0
    icases H0' with ⟨H0l, H0r⟩
    imodintro
    isplitl [H0l H0r H1]
    · isplitl [H0l]; · iexact H0l
      isplitl [H0r]; · iexact H0r
      iexact H1
    isplitr
    · unfold Pipeline.prefHeld; rw [show (Finset.univ : Finset (Fin 0)) = ∅ from rfl, BI.bigSep_empty]; iempintro
    isplitl [HO]; · iexact HO
    isplitr; · iempintro
    iexact Hrest
  hin c := by
    rw [h0 c]
    show iprop(_ ∗ _ ∗ Pipeline.scopedRest spec0 c) ⊢ (Pipeline.scopedRest spec0 c : sProp 𝕄)
    iintro ⟨-, -, Hr⟩; iexact Hr
  hout c := by
    rw [Pipeline.ownSems0_none, h0 c]
    show (Pipeline.scopedRest spec0 c : sProp 𝕄) ⊢ iprop(_ ∗ _ ∗ Pipeline.scopedRest spec0 c)
    iintro Hr
    isplitr; · iempintro
    isplitr; · iempintro
    iexact Hr
  hexit c := by
    rw [h0 c, arraysAt0_eq]
    iintro ⟨⟨⟨%F0, %hF0, H0⟩, ⟨%F1, %hF1, H1⟩, ⟨%F2, %hF2, H2⟩⟩, HO, -, Hrest⟩
    have e0 : F0 = V c main_v0 := by rw [(rdat0 O Rc V c).ArrAt_in 0 rfl] at hF0; exact hF0
    have e1 : F1 = V c main_v0 := by rw [(rdat0 O Rc V c).ArrAt_in 1 rfl] at hF1; exact hF1
    subst e0 e1
    imodintro
    iexists F2
    isplitr
    · ipureintro; exact hF2
    isplitr [HO]; swap; · iexact HO
    rw [unscoped_split0, unscopedRest0_update, Function.update_self, Function.update_of_ne (show main_v0 ≠ main_v1 by decide)]
    isplitr [Hrest]; swap; · iexact Hrest
    isplitl [H0 H1]
    · iapply (v0_halves c (V c main_v0)).2
      isplitl [H0]; · iexact H0
      iexact H1
    iexact H2

/-- The thread states, with what the core owes spelt out: the tallies `O c`, the recorded waits within `Rc c` and the
    staging cells' own pairs. -/
theorem region0_pre (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) (c : Dev nD) :
    (region0 O Rc V rdats h0 hO).pre c
      = iprop(unscopedBufs c (V c) ∗ Pipeline.owesWithin c (O c) (Rc c ∪ cfg0.waitPairs (none : HIx 1))) := rfl
theorem region0_post (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) (c : Dev nD) :
    (region0 O Rc V rdats h0 hO).post c
      = iprop(∃ A : Buf (Elt F) ((c : Thread nD τ).loc main_v1), ⌜Out0 O Rc V c A⌝ ∗ unscopedBufs c (Function.update (V c) main_v1 A)
          ∗ Pipeline.owesWithin c (O c) (Rc c ∪ cfg0.waitPairs (none : HIx 1))) := rfl

end Cert.Kernel.Hand

end
-- ==== Proof.K.Region1Data.lean ====
import proofs.«218829_g6193342841233_cont_9to1_m_903_15_alg».proof.Proof.K.Setup
import Idealize.ShloMosaic.Lib.Pipeline.FrameBody

noncomputable section

namespace Cert.Kernel.Hand

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

/-! ## The projection region's proof data

The projection multiplies, block of columns by block of columns, the transposed weights with the rows the gather
left: the result's row `v` is the contraction of column `v` of the transposed weights with each selected half-row.
The last block of columns overhangs the array: what the staging buffer holds past the array's end is nothing the
program determines, and the contraction is stated of the buffer's whole contents. So the data below does not NAME
what the result's staging buffer holds after the body; it says that it is the product computed from the three
input buffers as fetched, each filled out past the array's end by SOME contents. -/

section Data

variable (c : Dev nD) (V : (b : Ref sig .tc) → Buf (Elt F) ((c.tc : Thread nD τ).loc b))

/-- The gathered pairs' staging buffer once the fetch at point `t` has landed in a buffer that held `d`. -/
def fetP0 (t : Fin cfg2.N) (d : S1024x128.Idx → Elt F .f32) : S1024x128.Idx → Elt F .f32 :=
  win2_0.fill (grid2.coords t) d ((win2_0.blk t).view.read (Elt F) (V main_v2))
/-- The half selectors' likewise. -/
def fetP1 (t : Fin cfg2.N) (d : S1024x1.Idx → Elt F .i32) : S1024x1.Idx → Elt F .i32 :=
  win2_1.fill (grid2.coords t) d ((win2_1.blk t).view.read (Elt F) (V main_v6))
/-- The transposed weights' block of columns at point `t`: its part inside the array, `d` past the array's end. -/
def fetP2 (t : Fin cfg2.N) (d : S64x4096.Idx → Elt F .f32) : S64x4096.Idx → Elt F .f32 :=
  win2_2.fill (grid2.coords t) d ((win2_2.blk t).view.read (Elt F) (V main_v7))

variable (O : CellTallies nD τ sig (HIx 1)) (Rc : Set (SemLoc sig × HIx 1))

/-- The proof data of the projection on device `c`'s TensorCore, from the contents `V` of its unscoped buffers at
    entry: the body leaves its three inputs' staging buffers as it found them, and the result's at the product of
    the three as fetched; its invariant is the scoped buffers it does not touch; what the core owes (`O`) and has
    recorded (`Rc`) does not change. -/
def rdat1 : RDat τ (Elt F) (HIx 1) ℕ UU ℕ cfg2 c where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ d0 d1 d2, X = k2_pay1 (fetP0 c V t d0) (fetP1 c V t d1) (fetP2 c V t d2)
  Φ _ := Pipeline.scopedRest spec2 c
  q _ := fullShare
  owed _ := O
  recorded _ := Rc

end Data

end Cert.Kernel.Hand

end
-- ==== Proof.K.Region1Body.lean ====
import proofs.«218829_g6193342841233_cont_9to1_m_903_15_alg».proof.Proof.K.Setup
import proofs.«218829_g6193342841233_cont_9to1_m_903_15_alg».proof.Proof.K.Region1Data
import Idealize.ShloMosaic.Lib.Pipeline.FrameBody

noncomputable section

namespace Cert.Kernel.Hand

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]
local notation "𝕄" => MT nD τ sig (HIx 1) (Elt F) ℕ UU ℕ

/-! ## The projection's body on its four staging buffers -/

/-- The body on staging buffers `s0`, `s1` of the pairs' and selectors' windows (each has one), `s2` of the
    transposed weights' and `s3` of the result's (two each, by the point): three whole loads, the dead load of the
    result's buffer, the whole store of the product — the result's buffer ends holding the product computed from
    what the other three hold, those unchanged. -/
theorem sound_body (c : Dev nD) (E : Set ℕ) (i : grid2.Coords) (s0 : Fin 1) (s1 : Fin 1) (s2 : Fin 2) (s3 : Fin 2)
    (X0 : S1024x128.Idx → Elt F .f32) (X1 : S1024x1.Idx → Elt F .i32) (X2 : S64x4096.Idx → Elt F .f32)
    (X3 : S4096x1024.Idx → Elt F .f32) (K : PUnit → sProp 𝕄) :
    iprop((owns (c : Thread nD τ) (stage2_0 s0) fullShare X0 ∗ owns (c : Thread nD τ) (stage2_1 s1) fullShare X1
            ∗ owns (c : Thread nD τ) (stage2_2 s2) fullShare X2 ∗ owns (c : Thread nD τ) (stage2_3 s3) fullShare X3)
          ∗ (iprop(owns (c : Thread nD τ) (stage2_0 s0) fullShare X0 ∗ owns (c : Thread nD τ) (stage2_1 s1) fullShare X1
                  ∗ owns (c : Thread nD τ) (stage2_2 s2) fullShare X2
                  ∗ owns (c : Thread nD τ) (stage2_3 s3) fullShare (k2_pay1 X0 X1 X2)) -∗ K ⟨⟩))
      ⊢ wp frame (wpE (defs₀ (F := F)) 𝒱₀ c none) E
          (cc2__matmul_body i (stage2_0 s0) (hstage2_0 s0) (stage2_1 s1) (hstage2_1 s1) (stage2_2 s2) (hstage2_2 s2)
            (stage2_3 s3) (hstage2_3 s3)) K := by
  have hz : (![0, 0] : Fin 2 → Nat) = fun _ => 0 := funext fun a => by fin_cases a <;> rfl
  -- the accesses are at offsets zero and the buffers' own sizes: a load reads the contents, the unmasked store
  -- writes the payload, at whichever of its window's buffers each memref is
  have hr00 : ∀ f, (Memref.whole cc2_stg0_0 : Memref sig .tc _ _ _).view.readAt (Elt F) (Rect.unit (s := S1024x128) ![0, 0]
      S1024x128.size inb_S1024x128_S1024x128_0_0).toLoadRect f = f := Memref.readAt_unit_zero (Elt F) cc2_stg0_0 hz _
  have hr10 : ∀ f, (Memref.whole cc2_stg1_0 : Memref sig .tc _ _ _).view.readAt (Elt F) (Rect.unit (s := S1024x1) ![0, 0]
      S1024x1.size inb_S1024x1_S1024x1_0_0).toLoadRect f = f := Memref.readAt_unit_zero (Elt F) cc2_stg1_0 hz _
  have hr20 : ∀ f, (Memref.whole cc2_stg2_0 : Memref sig .tc _ _ _).view.readAt (Elt F) (Rect.unit (s := S64x4096) ![0, 0]
      S64x4096.size inb_S64x4096_S64x4096_0_0).toLoadRect f = f := Memref.readAt_unit_zero (Elt F) cc2_stg2_0 hz _
  have hr21 : ∀ f, (Memref.whole cc2_stg2_1 : Memref sig .tc _ _ _).view.readAt (Elt F) (Rect.unit (s := S64x4096) ![0, 0]
      S64x4096.size inb_S64x4096_S64x4096_0_0).toLoadRect f = f := Memref.readAt_unit_zero (Elt F) cc2_stg2_1 hz _
  have hw30 : ∀ f w, (((Memref.whole cc2_stg3_0).access (Rect.unit (s := S4096x1024) ![0, 0] S4096x1024.size
      inb_S4096x1024_S4096x1024_0_0)) : View sig .tc _ _ _).write (Elt F) f w Finset.univ = w :=
    Memref.write_access_unit_zero_univ (Elt F) cc2_stg3_0 hz _
  have hw31 : ∀ f w, (((Memref.whole cc2_stg3_1).access (Rect.unit (s := S4096x1024) ![0, 0] S4096x1024.size
      inb_S4096x1024_S4096x1024_0_0)) : View sig .tc _ _ _).write (Elt F) f w Finset.univ = w :=
    Memref.write_access_unit_zero_univ (Elt F) cc2_stg3_1 hz _
  fin_cases s0 <;> fin_cases s1 <;> fin_cases s2 <;> fin_cases s3 <;>
  · simp only [owns_whole_eq, cc2__matmul_body_eq_skeleton]; unfold cc2__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    subst hf0 hf1 hf2 hf3
    sl_steps
    iapply Hk
    simp only [hr00, hr10, hr20, hr21, hw30, hw31]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    · iexists k2_pay1 f0 f1 f2; isplitr; · ipureintro; rfl
      iexact H3

/-! ## What the body finds in its input buffers -/

section Finds

variable (c : Dev nD) (V : (b : Ref sig .tc) → Buf (Elt F) ((c.tc : Thread nD τ).loc b))
  (O : CellTallies nD τ sig (HIx 1)) (Rc : Set (SemLoc sig × HIx 1))

/-- The pairs' buffer, fetched at the first point only and left as found by every body, holds at every point what
    that fetch put there. -/
theorem findsP0 (t : Fin cfg2.N) (Y : S1024x128.Idx → Elt F .f32) (h : (rdat1 c V O Rc).Finds (0 : Fin 4) t Y) :
    ∃ d, Y = fetP0 c V t d :=
  RDat.finds_in_eq_fetched (rdat1 c V O Rc) (0 : Fin 4) rfl (fun _ _ _ => rfl) (fun _ _ _ h => h) t Y h

/-- The selectors' likewise. -/
theorem findsP1 (t : Fin cfg2.N) (Y : S1024x1.Idx → Elt F .i32) (h : (rdat1 c V O Rc).Finds (1 : Fin 4) t Y) :
    ∃ d, Y = fetP1 c V t d :=
  RDat.finds_in_eq_fetched (rdat1 c V O Rc) (1 : Fin 4) rfl (fun _ _ _ => rfl) (fun _ _ _ h => h) t Y h

/-- The transposed weights' buffer holds the block of columns just fetched: its part inside the array, and past the
    array's end contents nothing names. -/
theorem findsP2 (t : Fin cfg2.N) (Y : S64x4096.Idx → Elt F .f32) (h : (rdat1 c V O Rc).Finds (2 : Fin 4) t Y) :
    ∃ d, Y = fetP2 c V t d :=
  RDat.finds_in_eq_fetched (rdat1 c V O Rc) (2 : Fin 4) rfl
    (fun t t' h => by
      funext a
      show Pipeline.Clip.of (cc2_transform_2 (grid2.coords t) a) _ _ = Pipeline.Clip.of (cc2_transform_2 (grid2.coords t') a) _ _
      rw [show cc2_transform_2 (grid2.coords t) = cc2_transform_2 (grid2.coords t') from h])
    (fun _ _ _ h => h) t Y h

end Finds

/-! ## The body obligation -/

/-- At every point the body, handed the three input buffers as the fetches left them and the result's buffer at
    anything, leaves the inputs' as found and the result's at the product of the three. The invariant (the scoped
    buffers the body does not name) and what the core owes ride along untouched. -/
theorem body1 (c : Dev nD) (V : (b : Ref sig .tc) → Buf (Elt F) ((c.tc : Thread nD τ).loc b))
    (O : CellTallies nD τ sig (HIx 1)) (Rc : Set (SemLoc sig × HIx 1)) :
    (rdat1 c V O Rc).BodyObligation (defs₀ (F := F)) 𝒱₀ (none : HIx 1) Set.univ := fun t Y hY => by
  obtain ⟨d0, h0⟩ := findsP0 c V O Rc t (Y 0) (hY 0)
  obtain ⟨d1, h1⟩ := findsP1 c V O Rc t (Y 1) (hY 1)
  obtain ⟨d2, h2⟩ := findsP2 c V O Rc t (Y 2) (hY 2)
  rw [bigSep_W2, bigSep_W2]
  rw [show (rdat1 c V O Rc).Φ t.succ = (rdat1 c V O Rc).Φ t.castSucc from rfl,
    show (rdat1 c V O Rc).owesAt (none : HIx 1) t.succ = (rdat1 c V O Rc).owesAt (none : HIx 1) t.castSucc from rfl]
  iintro ⟨HΦ, Ho, H0, H1, H2, H3⟩
  iapply (sound_body (F := F) c Set.univ (grid2.coords t) (cfg2.slots t 0) (cfg2.slots t 1) (cfg2.slots t 2) (cfg2.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  · iexists k2_pay1 (Y 0) (Y 1) (Y 2); isplitr
    · ipureintro; exact ⟨d0, d1, d2, by rw [h0, h1, h2]⟩
    iexact H3
end Cert.Kernel.Hand

end
-- ==== Proof.K.Region1Seg.lean ====
import proofs.«218829_g6193342841233_cont_9to1_m_903_15_alg».proof.Proof.K.Setup
import proofs.«218829_g6193342841233_cont_9to1_m_903_15_alg».proof.Proof.K.Region1Body

noncomputable section

namespace Cert.Kernel.Hand

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-! ## The projection region as a segment of the TensorCore's program

The region is entered holding every unscoped buffer of the TensorCore whole, at contents `V`, and the core's debts;
it leaves them so, the result array apart, which holds contents the proof data allow after the last write-back. -/

theorem bigSep_noTables1 {M : Type} [URA M] (Φ : Fin 0 → sProp M) : bigSep Finset.univ Φ = (BI.emp : sProp M) :=
  bigSep_univ_eq_bigSepL [] (by decide) (by decide) Φ

/-- The projection has no prefetched table. -/
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_noTables1 _

/-- The TensorCore's unscoped buffers with the result array's contents replaced, put back together from the
    projection's four arrays and the buffers it does not window. -/
theorem unscopedBufs_upd (c : Dev nD) (V : (b : Ref sig .tc) → Buf (Elt F) ((c.tc : Thread nD τ).loc b))
    (A8 : Buf (Elt F) ((c.tc : Thread nD τ).loc main_v8)) :
    iprop(((((c.tc : Thread nD τ).loc main_v2) ↦{fullShare} V main_v2) ∗ (((c.tc : Thread nD τ).loc main_v6) ↦{fullShare} V main_v6)
        ∗ (((c.tc : Thread nD τ).loc main_v7) ↦{fullShare} V main_v7) ∗ (((c.tc : Thread nD τ).loc main_v8) ↦{fullShare} A8))
      ∗ Pipeline.unscopedRest spec2 c V)
      ⊢ (unscopedBufs c (Function.update V main_v8 A8) : sProp 𝕄) := by
  have e : ∀ b, b ≠ main_v8 → Function.update V main_v8 A8 b = V b := fun b hb => Function.update_of_ne hb _ _
  rw [Pipeline.unscopedBufs_split cfgs (1 : Fin 2) winFacts2.arr_unscoped winFacts2.arr_inj c (Function.update V main_v8 A8)]
  change _ ⊢ iprop((bigSep Finset.univ fun w : Fin 4 => (((c.tc : Thread nD τ).loc (Pipeline.arrRef spec2 w))
      ↦{fullShare} Function.update V main_v8 A8 (Pipeline.arrRef spec2 w) : sProp 𝕄)) ∗ Pipeline.unscopedRest spec2 c (Function.update V main_v8 A8))
  rw [bigSep_W2, unscopedRest2_eq, unscopedRest2_eq]
  change _ ⊢ iprop(((((c.tc : Thread nD τ).loc main_v2) ↦{fullShare} Function.update V main_v8 A8 main_v2)
      ∗ (((c.tc : Thread nD τ).loc main_v6) ↦{fullShare} Function.update V main_v8 A8 main_v6)
      ∗ (((c.tc : Thread nD τ).loc main_v7) ↦{fullShare} Function.update V main_v8 A8 main_v7)
      ∗ (((c.tc : Thread nD τ).loc main_v8) ↦{fullShare} Function.update V main_v8 A8 main_v8)) ∗ _)
  rw [e main_v2 (by decide), e main_v6 (by decide), e main_v7 (by decide), Function.update_self,
    e main_arg0 (by decide), e main_arg1 (by decide), e main_arg2 (by decide), e main_v0 (by decide), e main_v1 (by decide),
    e main_c (by decide), e main_v3 (by decide), e main_v4 (by decide), e main_v5 (by decide), e main_v9 (by decide)]

section Seg

variable (rdats : (p : Fin 2) → (c : Dev nD) → RDat τ (Elt F) (HIx 1) ℕ UU ℕ (Pipeline.pin (pcfgs (F := F)) adm p) c)
  (V : (c : Dev nD) → (b : Ref sig .tc) → Buf (Elt F) ((c.tc : Thread nD τ).loc b))
  (O : Dev nD → CellTallies nD τ sig (HIx 1)) (Rc : Dev nD → Set (SemLoc sig × HIx 1))

/-- The thread state the projection is entered from: the unscoped buffers at `V`, and what the core owes. -/
def pre1 (c : Dev nD) : sProp 𝕄 :=
  iprop(unscopedBufs c (V c) ∗ (rdat1 c (V c) (O c) (Rc c)).owesAt (none : HIx 1) 0)

/-- The thread state it leaves: the same, the result array at contents `A8` the write-backs may have left. -/
def post1 (c : Dev nD) : sProp 𝕄 :=
  iprop(∃ A8 : Buf (Elt F) ((c.tc : Thread nD τ).loc main_v8),
    ⌜(rdat1 c (V c) (O c) (Rc c)).ArrAt (3 : Fin 4) cfg2.N A8⌝
      ∗ unscopedBufs c (Function.update (V c) main_v8 A8)
      ∗ (rdat1 c (V c) (O c) (Rc c)).owesAt (none : HIx 1) (Fin.last cfg2.N))

-- the rule is stated for an arbitrary thread; at the TensorCore's thread its hypotheses meet the goal only after
-- definitions in their types are unfolded
set_option backward.isDefEq.respectTransparency.types false in
/-- The projection region: the layout is the generated module's; the kernel has no semaphore of its own; the body
    obligation is `body1`; the staging cells' waits sit at the index below everything the core owes; the arrays
    are sorted out of the unscoped buffers at entry and put back at exit. -/
def region1 (hO : ∀ c g, O c g none = 0) (h1 : ∀ c, rdats 1 c = rdat1 c (V c) (O c) (Rc c)) :
    Pipeline.RDat.RegionSeg (pcfgs (F := F)) adm rdats (none : HIx 1) defs₀ 𝒱₀ (K (F := F)).L (K (F := F)).lev (1 : Fin 2) where
  win := winFacts2.to₀
  block_pos := block_pos2
  stage_whole := stage_whole2
  K := PEmpty
  osem k := k.elim
  ho := Pipeline.OwnSemFacts.none _
  hbody c := by rw [h1 c]; exact body1 c (V c) (O c) (Rc c)
  hwaits c := Pipeline.RDat.cellsWaits_intro _ rdats _ 1 c (R := levAts (K (F := F)).L (K (F := F)).lev) fun w s t => by
    rw [h1 c]; exact (K (F := F)).mayWait_none _ (hO c)
  pre := pre1 V O Rc
  post := post1 V O Rc
  X _ := iprop(emp)
  Y _ := iprop(emp)
  Z c := Pipeline.unscopedRest spec2 c (V c)
  hentry c := by
    have harr := Pipeline.RDat.arrays_of_unscopedBufs (pcfgs (F := F)) adm rdats (p := (1 : Fin 2)) winFacts2 arr_whole2 c
      (by intro w; rw [h1 c]; unfold RDat.share; split <;> rfl) (V c) (by intro w; rw [h1 c]; rfl)
    rw [prefHeld1]
    unfold pre1
    rw [h1 c] at harr ⊢
    iintro ⟨⟨Hb, Ho⟩, -, -⟩
    imodintro
    ihave Hx := harr $$ [Hb]
    · iexact Hb
    icases Hx with ⟨Ha, Hr⟩
    isplitl [Ha]; · iexact Ha
    isplitr; · iempintro
    isplitl [Ho]; · iexact Ho
    isplitr; · iempintro
    iexact Hr
  hin c := by
    rw [h1 c]
    change iprop(_ ∗ _ ∗ Pipeline.scopedRest spec2 c) ⊢ (Pipeline.scopedRest spec2 c : sProp 𝕄)
    iintro ⟨-, -, H⟩; iexact H
  hout c := by
    rw [h1 c, Pipeline.ownSems0_none]
    change (Pipeline.scopedRest spec2 c : sProp 𝕄) ⊢ iprop(_ ∗ _ ∗ Pipeline.scopedRest spec2 c)
    iintro H
    isplitr; · iempintro
    isplitr; · iempintro
    iexact H
  hexit c := by
    have hae := Pipeline.RDat.arrays_eq (pcfgs (F := F)) adm rdats (1 : Fin 2) c arr_whole2
      (by intro w; rw [h1 c]; unfold RDat.share; split <;> rfl)
    rw [h1 c] at hae ⊢
    unfold post1 RDat.arraysAt
    rw [bigSep_W2]
    iintro ⟨⟨⟨%F0, %hF0, H0⟩, ⟨%F1, %hF1, H1⟩, ⟨%F2, %hF2, H2⟩, ⟨%F3, %hF3, H3⟩⟩, Ho, -, Hr⟩
    rw [(rdat1 c (V c) (O c) (Rc c)).ArrAt_in (0 : Fin 4) rfl] at hF0
    rw [(rdat1 c (V c) (O c) (Rc c)).ArrAt_in (1 : Fin 4) rfl] at hF1
    rw [(rdat1 c (V c) (O c) (Rc c)).ArrAt_in (2 : Fin 4) rfl] at hF2
    subst hF0 hF1 hF2
    imodintro
    iexists F3
    isplitr; · ipureintro; exact hF3
    isplitr [Ho]
    · iapply (unscopedBufs_upd c (V c) F3)
      isplitr [Hr]
      · have hA := hae (fun w => match w with
          | ⟨0, _⟩ => (rdat1 c (V c) (O c) (Rc c)).A (0 : Fin 4)
          | ⟨1, _⟩ => (rdat1 c (V c) (O c) (Rc c)).A (1 : Fin 4)
          | ⟨2, _⟩ => (rdat1 c (V c) (O c) (Rc c)).A (2 : Fin 4)
          | ⟨3, _⟩ => F3)
        unfold RDat.arrays at hA
        rw [bigSep_W2, bigSep_W2] at hA
        ihave Hx := (Entails.of_eq hA) $$ [H0 H1 H2 H3]
        · isplitl [H0]; · iexact H0
          isplitl [H1]; · iexact H1
          isplitl [H2]; · iexact H2
          iexact H3
        iexact Hx
      · iexact Hr
    · iexact Ho

end Seg

/-- The two thread states, unfolded: what is held, and the core's debts with the recorded pairs' bound. -/
theorem region1_pre (rdats) (V) (O) (Rc) (hO) (h1) (c : Dev nD) :
    (region1 (F := F) rdats V O Rc hO h1).pre c
      = iprop(unscopedBufs c (V c) ∗ Pipeline.owesWithin c (O c) (Rc c ∪ cfg2.waitPairs (none : HIx 1))) := rfl
theorem region1_post (rdats) (V) (O) (Rc) (hO) (h1) (c : Dev nD) :
    (region1 (F := F) rdats V O Rc hO h1).post c
      = iprop(∃ A8 : Buf (Elt F) ((c.tc : Thread nD τ).loc main_v8), ⌜(rdat1 c (V c) (O c) (Rc c)).ArrAt (3 : Fin 4) cfg2.N A8⌝
          ∗ unscopedBufs c (Function.update (V c) main_v8 A8)
          ∗ Pipeline.owesWithin c (O c) (Rc c ∪ cfg2.waitPairs (none : HIx 1))) := rfl
end Cert.Kernel.Hand

end
-- ==== Proof.K.Steps.lean ====
/-
  The two pipeline regions' records, instantiated at the valuation @main has reached, as the step rules of @main's proof.

  Before the gather the TensorCore still owes its start signals (call number 0 ahead); after it no call is ahead. Either
  way the debts sit at call indices, so the regions' own waits pass under them.
-/
import proofs.«218829_g6193342841233_cont_9to1_m_903_15_alg».proof.Proof.K.RegionGlue
import proofs.«218829_g6193342841233_cont_9to1_m_903_15_alg».proof.Proof.K.Region0Seg
import proofs.«218829_g6193342841233_cont_9to1_m_903_15_alg».proof.Proof.K.Region1Seg

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F] [∀ e, Nonempty (Elt F e)]

/-- The TensorCore's buffers at a valuation, on every device. -/
abbrev VW (W : Valuation τ sig (Elt F)) : (c : Dev nD) → (b : Ref sig .tc) → Buf (Elt F) ((c.tc : Thread nD τ).loc b) := fun _ b => W b
/-- What the TensorCore owes before call `n`, on every device. -/
abbrev OW (n : ℕ) : Dev nD → CellTallies nD τ sig (HIx 1) := fun c => (K (F := F)).Otc c n
/-- The pairs its waits may have recorded before call `n`, on every device. -/
abbrev RW (n : ℕ) : Dev nD → Set (SemLoc sig × HIx 1) := fun c => RcN (F := F) c n

/-- Both regions' proof data before call `n`, at valuation `W`. -/
def rdatsAt (n : ℕ) (W : Valuation τ sig (Elt F)) : (p : Fin 2) → (c : Dev nD) → Pipeline.RDat τ (Elt F) (HIx 1) ℕ UU ℕ (cfgs' (F := F) p) c
  | ⟨0, _⟩, c => rdat0 (OW (F := F) n) (RW (F := F) n) (VW W) c
  | ⟨1, _⟩, c => rdat1 c (VW W c) (OW (F := F) n c) (RW (F := F) n c)

/-- What the repack leaves in the packed table, entered at `W`. -/
def OutR0 (d : Dev nD) (W : Valuation τ sig (Elt F)) (f1 : (v1' : DevRef τ sig).ty.Contents (Elt F)) : Prop :=
  Out0 (OW (F := F) 0) (RW (F := F) 0) (VW W) d f1
/-- What the projection leaves in its result, entered at `W`. -/
def OutR1 (d : Dev nD) (W : Valuation τ sig (Elt F)) (A8 : (v8' : DevRef τ sig).ty.Contents (Elt F)) : Prop :=
  (rdat1 d (VW W d) (OW (F := F) 1 d) (RW (F := F) 1 d)).ArrAt (3 : Fin 4) cfg2.N A8

theorem waitPairs_none (cfg : Pipeline.Cfg sig Λ₀) : ∀ x ∈ cfg.waitPairs (none : HIx 1), x.2 = none := by
  rintro x ⟨w, s, rfl⟩; rfl

variable (P : (K (F := F)).Pay (nD := nD) (Val := Elt F) (Name := ℕ) (U := UU))

theorem stepR0 (κ : GSem nD τ sig → ℕ) : StepR0 P (OutR0 (F := F)) κ := fun d W Φ =>
  step_of_region P κ 0 0 (rdatsAt 0 W)
    (region0 (OW (F := F) 0) (RW (F := F) 0) (VW W) (rdatsAt 0 W) (fun _ => rfl) (fun c g => Otc_none c 0 g))
    d W main_v1 (OutR0 d W) (cfg0.waitPairs (none : HIx 1)) (waitPairs_none _)
    (region0_pre _ _ _ _ _ _ d) (region0_post _ _ _ _ _ _ d) Φ

theorem stepR1 (κ : GSem nD τ sig → ℕ) : StepR1 P (OutR1 (F := F)) κ := fun d W Φ =>
  step_of_region P κ 1 1 (rdatsAt 1 W)
    (region1 (rdatsAt 1 W) (VW W) (OW (F := F) 1) (RW (F := F) 1) (fun c g => Otc_none c 1 g) (fun _ => rfl))
    d W main_v8 (OutR1 d W) (cfg2.waitPairs (none : HIx 1)) (waitPairs_none _)
    (region1_pre _ _ _ _ _ _ d) (region1_post _ _ _ _ _ _ d) Φ

end Cert.Kernel.Hand

end
-- ==== Proof.LineSpec.lean ====
/-
  Splitting a row number n in [0, 99999] at 57344: n is stored as the "line" n (when n < 57344) or
  n - 57344 (when n >= 57344), together with the one-bit answer to "is n >= 57344?". A line l < 57344
  carries two rows side by side in 128 columns: row l in columns 0..63 and row l + 57344 (when that is
  a row at all, i.e. below 100000) in columns 64..127. Reading line(n) and then choosing the upper half
  of the columns exactly when n >= 57344 therefore gives back row n. This module proves that arithmetic:
  the line is below 57344, it is n or n - 57344 according to the test, the test bit survives being
  widened to 32 bits and compared with 0, and the two-step read is the direct read.
-/
import Idealize.ShloMosaic.PureOps
import Idealize.ShloMosaic.Lib.Affine

noncomputable section

namespace Cert.LineSpec

open Idealize.ShloMosaic

/-! ## (a) The line of a row number, and the vector operations that compute it -/

/-- The line of row number v: v - 57344 when 57344 <= v as signed integers, v itself otherwise. -/
def lineOf (v : BitVec 32) : BitVec 32 := if (57344#32 : BitVec 32).sle v then v - 57344#32 else v

/-- A one-bit word built from a truth value is 1 exactly when the value is true. -/
theorem ofBool_eq_one_iff (b : Bool) : BitVec.ofBool b = 1#1 ↔ b = true := by cases b <;> decide

/-- A choice steered by the signed test "w >= 57344" is the choice on the truth of 57344 <= w. -/
theorem select_sge_eq_ite {α : Type} (w : BitVec 32) (a b : α) :
    Scalar.select (IntOp.cmpi .sge w 57344#32) a b = if (57344#32 : BitVec 32).sle w then a else b := by
  show (if BitVec.ofBool ((57344#32 : BitVec 32).sle w) = 1 then a else b) = _
  cases h : (57344#32 : BitVec 32).sle w <;> simp

/-- Position by position, "where v >= 57344 take v - 57344, else v" is the line of v. -/
theorem select_sge_sub_apply {s : Shape} (v : IVec s 32) (i : s.Idx) :
    select (cmpi .sge v (broadcast s 57344#32)) (subi v (broadcast s 57344#32)) v i = lineOf (v i) := by
  show Scalar.select (IntOp.cmpi .sge (v i) 57344#32) (v i - 57344#32) (v i) = lineOf (v i)
  rw [select_sge_eq_ite]
  rfl

/-! ## (b) The line's range and its two cases -/

/-- A word whose signed reading is nonnegative reads the same unsigned. -/
theorem toNat_eq_toInt (v : BitVec 32) (h0 : 0 ≤ v.toInt) : (v.toNat : Int) = v.toInt := by
  have hlt := v.isLt
  unfold BitVec.toInt at h0 ⊢
  split at h0 <;> rename_i hc
  · rw [if_pos hc]
  · omega

/-- A row number in [0, 99999] is below 100000 read unsigned. -/
theorem toNat_lt (v : BitVec 32) (h0 : 0 ≤ v.toInt) (h1 : v.toInt ≤ 99999) : v.toNat < 100000 := by
  have := toNat_eq_toInt v h0; omega

/-- The signed test against 57344 is the comparison of the signed readings. -/
theorem sle_iff (v : BitVec 32) : (57344#32 : BitVec 32).sle v = true ↔ 57344 ≤ v.toInt := by
  rw [BitVec.sle_iff_toInt_le, show (57344#32 : BitVec 32).toInt = 57344 from by decide]

/-- At or above 57344: the line is v - 57344, with no wrap-around, and row line + 57344 exists. -/
theorem lineOf_hi (v : BitVec 32) (h0 : 0 ≤ v.toInt) (h1 : v.toInt ≤ 99999) (h : 57344 ≤ v.toInt) :
    (lineOf v).toNat = v.toNat - 57344 ∧ (lineOf v).toNat + 57344 < 100000 := by
  have e := toNat_eq_toInt v h0
  have hs : (57344#32 : BitVec 32).sle v = true := (sle_iff v).2 h
  have hl : lineOf v = v - 57344#32 := if_pos hs
  have hn : (v - 57344#32).toNat = v.toNat - 57344 := by
    rw [BitVec.toNat_sub, show (57344#32 : BitVec 32).toNat = 57344 from by decide]
    omega
  rw [hl, hn]
  omega

/-- Below 57344: the line is v itself. -/
theorem lineOf_lo (v : BitVec 32) (h : v.toInt < 57344) : (lineOf v).toNat = v.toNat := by
  have hs : ¬ (57344#32 : BitVec 32).sle v = true := fun hs => by have := (sle_iff v).1 hs; omega
  have hl : lineOf v = v := if_neg hs
  rw [hl]

/-- The line of a row number in [0, 99999] is below 57344. -/
theorem lineOf_lt (v : BitVec 32) (h0 : 0 ≤ v.toInt) (h1 : v.toInt ≤ 99999) : (lineOf v).toNat < 57344 := by
  have e := toNat_eq_toInt v h0
  rcases le_or_gt 57344 v.toInt with h | h
  · have := (lineOf_hi v h0 h1 h).1; omega
  · have := lineOf_lo v h; omega

/-! ## (c) The test bit, widened to 32 bits and compared with 0 -/

/-- A truth value made a bit, zero-extended to 32 bits, is above 0 (signed) exactly when it is true. -/
theorem slt_zero_setWidth_ofBool : ∀ b : Bool, (0#32 : BitVec 32).slt ((BitVec.ofBool b).setWidth 32) = b := by decide

/-- The same with the bit written as a choice between 1 and 0. -/
theorem sel_pos_iff (w : BitVec 32) :
    (0#32 : BitVec 32).slt ((if (57344#32 : BitVec 32).sle w then (1#1 : BitVec 1) else 0#1).setWidth 32) = (57344#32 : BitVec 32).sle w := by
  cases h : (57344#32 : BitVec 32).sle w <;> simp <;> decide

/-- Testing "> 0" on the widened bit of "w >= 57344" gives that bit back. -/
theorem sgt_zero_extui_sge (w : BitVec 32) :
    IntOp.cmpi .sgt ((IntOp.cmpi .sge w 57344#32).setWidth 32) 0#32 = IntOp.cmpi .sge w 57344#32 := by
  show BitVec.ofBool ((0#32 : BitVec 32).slt ((BitVec.ofBool ((57344#32 : BitVec 32).sle w)).setWidth 32)) = BitVec.ofBool ((57344#32 : BitVec 32).sle w)
  rw [slt_zero_setWidth_ofBool]

/-- ... and that bit is 1 exactly when 57344 <= w as signed integers. -/
theorem sgt_zero_extui_sge_eq_one_iff (w : BitVec 32) :
    IntOp.cmpi .sgt ((IntOp.cmpi .sge w 57344#32).setWidth 32) 0#32 = 1#1 ↔ 57344 ≤ w.toInt := by
  rw [sgt_zero_extui_sge, IntOp.cmpi_sge, show (57344#32 : BitVec 32).toInt = 57344 from by decide]

/-- The widened bit at a position of an array: the widening of the test at that position. -/
theorem extui_cmpi_sge_apply {s : Shape} (x c : IVec s 32) (h : 1 < 32) (i : s.Idx) :
    extui 32 (cmpi .sge x c) h i = (IntOp.cmpi .sge (x i) (c i)).setWidth 32 := rfl

/-- Position by position: an array whose words are the widened bits of "w >= 57344", tested "> 0", gives those bits. -/
theorem cmpi_sgt_zero_apply {s : Shape} (sel : IVec s 32) (i : s.Idx) (w : BitVec 32)
    (hsel : sel i = (IntOp.cmpi .sge w 57344#32).setWidth 32) :
    cmpi .sgt sel (broadcast s 0#32) i = IntOp.cmpi .sge w 57344#32 := by
  show IntOp.cmpi .sgt (sel i) 0#32 = _
  rw [hsel, sgt_zero_extui_sge]

/-! ## (d) Reading the line and then the half is reading the row -/

/-- tT holds the rows as columns (tT c n is entry c of row n). f1 packs them into lines: columns 0..63 of line l hold
    row l, columns 64..127 hold row l + 57344 when that row exists. f2 b is line(idx b) of f1. Then choosing columns
    64..127 of f2 b when idx b >= 57344 and columns 0..63 otherwise reads row idx b. -/
theorem join {α : Type} (tT : Fin 64 → Fin 100000 → α) (f1 : Fin 57344 → Fin 128 → α) (f2 : Fin 1024 → Fin 128 → α)
    (idx : Fin 1024 → BitVec 32)
    (H1 : ∀ (l : Fin 57344) (c : Fin 64),
      f1 l ⟨c.val, by have := c.isLt; omega⟩ = tT c ⟨l.val, by have := l.isLt; omega⟩
      ∧ ∀ h : l.val + 57344 < 100000, f1 l ⟨64 + c.val, by have := c.isLt; omega⟩ = tT c ⟨l.val + 57344, h⟩)
    (H2 : ∀ (b : Fin 1024) (j : Fin 128) (l : Fin 57344), (lineOf (idx b)).toNat = l.val → f2 b j = f1 l j)
    (Hidx : ∀ b, 0 ≤ (idx b).toInt ∧ (idx b).toInt ≤ 99999) :
    ∀ (b : Fin 1024) (d : Fin 64),
      (if (57344#32 : BitVec 32).sle (idx b) then f2 b ⟨64 + d.val, by have := d.isLt; omega⟩
        else f2 b ⟨d.val, by have := d.isLt; omega⟩)
      = tT d ⟨(idx b).toNat, toNat_lt (idx b) (Hidx b).1 (Hidx b).2⟩ := by
  intro b d
  obtain ⟨h0, h1⟩ := Hidx b
  have e := toNat_eq_toInt (idx b) h0
  -- the line of idx b, as a line number
  let l : Fin 57344 := ⟨(lineOf (idx b)).toNat, lineOf_lt (idx b) h0 h1⟩
  rcases le_or_gt 57344 (idx b).toInt with h | h
  · -- upper half: line = idx b - 57344, and row line + 57344 is row idx b
    obtain ⟨hl, hrow⟩ := lineOf_hi (idx b) h0 h1 h
    rw [if_pos ((sle_iff (idx b)).2 h), H2 b _ l rfl, (H1 l d).2 hrow]
    refine congrArg (tT d) (Fin.ext ?_)
    show (lineOf (idx b)).toNat + 57344 = (idx b).toNat
    omega
  · -- lower half: line = idx b
    have hl := lineOf_lo (idx b) h
    have hs : ¬ (57344#32 : BitVec 32).sle (idx b) = true := fun hs => by have := (sle_iff (idx b)).1 hs; omega
    rw [if_neg hs, H2 b _ l rfl, (H1 l d).1]
    exact congrArg (tT d) (Fin.ext hl)

end Cert.LineSpec

end
-- ==== Proof.K.SCPay.lean ====
/-
  What the gather call's handshakes carry.

  The batch of 1024 row numbers is cut into 32 consecutive groups of 32; group w = 2 s + c is the task of
  vector subcore s of SparseCore c. A task needs three things: its own 32 row numbers (read only, but
  nobody else needs them, so it takes them outright), its own 32 rows of the output (to overwrite), and
  the whole packed table (to read rows from, wherever the row numbers point). The table is read by all 32
  tasks at once, so each takes a read share of the whole of it; a read share fixes the contents, and any
  two shares of one array agree on them.

  A row number n in [0, 99999] names line(n) = n - 57344 or n of the packed table (LineSpec). What a task
  hands back is its output rows filled so: output row b, column j holds packed-table entry
  (line(idx[b]), j). The statement is relational in the coordinates' values, so that it carries no proof
  that line(idx[b]) is a row of the table; that is a fact about the row numbers, used where the rows are read.
-/
import proofs.«218829_g6193342841233_cont_9to1_m_903_15_alg».proof.Proof.K.Setup
import proofs.«218829_g6193342841233_cont_9to1_m_903_15_alg».proof.Proof.LineSpec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

/-! ## The three arrays of the call, as the TensorCore names them -/

abbrev idxLoc (d : Dev nD) : Loc nD τ sig := (SparseCore.T d).loc main_arg0
abbrev v1Loc (d : Dev nD) : Loc nD τ sig := (SparseCore.T d).loc main_v1
abbrev v2Loc (d : Dev nD) : Loc nD τ sig := (SparseCore.T d).loc main_v2

/-! ## The 32 groups of rows -/

theorem hdivI : 32 ∣ S1024.size 0 := ⟨32, rfl⟩
theorem hdivO : 32 ∣ S1024x128.size 0 := ⟨32, rfl⟩

/-- Group w of the row numbers: positions 32 w … 32 w + 31. -/
abbrev rowsI (w : Fin 32) : Finset S1024.Idx := (Rect.part (s := S1024) (a₀ := 0) hdivI w).set
/-- Group w of the output: rows 32 w … 32 w + 31, all 128 columns. -/
abbrev rowsO (w : Fin 32) : Finset S1024x128.Idx := (Rect.part (s := S1024x128) (a₀ := 0) hdivO w).set

/-- The group of vector subcore s of SparseCore c. -/
def wid (c : Fin 2) (s : Fin 16) : Fin 32 := ⟨2 * s.val + c.val, by omega⟩

/-- Task w's read share of the packed table: the w-th of 32 tokens split off the full share. -/
abbrev tok (w : Fin 32) : PosShare TreeShare := Transfers.shareTok fullShare 32 w

variable (m : (ℓ : Loc nD τ sig) → Buf (Elt F) ℓ) (Ok1 : (d : Dev nD) → Buf (Elt F) (v1Loc d) → Prop)

/-- On the output positions R, f2 is the gather of f1: position (b, j) holds f1 at (line(idx[b]), j). -/
def Gath (d : Dev nD) (f1 : Buf (Elt F) (v1Loc d)) (f2 : Buf (Elt F) (v2Loc d)) (R : Finset S1024x128.Idx) : Prop :=
  ∀ (i : S1024x128.Idx) (b : S1024.Idx) (k : S57344x128.Idx), i ∈ R → (b 0).val = (i 0).val →
    (k 0).val = (lineOf (m (idxLoc d) b)).toNat → (k 1).val = (i 1).val → f2 i = f1 k

/-- What task w is handed: a read share of the table at contents satisfying Ok1, its row numbers, its output rows. -/
def goP (d : Dev nD) (w : Fin 32) : sProp 𝕄 :=
  iprop(∃ f1 : Buf (Elt F) (v1Loc d), ⌜Ok1 d f1⌝ ∗ (v1Loc d ↦{tok w} f1) ∗ (idxLoc d ↦[rowsI w]{fullShare} m (idxLoc d))
    ∗ ∃ f : Buf (Elt F) (v2Loc d), v2Loc d ↦[rowsO w]{fullShare} f)

/-- What it hands back: the same, its output rows now the gather of the table it read. -/
def tdP (d : Dev nD) (w : Fin 32) : sProp 𝕄 :=
  iprop(∃ f1 : Buf (Elt F) (v1Loc d), ⌜Ok1 d f1⌝ ∗ (v1Loc d ↦{tok w} f1) ∗ (idxLoc d ↦[rowsI w]{fullShare} m (idxLoc d))
    ∗ ∃ f2 : Buf (Elt F) (v2Loc d), ⌜Gath m d f1 f2 (rowsO w)⌝ ∗ v2Loc d ↦[rowsO w]{fullShare} f2)

instance goP_storable (d : Dev nD) (w : Fin 32) : BI.Storable (upEmb : UEmb _ 𝕄) (goP m Ok1 d w) := by unfold goP; infer_instance
instance tdP_storable (d : Dev nD) (w : Fin 32) : BI.Storable (upEmb : UEmb _ 𝕄) (tdP m Ok1 d w) := by unfold tdP; infer_instance

/-- A SparseCore is handed its sixteen tasks' operands and hands back their results; nothing rides on a thread. -/
def P : (K (F := F)).Pay (nD := nD) (Val := Elt F) (Name := ℕ) (U := UU) where
  st := fun q d c => match q with | 0 => bigSep Finset.univ fun s : Fin 16 => goP m Ok1 d (wid (Fin.cast nCore_zero c) s)
  dn := fun q d c => match q with | 0 => bigSep Finset.univ fun s : Fin 16 => tdP m Ok1 d (wid (Fin.cast nCore_zero c) s)
  go := fun q d c i => match q with | 0 => goP m Ok1 d (wid (Fin.cast nCore_zero c) (Fin.cast nSub_zero i))
  td := fun q d c i => match q with | 0 => tdP m Ok1 d (wid (Fin.cast nCore_zero c) (Fin.cast nSub_zero i))
  x := fun _ _ => iprop(emp)

instance P_storable : (P (F := F) m Ok1).IsStorable where
  st q d c := match q with
    | 0 => (inferInstance : BI.Storable (upEmb : UEmb _ 𝕄) (bigSep Finset.univ fun s : Fin 16 => goP m Ok1 d (wid (Fin.cast nCore_zero c) s)))
  dn q d c := match q with
    | 0 => (inferInstance : BI.Storable (upEmb : UEmb _ 𝕄) (bigSep Finset.univ fun s : Fin 16 => tdP m Ok1 d (wid (Fin.cast nCore_zero c) s)))
  go q d c i := match q with
    | 0 => (inferInstance : BI.Storable (upEmb : UEmb _ 𝕄) (goP m Ok1 d (wid (Fin.cast nCore_zero c) (Fin.cast nSub_zero i))))
  td q d c i := match q with
    | 0 => (inferInstance : BI.Storable (upEmb : UEmb _ 𝕄) (tdP m Ok1 d (wid (Fin.cast nCore_zero c) (Fin.cast nSub_zero i))))

/-! The payloads as equations, to rewrite with instead of unfolding the record. -/

theorem P_st (d : Dev nD) (c : Fin ((K (F := F)).nCore 0)) :
    (P m Ok1).st 0 d c = bigSep Finset.univ fun s : Fin 16 => goP m Ok1 d (wid (Fin.cast nCore_zero c) s) := rfl
theorem P_dn (d : Dev nD) (c : Fin ((K (F := F)).nCore 0)) :
    (P m Ok1).dn 0 d c = bigSep Finset.univ fun s : Fin 16 => tdP m Ok1 d (wid (Fin.cast nCore_zero c) s) := rfl
theorem P_go (d : Dev nD) (c : Fin ((K (F := F)).nCore 0)) (i : Fin ((K (F := F)).nSub 0)) :
    (P m Ok1).go 0 d c i = goP m Ok1 d (wid (Fin.cast nCore_zero c) (Fin.cast nSub_zero i)) := rfl
theorem P_td (d : Dev nD) (c : Fin ((K (F := F)).nCore 0)) (i : Fin ((K (F := F)).nSub 0)) :
    (P m Ok1).td 0 d c i = tdP m Ok1 d (wid (Fin.cast nCore_zero c) (Fin.cast nSub_zero i)) := rfl
theorem P_x (q : Fin 1) (thr : Thread nD τ) : (P m Ok1).x q thr = iprop(emp) := rfl
theorem P_ox : (P m Ok1).ox = fun _ _ => 0 := rfl

end Cert.Kernel.Hand

end
-- ==== Proof.K.SCStep.lean ====
/-
  The gather call as one step of @main's proof.

  The TensorCore holds every unscoped buffer whole. Of these the call takes three: the row numbers, the packed table and
  the output. The table is split into the 32 tasks' read shares and a remainder the TensorCore keeps across the call; the
  row numbers and the output go out by groups of rows. When the call returns, the shares rejoin the remainder — so the table
  is still at the contents it went out with — and the output's groups join into one array, the gather of the table at the
  lines the row numbers name.
-/
import proofs.«218829_g6193342841233_cont_9to1_m_903_15_alg».proof.Proof.K.Main
import proofs.«218829_g6193342841233_cont_9to1_m_903_15_alg».proof.Proof.K.SCPay

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

abbrev a0' : DevRef τ sig := Proc.devRef .tc (main_arg0 : Ref sig .tc)
/-- The call's three arrays. -/
abbrev S3 : Finset (DevRef τ sig) := {a0', v1', v2'}

theorem S3_sub : S3 ⊆ ucRefs τ sig := by decide

theorem held_S3 (d : Dev nD) (W : Valuation τ sig (Elt F)) :
    (held (T d) S3 W : sProp (MM F)) = iprop((idxLoc d ↦{fullShare} W a0') ∗ (v1Loc d ↦{fullShare} W v1') ∗ v2Loc d ↦{fullShare} W v2') := by
  unfold held S3
  rw [SparseCore.bigSep_insert' (by decide), SparseCore.bigSep_insert' (by decide), bigSep_singleton]

/-- The buffers the call does not touch do not see the output's new contents. -/
theorem held_rest_update (d : Dev nD) (W : Valuation τ sig (Elt F)) (f2 : (v2' : DevRef τ sig).ty.Contents (Elt F)) :
    (held (T d) (ucRefs τ sig \ S3) (Function.update W v2' f2) : sProp (MM F)) = held (T d) (ucRefs τ sig \ S3) W :=
  bigSep_congr fun b hb => by
    rw [Function.update_of_ne (fun e => (Finset.mem_sdiff.mp hb).2 (by rw [e]; decide))]

section Step

variable (m : (ℓ : Loc nD τ sig) → Buf (Elt F) ℓ) (Ok1 : (d : Dev nD) → Buf (Elt F) (v1Loc d) → Prop)
variable (κ : GSem nD τ sig → ℕ)

/-- What the call needs of the valuation it is entered at: the row numbers are the launch's, the table is as the tasks expect. -/
def PreSC (d : Dev nD) (W : Valuation τ sig (Elt F)) : Prop := W a0' = m (idxLoc d) ∧ Ok1 d (W v1')
/-- What it leaves in the output: the gather of the table it was entered with. -/
def OutSC (d : Dev nD) (W : Valuation τ sig (Elt F)) (f2 : (v2' : DevRef τ sig).ty.Contents (Elt F)) : Prop :=
  Gath m d (W v1') f2 Finset.univ

theorem stepSC
    (hst : ∀ (d : Dev nD) (f1 : Buf (Elt F) (v1Loc d)) (f : Buf (Elt F) (v2Loc d)),
      iprop(⌜Ok1 d f1⌝ ∗ (v1Loc d ↦{fullShare} f1) ∗ (idxLoc d ↦{fullShare} m (idxLoc d)) ∗ v2Loc d ↦{fullShare} f)
        ⊢ (iprop((v1Loc d ↦{Transfers.shareDrop fullShare 32} f1) ∗ bigSep Finset.univ fun c : Fin ((K (F := F)).nCore 0) => (P m Ok1).st 0 d c) : sProp (MM F)))
    (hdn : ∀ (d : Dev nD) (f1 : Buf (Elt F) (v1Loc d)),
      iprop((v1Loc d ↦{Transfers.shareDrop fullShare 32} f1) ∗ bigSep Finset.univ fun c : Fin ((K (F := F)).nCore 0) => (P m Ok1).dn 0 d c)
        ⊢ (iprop(∃ f2 : Buf (Elt F) (v2Loc d), ⌜Gath m d f1 f2 Finset.univ⌝ ∗ (v1Loc d ↦{fullShare} f1) ∗ (idxLoc d ↦{fullShare} m (idxLoc d)) ∗ v2Loc d ↦{fullShare} f2) : sProp (MM F))) :
    StepSC (P m Ok1) (PreSC m Ok1) (OutSC m) κ := by
  intro d W Φ hpre
  obtain ⟨hidx, hok⟩ := hpre
  rw [StableHlo.held_sub_split (T d) S3_sub W, held_S3, hidx]
  iintro ⟨#Hctx, Hst, ⟨⟨Hi, H1, H2⟩, Hrest⟩, Hk⟩
  ihave Hs := (hst d (W v1') (W v2')) $$ [Hi H1 H2]
  · isplitr; · ipureintro; exact hok
    isplitl [H1]; · iexact H1
    isplitl [Hi]; · iexact Hi
    iexact H2
  icases Hs with ⟨Hdrop, Hsts⟩
  iapply ((K (F := F)).wp_run (D (F := F)) 𝒱 (EH := EH) (P := P m Ok1) κ d 0) $$ [Hst Hsts Hdrop Hrest Hk]
  isplitr; · iexact Hctx
  isplitl [Hst]; · iexact Hst
  isplitl [Hsts]; · iexact Hsts
  iintro ⟨Hst, Hdn⟩
  ihave Hd := (hdn d (W v1')) $$ [Hdrop Hdn]
  · isplitl [Hdrop] <;> iassumption
  icases Hd with ⟨%f2, %hg, H1, Hi, H2⟩
  ispecialize Hk $$ %f2
  iapply Hk
  isplitr; · ipureintro; exact hg
  isplitl [Hst]; · iexact Hst
  rw [StableHlo.held_sub_split (T d) S3_sub (Function.update W v2' f2), held_S3, held_rest_update,
    Function.update_of_ne (show a0' ≠ v2' by decide), Function.update_of_ne (show v1' ≠ v2' by decide), Function.update_self, hidx]
  isplitr [Hrest]
  · isplitl [Hi]; · iexact Hi
    isplitl [H1]; · iexact H1
    iexact H2
  iexact Hrest

end Step

end Cert.Kernel.Hand

end
-- ==== Proof.K.SCTask.lean ====
/-
  The gather task of one vector subcore.

  Task (c, s) serves group w = 2 s + c of the batch: it copies its 32 row numbers into its first scratch,
  computes their lines into its second scratch in two 16-lane steps, gathers the 32 named rows of the
  packed table into its third scratch, and copies that to its 32 rows of the output. Each copy is waited
  for before the next starts, each on a semaphore of its own, so the run is a straight line.

  The one thing the run needs to know about the data is that the gather's row list names rows of the
  table: a row number in [0, 99999] has its line below 57344. The value is carried in the run itself: the
  contents each step leaves are named, and at the end the output rows are read back through those names.
-/
import proofs.«218829_g6193342841233_cont_9to1_m_903_15_alg».proof.Proof.K.Setup
import proofs.«218829_g6193342841233_cont_9to1_m_903_15_alg».proof.Proof.K.SCPay
import Idealize.ShloMosaic.Lib.Pipeline.Value
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

open Idealize.ShloMosaic.Tactic

variable [FloatOps F]

/-! ## The task's place and its views, spelt as the kernel spells them -/

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The group of the task at grid coordinates L = (c, s): 2 s + c. -/
def widL (L : grid1.Coords) : Fin 32 :=
  ⟨2 * (L 1).val + (L 0).val, by
    have h0 : (L 0).val < 2 := (L 0).isLt
    have h1 : (L 1).val < 16 := (L 1).isLt
    omega⟩

abbrev tV : Memref sig .scVector .hbm S57344x128 .f32 := Memref.whole main_v1_scv
abbrev iV : Memref sig .scVector .hbm S1024 .i32 := Memref.whole main_arg0_scv
abbrev oV : Memref sig .scVector .hbm S1024x128 .f32 := Memref.whole main_v2_scv
abbrev s0 : Memref sig .scVector .vmem S32 .i32 := Memref.whole cc1_scratch0
abbrev s1 : Memref sig .scVector .vmem S32 .i32 := Memref.whole cc1_scratch1
abbrev s2 : Memref sig .scVector .vmem S32x128 .f32 := Memref.whole cc1_scratch2

/-- The task's 32 row numbers, as the kernel slices them out of the batch. -/
abbrev iSl (L : grid1.Coords) : Memref sig .scVector .hbm S32 .i32 :=
  (iV : Memref sig .scVector .hbm S1024 .i32).slice (Rect.unit (s := S1024) (k1_off1 L) S32.size (k1_off1_inb L)) (fun _ => rfl)
/-- The task's 32 output rows, as the kernel slices them out of the result. -/
abbrev oSl (L : grid1.Coords) : Memref sig .scVector .hbm S32x128 .f32 :=
  (oV : Memref sig .scVector .hbm S1024x128 .f32).slice (Rect.unit (s := S1024x128) (k1_off2 L) S32x128.size (k1_off2_inb L)) (fun _ => rfl)

omit [FloatOps F] in
/-- The kernel's slice of the row numbers at offset 64 s + 32 c is group 2 s + c: 32 (2 s + c) = 64 s + 32 c. -/
theorem rect_iSl (L : grid1.Coords) :
    Rect.unit (s := S1024) (k1_off1 L) S32.size (k1_off1_inb L) = Rect.part (s := S1024) (a₀ := 0) hdivI (widL L) := by
  unfold Rect.part Rect.block
  congr 1 <;> funext a
  · rw [k1_off1_eq]
    match a with
    | 0 => simp [Shape.partIx, Shape.partSize, widL]; omega
  · match a with
    | 0 => simp [Shape.partSize]

omit [FloatOps F] in
/-- The same for the output rows; the second axis is taken whole. -/
theorem rect_oSl (L : grid1.Coords) :
    Rect.unit (s := S1024x128) (k1_off2 L) S32x128.size (k1_off2_inb L) = Rect.part (s := S1024x128) (a₀ := 0) hdivO (widL L) := by
  unfold Rect.part Rect.block
  congr 1 <;> funext a
  · rw [k1_off2_eq]
    match a with
    | 0 => simp [Shape.partIx, Shape.partSize, widL]; omega
    | 1 => simp [Shape.partIx, Shape.partSize]
  · match a with
    | 0 => simp [Shape.partSize]
    | 1 => simp [Shape.partSize]

omit [FloatOps F] in
theorem set_iSl (L : grid1.Coords) : (iSl L).view.set = rowsI (widL L) := by
  show ((View.whole (main_arg0_scv : Ref sig .scVector)).slice (Rect.unit (s := S1024) (k1_off1 L) S32.size (k1_off1_inb L))).set = _
  rw [View.set_slice_whole, rect_iSl]
omit [FloatOps F] in
theorem set_oSl (L : grid1.Coords) : (oSl L).view.set = rowsO (widL L) := by
  show ((View.whole (main_v2_scv : Ref sig .scVector)).slice (Rect.unit (s := S1024x128) (k1_off2 L) S32x128.size (k1_off2_inb L))).set = _
  rw [View.set_slice_whole, rect_oSl]

variable (m : (ℓ : Loc nD τ sig) → Buf (Elt F) ℓ) (Ok1 : (d : Dev nD) → Buf (Elt F) (v1Loc d) → Prop)

/-! ## The subcore's own storage: three scratch buffers, three DMA semaphores -/

variable (d : Dev nD) (L : grid1.Coords)

/-- The gather's semaphore, the row numbers' copy-in semaphore, the rows' copy-out semaphore. -/
abbrev cGcell (d : Dev nD) (c : Fin τ.nSC) (i : Fin τ.nSub) : GSem nD τ sig := (V d c i, .dma cc1_scratch3.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc1_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The handed resources in the kernel's spelling -/

omit [FloatOps F] in
theorem pts_iSl (f : Buf (Elt F) (idxLoc d)) :
    ((iSl L).view.loc (V d (cV L) (jV L)) ↦[(iSl L).view.set]{fullShare} f : sProp 𝕄) = idxLoc d ↦[rowsI (widL L)]{fullShare} f := by
  rw [set_iSl]
omit [FloatOps F] in
theorem pts_oSl (f : Buf (Elt F) (v2Loc d)) :
    ((oSl L).view.loc (V d (cV L) (jV L)) ↦[(oSl L).view.set]{fullShare} f : sProp 𝕄) = v2Loc d ↦[rowsO (widL L)]{fullShare} f := by
  rw [set_oSl]
omit [FloatOps F] in
theorem pts_tV (q : PosShare TreeShare) (f : Buf (Elt F) (v1Loc d)) :
    ((tV : Memref sig .scVector .hbm S57344x128 .f32).view.loc (V d (cV L) (jV L)) ↦{q} f : sProp 𝕄) = v1Loc d ↦{q} f := rfl

omit [FloatOps F] in
theorem pts_s0 (f : Buf (Elt F) ((V d (cV L) (jV L)).loc cc1_scratch0)) :
    ((s0 : Memref sig .scVector .vmem S32 .i32).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1 : Memref sig .scVector .vmem S32 .i32).view.loc (V d (cV L) (jV L)) ↦{fullShare} f : sProp 𝕄) = (V d (cV L) (jV L)).loc cc1_scratch1 ↦{fullShare} f := rfl
omit [FloatOps F] in
theorem pts_s2 (f : Buf (Elt F) ((V d (cV L) (jV L)).loc cc1_scratch2)) :
    ((s2 : Memref sig .scVector .vmem S32x128 .f32).view.loc (V d (cV L) (jV L)) ↦{fullShare} f : sProp 𝕄) = (V d (cV L) (jV L)).loc cc1_scratch2 ↦{fullShare} f := rfl

/-! ## The row numbers' lines

After the copy-in, position y of the subcore's first scratch holds row number idx[32 w + y]. The two
16-lane steps store, at the same position of the second scratch, its line: n - 57344 where n >= 57344,
else n. Both stores are one function of the position, so once they cover the scratch every position
reads that function, whatever the scratch held before; and the line of a row number in [0, 99999] is
below 57344, the number of lines of the packed table. -/

omit [FloatOps F] in
/-- The first 16-lane step, lane by lane: the line of the lane's word. -/
theorem pay1_apply (v : Vec F S16 .i32) (x : S16.Idx) : k1_pay1 v x = lineOf (v x) := by
  unfold k1_pay1
  simp only [shapeCast_self]
  exact Cert.LineSpec.select_sge_sub_apply v x
omit [FloatOps F] in
/-- The second step is the same operation. -/
theorem pay2_apply (v : Vec F S16 .i32) (x : S16.Idx) : k1_pay2 v x = lineOf (v x) := by
  unfold k1_pay2
  simp only [shapeCast_self]
  exact Cert.LineSpec.select_sge_sub_apply v x

/-- The line of the task's y-th row number. -/
def lineAt (d : Dev nD) (L : grid1.Coords) (y : S32.Idx) : BitVec 32 :=
  lineOf (m (idxLoc d) ((iSl L).view.emb y))

abbrev loHalf : Rect S32 := Rect.unit (s := S32) ![0] S16.size inb_S32_S16_0
abbrev hiHalf : Rect S32 := Rect.unit (s := S32) ![16] S16.size inb_S32_S16_16

/-- What the two steps leave in the second scratch, over any prior contents g, given any prior contents f0 of the first. -/
abbrev linesList (d : Dev nD) (L : grid1.Coords) (f0 : (s0 : Memref sig .scVector .vmem S32 .i32).view.ty.Contents (Elt F)) :
    List (View.Piece (Elt F) S32 .i32) :=
  [⟨hiHalf, k1_pay2 (View.readAt (Elt F) (s0 : Memref sig .scVector .vmem S32 .i32).view hiHalf.toLoadRect
      (View.write (Elt F) (s0 : Memref sig .scVector .vmem S32 .i32).view f0 (ReadAs.same.apply (View.read (Elt F) (iSl L).view (m (idxLoc d)))) Finset.univ))⟩,
   ⟨loHalf, k1_pay1 (View.readAt (Elt F) (s0 : Memref sig .scVector .vmem S32 .i32).view loHalf.toLoadRect
      (View.write (Elt F) (s0 : Memref sig .scVector .vmem S32 .i32).view f0 (ReadAs.same.apply (View.read (Elt F) (iSl L).view (m (idxLoc d)))) Finset.univ))⟩]

omit [FloatOps F] in
/-- Each step's lane x holds the line of the row number at the lane's position. -/
theorem lines_pieces (d : Dev nD) (L : grid1.Coords) (f0 : (s0 : Memref sig .scVector .vmem S32 .i32).view.ty.Contents (Elt F)) :
    ∀ p ∈ linesList m d L f0, ∀ x : p.1.shape.Idx, p.2 x = lineAt m d L (p.1.emb x) := by
  intro p hp
  simp only [linesList, List.mem_cons, List.mem_nil_iff, or_false] at hp
  rcases hp with rfl | rfl
  · intro x
    show k1_pay2 _ x = _
    rw [pay2_apply, View.readAt_apply, View.read_write_univ]
    rfl
  · intro x
    show k1_pay1 _ x = _
    rw [pay1_apply, View.readAt_apply, View.read_write_univ]
    rfl

omit [FloatOps F] in
/-- The two halves cover the 32 positions. -/
theorem lines_cover (d : Dev nD) (L : grid1.Coords) (f0 : (s0 : Memref sig .scVector .vmem S32 .i32).view.ty.Contents (Elt F)) (y : S32.Idx) :
    ∃ p ∈ linesList m d L f0, y ∈ p.1.set := by
  have hy : (y 0).val < 32 := (y 0).isLt
  by_cases h : (y 0).val < 16
  · refine ⟨⟨loHalf, _⟩, List.mem_cons_of_mem _ List.mem_cons_self, ?_⟩
    show y ∈ loHalf.set
    refine Rect.mem_set_unit.mpr fun a => ?_
    match a with
    | 0 => simp; omega
  · refine ⟨⟨hiHalf, _⟩, List.mem_cons_self, ?_⟩
    show y ∈ hiHalf.set
    refine Rect.mem_set_unit.mpr fun a => ?_
    match a with
    | 0 => simp; omega

omit [FloatOps F] in
/-- Every word of the second scratch, at the moment the gather is issued, names a line of the packed table. -/
theorem lines_inb (hidx : ∀ (d : Dev nD) (b : S1024.Idx), 0 ≤ (m (idxLoc d) b).toInt ∧ (m (idxLoc d) b).toInt ≤ 99999) (d : Dev nD) (L : grid1.Coords)
    (g : (s1 : Memref sig .scVector .vmem S32 .i32).view.ty.Contents (Elt F)) (f0 : (s0 : Memref sig .scVector .vmem S32 .i32).view.ty.Contents (Elt F)) :
    ∀ x : S32.Idx, ((s1 : Memref sig .scVector .vmem S32 .i32).view.read (Elt F)
        ((s1 : Memref sig .scVector .vmem S32 .i32).view.writes (Elt F) g (linesList m d L f0)) x).toNat
      < S57344x128.size gathers_S57344x128_S32x128.axis := by
  intro x
  rw [View.read_writes_apply_of_pieces _ _ (lineAt m d L) _ (lines_pieces m d L f0) x (lines_cover m d L f0 x)]
  exact Cert.LineSpec.lineOf_lt _ (hidx d _).1 (hidx d _).2

/-! ## The value the task leaves

The copy-out writes, at position x = (r, j) of the task's 32 output rows, what the third scratch holds
there; the gather put there packed-table entry (row named by word r of the second scratch, column j);
word r of the second scratch is the line of the task's r-th row number; and the task's r-th row number is
idx[32 w + r], the row number of output row 32 w + r. So output entry (32 w + r, j) is packed-table entry
(line(idx[32 w + r]), j). -/

/-- The packed table, as the kernel slices it for the gather: whole. -/
abbrev tSl : Memref sig .scVector .hbm S57344x128 .f32 :=
  (tV : Memref sig .scVector .hbm S57344x128 .f32).slice (Rect.unit (s := S57344x128) ![0, 0] S57344x128.size inb_S57344x128_S57344x128_0_0) (fun _ => rfl)

omit [FloatOps F] in
theorem gath_of_run (d : Dev nD) (L : grid1.Coords) (f1 : Buf (Elt F) (v1Loc d)) (fo : Buf (Elt F) (v2Loc d))
    (fs2 : (s2 : Memref sig .scVector .vmem S32x128 .f32).view.ty.Contents (Elt F))
    (g1 : (s1 : Memref sig .scVector .vmem S32 .i32).view.ty.Contents (Elt F))
    (f0 : (s0 : Memref sig .scVector .vmem S32 .i32).view.ty.Contents (Elt F))
    (hn : S32.numel = S32x128.size gathers_S57344x128_S32x128.axis')
    (hin' : ∀ x : S32.Idx, ((s1 : Memref sig .scVector .vmem S32 .i32).view.read (Elt F)
        ((s1 : Memref sig .scVector .vmem S32 .i32).view.writes (Elt F) g1 (linesList m d L f0)) x).toNat
      < S57344x128.size gathers_S57344x128_S32x128.axis) :
    Gath m d f1
      ((oSl L).view.writes (Elt F) fo [⟨Rect.whole S32x128, ReadAs.same.apply
        ((s2 : Memref sig .scVector .vmem S32x128 .f32).view.read (Elt F)
          ((s2 : Memref sig .scVector .vmem S32x128 .f32).view.writes (Elt F) fs2 [⟨Rect.whole S32x128,
            SparseCore.gatherPayload gathers_S57344x128_S32x128 (tSl.view.read (Elt F) f1)
              (SparseCore.rows ((s1 : Memref sig .scVector .vmem S32 .i32).view.read (Elt F)
                ((s1 : Memref sig .scVector .vmem S32 .i32).view.writes (Elt F) g1 (linesList m d L f0))) hn hin')⟩]))⟩])
      (rowsO (widL L)) := by
  intro i b k hi hb hk0 hk1
  rw [← set_oSl L] at hi
  obtain ⟨x, -, rfl⟩ := Finset.mem_map.mp hi
  -- the output entry is what the copy-out's payload holds at x
  have e1 : ∀ (w : S32x128.Idx → Elt F .f32),
      ((oSl L).view.writes (Elt F) fo [⟨Rect.whole S32x128, w⟩]) ((oSl L).view.emb x) = w x := by
    intro w
    have := View.read_writes_cons_emb (oSl L).view fo (Rect.whole S32x128) w [] x
    rw [Rect.emb_whole_apply] at this
    exact this
  rw [e1]
  -- which is what the third scratch holds at x: the gather's payload
  have e2 : ∀ (G : S32x128.Idx → Elt F .f32),
      (s2 : Memref sig .scVector .vmem S32x128 .f32).view.read (Elt F)
        ((s2 : Memref sig .scVector .vmem S32x128 .f32).view.writes (Elt F) fs2 [⟨Rect.whole S32x128, G⟩]) x = G x := by
    intro G
    have := View.read_writes_cons_emb (s2 : Memref sig .scVector .vmem S32x128 .f32).view fs2 (Rect.whole S32x128) G [] x
    rw [Rect.emb_whole_apply] at this
    exact this
  show (s2 : Memref sig .scVector .vmem S32x128 .f32).view.read (Elt F) _ x = _
  rw [e2]
  unfold SparseCore.gatherPayload
  generalize hrr : SparseCore.rows ((s1 : Memref sig .scVector .vmem S32 .i32).view.read (Elt F)
      ((s1 : Memref sig .scVector .vmem S32 .i32).view.writes (Elt F) g1 (linesList m d L f0))) hn hin' = r
  show f1 (tSl.view.emb (gathers_S57344x128_S32x128.idx r x)) = f1 k
  congr 1
  -- every word of the list is the line of the task's row number at that position
  have hword : ∀ y : S32.Idx, (s1 : Memref sig .scVector .vmem S32 .i32).view.read (Elt F)
      ((s1 : Memref sig .scVector .vmem S32 .i32).view.writes (Elt F) g1 (linesList m d L f0)) y = lineAt m d L y :=
    fun y => View.read_writes_apply_of_pieces _ _ (lineAt m d L) _ (lines_pieces m d L f0) y (lines_cover m d L f0 y)
  -- the three views' coordinates: the table's slice is the whole table; the task's slices start at its offsets
  have ht : ∀ (j : S57344x128.Idx) (a : Fin 2), ((tSl.view.emb j) a).val = (j a).val := by
    intro j a
    show ![0, 0] a + 1 * (j a).val = (j a).val
    match a with
    | 0 => simp
    | 1 => simp
  have ho : ∀ a : Fin 2, (((oSl L).view.emb x) a).val = k1_off2 L a + 1 * (x a).val := fun _ => rfl
  have hi' : ∀ y : S32.Idx, (((iSl L).view.emb y) 0).val = k1_off1 L 0 + 1 * (y 0).val := fun _ => rfl
  funext a
  apply Fin.ext
  rw [ht]
  match a with
  | 0 =>
    -- the position of the list that serves output row x 0
    obtain ⟨y, hy⟩ : ∃ y : S32.Idx, y = S32.rowMajor.symm ((x gathers_S57344x128_S32x128.axis').cast hn.symm) := ⟨_, rfl⟩
    have hrow : ((gathers_S57344x128_S32x128.idx r x) 0).val = (lineAt m d L y).toNat := by
      have h1 := Shape.Gathers.idx_axis gathers_S57344x128_S32x128 r x
      have h2 : (gathers_S57344x128_S32x128.idx r x) 0
          = (gathers_S57344x128_S32x128.idx r x) gathers_S57344x128_S32x128.axis := rfl
      rw [h2, h1, ← hrr, hy, ← hword]
      rfl
    rw [hrow, hk0]
    unfold lineAt
    congr 3
    funext a'
    apply Fin.ext
    match a' with
    | 0 =>
      have hy0 : (y 0).val = (x 0).val := by
        have h3 : (S32.rowMajor y).val = (y 0).val := Shape.rowMajor_val_one (d := ![32]) y
        have h5 : S32.rowMajor y = (x gathers_S57344x128_S32x128.axis').cast hn.symm := by
          rw [hy, Equiv.apply_symm_apply]
        rw [h5] at h3
        exact h3.symm
      rw [hi', hb, ho, hy0, k1_off1_eq, k1_off2_eq]
      simp
  | 1 =>
    have h4 := Shape.Gathers.idx_of_ne gathers_S57344x128_S32x128 r x 1 (by decide)
    rw [h4, hk1, ho, k1_off2_eq]
    simp

/-! ## The run -/

theorem tile_body (hF : (K (F := F)).Facts) (hidx : ∀ (d : Dev nD) (b : S1024.Idx), 0 ≤ (m (idxLoc d) b).toInt ∧ (m (idxLoc d) b).toInt ≤ 99999)
    (O : CellTallies nD τ sig (HIx 1)) (W : Waits sig (HIx 1)) (hO : ∀ g, O g none = 0) :
    iprop(levAts (K (F := F)).L (K (F := F)).lev ∗ goP m Ok1 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            s0 (Memref.isWhole_whole _) s1 (Memref.isWhole_whole _) s2 (Memref.isWhole_whole _) cc1_scratch3 cc1_scoped0 cc1_scoped1)
          fun _ => iprop(tdP m Ok1 d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  simp only [k1_part1_eq_skeleton]; unfold k1_part1_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold goP tdP
  iintro ⟨#Hlv, ⟨%f1, %hok, Ht, Hi, %fo, Ho⟩, ⟨⟨%f0, H0⟩, ⟨%fs1, H1⟩, ⟨%fs2, H2⟩, Hrest⟩, ⟨HG, HA, HB, Hsrest⟩, HO⟩
  ihave #Hmw := ((K (F := F)).mayWaits_none (thr := V d (cV L) (jV L)) hO) $$ Hlv
  ihave Hi := (Entails.of_eq (pts_iSl (F := F) d L (m (idxLoc d))).symm) $$ Hi
  ihave Ho := (Entails.of_eq (pts_oSl (F := F) d L fo).symm) $$ Ho
  ihave Ht := (Entails.of_eq (pts_tV (F := F) d L (tok (widL L)) f1).symm) $$ Ht
  ihave H0 := (Entails.of_eq (pts_s0 (F := F) d L f0).symm) $$ H0
  ihave H1 := (Entails.of_eq (pts_s1 (F := F) d L fs1).symm) $$ H1
  ihave H2 := (Entails.of_eq (pts_s2 (F := F) d L fs2).symm) $$ H2
  have hin := lines_inb m hidx d L
  sl_exec
  sl_step
  -- the task's results
  isplitl [Ht Hi Ho]
  · iexists f1
    isplitr; · ipureintro; exact hok
    isplitl [Ht]; · iexact Ht
    isplitl [Hi]
    · iapply (Entails.of_eq (pts_iSl (F := F) d L (m (idxLoc d)))); iexact Hi
    iexists _
    isplitr [Ho]
    on_goal 2 => iapply (Entails.of_eq (pts_oSl (F := F) d L _)); iexact Ho
    ipureintro
    exact gath_of_run m d L f1 fo fs2 _ f0 _ _
  -- the subcore's own storage, as it was handed
  isplitl [H0 H1 H2 Hrest]
  · isplitl [H0]; · iexists _; iexact H0
    isplitl [H1]; · iexists _; iexact H1
    isplitl [H2]; · iexists _; iexact H2
    iexact Hrest
  isplitl [HG HA HB Hsrest]
  · isplitl [HG]; · iexact HG
    isplitl [HA]; · iexact HA
    isplitl [HB]; · iexact HB
    iexact Hsrest
  -- the waits recorded are the task's own three, at no call's index
  iexists _
  isplitr [HO]
  on_goal 2 => iexact HO
  ipureintro
  intro p hp
  simp only [Finset.mem_insert] at hp
  rcases hp with rfl | rfl | rfl | hp
  exacts [Or.inr rfl, Or.inr rfl, Or.inr rfl, Or.inl hp]

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          s0 (Memref.isWhole_whole _) s1 (Memref.isWhole_whole _) s2 (Memref.isWhole_whole _) cc1_scratch3 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Nothing rides on the thread: the obligation's premise without its empty component. -/
theorem obl_pre {A G B C O : sProp 𝕄} : iprop(A ∗ emp ∗ G ∗ B ∗ C ∗ O) ⊢ iprop(A ∗ G ∗ B ∗ C ∗ O) := by
  iintro ⟨HA, -, HG, HB, HC, HO⟩
  isplitl [HA]; · iexact HA
  isplitl [HG]; · iexact HG
  isplitl [HB]; · iexact HB
  isplitl [HC]; · iexact HC
  iexact HO

theorem tileObl (hidx : ∀ (d : Dev nD) (b : S1024.Idx), 0 ≤ (m (idxLoc d) b).toInt ∧ (m (idxLoc d) b).toInt ≤ 99999) : (K (F := F)).TileObl (D (F := F)) 𝒱 (P m Ok1) v₀ 0 := by
  intro d c i O W hO _ _
  -- this kernel owes nothing for a protocol of its own, and nothing rides on the thread
  simp only [P_ox, P_x, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((tile_body m Ok1 d (coordsV ⟨_, hc.1⟩ ⟨_, hc.2⟩) facts hidx O W hO).trans (wp_mono frame _ _ fun _ => obl_post))

end Cert.Kernel.Hand

end
-- ==== Proof.K.SCSplit.lean ====
/-
  How the gather call's operands go out to the 32 tasks and come back.

  Into the call the TensorCore holds three arrays whole: the packed table (at contents f1), the batch of
  row numbers, and the output. The row numbers and the output are cut into the 32 groups of 32 rows, one
  per task. The table is only read, by every task: its full share is cut into 32 read tokens, one per
  task, and a remainder that stays with the TensorCore for the length of the call. Group w = 2 s + c
  belongs to subcore s of SparseCore c, a bijection between the 2 x 16 tasks and the 32 groups, so a
  SparseCore's operands are exactly its sixteen tasks' operands.

  Out of the call each task hands back its token at the contents it read, and any two shares of one
  array agree on the contents; the remainder therefore pins every task's contents to f1, the tokens and
  the remainder make the full share again, and the output groups, each the gather of f1 on its rows, make
  the whole output, the gather of f1 everywhere.
-/
import proofs.«218829_g6193342841233_cont_9to1_m_903_15_alg».proof.Proof.K.Setup
import proofs.«218829_g6193342841233_cont_9to1_m_903_15_alg».proof.Proof.K.SCPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

variable (m : (ℓ : Loc nD τ sig) → Buf (Elt F) ℓ) (Ok1 : (d : Dev nD) → Buf (Elt F) (v1Loc d) → Prop)

/-! ## Groups and tasks: w = 2 s + c is a bijection between (SparseCore, subcore) and group -/

/-- Group number from (c, s) and back: c = w mod 2, s = w div 2. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => by
    have hw := w.isLt
    refine Fin.ext ?_
    show 2 * (w.val / 2) + w.val % 2 = w.val; omega

theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A SparseCore's operands are its tasks' -/

theorem vecSplit : (K (F := F)).VecSplit' (P m Ok1) 0 := by
  intro d c
  show (bigSep Finset.univ fun s : Fin 16 => goP m Ok1 d (wid (Fin.cast nCore_zero c) s)) ⊢ |={Set.univ}=> iprop(
      (bigSep Finset.univ fun i : Fin ((K (F := F)).nSub 0) => goP m Ok1 d (wid (Fin.cast nCore_zero c) (Fin.cast nSub_zero i)))
      ∗ ((bigSep Finset.univ fun i : Fin ((K (F := F)).nSub 0) => tdP m Ok1 d (wid (Fin.cast nCore_zero c) (Fin.cast nSub_zero i)))
          -∗ bigSep Finset.univ fun s : Fin 16 => tdP m Ok1 d (wid (Fin.cast nCore_zero c) s)))
  rw [bigSep_tasks (F := F) (fun s => goP m Ok1 d (wid (Fin.cast nCore_zero c) s)),
    bigSep_tasks (F := F) (fun s => tdP m Ok1 d (wid (Fin.cast nCore_zero c) s))]
  iintro H; imodintro
  isplitl [H]; · iexact H
  iintro H; iexact H

/-! ## The 32 groups tile the row numbers and the output -/

theorem rowsI_disjoint : ∀ i ∈ (Finset.univ : Finset (Fin 32)), ∀ j ∈ (Finset.univ : Finset (Fin 32)), i ≠ j → Disjoint (rowsI i) (rowsI j) :=
  fun _ _ _ _ h => Rect.part_disjoint hdivI h
theorem rowsI_cover : (Finset.univ : Finset (Fin 32)).biUnion rowsI = Finset.univ := Rect.biUnion_part hdivI
theorem rowsO_disjoint : ∀ i ∈ (Finset.univ : Finset (Fin 32)), ∀ j ∈ (Finset.univ : Finset (Fin 32)), i ≠ j → Disjoint (rowsO i) (rowsO j) :=
  fun _ _ _ _ h => Rect.part_disjoint hdivO h
theorem rowsO_cover : (Finset.univ : Finset (Fin 32)).biUnion rowsO = Finset.univ := Rect.biUnion_part hdivO

theorem idx_rows (d : Dev nD) (f : Buf (Elt F) (idxLoc d)) :
    (idxLoc d ↦{fullShare} f : sProp 𝕄) = bigSep Finset.univ fun w : Fin 32 => idxLoc d ↦[rowsI w]{fullShare} f := by
  rw [← pointsTo_biUnion Finset.univ (ℓ := idxLoc d) rowsI rowsI_disjoint, rowsI_cover]; try rfl
theorem out_rows (d : Dev nD) (f : Buf (Elt F) (v2Loc d)) :
    (v2Loc d ↦{fullShare} f : sProp 𝕄) = bigSep Finset.univ fun w : Fin 32 => v2Loc d ↦[rowsO w]{fullShare} f := by
  rw [← pointsTo_biUnion Finset.univ (ℓ := v2Loc d) rowsO rowsO_disjoint, rowsO_cover]; try rfl

/-! ## The TensorCore's side of the call -/

/-- One group's operands, from its three pieces, given the table's contents are acceptable. -/
theorem goP_intro (d : Dev nD) (f1 : Buf (Elt F) (v1Loc d)) (f : Buf (Elt F) (v2Loc d)) (hok : Ok1 d f1) (w : Fin 32) :
    iprop((v1Loc d ↦{tok w} f1) ∗ (idxLoc d ↦[rowsI w]{fullShare} m (idxLoc d)) ∗ (v2Loc d ↦[rowsO w]{fullShare} f))
      ⊢ (goP m Ok1 d w : sProp 𝕄) := by
  unfold goP
  iintro ⟨Ht, Hi, Ho⟩
  iexists f1
  isplitr; · ipureintro; exact hok
  isplitl [Ht]; · iexact Ht
  isplitl [Hi]; · iexact Hi
  iexists f; iexact Ho

/-- Into the call: the table as 32 read tokens and a remainder the TensorCore keeps; the row numbers and the output by groups. -/
theorem st_intro (d : Dev nD) (f1 : Buf (Elt F) (v1Loc d)) (f : Buf (Elt F) (v2Loc d)) :
    iprop(⌜Ok1 d f1⌝ ∗ (v1Loc d ↦{fullShare} f1) ∗ (idxLoc d ↦{fullShare} m (idxLoc d)) ∗ (v2Loc d ↦{fullShare} f))
      ⊢ iprop((v1Loc d ↦{Transfers.shareDrop fullShare 32} f1)
          ∗ bigSep Finset.univ fun c : Fin ((K (F := F)).nCore 0) => (P m Ok1).st 0 d c) := by
  show _ ⊢ iprop((v1Loc d ↦{Transfers.shareDrop fullShare 32} f1)
      ∗ bigSep Finset.univ fun c : Fin ((K (F := F)).nCore 0) => bigSep Finset.univ fun s : Fin 16 => goP m Ok1 d (wid (Fin.cast nCore_zero c) s))
  rw [bigSep_cores (F := F) (fun c => bigSep Finset.univ fun s : Fin 16 => goP m Ok1 d (wid c s)), ← bigSep_wid (fun w => goP m Ok1 d w),
    idx_rows, out_rows]
  iintro ⟨%hok, Ht, Hi, Ho⟩
  ihave Ht := (Transfers.pointsTo_toks_split fullShare 32) $$ Ht
  icases Ht with ⟨Hrem, Htoks⟩
  isplitl [Hrem]; · iexact Hrem
  have hjoin : iprop((bigSep Finset.univ fun w : Fin 32 => v1Loc d ↦{tok w} f1)
      ∗ (bigSep Finset.univ fun w : Fin 32 => idxLoc d ↦[rowsI w]{fullShare} m (idxLoc d))
      ∗ (bigSep Finset.univ fun w : Fin 32 => v2Loc d ↦[rowsO w]{fullShare} f)) ⊢ (bigSep Finset.univ fun w : Fin 32 => goP m Ok1 d w : sProp 𝕄) := by
    rw [← bigSep_sep', ← bigSep_sep']
    exact bigSep_mono fun w _ => goP_intro m Ok1 d f1 f hok w
  iapply hjoin
  isplitl [Htoks]; · iexact Htoks
  isplitl [Hi]; · iexact Hi
  iexact Ho

/-! ## Out of the call

Each task's results speak of the table contents it read. The remainder share the TensorCore kept is of the
same array, and two shares of one array agree on its contents; so every task read the contents f1 the
TensorCore put in. With the contents pinned, the 32 tokens and the remainder are the full share again, the
row-number groups are the batch, and the output groups are the whole output at the function that is each
task's on its group, which is the gather of f1 on every group, hence everywhere. -/

/-- One group's results, the table contents pinned to f1. -/
def tdQ (d : Dev nD) (f1 : Buf (Elt F) (v1Loc d)) (w : Fin 32) : sProp 𝕄 :=
  iprop((v1Loc d ↦{tok w} f1) ∗ (idxLoc d ↦[rowsI w]{fullShare} m (idxLoc d))
    ∗ ∃ f2 : Buf (Elt F) (v2Loc d), ⌜Gath m d f1 f2 (rowsO w)⌝ ∗ v2Loc d ↦[rowsO w]{fullShare} f2)

/-- Beside the remainder at f1, a task's table contents are f1. -/
theorem tdP_pin (d : Dev nD) (f1 : Buf (Elt F) (v1Loc d)) (w : Fin 32) :
    iprop((v1Loc d ↦{Transfers.shareDrop fullShare 32} f1) ∗ tdP m Ok1 d w)
      ⊢ iprop((v1Loc d ↦{Transfers.shareDrop fullShare 32} f1) ∗ tdQ m d f1 w) := by
  unfold tdP tdQ
  iintro ⟨Hr, %f1', %hok, Ht, Hi, %f2, %hg, Ho⟩
  ihave Hag := (persistent_entails_right pointsTo_agree) $$ [Hr Ht]
  · isplitl [Hr]; · iexact Hr
    iexact Ht
  icases Hag with ⟨%hag, Hr, Ht⟩
  have e : f1' = f1 := funext fun i => ((hag i (Finset.mem_inter.mpr ⟨Finset.mem_univ _, Finset.mem_univ _⟩)).1).symm
  subst e
  isplitl [Hr]; · iexact Hr
  isplitl [Ht]; · iexact Ht
  isplitl [Hi]; · iexact Hi
  iexists f2; isplitr; · ipureintro; exact hg
  iexact Ho

/-- A resource that each summand can use and give back can be used by all of them in turn. -/
theorem bigSep_thread {I : Type} [DecidableEq I] (s : Finset I) (R : sProp 𝕄) (Φ Ψ : I → sProp 𝕄)
    (h : ∀ i, iprop(R ∗ Φ i) ⊢ iprop(R ∗ Ψ i)) : iprop(R ∗ bigSep s Φ) ⊢ iprop(R ∗ bigSep s Ψ) := by
  induction s using Finset.induction_on with
  | empty => rw [bigSep_empty, bigSep_empty]
  | insert i s hi ih =>
    have e1 : bigSep (insert i s) Φ = iprop(Φ i ∗ bigSep s Φ) := bigSep_insert hi
    have e2 : bigSep (insert i s) Ψ = iprop(Ψ i ∗ bigSep s Ψ) := bigSep_insert hi
    rw [e1, e2]
    iintro ⟨HR, Hi, Hs⟩
    ihave H := (h i) $$ [HR Hi]
    · isplitl [HR]; · iexact HR
      iexact Hi
    icases H with ⟨HR, Hi⟩
    ihave H := ih $$ [HR Hs]
    · isplitl [HR]; · iexact HR
      iexact Hs
    icases H with ⟨HR, Hs⟩
    isplitl [HR]; · iexact HR
    isplitl [Hi]; · iexact Hi
    iexact Hs

variable [FloatOps F]

/-- The output groups, each the gather of f1 on its rows, are the whole output, the gather of f1 everywhere. -/
theorem out_join (d : Dev nD) (f1 : Buf (Elt F) (v1Loc d)) :
    (bigSep Finset.univ fun w : Fin 32 => iprop(∃ f2 : Buf (Elt F) (v2Loc d), ⌜Gath m d f1 f2 (rowsO w)⌝ ∗ v2Loc d ↦[rowsO w]{fullShare} f2))
      ⊢ (iprop(∃ f2 : Buf (Elt F) (v2Loc d), ⌜Gath m d f1 f2 Finset.univ⌝ ∗ v2Loc d ↦{fullShare} f2) : sProp 𝕄) := by
  refine (bigSep_exists_pi Finset.univ (fun (w : Fin 32) (f2 : Buf (Elt F) (v2Loc d)) =>
    iprop(⌜Gath m d f1 f2 (rowsO w)⌝ ∗ v2Loc d ↦[rowsO w]{fullShare} f2))).trans ?_
  iintro ⟨%fs, H⟩
  ihave H := (bigSep_pure_sep Finset.univ (fun w : Fin 32 => Gath m d f1 (fs w) (rowsO w))
    (fun w : Fin 32 => v2Loc d ↦[rowsO w]{fullShare} fs w)) $$ H
  icases H with ⟨%hG, H⟩
  ihave H' := (pointsTo_biUnion_join Finset.univ rowsO fs (fs 0) rowsO_disjoint) $$ H
  icases H' with ⟨%g, %hg, Hg⟩
  rw [rowsO_cover]
  iexists g
  isplitr
  · ipureintro
    intro i b k _ hb hk0 hk1
    obtain ⟨w, hw⟩ := Rect.exists_mem_part hdivO i
    rw [hg w (Finset.mem_univ _) i hw]
    exact hG w (Finset.mem_univ _) i b k hw hb hk0 hk1
  · iexact Hg

/-- Out of the call: the table whole at the contents put in, the row numbers whole, the output whole at the gather. -/
theorem dn_elim (d : Dev nD) (f1 : Buf (Elt F) (v1Loc d)) :
    iprop((v1Loc d ↦{Transfers.shareDrop fullShare 32} f1)
        ∗ bigSep Finset.univ fun c : Fin ((K (F := F)).nCore 0) => (P m Ok1).dn 0 d c)
      ⊢ iprop(∃ f2 : Buf (Elt F) (v2Loc d), ⌜Gath m d f1 f2 Finset.univ⌝ ∗ (v1Loc d ↦{fullShare} f1)
          ∗ (idxLoc d ↦{fullShare} m (idxLoc d)) ∗ (v2Loc d ↦{fullShare} f2)) := by
  show iprop((v1Loc d ↦{Transfers.shareDrop fullShare 32} f1)
      ∗ bigSep Finset.univ fun c : Fin ((K (F := F)).nCore 0) => bigSep Finset.univ fun s : Fin 16 => tdP m Ok1 d (wid (Fin.cast nCore_zero c) s)) ⊢ _
  rw [bigSep_cores (F := F) (fun c => bigSep Finset.univ fun s : Fin 16 => tdP m Ok1 d (wid c s)), ← bigSep_wid (fun w => tdP m Ok1 d w)]
  refine (bigSep_thread Finset.univ _ _ (fun w => tdQ m d f1 w) (tdP_pin m Ok1 d f1)).trans ?_
  unfold tdQ
  rw [bigSep_sep', bigSep_sep', idx_rows d (m (idxLoc d))]
  iintro ⟨Hr, Htoks, Hi, Ho⟩
  ihave Ho := (out_join m d f1) $$ Ho
  icases Ho with ⟨%f2, %hG, Ho⟩
  iexists f2
  isplitr; · ipureintro; exact hG
  isplitl [Hr Htoks]
  · iapply (Transfers.pointsTo_toks_join fullShare 32)
    isplitl [Hr]; · iexact Hr
    iexact Htoks
  isplitl [Hi]; · iexact Hi
  iexact Ho

end Cert.Kernel.Hand

end
-- ==== Proof.K.Final.lean ====
/-
  What the final valuation of the entry function holds, read off the relation that says how it arises.

  The final valuation is the launch one pushed through: the table's transpose, the repacked table written by the
  first call, the gathered lines written by the gather, six host operations computing the half selector and the
  transposed projection matrix, the projection's result written by the second call, and that result's transpose.
  Each host operation rewrites exactly one array and each call exactly one; so an array none of them writes holds
  at the end what it held at launch (the three arguments), an array written once and never again holds what that
  one step put there (everything else), and the array written last holds the last operation's value.
-/
import proofs.«218829_g6193342841233_cont_9to1_m_903_15_alg».proof.Proof.K.Main

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

section Final

variable (Out0 : Dev nD → Valuation τ sig (Elt F) → (v1' : DevRef τ sig).ty.Contents (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- The valuation the projection call is entered at: the launch one after the table's transpose, the two written
    arrays f1 (repacked table) and f2 (gathered lines), and the six host operations in between. -/
abbrev Wmid (W0 : Valuation τ sig (Elt F)) (f1 : (v1' : DevRef τ sig).ty.Contents (Elt F))
    (f2 : (v2' : DevRef τ sig).ty.Contents (Elt F)) : Valuation τ sig (Elt F) :=
  StableHlo.after (midOps (F := F)) (Function.update (Function.update ((opTab (F := F)).result W0) v1' f1) v2' f2)

/-! ## (1) No step writes an argument -/

theorem reach_args (d : Dev nD) (W0 Wf : Valuation τ sig (Elt F)) (h : Reach Out0 OutSC Out1 d W0 Wf) :
    Wf (Proc.devRef .tc (main_arg0 : Ref sig .tc)) = W0 (Proc.devRef .tc (main_arg0 : Ref sig .tc))
    ∧ Wf (Proc.devRef .tc (main_arg1 : Ref sig .tc)) = W0 (Proc.devRef .tc (main_arg1 : Ref sig .tc))
    ∧ Wf (Proc.devRef .tc (main_arg2 : Ref sig .tc)) = W0 (Proc.devRef .tc (main_arg2 : Ref sig .tc)) := by
  obtain ⟨f1, f2, A8, -, -, -, rfl⟩ := h
  refine ⟨?_, ?_, ?_⟩ <;>
    simp (disch := decide) only [StableHlo.after_cons, StableHlo.after_nil, StableHlo.nullary_result_ne', StableHlo.unary_result_ne',
      StableHlo.binary_result_ne', StableHlo.reshape_result_ne', Function.update_of_ne]

/-! ## (2) The result array holds the projection's result, transposed -/

theorem reach_result (d : Dev nD) (W0 Wf : Valuation τ sig (Elt F)) (h : Reach Out0 OutSC Out1 d W0 Wf) :
    ∃ (f1 : (v1' : DevRef τ sig).ty.Contents (Elt F)) (f2 : (v2' : DevRef τ sig).ty.Contents (Elt F))
      (A8 : (v8' : DevRef τ sig).ty.Contents (Elt F)),
      Out0 d ((opTab (F := F)).result W0) f1
      ∧ OutSC d (Function.update ((opTab (F := F)).result W0) v1' f1) f2
      ∧ Out1 d (Wmid W0 f1 f2) A8
      ∧ Wf (Proc.devRef .tc (main_v9 : Ref sig .tc))
          = transpose S1024x100000 [1, 0] (A8 : (⟨S100000x1024, .f32⟩ : BufTy).Contents (Elt F)) transposes_S100000x1024_S1024x100000_1_0 := by
  obtain ⟨f1, f2, A8, h0, hsc, h1, rfl⟩ := h
  refine ⟨f1, f2, A8, h0, hsc, h1, ?_⟩
  simp (disch := decide) only [StableHlo.unary_result', Function.update_self]

/-! ## (3) The valuation the projection call is entered at -/

section Mid

variable (W0 : Valuation τ sig (Elt F)) (f1 : (v1' : DevRef τ sig).ty.Contents (Elt F))
  (f2 : (v2' : DevRef τ sig).ty.Contents (Elt F))

/-- The table's transpose, right after it is computed. -/
theorem tab_v0 : (opTab (F := F)).result W0 (Proc.devRef .tc (main_v0 : Ref sig .tc))
    = transpose S64x100000 [1, 0] (W0 (Proc.devRef .tc (main_arg1 : Ref sig .tc)) : (⟨S100000x64, .f32⟩ : BufTy).Contents (Elt F)) transposes_S100000x64_S64x100000_1_0 := by
  simp (disch := decide) only [StableHlo.unary_result']

/-- ... and still there when the projection call is entered. -/
theorem mid_v0 : Wmid W0 f1 f2 (Proc.devRef .tc (main_v0 : Ref sig .tc))
    = transpose S64x100000 [1, 0] (W0 (Proc.devRef .tc (main_arg1 : Ref sig .tc)) : (⟨S100000x64, .f32⟩ : BufTy).Contents (Elt F)) transposes_S100000x64_S64x100000_1_0 := by
  simp (disch := decide) only [StableHlo.after_cons, StableHlo.after_nil, StableHlo.nullary_result_ne', StableHlo.unary_result_ne',
    StableHlo.binary_result_ne', StableHlo.reshape_result_ne', Function.update_of_ne, StableHlo.unary_result']

/-- The repacked table and the gathered lines are what the two calls wrote. -/
theorem mid_v1 : Wmid W0 f1 f2 v1' = f1 := by
  simp (disch := decide) only [StableHlo.after_cons, StableHlo.after_nil, StableHlo.nullary_result_ne', StableHlo.unary_result_ne',
    StableHlo.binary_result_ne', StableHlo.reshape_result_ne', Function.update_of_ne, Function.update_self]
theorem mid_v2 : Wmid W0 f1 f2 v2' = f2 := by
  simp (disch := decide) only [StableHlo.after_cons, StableHlo.after_nil, StableHlo.nullary_result_ne', StableHlo.unary_result_ne',
    StableHlo.binary_result_ne', StableHlo.reshape_result_ne', Function.update_of_ne, Function.update_self]

/-- The projection matrix transposed. -/
theorem mid_v7 : Wmid W0 f1 f2 (Proc.devRef .tc (main_v7 : Ref sig .tc))
    = transpose S64x100000 [1, 0] (W0 (Proc.devRef .tc (main_arg2 : Ref sig .tc)) : (⟨S100000x64, .f32⟩ : BufTy).Contents (Elt F)) transposes_S100000x64_S64x100000_1_0 := by
  simp (disch := decide) only [StableHlo.after_cons, StableHlo.after_nil, StableHlo.nullary_result_ne', StableHlo.unary_result_ne',
    StableHlo.binary_result_ne', StableHlo.reshape_result_ne', Function.update_of_ne, StableHlo.unary_result']

/-- The half selector: the indices tested against the broadcast constant 57344, the bit widened, made a column. -/
theorem mid_v6 : Wmid W0 f1 f2 (Proc.devRef .tc (main_v6 : Ref sig .tc))
    = shapeCast S1024x1 (extui 32 (cmpi .sge (W0 (Proc.devRef .tc (main_arg0 : Ref sig .tc)) : (⟨S1024, .i32⟩ : BufTy).Contents (Elt F))
        (broadcastInDim S1024 ![] bcast_S_S1024 (constantI S_ 32 57344#32))) natLt_1_32) shapeCasts_S1024_S1024x1 := by
  simp (disch := decide) only [StableHlo.after_cons, StableHlo.after_nil, StableHlo.nullary_result_ne', StableHlo.unary_result_ne',
    StableHlo.binary_result_ne', StableHlo.reshape_result_ne', Function.update_of_ne,
    StableHlo.nullary_result', StableHlo.unary_result', StableHlo.binary_result', StableHlo.reshape_result']
  -- what is left is the reshape written position by position, at the result array's own shape
  rfl

end Mid

/-! ## (4) The final memory agrees with the final valuation -/

section Fin

variable (m : (ℓ : Loc nD τ sig) → Buf (Elt F) ℓ)

/-- What the final physical state is known to satisfy on device d: there is a valuation reached from the launch one
    that every unscoped array of the device holds. -/
def fq (d : Dev nD) (s' : Phys nD τ sig (Elt F)) : Prop :=
  ∃ Wf, Reach Out0 OutSC Out1 d (W₀ m d) Wf ∧ ∀ b ∈ ucRefs τ sig, s'.mem.mem (d, b) = Wf b

/-- Owning every unscoped array whole at a valuation, together with the state interpretation of the physical
    state, pins the physical contents of each of those arrays to the valuation's. -/
theorem hfin (d : Dev nD) (s' : Phys nD τ sig (Elt F)) :
    iprop(FIN Out0 OutSC Out1 m d ∗ SI s') ⊢ (⌜fq Out0 OutSC Out1 m d s'⌝ : sProp (MM F)) := by
  unfold FIN held
  iintro ⟨⟨%Wf, %hR, Hheld⟩, HSI⟩
  ihave %h := (SI_pointsTo_bufs_agree (st := s') (c := d) (qs := fun _ => fullShare) (F := Wf) (ucRefs τ sig)) $$ [HSI Hheld]
  · isplitl [HSI]
    · iexact HSI
    · iexact Hheld
  ipureintro
  exact ⟨Wf, hR, h⟩

end Fin

end Final

end Cert.Kernel.Hand

end
-- ==== Proof.K.LaunchDeal.lean ====
/-
  The launch element dealt: the handshakes' part to the launch theorem, the pipelines' staging cells' ghost state
  and tokens to @main's proof on each device, nothing to the kernels' proofs.
-/
import proofs.«218829_g6193342841233_cont_9to1_m_903_15_alg».proof.Proof.K.LaunchElem

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Both families of the pipelines' launch ghost state, regrouped per device and pipeline. -/
theorem G_eq :
    (bigSep Finset.univ fun d : Dev nD => G (F := F) d)
      = iprop((bigSep Finset.univ fun d : Dev nD => bigSep Finset.univ fun p : Fin 2 => Pipeline.cellsGhost (cfgs' (F := F)) EP p d)
          ∗ (bigSep Finset.univ fun d : Dev nD => bigSep Finset.univ fun p : Fin 2 => (Pipeline.toksInit (cfgs' (F := F)) EP p d : sProp (MM F)))) := by
  unfold G
  rw [← bigSep_sep']
  exact bigSep_congr fun d _ => bigSep_sep' _ _ _

/-- The launch element pays for the handshakes' rounds and both pipelines' staging cells; a payload family whose
    kernels consume nothing of the launch's takes nothing. -/
theorem hu₀ (P : (K (F := F)).Pay (nD := nD) (Val := Elt F) (Name := ℕ) (U := UU)) (hPx : ∀ q thr, P.x q thr = iprop(emp)) :
    (ownU (u₀ (F := F)) : sProp (MM F))
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_split3 _ _ _) $$ Hu
  icases H with ⟨HH, HP⟩
  imod (Pipeline.fund_ghost (cfgs' (F := F)) EP cells_inj) $$ HP with ⟨Hg, Ht⟩
  imodintro
  isplitl [HH]; · iexact HH
  isplitl [Hg Ht]
  · rw [G_eq]; isplitl [Hg] <;> iassumption
  · rw [show (bigSep Finset.univ fun thr : Thread nD τ => bigSep Finset.univ fun q : Fin 1 => P.x q thr) = (iprop(emp) : sProp (MM F)) from by
      rw [bigSep_congr fun thr _ => (bigSep_congr fun q _ => hPx q thr).trans (bigSep_emp' _), bigSep_emp']]
    iempintro

end Cert.Kernel.Hand

end
-- ==== Proof.K.Run.lean ====
/-
  The whole program's run, from the pieces.

  The launch theorem for a program with SparseCore calls takes: what each kind of thread's program does (the
  TensorCore's entry function; each vector subcore's task), the launch element of the ghost state dealt to the
  threads, and a reading of the final assertions against the final physical state. Here the entry function's proof
  is the step-by-step composition, the vector subcores' obligations and the three calls' step rules are taken as
  hypotheses, and the final reading is: on each device every unscoped array holds a valuation reached from the
  launch one. Two consequences are then read off that relation: the arguments end as they began, and the result
  array holds the transposed result of the projection.
-/
import proofs.«218829_g6193342841233_cont_9to1_m_903_15_alg».proof.Proof.K.Main
import proofs.«218829_g6193342841233_cont_9to1_m_903_15_alg».proof.Proof.K.Final
import proofs.«218829_g6193342841233_cont_9to1_m_903_15_alg».proof.Proof.K.LaunchDeal

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

section Run

variable (P : (K (F := F)).Pay (nD := nD) (Val := Elt F) (Name := ℕ) (U := UU))
variable (Out0 : Dev nD → Valuation τ sig (Elt F) → (v1' : DevRef τ sig).ty.Contents (Elt F) → Prop)
  (PreSC : Dev nD → Valuation τ sig (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- THE RUN: the program terminates without fault, and on each device every unscoped array ends at a valuation
    reached from the launch one. -/
theorem run_main_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.Kernel.defs (F := F)) (Cert.Kernel.threads (F := F)) ⟨m, fun _ => 0, ρ⟩
      (fun r => ∀ c : Dev nD, ∃ Wf, Reach Out0 OutSC Out1 c (W₀ m c) Wf ∧ ∀ b ∈ ucRefs τ sig, r.2.mem (c, b) = Wf b) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G d) (FIN Out0 OutSC Out1 m) (u₀ (F := F)) (sep_elim_left.trans (hu₀ P hPx))
    (fun κ d => hmain P Out0 PreSC OutSC Out1 κ m ρ (h0 κ) (hsc κ) (h1 κ) hpre d)
    (fq Out0 OutSC Out1 m) (hfin Out0 OutSC Out1 m) _ (fun _ h => h) hheld

/-! ## The four arrays the claims speak of are unscoped arrays of the device -/

theorem arg0_mem : (Proc.devRef .tc (main_arg0 : Ref sig .tc) : DevRef τ sig) ∈ ucRefs τ sig := by decide
theorem arg1_mem : (Proc.devRef .tc (main_arg1 : Ref sig .tc) : DevRef τ sig) ∈ ucRefs τ sig := by decide
theorem arg2_mem : (Proc.devRef .tc (main_arg2 : Ref sig .tc) : DevRef τ sig) ∈ ucRefs τ sig := by decide
theorem v9_mem : (Proc.devRef .tc (main_v9 : Ref sig .tc) : DevRef τ sig) ∈ ucRefs τ sig := by decide

/-- From the final reading on one device: the three arguments hold what they held at launch. -/
theorem args_of_reach (m : (ℓ : Loc nD τ sig) → Buf (Elt F) ℓ) (mem' : (ℓ : Loc nD τ sig) → Buf (Elt F) ℓ) (c : Dev nD)
    (Wf : Valuation τ sig (Elt F)) (hR : Reach Out0 OutSC Out1 c (W₀ m c) Wf) (hmem : ∀ b ∈ ucRefs τ sig, mem' (c, b) = Wf b) :
    mem' ((c.tc : Thread nD τ).loc main_arg0) = m ((c.tc : Thread nD τ).loc main_arg0)
    ∧ mem' ((c.tc : Thread nD τ).loc main_arg1) = m ((c.tc : Thread nD τ).loc main_arg1)
    ∧ mem' ((c.tc : Thread nD τ).loc main_arg2) = m ((c.tc : Thread nD τ).loc main_arg2) := by
  obtain ⟨a0, a1, a2⟩ := reach_args Out0 OutSC Out1 c (W₀ m c) Wf hR
  exact ⟨(hmem _ arg0_mem).trans a0, (hmem _ arg1_mem).trans a1, (hmem _ arg2_mem).trans a2⟩

/-- (a) THE FRAME: the program runs and its argument arrays end unchanged. -/
theorem run_frame_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.Kernel.defs (F := F)) _ _).mono
    (fun r h c => by
      obtain ⟨Wf, hR, hmem⟩ := h c
      exact args_of_reach Out0 OutSC Out1 m r.2.mem c Wf hR hmem)
    (run_main_of P Out0 PreSC OutSC Out1 hPx hheld m ρ htile hvec h0 hsc h1 hpre)

/-- (b) THE VALUE: the program runs; on each device the result array holds the transpose of a projection result A8
    related, through the three calls' relations, to the launch valuation; and the arguments end unchanged. -/
theorem run_value_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.Kernel.defs (F := F)) (Cert.Kernel.threads (F := F)) ⟨m, fun _ => 0, ρ⟩ (fun r => ∀ c : Dev nD,
      (∃ (f1 : (v1' : DevRef τ sig).ty.Contents (Elt F)) (f2 : (v2' : DevRef τ sig).ty.Contents (Elt F))
          (A8 : (v8' : DevRef τ sig).ty.Contents (Elt F)),
        Out0 c ((opTab (F := F)).result (W₀ m c)) f1
        ∧ OutSC c (Function.update ((opTab (F := F)).result (W₀ m c)) v1' f1) f2
        ∧ Out1 c (Wmid (W₀ m c) f1 f2) A8
        ∧ r.2.mem ((c.tc : Thread nD τ).loc main_v9)
            = transpose S1024x100000 [1, 0] (A8 : (⟨S100000x1024, .f32⟩ : BufTy).Contents (Elt F)) transposes_S100000x1024_S1024x100000_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.Kernel.defs (F := F)) _ _).mono
    (fun r h c => by
      obtain ⟨Wf, hR, hmem⟩ := h c
      obtain ⟨f1, f2, A8, e0, esc, e1, e9⟩ := reach_result Out0 OutSC Out1 c (W₀ m c) Wf hR
      exact ⟨⟨f1, f2, A8, e0, esc, e1, (hmem _ v9_mem).trans e9⟩, args_of_reach Out0 OutSC Out1 m r.2.mem c Wf hR hmem⟩)
    (run_main_of P Out0 PreSC OutSC Out1 hPx hheld m ρ htile hvec h0 hsc h1 hpre)

end Run

end Cert.Kernel.Hand

end
-- ==== Proof.K.Assemble.lean ====
/-
  The program's run.

  The gather's tasks expect of the packed table what the repack leaves in it; with that, the three step rules of @main's
  proof are the two regions' records and the gather call's payloads, and the launch theorem gives the run: every weakly
  fair execution of the device's threads terminates, no thread faulting, the arguments unchanged and the result the
  projection's array transposed, of which the three calls' relations are known.
-/
import proofs.«218829_g6193342841233_cont_9to1_m_903_15_alg».proof.Proof.K.Steps
import proofs.«218829_g6193342841233_cont_9to1_m_903_15_alg».proof.Proof.K.SCStep
import proofs.«218829_g6193342841233_cont_9to1_m_903_15_alg».proof.Proof.K.SCTask
import proofs.«218829_g6193342841233_cont_9to1_m_903_15_alg».proof.Proof.K.SCSplit
import proofs.«218829_g6193342841233_cont_9to1_m_903_15_alg».proof.Proof.K.Run

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F] [∀ e, Nonempty (Elt F e)]
variable (m : (ℓ : Loc nD τ sig) → Buf (Elt F) ℓ) (ρ : Dev nD → PrngReg)

/-- What the gather's tasks expect of the packed table: what the repack, entered after the table's transposition, leaves. -/
def Ok1 (d : Dev nD) (f1 : Buf (Elt F) (v1Loc d)) : Prop := OutR0 d ((opTab (F := F)).result (W₀ m d)) f1

/-- The repack writes neither the row numbers nor anything but the packed table: the gather is entered as it expects. -/
theorem pre_gather (d : Dev nD) (f1 : (v1' : DevRef τ sig).ty.Contents (Elt F))
    (h : OutR0 d ((opTab (F := F)).result (W₀ m d)) f1) :
    PreSC m (Ok1 m) d (Function.update ((opTab (F := F)).result (W₀ m d)) v1' f1) := by
  refine ⟨?_, ?_⟩
  · rw [Function.update_of_ne (show a0' ≠ v1' by decide),
      (opTab (F := F)).result_of_not_mem (W₀ m d) (b := a0')
        (show a0' ∉ ({Proc.devRef .tc (main_v0 : Ref sig .tc)} : Finset (DevRef τ sig)) from by decide)]
    rfl
  · rw [Function.update_self]; exact h

/-- The row numbers lie in the table's range, on every device. -/
def IdxOK : Prop := ∀ (d : Dev nD) (i : S1024.Idx), 0 ≤ (m (idxLoc d) i).toInt ∧ (m (idxLoc d) i).toInt ≤ 99999

theorem run_main (hidx : IdxOK m) :
    θ_run (Cert.Kernel.defs (F := F)) (Cert.Kernel.threads (F := F)) ⟨m, fun _ => 0, ρ⟩
      (fun r => ∀ c : Dev nD, ∃ Wf, Reach OutR0 (OutSC m) OutR1 c (W₀ m c) Wf ∧ ∀ b ∈ ucRefs τ sig, r.2.mem (c, b) = Wf b) :=
  run_main_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

theorem frame (hidx : IdxOK m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

theorem run_value (hidx : IdxOK m) :
    θ_run (Cert.Kernel.defs (F := F)) (Cert.Kernel.threads (F := F)) ⟨m, fun _ => 0, ρ⟩ (fun r => ∀ c : Dev nD,
      (∃ (f1 : (v1' : DevRef τ sig).ty.Contents (Elt F)) (f2 : (v2' : DevRef τ sig).ty.Contents (Elt F)) (A8 : (v8' : DevRef τ sig).ty.Contents (Elt F)),
        OutR0 c ((opTab (F := F)).result (W₀ m c)) f1
        ∧ OutSC m c (Function.update ((opTab (F := F)).result (W₀ m c)) v1' f1) f2
        ∧ OutR1 c (Wmid (W₀ m c) f1 f2) A8
        ∧ r.2.mem ((c.tc : Thread nD τ).loc main_v9) = transpose S1024x100000 [1, 0] (A8 : (⟨S100000x1024, .f32⟩ : BufTy).Contents (Elt F)) transposes_S100000x1024_S1024x100000_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

end Cert.Kernel.Hand

end
-- ==== Proof.KI.Setup.lean ====
/-
  The program as the launch theorems see it, and the one resource algebra every part of the proof shares.

  The device runs @main on its TensorCore and the gather kernel's tasks on the vector subcores of both
  SparseCores. Three protocols meet in the ghost state, side by side: the SparseCore launch handshakes (rounds
  named by call numbers), the two TensorCore pipelines' staging cells (rounds with unnamed duties), and the
  counters of the local copies a vector subcore makes and waits for itself.
-/
import proofs.«218829_g6193342841233_cont_9to1_m_903_15_alg».proof.Proof.Gen.KernelIdeal
import proofs.«218829_g6193342841233_cont_9to1_m_903_15_alg».proof.Proof.Gen.KernelIdeal.Skeleton
import proofs.«218829_g6193342841233_cont_9to1_m_903_15_alg».proof.Proof.Gen.KernelIdeal.Launch
import proofs.«218829_g6193342841233_cont_9to1_m_903_15_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the two TensorCore pipelines over the kernels' own. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore dispatch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- Neither pipeline has prefetched tables: the one admissible choice. -/
abbrev adm : (p : Fin 2) → (pcfgs (F := F) p).Adm := fun _ => ⟨fun i => i.elim0, trivial⟩

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds, named by call number. -/
abbrev UH : Type := URounds (GSem nD τ sig) ℕ
/-- The pipelines' staging cells' rounds. -/
abbrev UP : Type := UR sig nD τ
/-- Handshakes, pipelines, and the counters of a subcore's own copies. -/
abbrev UU : Type := UH × (UP × Counters)

abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP embR; infer_instance

end Cert.KernelIdeal.Hand

end
-- ==== Proof.KI.LaunchElem.lean ====
/-
  The launch element of the ghost state: what the program's proof starts from.

  Beside the launch handshakes' rounds, the element funds the staging cells of both TensorCore pipelines (their
  launch ghost state and duty tokens, handed to @main's proof per device) and the unit of the copy counters.
  No kernel of this program has a protocol of its own across the launch, so the kernels' proofs consume nothing.
-/
import proofs.«218829_g6193342841233_cont_9to1_m_903_15_alg».proof.Proof.KI.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The two pipelines at their one admissible (empty) choice of tables: the printed configurations. -/
abbrev cfgs' : Fin 2 → Pipeline.Cfg sig Λ₀ := Pipeline.pin (pcfgs (F := F)) adm

/-- Their staging cells are pairwise distinct. -/
theorem cells_inj : Function.Injective (Pipeline.cellOf (nD := nD) (τ := τ) (cfgs' (F := F))) := Gen.cellOf_inj

/-- The launch element: the handshakes' cells and tokens, the pipelines' cells and tokens, the counters' unit. -/
def u₀ : UU :=
  (initOf (K (F := F)).hsCells (K (F := F)).hsToks,
    (initOf (Pipeline.cells (cfgs' (F := F)) cells_inj) (Pipeline.launchToks (cfgs' (F := F)) cells_inj), 1))

/-- What @main's proof on device `d` starts from beside the arrays: both pipelines' launch ghost state and tokens. -/
def G (d : Dev nD) : sProp (MM F) :=
  bigSep Finset.univ fun p : Fin 2 => iprop(Pipeline.cellsGhost (cfgs' (F := F)) EP p d ∗ Pipeline.toksInit (cfgs' (F := F)) EP p d)

theorem bigSep_emp' {I : Type} (s : Finset I) : (bigSep s fun _ => iprop(emp)) = (iprop(emp) : sProp (MM F)) := bigSep_emp_const s

/-- The element splits into the handshakes' part and the pipelines' part (the counters' unit is dropped). -/
theorem ownU_split3 (a : UH) (b : UP) (c : Counters) :
    (ownU ((a, (b, c)) : UU) : sProp (MM F)) ⊢ iprop(BI.own (EH a) ∗ BI.own (EP b)) := by
  refine (ownU_pair a (b, c)).trans (sep_mono .rfl ?_)
  exact (own_pair_emb (embR : Emb (UP × Counters) (MM F)) b c).trans sep_elim_left

end Cert.KernelIdeal.Hand

end
-- ==== Proof.KI.Main.lean ====
/-
  @main on the TensorCore, step by step.

  @main transposes the table, runs the repack call, starts the gather on the SparseCores and waits for it, computes the
  half selector and transposes the projection matrix, runs the projection call and transposes its result. Between steps
  the TensorCore's state is every unscoped buffer whole at a valuation; a host operation moves the valuation to the
  operation's result; each call replaces the one array it writes by contents of which a relation is known. What the
  three calls do is taken here as three step rules, hypotheses of this module, which composes them
  with the host operations and records, as a pure relation, how the final valuation arises from the launch one.
-/
import proofs.«218829_g6193342841233_cont_9to1_m_903_15_alg».proof.Proof.KI.LaunchElem
import Idealize.ShloMosaic.Lib.Pipeline.Frame

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

/-! ## The host operations, and the arrays the calls write -/

abbrev v1' : DevRef τ sig := Proc.devRef .tc (main_v1 : Ref sig .tc)
abbrev v2' : DevRef τ sig := Proc.devRef .tc (main_v2 : Ref sig .tc)
abbrev v8' : DevRef τ sig := Proc.devRef .tc (main_v8 : Ref sig .tc)

/-- The table transposed. -/
abbrev opTab : HloOp τ sig (Elt F) := StableHlo.unary main_arg1 main_v0 ((transpose S64x100000 [1, 0] · transposes_S100000x64_S64x100000_1_0) : (⟨S100000x64, .f32⟩ : BufTy).Contents (Elt F) → (⟨S64x100000, .f32⟩ : BufTy).Contents (Elt F))
/-! The half selector: the split row number 57344 (`opC`), spread over the batch (`opB`), compared with the indices (`opG`),
    the bit widened (`opE`) and made a column (`opR`). -/

/-- The split row number. -/
abbrev opC : HloOp τ sig (Elt F) := StableHlo.nullary main_c (constantI S_ 32 57344#32)
abbrev opB : HloOp τ sig (Elt F) := StableHlo.unary main_c main_v3 (broadcastInDim S1024 ![] bcast_S_S1024 : (⟨S_, .i32⟩ : BufTy).Contents (Elt F) → (⟨S1024, .i32⟩ : BufTy).Contents (Elt F))
abbrev opG : HloOp τ sig (Elt F) := StableHlo.binary main_arg0 main_v3 main_v4 (cmpi .sge : (⟨S1024, .i32⟩ : BufTy).Contents (Elt F) → (⟨S1024, .i32⟩ : BufTy).Contents (Elt F) → (⟨S1024, .i1⟩ : BufTy).Contents (Elt F))
abbrev opE : HloOp τ sig (Elt F) := StableHlo.unary main_v4 main_v5 ((extui 32 · natLt_1_32) : (⟨S1024, .i1⟩ : BufTy).Contents (Elt F) → (⟨S1024, .i32⟩ : BufTy).Contents (Elt F))
abbrev opR : HloOp τ sig (Elt F) := StableHlo.reshape main_v5 main_v6 rfl shapeCasts_S1024_S1024x1
/-- The projection matrix transposed. -/
abbrev opW : HloOp τ sig (Elt F) := StableHlo.unary main_arg2 main_v7 ((transpose S64x100000 [1, 0] · transposes_S100000x64_S64x100000_1_0) : (⟨S100000x64, .f32⟩ : BufTy).Contents (Elt F) → (⟨S64x100000, .f32⟩ : BufTy).Contents (Elt F))
/-- The projection's result transposed: the program's result. -/
abbrev opOut : HloOp τ sig (Elt F) := StableHlo.unary main_v8 main_v9 ((transpose S1024x100000 [1, 0] · transposes_S100000x1024_S1024x100000_1_0) : (⟨S100000x1024, .f32⟩ : BufTy).Contents (Elt F) → (⟨S1024x100000, .f32⟩ : BufTy).Contents (Elt F))

/-- The host operations between the gather and the projection, in order. -/
abbrev midOps : List (HloOp τ sig (Elt F)) := [opC, opB, opG, opE, opR, opW]

section Steps

variable (P : (K (F := F)).Pay (nD := nD) (Val := Elt F) (Name := ℕ) (U := UU))
-- What is known of the repacked table, of the gathered rows, of the projection's result, each given the valuation its
-- call was entered at; and what the gather needs of the valuation it is entered at.
variable (Out0 : Dev nD → Valuation τ sig (Elt F) → (v1' : DevRef τ sig).ty.Contents (Elt F) → Prop)
  (PreSC : Dev nD → Valuation τ sig (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- How a final valuation arises from the launch one: through the three calls' relations and the host operations. -/
def Reach (d : Dev nD) (W0 Wf : Valuation τ sig (Elt F)) : Prop :=
  ∃ f1 f2 A8, Out0 d ((opTab (F := F)).result W0) f1
    ∧ OutSC d (Function.update ((opTab (F := F)).result W0) v1' f1) f2
    ∧ Out1 d (StableHlo.after (midOps (F := F)) (Function.update (Function.update ((opTab (F := F)).result W0) v1' f1) v2' f2)) A8
    ∧ Wf = (opOut (F := F)).result (Function.update (StableHlo.after (midOps (F := F)) (Function.update (Function.update ((opTab (F := F)).result W0) v1' f1) v2' f2)) v8' A8)

variable (κ : GSem nD τ sig → ℕ)

/-- The repack call's step rule. -/
def StepR0 : Prop := ∀ (d : Dev nD) (W : Valuation τ sig (Elt F)) (Φ : PUnit → sProp (MM F)),
  iprop((K (F := F)).ctx EH P κ ∗ (K (F := F)).tcSt EH d 0 ∗ boundary (T d : Thread nD τ) ∗ held (T d) (ucRefs τ sig) W
      ∗ Pipeline.cellsGhost (cfgs' (F := F)) EP 0 d ∗ Pipeline.toksInit (cfgs' (F := F)) EP 0 d
      ∗ (∀ f1, iprop(⌜Out0 d W f1⌝ ∗ (K (F := F)).tcSt EH d 0 ∗ boundary (T d : Thread nD τ) ∗ held (T d) (ucRefs τ sig) (Function.update W v1' f1)) -∗ Φ ⟨⟩))
    ⊢ wp frame (wpE ((K (F := F)).defs (D (F := F))) 𝒱 (T d) none) Set.univ (Prog.lift (.customCall (SparseCore.inner (Pipeline.entry 0)) ())) Φ

/-- The gather's step rule. -/
def StepSC : Prop := ∀ (d : Dev nD) (W : Valuation τ sig (Elt F)) (Φ : PUnit → sProp (MM F)), PreSC d W →
  iprop((K (F := F)).ctx EH P κ ∗ (K (F := F)).tcSt EH d 0 ∗ held (T d) (ucRefs τ sig) W
      ∗ (∀ f2, iprop(⌜OutSC d W f2⌝ ∗ (K (F := F)).tcSt EH d 1 ∗ held (T d) (ucRefs τ sig) (Function.update W v2' f2)) -∗ Φ ⟨⟩))
    ⊢ wp frame (wpE ((K (F := F)).defs (D (F := F))) 𝒱 (T d) none) Set.univ ((K (F := F)).run d 0) Φ

/-- The projection call's step rule. -/
def StepR1 : Prop := ∀ (d : Dev nD) (W : Valuation τ sig (Elt F)) (Φ : PUnit → sProp (MM F)),
  iprop((K (F := F)).ctx EH P κ ∗ (K (F := F)).tcSt EH d 1 ∗ boundary (T d : Thread nD τ) ∗ held (T d) (ucRefs τ sig) W
      ∗ Pipeline.cellsGhost (cfgs' (F := F)) EP 1 d ∗ Pipeline.toksInit (cfgs' (F := F)) EP 1 d
      ∗ (∀ A8, iprop(⌜Out1 d W A8⌝ ∗ (K (F := F)).tcSt EH d 1 ∗ boundary (T d : Thread nD τ) ∗ held (T d) (ucRefs τ sig) (Function.update W v8' A8)) -∗ Φ ⟨⟩))
    ⊢ wp frame (wpE ((K (F := F)).defs (D (F := F))) 𝒱 (T d) none) Set.univ (Prog.lift (.customCall (SparseCore.inner (Pipeline.entry 1)) ())) Φ

/-- The launch valuation of device `d`. -/
def W₀ (m : (ℓ : Loc nD τ sig) → Buf (Elt F) ℓ) (d : Dev nD) : Valuation τ sig (Elt F) := fun b => m (d, b)

/-- What @main leaves: every unscoped buffer whole, at a valuation reached from the launch one. -/
def FIN (m : (ℓ : Loc nD τ sig) → Buf (Elt F) ℓ) (d : Dev nD) : sProp (MM F) :=
  iprop(∃ Wf, ⌜Reach Out0 OutSC Out1 d (W₀ m d) Wf⌝ ∗ held (T d) (ucRefs τ sig) Wf)

theorem G_split (d : Dev nD) : (G (F := F) d : sProp (MM F))
    = iprop((Pipeline.cellsGhost (cfgs' (F := F)) EP 0 d ∗ Pipeline.toksInit (cfgs' (F := F)) EP 0 d)
        ∗ (Pipeline.cellsGhost (cfgs' (F := F)) EP 1 d ∗ Pipeline.toksInit (cfgs' (F := F)) EP 1 d)) := by
  unfold G
  rw [show (Finset.univ : Finset (Fin 2)) = {0, 1} by decide, SparseCore.bigSep_insert' (by decide), bigSep_singleton]

theorem hmain (m : (ℓ : Loc nD τ sig) → Buf (Elt F) ℓ) (ρ : Dev nD → PrngReg)
    (h0 : StepR0 P Out0 κ) (hsc : StepSC P PreSC OutSC κ) (h1 : StepR1 P Out1 κ)
    (hpre : ∀ d f1, Out0 d ((opTab (F := F)).result (W₀ m d)) f1 → PreSC d (Function.update ((opTab (F := F)).result (W₀ m d)) v1' f1))
    (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN Out0 OutSC Out1 m d) := by
  unfold SparseCore.Cfg.tcRes
  rw [show unscopedBufs d (fun b => m ((T d : Thread nD τ).loc b)) = held (T d : Thread nD τ) (ucRefs τ sig) (W₀ m d) from unscopedBufs_held d (W₀ m d), G_split]
  simp only [main, wp_bind, wp_pure]
  iintro ⟨#Hctx, Hst, ⟨Hb, Hheld, -, -⟩, ⟨Hg0, Ht0⟩, ⟨Hg1, Ht1⟩⟩
  -- the table transposed
  iapply (wp_hlo_within 𝒱 (T d) none Set.univ (op := opTab) (S := ucRefs τ sig) (sub_ucRefs _ (StableHlo.unary_bufs_sub ..)) (V := W₀ m d)) $$ [Hb Hheld]
  · isplitl [Hb] <;> iassumption
  iintro ⟨Hb, Hheld⟩
  rw [wp_ret]; imodintro
  -- the repack call
  iapply (h0 d _ _) $$ [Hst Hb Hheld Hg0 Ht0 Hg1 Ht1]
  isplitr; · iexact Hctx
  isplitl [Hst]; · iexact Hst
  isplitl [Hb]; · iexact Hb
  isplitl [Hheld]; · iexact Hheld
  isplitl [Hg0]; · iexact Hg0
  isplitl [Ht0]; · iexact Ht0
  iintro %f1 ⟨%hf1, Hst, Hb, Hheld⟩
  -- the gather on the SparseCores
  iapply (hsc d _ _ (hpre d f1 hf1)) $$ [Hst Hb Hheld Hg1 Ht1]
  isplitr; · iexact Hctx
  isplitl [Hst]; · iexact Hst
  isplitl [Hheld]; · iexact Hheld
  iintro %f2 ⟨%hf2, Hst, Hheld⟩
  -- the selector and the projection matrix
  iapply (wp_hlo_within 𝒱 (T d) none Set.univ (op := opC) (S := ucRefs τ sig) (sub_ucRefs _ (StableHlo.nullary_bufs_sub ..))) $$ [Hb Hheld]
  · isplitl [Hb] <;> iassumption
  iintro ⟨Hb, Hheld⟩
  rw [wp_ret]; imodintro
  iapply (wp_hlo_within 𝒱 (T d) none Set.univ (op := opB) (S := ucRefs τ sig) (sub_ucRefs _ (StableHlo.unary_bufs_sub ..))) $$ [Hb Hheld]
  · isplitl [Hb] <;> iassumption
  iintro ⟨Hb, Hheld⟩
  rw [wp_ret]; imodintro
  iapply (wp_hlo_within 𝒱 (T d) none Set.univ (op := opG) (S := ucRefs τ sig) (sub_ucRefs _ (StableHlo.binary_bufs_sub ..))) $$ [Hb Hheld]
  · isplitl [Hb] <;> iassumption
  iintro ⟨Hb, Hheld⟩
  rw [wp_ret]; imodintro
  iapply (wp_hlo_within 𝒱 (T d) none Set.univ (op := opE) (S := ucRefs τ sig) (sub_ucRefs _ (StableHlo.unary_bufs_sub ..))) $$ [Hb Hheld]
  · isplitl [Hb] <;> iassumption
  iintro ⟨Hb, Hheld⟩
  rw [wp_ret]; imodintro
  iapply (wp_hlo_within 𝒱 (T d) none Set.univ (op := opR) (S := ucRefs τ sig) (sub_ucRefs _ (StableHlo.reshape_bufs_sub ..))) $$ [Hb Hheld]
  · isplitl [Hb] <;> iassumption
  iintro ⟨Hb, Hheld⟩
  rw [wp_ret]; imodintro
  iapply (wp_hlo_within 𝒱 (T d) none Set.univ (op := opW) (S := ucRefs τ sig) (sub_ucRefs _ (StableHlo.unary_bufs_sub ..))) $$ [Hb Hheld]
  · isplitl [Hb] <;> iassumption
  iintro ⟨Hb, Hheld⟩
  rw [wp_ret]; imodintro
  -- the projection call
  iapply (h1 d _ _) $$ [Hst Hb Hheld Hg1 Ht1]
  isplitr; · iexact Hctx
  isplitl [Hst]; · iexact Hst
  isplitl [Hb]; · iexact Hb
  isplitl [Hheld]; · iexact Hheld
  isplitl [Hg1]; · iexact Hg1
  isplitl [Ht1]; · iexact Ht1
  iintro %A8 ⟨%hA8, Hst, Hb, Hheld⟩
  -- its result transposed
  iapply (wp_hlo_within 𝒱 (T d) none Set.univ (op := opOut) (S := ucRefs τ sig) (sub_ucRefs _ (StableHlo.unary_bufs_sub ..))) $$ [Hb Hheld]
  · isplitl [Hb] <;> iassumption
  iintro ⟨Hb, Hheld⟩
  rw [wp_ret]; imodintro; imodintro
  isplitl [Hst]; · iexact Hst
  unfold FIN
  iexists _
  isplitr
  · ipureintro; exact ⟨f1, f2, A8, hf1, hf2, hA8, rfl⟩
  iexact Hheld

end Steps

end Cert.KernelIdeal.Hand

end
-- ==== Proof.KI.RegionStep.lean ====
/-
  A TensorCore pallas_call inside the SparseCore program, as one step of @main's proof.

  @main's line for the call is the pipeline's entry label lifted into the SparseCore program's signature. A proof
  about the call under the pipelines' own body table is a proof about the lifted call; the call itself runs by the
  region rule from the region's record: from the boundary, the record's entry thread state, the level facts and
  this pipeline's share of the launch ghost state, to the boundary and the record's exit thread state.
-/
import proofs.«218829_g6193342841233_cont_9to1_m_903_15_alg».proof.Proof.KI.LaunchElem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

-- the rules are stated for an arbitrary thread; at the TensorCore's thread their hypotheses meet the goal only after
-- definitions in their types are unfolded
set_option backward.isDefEq.respectTransparency.types false in
theorem region_step
    (rdats : (p : Fin 2) → (c : Dev nD) → Pipeline.RDat τ (Elt F) (HIx 1) ℕ UU ℕ (cfgs' (F := F) p) c)
    (p : Fin 2)
    (R : Pipeline.RDat.RegionSeg (pcfgs (F := F)) adm rdats (none : HIx 1) (defs₀ (F := F)) 𝒱₀ (K (F := F)).L (K (F := F)).lev p)
    (d : Dev nD) (Φ : PUnit → sProp (MM F)) :
    iprop(levAts (K (F := F)).L (K (F := F)).lev ∗ boundary (T d : Thread nD τ) ∗ R.pre d
        ∗ Pipeline.cellsGhost (cfgs' (F := F)) EP p d ∗ Pipeline.toksInit (cfgs' (F := F)) EP p d
        ∗ (iprop(boundary (T d : Thread nD τ) ∗ R.post d) -∗ Φ ⟨⟩))
      ⊢ wp frame (wpE ((K (F := F)).defs (D (F := F))) 𝒱 (T d) none) Set.univ
          (Prog.lift (.customCall (SparseCore.inner (Pipeline.entry p)) ())) Φ := by
  have hlift := (K (F := F)).wp_liftProg (nD := nD) (Name := ℕ) (U := UU) (D (F := F)) 𝒱 (T d) Set.univ none
    (Prog.op (.customCall (Pipeline.entry p) ()) fun _ => .ret ⟨⟩) Φ
  refine BIBase.Entails.trans ?_ hlift
  iintro ⟨Hlev, Hb, Hpre, Hg, Ht, Hk⟩
  iapply (Pipeline.RDat.RegionSeg.wp (pcfgs (F := F)) adm rdats (none : HIx 1) cells_inj EP (defs₀ (F := F)) 𝒱₀
    (K (F := F)).L (K (F := F)).lev R d none (fun u hu => nomatch hu) (fun _ => .ret ⟨⟩) Φ)
  isplitl [Hk]
  · iintro H
    rw [wp_ret]
    imodintro
    iapply Hk; iexact H
  isplitl [Hb]; · iexact Hb
  isplitl [Hpre]; · iexact Hpre
  isplitl [Hlev]; · iexact Hlev
  isplitl [Hg] <;> iassumption

end Cert.KernelIdeal.Hand

end
-- ==== Proof.KI.TcOwes.lean ====
/-
  The TensorCore's debts across a pipeline region.

  Between SparseCore calls the TensorCore owes the start signals of the calls still to come, and every wait it has
  recorded sits at or below the level of the calls already made. A pipeline region in between borrows that state: it
  waits only on its own staging cells, at the index of a kernel's own waits, whose level is zero — so what it hands back
  is again a state between calls.
-/
import proofs.«218829_g6193342841233_cont_9to1_m_903_15_alg».proof.Proof.KI.LaunchElem

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The pairs the TensorCore's recorded waits may name before call `n`: those at or below level `8 n`. -/
def RcN (d : Dev nD) (n : ℕ) : Set (SemLoc sig × HIx 1) := {p | (K (F := F)).lev ((T d : Thread nD τ), p.1) p.2 ≤ 8 * n}

/-- The state between calls lends its debts to a region, and takes them back with whatever pairs at the kernels' own
    index the region's waits recorded. -/
theorem tcSt_open (d : Dev nD) (n : ℕ) (WP : Set (SemLoc sig × HIx 1)) (hWP : ∀ p ∈ WP, p.2 = none) :
    ((K (F := F)).tcSt EH d n : sProp (MM F))
      ⊢ iprop(Pipeline.owesWithin d ((K (F := F)).Otc d n) (RcN (F := F) d n)
          ∗ (Pipeline.owesWithin d ((K (F := F)).Otc d n) (RcN (F := F) d n ∪ WP) -∗ (K (F := F)).tcSt EH d n)) := by
  unfold SparseCore.Cfg.tcSt Pipeline.owesWithin
  iintro ⟨⟨%W, %hW, HO⟩, Hrest⟩
  isplitl [HO]
  · iexists W
    isplitr; · ipureintro; exact fun p hp => hW p (Finset.mem_coe.mp hp)
    iexact HO
  iintro ⟨%W', %hW', HO'⟩
  isplitl [HO']
  · iexists W'
    isplitr
    · ipureintro
      intro p hp
      rcases hW' (Finset.mem_coe.mpr hp) with h | h
      · exact h
      · rw [hWP p h, SparseCore.Cfg.lev_none]; exact Nat.zero_le _
    iexact HO'
  iexact Hrest

/-- The start signals still owed are owed at call indices, never at the kernels' own. -/
theorem Otc_none (d : Dev nD) (n : ℕ) (g : GSem nD τ sig) : (K (F := F)).Otc d n g none = 0 := by
  unfold SparseCore.Cfg.Otc
  simp only [tallyAt, tallyOn]
  have hs : ∀ (g' : GSem nD τ sig), (Pi.single g' (Finsupp.single (some (0 : Fin 1)) 1) : CellTallies nD τ sig (HIx 1)) g none = 0 := fun g' => by
    by_cases e : g = g'
    · subst e; rw [Pi.single_eq_same]; exact Finsupp.single_eq_of_ne (by simp)
    · rw [Pi.single_eq_of_ne e]; rfl
  simp [Finset.sum_apply, Finsupp.finset_sum_apply, hs, apply_ite]
  split
  · rw [Pi.add_apply, Finsupp.add_apply, hs, hs]
  · rfl

end Cert.KernelIdeal.Hand

end
-- ==== Proof.KI.RegionGlue.lean ====
/-
  A pipeline region's record as a step of @main's proof between SparseCore calls.

  The record's entry thread state is every unscoped buffer whole at the valuation @main has reached, beside the
  TensorCore's debts; its exit state the same with the one array the region writes at contents of which the record's
  relation holds. The debts are the state between calls, lent to the region and taken back (TcOwes); the buffers move
  between the pipeline library's spelling and the host operations' by renaming.
-/
import proofs.«218829_g6193342841233_cont_9to1_m_903_15_alg».proof.Proof.KI.Main
import proofs.«218829_g6193342841233_cont_9to1_m_903_15_alg».proof.Proof.KI.RegionStep
import proofs.«218829_g6193342841233_cont_9to1_m_903_15_alg».proof.Proof.KI.TcOwes

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs unscopedBufs_held)

variable {F : FTy → Type} [FloatOps F] [∀ e, Nonempty (Elt F e)]

/-- Replacing one TensorCore array's contents, in the two spellings of "every unscoped buffer at a valuation". -/
theorem update_coe (d : Dev nD) (W : Valuation τ sig (Elt F)) (r : Ref sig .tc) (A : Buf (Elt F) ((d.tc : Thread nD τ).loc r)) :
    (Function.update (fun b : Ref sig .tc => (W b : Buf (Elt F) ((d.tc : Thread nD τ).loc b))) r A)
      = fun b : Ref sig .tc => (Function.update W (Proc.devRef .tc r) A (Proc.devRef .tc b) : Buf (Elt F) ((d.tc : Thread nD τ).loc b)) := by
  funext b
  by_cases h : b = r
  · subst h; rw [Function.update_self, Function.update_self]
  · rw [Function.update_of_ne h, Function.update_of_ne (fun e => h (Proc.devRef_injective _ e))]

theorem step_of_region (P : (K (F := F)).Pay (nD := nD) (Val := Elt F) (Name := ℕ) (U := UU)) (κ : GSem nD τ sig → ℕ) (n : ℕ) (p : Fin 2)
    (rdats : (p : Fin 2) → (c : Dev nD) → Pipeline.RDat τ (Elt F) (HIx 1) ℕ UU ℕ (cfgs' (F := F) p) c)
    (R : Pipeline.RDat.RegionSeg (pcfgs (F := F)) adm rdats (none : HIx 1) (defs₀ (F := F)) 𝒱₀ (K (F := F)).L (K (F := F)).lev p)
    (d : Dev nD) (W : Valuation τ sig (Elt F)) (r : Ref sig .tc)
    (Rel : Buf (Elt F) ((d.tc : Thread nD τ).loc r) → Prop)
    (WP : Set (SemLoc sig × HIx 1)) (hWP : ∀ x ∈ WP, x.2 = none)
    (hpre : R.pre d = iprop(unscopedBufs d (fun b : Ref sig .tc => (W b : Buf (Elt F) ((d.tc : Thread nD τ).loc b)))
        ∗ Pipeline.owesWithin d ((K (F := F)).Otc d n) (RcN (F := F) d n ∪ WP)))
    (hpost : R.post d = iprop(∃ A, ⌜Rel A⌝ ∗ unscopedBufs d (Function.update (fun b : Ref sig .tc => (W b : Buf (Elt F) ((d.tc : Thread nD τ).loc b))) r A)
        ∗ Pipeline.owesWithin d ((K (F := F)).Otc d n) (RcN (F := F) d n ∪ WP)))
    (Φ : PUnit → sProp (MM F)) :
    iprop((K (F := F)).ctx EH P κ ∗ (K (F := F)).tcSt EH d n ∗ boundary (T d : Thread nD τ) ∗ held (T d) (ucRefs τ sig) W
        ∗ Pipeline.cellsGhost (cfgs' (F := F)) EP p d ∗ Pipeline.toksInit (cfgs' (F := F)) EP p d
        ∗ (∀ A, iprop(⌜Rel A⌝ ∗ (K (F := F)).tcSt EH d n ∗ boundary (T d : Thread nD τ) ∗ held (T d) (ucRefs τ sig) (Function.update W (Proc.devRef .tc r) A)) -∗ Φ ⟨⟩))
      ⊢ wp frame (wpE ((K (F := F)).defs (D (F := F))) 𝒱 (T d) none) Set.univ
          (Prog.lift (.customCall (SparseCore.inner (Pipeline.entry p)) ())) Φ := by
  iintro ⟨#Hctx, Hst, Hb, Hheld, Hg, Ht, Hk⟩
  ihave Hlev := (SparseCore.Cfg.ctx_levAts (K := K (F := F)) κ) $$ Hctx
  ihave Ho := (tcSt_open (F := F) d n WP hWP) $$ Hst
  icases Ho with ⟨Howes, Hback⟩
  iapply (region_step rdats p R d Φ) $$ [Hlev Hb Hheld Hg Ht Hk Howes Hback]
  isplitl [Hlev]; · iexact Hlev
  isplitl [Hb]; · iexact Hb
  isplitl [Hheld Howes]
  · rw [hpre, unscopedBufs_held d W]
    isplitl [Hheld]; · iexact Hheld
    iapply (Pipeline.owesWithin_mono d _ (Set.subset_union_left)); iexact Howes
  isplitl [Hg]; · iexact Hg
  isplitl [Ht]; · iexact Ht
  iintro ⟨Hb, Hpost⟩
  ihave Hp := (Entails.of_eq hpost) $$ Hpost
  icases Hp with ⟨%A, %hA, Hbufs, Howes⟩
  ispecialize Hk $$ %A
  iapply Hk
  isplitr; · ipureintro; exact hA
  isplitl [Hback Howes]; · iapply Hback; iexact Howes
  isplitl [Hb]; · iexact Hb
  have e : (unscopedBufs d (Function.update (fun b : Ref sig .tc => (W b : Buf (Elt F) ((d.tc : Thread nD τ).loc b))) r A) : sProp (MM F))
      = held (T d) (ucRefs τ sig) (Function.update W (Proc.devRef .tc r) A) := by
    rw [update_coe d W r A]; exact unscopedBufs_held d (Function.update W (Proc.devRef .tc r) A)
  ihave Hh := (Entails.of_eq e) $$ Hbufs
  iexact Hh

end Cert.KernelIdeal.Hand

end
-- ==== Proof.KI.Region0.lean ====
/-
  REGION 0 of the kernel's @main, the repack call: its proof data and its body's obligation.

  The call reads the transposed table (64 × 100000) through two windows of 64 × 8192 columns — window 0 at column block
  t, window 1 at column block min (t + 7, 12), t = 0‥6 — and writes row block t (8192 rows × 128 columns) of the paired
  table: row l of that block holds column 8192·t + l of the transposed table in its first 64 entries and column
  8192·(t + 7) + l in its last 64. Each half is produced on the matrix unit as (block)ᵀ · I, I the 64 × 64 identity.
  Column block 12 overhangs the table (100000 = 12·8192 + 1696): at the last two points window 1's buffer holds, past
  its column 1696, words nothing names, and the second product carries them into the output block. So the proof data
  CONSTRAINS what the body leaves in the output's buffer — the pair of products of two buffers that hold the table's
  blocks wherever a fetch filled them — rather than naming it. Everything here is generic in the float instance; what
  the products are at real-number arithmetic is read off in a separate module.
-/
import proofs.«218829_g6193342841233_cont_9to1_m_903_15_alg».proof.Proof.KI.Setup
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The body on three whole buffers -/

/-- The rectangle both loads of an input block read: all of it. -/
abbrev rIn : Rect S64x8192 := Rect.unit (s := S64x8192) ![0, 0] S64x8192.size inb_S64x8192_S64x8192_0_0

/-- What the body leaves in the output block, from what its two input buffers read (`lo` window 0's, `hi` window
    1's): the first product stored in columns 0‥63, the second in columns 64‥127. The two stores tile the block, so
    nothing of what the buffer held before remains. -/
def out2 (lo hi : S64x8192.Idx → Elt F .f32) : S8192x128.Idx → Elt F .f32 :=
  View.canon [⟨Rect.unit (s := S8192x128) ![0, 64] S8192x64.size inb_S8192x128_S8192x64_0_64, k0_pay3 (View.ld hi rIn)⟩,
    ⟨Rect.unit (s := S8192x128) ![0, 0] S8192x64.size inb_S8192x128_S8192x64_0_0, k0_pay2 (View.ld lo rIn)⟩]

/-- The body, on any three whole buffers: two loads and a store per half; the inputs are handed back as found, the
    output at `out2` of what they read. -/
theorem sound_body0 (c : Dev nD) (i : grid0.Coords)
    (M0 : Memref sig .tc .vmem S64x8192 .f32) (h0 : M0.IsWhole) (M1 : Memref sig .tc .vmem S64x8192 .f32) (h1 : M1.IsWhole)
    (M2 : Memref sig .tc .vmem S8192x128 .f32) (h2 : M2.IsWhole)
    (Y0 Y1 : S64x8192.Idx → Elt F .f32) (Y2 : S8192x128.Idx → Elt F .f32) (E : Set ℕ) (Q : PUnit → sProp 𝕄) :
    iprop(owns (c : Thread nD τ) M0 fullShare Y0 ∗ owns (c : Thread nD τ) M1 fullShare Y1 ∗ owns (c : Thread nD τ) M2 fullShare Y2
        ∗ (iprop(owns (c : Thread nD τ) M0 fullShare Y0 ∗ owns (c : Thread nD τ) M1 fullShare Y1
            ∗ owns (c : Thread nD τ) M2 fullShare (out2 Y0 Y1)) -∗ Q ⟨⟩))
      ⊢ wp frame (wpE (defs₀ (F := F)) 𝒱₀ c none) E (cc0__repack_body i M0 h0 M1 h1 M2 h2) Q := by
  unfold owns
  rw [h0.set_eq_univ, h1.set_eq_univ, h2.set_eq_univ]
  iintro ⟨⟨%f0, %hf0, H0⟩, ⟨%f1, %hf1, H1⟩, ⟨%f2, %hf2, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr; swap; (· iexact H2)
  ipureintro
  exact View.read_writes_junk_eq_canon _ _

/-! ## The proof data -/

variable (O : Dev nD → CellTallies nD τ sig (HIx 1)) (Rc : Dev nD → Set (SemLoc sig × HIx 1))
variable (V : (c : Dev nD) → (b : Ref sig .tc) → Buf (Elt F) ((c : Thread nD τ).loc b))

/-- What a fetch of window 0 at point `t` leaves in a buffer that held `d`: column block `t` of the transposed table
    (whole: blocks 0‥6 lie inside it); -/
def fet0 (c : Dev nD) (t : Fin cfg0.N) (d : S64x8192.Idx → Elt F .f32) : S64x8192.Idx → Elt F .f32 :=
  win0_0.fill (grid0.coords t) d ((win0_0.blk t).view.read (Elt F) (V c main_v0))
/-- of window 1: column block min (t + 7, 12), on the columns inside the table; `d` past its end. -/
def fet1 (c : Dev nD) (t : Fin cfg0.N) (d : S64x8192.Idx → Elt F .f32) : S64x8192.Idx → Elt F .f32 :=
  win0_1.fill (grid0.coords t) d ((win0_1.blk t).view.read (Elt F) (V c main_v0))

/-- The repack pipeline's proof data on device `c`, entered with the TensorCore's buffers at `V c`: the transposed
    table behind both input windows (half its share each), the paired table behind the output; the inputs' buffers
    come back as found; the output's buffer comes back at the pair of products of two buffers a fetch may have
    left; the invariant is the scoped buffers the pipeline does not stage; the core owes `O c` throughout, its
    recorded waits within `Rc c`. -/
def rdat0 (c : Dev nD) : Pipeline.RDat τ (Elt F) (HIx 1) ℕ UU ℕ cfg0 c where
  A w := V c (Pipeline.arrRef spec0 w)
  after w t Y X := match w with
    | ⟨0, _⟩ => X = Y
    | ⟨1, _⟩ => X = Y
    | ⟨2, _⟩ => ∃ d0 d1, X = out2 (fet0 V c t d0) (fet1 V c t d1)
  Φ _ := Pipeline.scopedRest (Ix := HIx 1) (Name := ℕ) (U := UU) (Lvl := ℕ) (Val := Elt F) spec0 c
  q w := match w with
    | ⟨0, _⟩ => fullShare.left
    | ⟨1, _⟩ => fullShare.right
    | ⟨2, _⟩ => fullShare
  owed _ := O c
  recorded _ := Rc c

/-- The same data at the type the pipelines' family is stated at: the pinned configuration is `cfg0` by unfolding. -/
example (c : Dev nD) : Pipeline.RDat τ (Elt F) (HIx 1) ℕ UU ℕ (Pipeline.pin (pcfgs (F := F)) adm 0) c := rdat0 O Rc V c

/-- An input window's cuts are a function of its block index. -/
theorem clip0_0 (t t' : Fin cfg0.N) (h : (cfg0.win 0).index t = (cfg0.win 0).index t') :
    (cfg0.win 0).clip (cfg0.grid.coords t) = (cfg0.win 0).clip (cfg0.grid.coords t') := by
  funext a
  show Pipeline.Clip.of ((cfg0.win 0).index t a) _ _ = Pipeline.Clip.of ((cfg0.win 0).index t' a) _ _
  rw [h]
theorem clip0_1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]

/-- Whatever the body finds in window 0's buffer is a fetched block; -/
theorem finds0 (c : Dev nD) (t : Fin cfg0.N) (Y) (h : (rdat0 O Rc V c).Finds 0 t Y) : ∃ d, Y = fet0 V c t d :=
  (rdat0 O Rc V c).finds_in_eq_fetched 0 rfl clip0_0 (fun _ _ _ h => h) t Y h
/-- in window 1's likewise (at the last point it is not fetched: its block index did not move, and the body left
    the buffer as found). -/
theorem finds1 (c : Dev nD) (t : Fin cfg0.N) (Y) (h : (rdat0 O Rc V c).Finds 1 t Y) : ∃ d, Y = fet1 V c t d :=
  (rdat0 O Rc V c).finds_in_eq_fetched 1 rfl clip0_1 (fun _ _ _ h => h) t Y h

/-! ## The body obligation -/

/-- At every point, from the invariant, what the core owes and the three current buffers at anything they may hold,
    the body runs to the same with the output's buffer in the relation. -/
theorem body0 (c : Dev nD) : (rdat0 O Rc V c).BodyObligation (defs₀ (F := F)) 𝒱₀ (none : HIx 1) Set.univ := fun t Y hY => by
  obtain ⟨d0, e0⟩ := finds0 O Rc V c t (Y 0) (hY 0)
  obtain ⟨d1, e1⟩ := finds1 O Rc V c t (Y 1) (hY 1)
  rw [bigSep_W0, bigSep_W0,
    show (rdat0 O Rc V c).Φ t.succ = (rdat0 O Rc V c).Φ t.castSucc from rfl,
    show (rdat0 O Rc V c).owesAt none t.succ = (rdat0 O Rc V c).owesAt none t.castSucc from rfl]
  iintro ⟨HΦ, HO, H0, H1, H2⟩
  iapply (sound_body0 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Y 0) (Y 1) (Y 2) Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists Y 0; isplitr; · ipureintro; rfl
    iexact H0
  isplitl [H1]
  · iexists Y 1; isplitr; · ipureintro; rfl
    iexact H1
  iexists out2 (Y 0) (Y 1); isplitr; swap; (· iexact H2)
  ipureintro
  exact ⟨d0, d1, by rw [e0, e1]⟩

end Cert.KernelIdeal.Hand

end
-- ==== Proof.KI.Region0Seg.lean ====
/-
  REGION 0 of the kernel's @main as a segment between two thread states of the TensorCore.

  Before the region the TensorCore holds every unscoped buffer whole; the region takes out the two arrays its windows
  name — the transposed table, which BOTH input windows read (so each holds half of its share), and the paired table,
  which the output window writes — runs the pipeline, and puts them back: the transposed table as it was, the paired
  table at some contents the seven write-backs may have left. What the core owes the SparseCores rides through
  unchanged; the pipeline's own waits sit at an index the core owes nothing at.
-/
import proofs.«218829_g6193342841233_cont_9to1_m_903_15_alg».proof.Proof.KI.Region0

noncomputable section

namespace Cert.KernelIdeal.Hand

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (O : Dev nD → CellTallies nD τ sig (HIx 1)) (Rc : Dev nD → Set (SemLoc sig × HIx 1))
variable (V : (c : Dev nD) → (b : Ref sig .tc) → Buf (Elt F) ((c : Thread nD τ).loc b))

/-- A whole buffer at share `q`, written `pt`. -/
abbrev pt (c : Dev nD) (b : Ref sig .tc) (q : PosShare TreeShare) (f : Buf (Elt F) ((c : Thread nD τ).loc b)) : sProp 𝕄 :=
  ((c : Thread nD τ).loc b) ↦{q} f

/-- The whole share of the transposed table is the two halves the input windows hold. -/
theorem v0_halves (c : Dev nD) (f : Buf (Elt F) ((c : Thread nD τ).loc main_v0)) :
    (pt c main_v0 fullShare f : sProp 𝕄) ⊣⊢ iprop(pt c main_v0 fullShare.left f ∗ pt c main_v0 fullShare.right f) :=
  pointsTo_share (PosShare.mem_left_op_right fullShare)

/-- The buffers behind the three windows are two: the transposed table and the paired table. -/
theorem arrBufs0_eq (c : Dev nD) (W : (b : Ref sig .tc) → Buf (Elt F) ((c : Thread nD τ).loc b)) :
    (Pipeline.arrBufs (Ix := HIx 1) (Name := ℕ) (U := UU) (Lvl := ℕ) spec0 c W : sProp 𝕄)
      = iprop(pt c main_v0 fullShare (W main_v0) ∗ pt c main_v1 fullShare (W main_v1)) := by
  unfold Pipeline.arrBufs
  rw [bigSep_eq_bigSepL_of_eq [main_v0, main_v1] (by decide) (by decide)]
  rfl

/-- The pipeline's arrays, window by window. -/
theorem arrays0_eq (c : Dev nD) (Fa : (w : Fin cfg0.W) → Buf (Elt F) ((cfg0.win w).arr.view.loc (c : Thread nD τ))) :
    ((rdat0 O Rc V c).arrays Fa : sProp 𝕄)
      = iprop(pt c main_v0 fullShare.left (Fa 0) ∗ pt c main_v0 fullShare.right (Fa 1) ∗ pt c main_v1 fullShare (Fa 2)) := by
  unfold Pipeline.RDat.arrays
  rw [bigSep_W0]
  simp only [Memref.view_whole, View.set_whole]
  rfl

/-- The pipeline's arrays after the write-backs below point `n`, window by window. -/
theorem arraysAt0_eq (c : Dev nD) (n : Nat) :
    ((rdat0 O Rc V c).arraysAt n : sProp 𝕄)
      = iprop((∃ Fa, ⌜(rdat0 O Rc V c).ArrAt 0 n Fa⌝ ∗ pt c main_v0 fullShare.left Fa)
          ∗ (∃ Fa, ⌜(rdat0 O Rc V c).ArrAt 1 n Fa⌝ ∗ pt c main_v0 fullShare.right Fa)
          ∗ (∃ Fa, ⌜(rdat0 O Rc V c).ArrAt 2 n Fa⌝ ∗ pt c main_v1 fullShare Fa)) := by
  unfold Pipeline.RDat.arraysAt
  rw [bigSep_W0]
  simp only [Memref.view_whole, View.set_whole]
  rfl

/-- What the paired table may hold once every write-back of the region has landed: its contents at entry, each row
    block overwritten, in point order, by what the body may have left in the output's buffer at that point. -/
def Out0 (c : Dev nD) (f : Buf (Elt F) ((c : Thread nD τ).loc main_v1)) : Prop := (rdat0 O Rc V c).ArrAt 2 cfg0.N f

/-- The TensorCore's unscoped buffers are the two arrays' and the rest. -/
theorem unscoped_split0 (c : Dev nD) (W : (b : Ref sig .tc) → Buf (Elt F) ((c : Thread nD τ).loc b)) :
    (unscopedBufs c W : sProp 𝕄)
      = iprop((pt c main_v0 fullShare (W main_v0) ∗ pt c main_v1 fullShare (W main_v1))
          ∗ Pipeline.unscopedRest (Ix := HIx 1) (Name := ℕ) (U := UU) (Lvl := ℕ) spec0 c W) := by
  rw [← arrBufs0_eq]
  exact Pipeline.unscopedBufs_split₀ cfgs 0 winFacts₀0.arr_unscoped c W

/-- The rest does not read the paired table. -/
theorem unscopedRest0_update (c : Dev nD) (f : Buf (Elt F) ((c : Thread nD τ).loc main_v1)) :
    (Pipeline.unscopedRest (Ix := HIx 1) (Name := ℕ) (U := UU) (Lvl := ℕ) spec0 c (Function.update (V c) main_v1 f) : sProp 𝕄)
      = Pipeline.unscopedRest (Ix := HIx 1) (Name := ℕ) (U := UU) (Lvl := ℕ) spec0 c (V c) := by
  unfold Pipeline.unscopedRest
  exact bigSep_congr fun b hb => by
    have hne : b ≠ main_v1 := fun h => (Finset.mem_sdiff.mp hb).2 (h ▸ Finset.mem_image.mpr ⟨2, Finset.mem_univ _, rfl⟩)
    rw [Function.update_of_ne hne]

/-- REGION 0 over the thread state "every unscoped buffer of the TensorCore at `V c`, and what the core owes": entered
    by taking the two arrays out of the unscoped buffers, the transposed table halved between the two input windows;
    left with them put back, the paired table at some contents the write-backs may have left (`Out0`). Nothing
    enters the invariant but the scoped buffers the pipeline does not stage; the kernel has no semaphore of its own;
    the waits of the staging cells sit at the index the core owes nothing at (`hO`). -/
def region0 (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) :
    Pipeline.RDat.RegionSeg (pcfgs (F := F)) adm rdats (none : HIx 1) (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := by rw [h0 c]; exact body0 O Rc V c
  hwaits c := Pipeline.RDat.cellsWaits_intro _ _ _ _ c (R := levAts (K (F := F)).L (K (F := F)).lev) fun w s t => by
    rw [h0 c]; exact (K (F := F)).mayWait_none _ (hO c)
  pre c := iprop(unscopedBufs c (V c) ∗ (rdat0 O Rc V c).owesAt none 0)
  post c := iprop(∃ A : Buf (Elt F) ((c : Thread nD τ).loc main_v1),
    ⌜Out0 O Rc V c A⌝ ∗ unscopedBufs c (Function.update (V c) main_v1 A) ∗ (rdat0 O Rc V c).owesAt none (Fin.last _))
  X _ := BI.emp
  Y _ := BI.emp
  Z c := Pipeline.unscopedRest (Ix := HIx 1) (Name := ℕ) (U := UU) (Lvl := ℕ) spec0 c (V c)
  hentry c := by
    rw [Pipeline.ownSems0_none, h0 c, arrays0_eq, unscoped_split0]
    iintro ⟨⟨⟨⟨H0, H1⟩, Hrest⟩, HO⟩, -, -⟩
    ihave H0' := (v0_halves c (V c main_v0)).1 $$ H0
    icases H0' with ⟨H0l, H0r⟩
    imodintro
    isplitl [H0l H0r H1]
    · isplitl [H0l]; · iexact H0l
      isplitl [H0r]; · iexact H0r
      iexact H1
    isplitr
    · unfold Pipeline.prefHeld; rw [show (Finset.univ : Finset (Fin 0)) = ∅ from rfl, BI.bigSep_empty]; iempintro
    isplitl [HO]; · iexact HO
    isplitr; · iempintro
    iexact Hrest
  hin c := by
    rw [h0 c]
    show iprop(_ ∗ _ ∗ Pipeline.scopedRest spec0 c) ⊢ (Pipeline.scopedRest spec0 c : sProp 𝕄)
    iintro ⟨-, -, Hr⟩; iexact Hr
  hout c := by
    rw [Pipeline.ownSems0_none, h0 c]
    show (Pipeline.scopedRest spec0 c : sProp 𝕄) ⊢ iprop(_ ∗ _ ∗ Pipeline.scopedRest spec0 c)
    iintro Hr
    isplitr; · iempintro
    isplitr; · iempintro
    iexact Hr
  hexit c := by
    rw [h0 c, arraysAt0_eq]
    iintro ⟨⟨⟨%F0, %hF0, H0⟩, ⟨%F1, %hF1, H1⟩, ⟨%F2, %hF2, H2⟩⟩, HO, -, Hrest⟩
    have e0 : F0 = V c main_v0 := by rw [(rdat0 O Rc V c).ArrAt_in 0 rfl] at hF0; exact hF0
    have e1 : F1 = V c main_v0 := by rw [(rdat0 O Rc V c).ArrAt_in 1 rfl] at hF1; exact hF1
    subst e0 e1
    imodintro
    iexists F2
    isplitr
    · ipureintro; exact hF2
    isplitr [HO]; swap; · iexact HO
    rw [unscoped_split0, unscopedRest0_update, Function.update_self, Function.update_of_ne (show main_v0 ≠ main_v1 by decide)]
    isplitr [Hrest]; swap; · iexact Hrest
    isplitl [H0 H1]
    · iapply (v0_halves c (V c main_v0)).2
      isplitl [H0]; · iexact H0
      iexact H1
    iexact H2

/-- The thread states, with what the core owes spelt out: the tallies `O c`, the recorded waits within `Rc c` and the
    staging cells' own pairs. -/
theorem region0_pre (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) (c : Dev nD) :
    (region0 O Rc V rdats h0 hO).pre c
      = iprop(unscopedBufs c (V c) ∗ Pipeline.owesWithin c (O c) (Rc c ∪ cfg0.waitPairs (none : HIx 1))) := rfl
theorem region0_post (rdats : (p : Fin 2) → (c : Dev nD) → Pipeline.RDat τ (Elt F) (HIx 1) ℕ UU ℕ (Pipeline.pin (pcfgs (F := F)) adm p) c)
    (h0 : ∀ c, rdats 0 c = rdat0 O Rc V c) (hO : ∀ c g, O c g none = 0) (c : Dev nD) :
    (region0 O Rc V rdats h0 hO).post c
      = iprop(∃ A : Buf (Elt F) ((c : Thread nD τ).loc main_v1), ⌜Out0 O Rc V c A⌝ ∗ unscopedBufs c (Function.update (V c) main_v1 A)
          ∗ Pipeline.owesWithin c (O c) (Rc c ∪ cfg0.waitPairs (none : HIx 1))) := rfl

end Cert.KernelIdeal.Hand

end
-- ==== Proof.KI.Region1Data.lean ====
import proofs.«218829_g6193342841233_cont_9to1_m_903_15_alg».proof.Proof.KI.Setup
import Idealize.ShloMosaic.Lib.Pipeline.FrameBody

noncomputable section

namespace Cert.KernelIdeal.Hand

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

/-! ## The projection region's proof data

The projection multiplies, block of columns by block of columns, the transposed weights with the rows the gather
left: the result's row `v` is the contraction of column `v` of the transposed weights with each selected half-row.
The last block of columns overhangs the array: what the staging buffer holds past the array's end is nothing the
program determines, and the contraction is stated of the buffer's whole contents. So the data below does not NAME
what the result's staging buffer holds after the body; it says that it is the product computed from the three
input buffers as fetched, each filled out past the array's end by SOME contents. -/

section Data

variable (c : Dev nD) (V : (b : Ref sig .tc) → Buf (Elt F) ((c.tc : Thread nD τ).loc b))

/-- The gathered pairs' staging buffer once the fetch at point `t` has landed in a buffer that held `d`. -/
def fetP0 (t : Fin cfg2.N) (d : S1024x128.Idx → Elt F .f32) : S1024x128.Idx → Elt F .f32 :=
  win2_0.fill (grid2.coords t) d ((win2_0.blk t).view.read (Elt F) (V main_v2))
/-- The half selectors' likewise. -/
def fetP1 (t : Fin cfg2.N) (d : S1024x1.Idx → Elt F .i32) : S1024x1.Idx → Elt F .i32 :=
  win2_1.fill (grid2.coords t) d ((win2_1.blk t).view.read (Elt F) (V main_v6))
/-- The transposed weights' block of columns at point `t`: its part inside the array, `d` past the array's end. -/
def fetP2 (t : Fin cfg2.N) (d : S64x4096.Idx → Elt F .f32) : S64x4096.Idx → Elt F .f32 :=
  win2_2.fill (grid2.coords t) d ((win2_2.blk t).view.read (Elt F) (V main_v7))

variable (O : CellTallies nD τ sig (HIx 1)) (Rc : Set (SemLoc sig × HIx 1))

/-- The proof data of the projection on device `c`'s TensorCore, from the contents `V` of its unscoped buffers at
    entry: the body leaves its three inputs' staging buffers as it found them, and the result's at the product of
    the three as fetched; its invariant is the scoped buffers it does not touch; what the core owes (`O`) and has
    recorded (`Rc`) does not change. -/
def rdat1 : RDat τ (Elt F) (HIx 1) ℕ UU ℕ cfg2 c where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ d0 d1 d2, X = k2_pay1 (fetP0 c V t d0) (fetP1 c V t d1) (fetP2 c V t d2)
  Φ _ := Pipeline.scopedRest spec2 c
  q _ := fullShare
  owed _ := O
  recorded _ := Rc

end Data

end Cert.KernelIdeal.Hand

end
-- ==== Proof.KI.Region1Body.lean ====
import proofs.«218829_g6193342841233_cont_9to1_m_903_15_alg».proof.Proof.KI.Setup
import proofs.«218829_g6193342841233_cont_9to1_m_903_15_alg».proof.Proof.KI.Region1Data
import Idealize.ShloMosaic.Lib.Pipeline.FrameBody

noncomputable section

namespace Cert.KernelIdeal.Hand

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]
local notation "𝕄" => MT nD τ sig (HIx 1) (Elt F) ℕ UU ℕ

/-! ## The projection's body on its four staging buffers -/

/-- The body on staging buffers `s0`, `s1` of the pairs' and selectors' windows (each has one), `s2` of the
    transposed weights' and `s3` of the result's (two each, by the point): three whole loads, the dead load of the
    result's buffer, the whole store of the product — the result's buffer ends holding the product computed from
    what the other three hold, those unchanged. -/
theorem sound_body (c : Dev nD) (E : Set ℕ) (i : grid2.Coords) (s0 : Fin 1) (s1 : Fin 1) (s2 : Fin 2) (s3 : Fin 2)
    (X0 : S1024x128.Idx → Elt F .f32) (X1 : S1024x1.Idx → Elt F .i32) (X2 : S64x4096.Idx → Elt F .f32)
    (X3 : S4096x1024.Idx → Elt F .f32) (K : PUnit → sProp 𝕄) :
    iprop((owns (c : Thread nD τ) (stage2_0 s0) fullShare X0 ∗ owns (c : Thread nD τ) (stage2_1 s1) fullShare X1
            ∗ owns (c : Thread nD τ) (stage2_2 s2) fullShare X2 ∗ owns (c : Thread nD τ) (stage2_3 s3) fullShare X3)
          ∗ (iprop(owns (c : Thread nD τ) (stage2_0 s0) fullShare X0 ∗ owns (c : Thread nD τ) (stage2_1 s1) fullShare X1
                  ∗ owns (c : Thread nD τ) (stage2_2 s2) fullShare X2
                  ∗ owns (c : Thread nD τ) (stage2_3 s3) fullShare (k2_pay1 X0 X1 X2)) -∗ K ⟨⟩))
      ⊢ wp frame (wpE (defs₀ (F := F)) 𝒱₀ c none) E
          (cc2__matmul_body i (stage2_0 s0) (hstage2_0 s0) (stage2_1 s1) (hstage2_1 s1) (stage2_2 s2) (hstage2_2 s2)
            (stage2_3 s3) (hstage2_3 s3)) K := by
  have hz : (![0, 0] : Fin 2 → Nat) = fun _ => 0 := funext fun a => by fin_cases a <;> rfl
  -- the accesses are at offsets zero and the buffers' own sizes: a load reads the contents, the unmasked store
  -- writes the payload, at whichever of its window's buffers each memref is
  have hr00 : ∀ f, (Memref.whole cc2_stg0_0 : Memref sig .tc _ _ _).view.readAt (Elt F) (Rect.unit (s := S1024x128) ![0, 0]
      S1024x128.size inb_S1024x128_S1024x128_0_0).toLoadRect f = f := Memref.readAt_unit_zero (Elt F) cc2_stg0_0 hz _
  have hr10 : ∀ f, (Memref.whole cc2_stg1_0 : Memref sig .tc _ _ _).view.readAt (Elt F) (Rect.unit (s := S1024x1) ![0, 0]
      S1024x1.size inb_S1024x1_S1024x1_0_0).toLoadRect f = f := Memref.readAt_unit_zero (Elt F) cc2_stg1_0 hz _
  have hr20 : ∀ f, (Memref.whole cc2_stg2_0 : Memref sig .tc _ _ _).view.readAt (Elt F) (Rect.unit (s := S64x4096) ![0, 0]
      S64x4096.size inb_S64x4096_S64x4096_0_0).toLoadRect f = f := Memref.readAt_unit_zero (Elt F) cc2_stg2_0 hz _
  have hr21 : ∀ f, (Memref.whole cc2_stg2_1 : Memref sig .tc _ _ _).view.readAt (Elt F) (Rect.unit (s := S64x4096) ![0, 0]
      S64x4096.size inb_S64x4096_S64x4096_0_0).toLoadRect f = f := Memref.readAt_unit_zero (Elt F) cc2_stg2_1 hz _
  have hw30 : ∀ f w, (((Memref.whole cc2_stg3_0).access (Rect.unit (s := S4096x1024) ![0, 0] S4096x1024.size
      inb_S4096x1024_S4096x1024_0_0)) : View sig .tc _ _ _).write (Elt F) f w Finset.univ = w :=
    Memref.write_access_unit_zero_univ (Elt F) cc2_stg3_0 hz _
  have hw31 : ∀ f w, (((Memref.whole cc2_stg3_1).access (Rect.unit (s := S4096x1024) ![0, 0] S4096x1024.size
      inb_S4096x1024_S4096x1024_0_0)) : View sig .tc _ _ _).write (Elt F) f w Finset.univ = w :=
    Memref.write_access_unit_zero_univ (Elt F) cc2_stg3_1 hz _
  fin_cases s0 <;> fin_cases s1 <;> fin_cases s2 <;> fin_cases s3 <;>
  · simp only [owns_whole_eq, cc2__matmul_body_eq_skeleton]; unfold cc2__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    subst hf0 hf1 hf2 hf3
    sl_steps
    iapply Hk
    simp only [hr00, hr10, hr20, hr21, hw30, hw31]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    · iexists k2_pay1 f0 f1 f2; isplitr; · ipureintro; rfl
      iexact H3

/-! ## What the body finds in its input buffers -/

section Finds

variable (c : Dev nD) (V : (b : Ref sig .tc) → Buf (Elt F) ((c.tc : Thread nD τ).loc b))
  (O : CellTallies nD τ sig (HIx 1)) (Rc : Set (SemLoc sig × HIx 1))

/-- The pairs' buffer, fetched at the first point only and left as found by every body, holds at every point what
    that fetch put there. -/
theorem findsP0 (t : Fin cfg2.N) (Y : S1024x128.Idx → Elt F .f32) (h : (rdat1 c V O Rc).Finds (0 : Fin 4) t Y) :
    ∃ d, Y = fetP0 c V t d :=
  RDat.finds_in_eq_fetched (rdat1 c V O Rc) (0 : Fin 4) rfl (fun _ _ _ => rfl) (fun _ _ _ h => h) t Y h

/-- The selectors' likewise. -/
theorem findsP1 (t : Fin cfg2.N) (Y : S1024x1.Idx → Elt F .i32) (h : (rdat1 c V O Rc).Finds (1 : Fin 4) t Y) :
    ∃ d, Y = fetP1 c V t d :=
  RDat.finds_in_eq_fetched (rdat1 c V O Rc) (1 : Fin 4) rfl (fun _ _ _ => rfl) (fun _ _ _ h => h) t Y h

/-- The transposed weights' buffer holds the block of columns just fetched: its part inside the array, and past the
    array's end contents nothing names. -/
theorem findsP2 (t : Fin cfg2.N) (Y : S64x4096.Idx → Elt F .f32) (h : (rdat1 c V O Rc).Finds (2 : Fin 4) t Y) :
    ∃ d, Y = fetP2 c V t d :=
  RDat.finds_in_eq_fetched (rdat1 c V O Rc) (2 : Fin 4) rfl
    (fun t t' h => by
      funext a
      show Pipeline.Clip.of (cc2_transform_2 (grid2.coords t) a) _ _ = Pipeline.Clip.of (cc2_transform_2 (grid2.coords t') a) _ _
      rw [show cc2_transform_2 (grid2.coords t) = cc2_transform_2 (grid2.coords t') from h])
    (fun _ _ _ h => h) t Y h

end Finds

/-! ## The body obligation -/

/-- At every point the body, handed the three input buffers as the fetches left them and the result's buffer at
    anything, leaves the inputs' as found and the result's at the product of the three. The invariant (the scoped
    buffers the body does not name) and what the core owes ride along untouched. -/
theorem body1 (c : Dev nD) (V : (b : Ref sig .tc) → Buf (Elt F) ((c.tc : Thread nD τ).loc b))
    (O : CellTallies nD τ sig (HIx 1)) (Rc : Set (SemLoc sig × HIx 1)) :
    (rdat1 c V O Rc).BodyObligation (defs₀ (F := F)) 𝒱₀ (none : HIx 1) Set.univ := fun t Y hY => by
  obtain ⟨d0, h0⟩ := findsP0 c V O Rc t (Y 0) (hY 0)
  obtain ⟨d1, h1⟩ := findsP1 c V O Rc t (Y 1) (hY 1)
  obtain ⟨d2, h2⟩ := findsP2 c V O Rc t (Y 2) (hY 2)
  rw [bigSep_W2, bigSep_W2]
  rw [show (rdat1 c V O Rc).Φ t.succ = (rdat1 c V O Rc).Φ t.castSucc from rfl,
    show (rdat1 c V O Rc).owesAt (none : HIx 1) t.succ = (rdat1 c V O Rc).owesAt (none : HIx 1) t.castSucc from rfl]
  iintro ⟨HΦ, Ho, H0, H1, H2, H3⟩
  iapply (sound_body (F := F) c Set.univ (grid2.coords t) (cfg2.slots t 0) (cfg2.slots t 1) (cfg2.slots t 2) (cfg2.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  · iexists k2_pay1 (Y 0) (Y 1) (Y 2); isplitr
    · ipureintro; exact ⟨d0, d1, d2, by rw [h0, h1, h2]⟩
    iexact H3
end Cert.KernelIdeal.Hand

end
-- ==== Proof.KI.Region1Seg.lean ====
import proofs.«218829_g6193342841233_cont_9to1_m_903_15_alg».proof.Proof.KI.Setup
import proofs.«218829_g6193342841233_cont_9to1_m_903_15_alg».proof.Proof.KI.Region1Body

noncomputable section

namespace Cert.KernelIdeal.Hand

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-! ## The projection region as a segment of the TensorCore's program

The region is entered holding every unscoped buffer of the TensorCore whole, at contents `V`, and the core's debts;
it leaves them so, the result array apart, which holds contents the proof data allow after the last write-back. -/

theorem bigSep_noTables1 {M : Type} [URA M] (Φ : Fin 0 → sProp M) : bigSep Finset.univ Φ = (BI.emp : sProp M) :=
  bigSep_univ_eq_bigSepL [] (by decide) (by decide) Φ

/-- The projection has no prefetched table. -/
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_noTables1 _

/-- The TensorCore's unscoped buffers with the result array's contents replaced, put back together from the
    projection's four arrays and the buffers it does not window. -/
theorem unscopedBufs_upd (c : Dev nD) (V : (b : Ref sig .tc) → Buf (Elt F) ((c.tc : Thread nD τ).loc b))
    (A8 : Buf (Elt F) ((c.tc : Thread nD τ).loc main_v8)) :
    iprop(((((c.tc : Thread nD τ).loc main_v2) ↦{fullShare} V main_v2) ∗ (((c.tc : Thread nD τ).loc main_v6) ↦{fullShare} V main_v6)
        ∗ (((c.tc : Thread nD τ).loc main_v7) ↦{fullShare} V main_v7) ∗ (((c.tc : Thread nD τ).loc main_v8) ↦{fullShare} A8))
      ∗ Pipeline.unscopedRest spec2 c V)
      ⊢ (unscopedBufs c (Function.update V main_v8 A8) : sProp 𝕄) := by
  have e : ∀ b, b ≠ main_v8 → Function.update V main_v8 A8 b = V b := fun b hb => Function.update_of_ne hb _ _
  rw [Pipeline.unscopedBufs_split cfgs (1 : Fin 2) winFacts2.arr_unscoped winFacts2.arr_inj c (Function.update V main_v8 A8)]
  change _ ⊢ iprop((bigSep Finset.univ fun w : Fin 4 => (((c.tc : Thread nD τ).loc (Pipeline.arrRef spec2 w))
      ↦{fullShare} Function.update V main_v8 A8 (Pipeline.arrRef spec2 w) : sProp 𝕄)) ∗ Pipeline.unscopedRest spec2 c (Function.update V main_v8 A8))
  rw [bigSep_W2, unscopedRest2_eq, unscopedRest2_eq]
  change _ ⊢ iprop(((((c.tc : Thread nD τ).loc main_v2) ↦{fullShare} Function.update V main_v8 A8 main_v2)
      ∗ (((c.tc : Thread nD τ).loc main_v6) ↦{fullShare} Function.update V main_v8 A8 main_v6)
      ∗ (((c.tc : Thread nD τ).loc main_v7) ↦{fullShare} Function.update V main_v8 A8 main_v7)
      ∗ (((c.tc : Thread nD τ).loc main_v8) ↦{fullShare} Function.update V main_v8 A8 main_v8)) ∗ _)
  rw [e main_v2 (by decide), e main_v6 (by decide), e main_v7 (by decide), Function.update_self,
    e main_arg0 (by decide), e main_arg1 (by decide), e main_arg2 (by decide), e main_v0 (by decide), e main_v1 (by decide),
    e main_c (by decide), e main_v3 (by decide), e main_v4 (by decide), e main_v5 (by decide), e main_v9 (by decide)]

section Seg

variable (rdats : (p : Fin 2) → (c : Dev nD) → RDat τ (Elt F) (HIx 1) ℕ UU ℕ (Pipeline.pin (pcfgs (F := F)) adm p) c)
  (V : (c : Dev nD) → (b : Ref sig .tc) → Buf (Elt F) ((c.tc : Thread nD τ).loc b))
  (O : Dev nD → CellTallies nD τ sig (HIx 1)) (Rc : Dev nD → Set (SemLoc sig × HIx 1))

/-- The thread state the projection is entered from: the unscoped buffers at `V`, and what the core owes. -/
def pre1 (c : Dev nD) : sProp 𝕄 :=
  iprop(unscopedBufs c (V c) ∗ (rdat1 c (V c) (O c) (Rc c)).owesAt (none : HIx 1) 0)

/-- The thread state it leaves: the same, the result array at contents `A8` the write-backs may have left. -/
def post1 (c : Dev nD) : sProp 𝕄 :=
  iprop(∃ A8 : Buf (Elt F) ((c.tc : Thread nD τ).loc main_v8),
    ⌜(rdat1 c (V c) (O c) (Rc c)).ArrAt (3 : Fin 4) cfg2.N A8⌝
      ∗ unscopedBufs c (Function.update (V c) main_v8 A8)
      ∗ (rdat1 c (V c) (O c) (Rc c)).owesAt (none : HIx 1) (Fin.last cfg2.N))

-- the rule is stated for an arbitrary thread; at the TensorCore's thread its hypotheses meet the goal only after
-- definitions in their types are unfolded
set_option backward.isDefEq.respectTransparency.types false in
/-- The projection region: the layout is the generated module's; the kernel has no semaphore of its own; the body
    obligation is `body1`; the staging cells' waits sit at the index below everything the core owes; the arrays
    are sorted out of the unscoped buffers at entry and put back at exit. -/
def region1 (hO : ∀ c g, O c g none = 0) (h1 : ∀ c, rdats 1 c = rdat1 c (V c) (O c) (Rc c)) :
    Pipeline.RDat.RegionSeg (pcfgs (F := F)) adm rdats (none : HIx 1) defs₀ 𝒱₀ (K (F := F)).L (K (F := F)).lev (1 : Fin 2) where
  win := winFacts2.to₀
  block_pos := block_pos2
  stage_whole := stage_whole2
  K := PEmpty
  osem k := k.elim
  ho := Pipeline.OwnSemFacts.none _
  hbody c := by rw [h1 c]; exact body1 c (V c) (O c) (Rc c)
  hwaits c := Pipeline.RDat.cellsWaits_intro _ rdats _ 1 c (R := levAts (K (F := F)).L (K (F := F)).lev) fun w s t => by
    rw [h1 c]; exact (K (F := F)).mayWait_none _ (hO c)
  pre := pre1 V O Rc
  post := post1 V O Rc
  X _ := iprop(emp)
  Y _ := iprop(emp)
  Z c := Pipeline.unscopedRest spec2 c (V c)
  hentry c := by
    have harr := Pipeline.RDat.arrays_of_unscopedBufs (pcfgs (F := F)) adm rdats (p := (1 : Fin 2)) winFacts2 arr_whole2 c
      (by intro w; rw [h1 c]; unfold RDat.share; split <;> rfl) (V c) (by intro w; rw [h1 c]; rfl)
    rw [prefHeld1]
    unfold pre1
    rw [h1 c] at harr ⊢
    iintro ⟨⟨Hb, Ho⟩, -, -⟩
    imodintro
    ihave Hx := harr $$ [Hb]
    · iexact Hb
    icases Hx with ⟨Ha, Hr⟩
    isplitl [Ha]; · iexact Ha
    isplitr; · iempintro
    isplitl [Ho]; · iexact Ho
    isplitr; · iempintro
    iexact Hr
  hin c := by
    rw [h1 c]
    change iprop(_ ∗ _ ∗ Pipeline.scopedRest spec2 c) ⊢ (Pipeline.scopedRest spec2 c : sProp 𝕄)
    iintro ⟨-, -, H⟩; iexact H
  hout c := by
    rw [h1 c, Pipeline.ownSems0_none]
    change (Pipeline.scopedRest spec2 c : sProp 𝕄) ⊢ iprop(_ ∗ _ ∗ Pipeline.scopedRest spec2 c)
    iintro H
    isplitr; · iempintro
    isplitr; · iempintro
    iexact H
  hexit c := by
    have hae := Pipeline.RDat.arrays_eq (pcfgs (F := F)) adm rdats (1 : Fin 2) c arr_whole2
      (by intro w; rw [h1 c]; unfold RDat.share; split <;> rfl)
    rw [h1 c] at hae ⊢
    unfold post1 RDat.arraysAt
    rw [bigSep_W2]
    iintro ⟨⟨⟨%F0, %hF0, H0⟩, ⟨%F1, %hF1, H1⟩, ⟨%F2, %hF2, H2⟩, ⟨%F3, %hF3, H3⟩⟩, Ho, -, Hr⟩
    rw [(rdat1 c (V c) (O c) (Rc c)).ArrAt_in (0 : Fin 4) rfl] at hF0
    rw [(rdat1 c (V c) (O c) (Rc c)).ArrAt_in (1 : Fin 4) rfl] at hF1
    rw [(rdat1 c (V c) (O c) (Rc c)).ArrAt_in (2 : Fin 4) rfl] at hF2
    subst hF0 hF1 hF2
    imodintro
    iexists F3
    isplitr; · ipureintro; exact hF3
    isplitr [Ho]
    · iapply (unscopedBufs_upd c (V c) F3)
      isplitr [Hr]
      · have hA := hae (fun w => match w with
          | ⟨0, _⟩ => (rdat1 c (V c) (O c) (Rc c)).A (0 : Fin 4)
          | ⟨1, _⟩ => (rdat1 c (V c) (O c) (Rc c)).A (1 : Fin 4)
          | ⟨2, _⟩ => (rdat1 c (V c) (O c) (Rc c)).A (2 : Fin 4)
          | ⟨3, _⟩ => F3)
        unfold RDat.arrays at hA
        rw [bigSep_W2, bigSep_W2] at hA
        ihave Hx := (Entails.of_eq hA) $$ [H0 H1 H2 H3]
        · isplitl [H0]; · iexact H0
          isplitl [H1]; · iexact H1
          isplitl [H2]; · iexact H2
          iexact H3
        iexact Hx
      · iexact Hr
    · iexact Ho

end Seg

/-- The two thread states, unfolded: what is held, and the core's debts with the recorded pairs' bound. -/
theorem region1_pre (rdats) (V) (O) (Rc) (hO) (h1) (c : Dev nD) :
    (region1 (F := F) rdats V O Rc hO h1).pre c
      = iprop(unscopedBufs c (V c) ∗ Pipeline.owesWithin c (O c) (Rc c ∪ cfg2.waitPairs (none : HIx 1))) := rfl
theorem region1_post (rdats) (V) (O) (Rc) (hO) (h1) (c : Dev nD) :
    (region1 (F := F) rdats V O Rc hO h1).post c
      = iprop(∃ A8 : Buf (Elt F) ((c.tc : Thread nD τ).loc main_v8), ⌜(rdat1 c (V c) (O c) (Rc c)).ArrAt (3 : Fin 4) cfg2.N A8⌝
          ∗ unscopedBufs c (Function.update (V c) main_v8 A8)
          ∗ Pipeline.owesWithin c (O c) (Rc c ∪ cfg2.waitPairs (none : HIx 1))) := rfl
end Cert.KernelIdeal.Hand

end
-- ==== Proof.KI.Steps.lean ====
/-
  The two pipeline regions' records, instantiated at the valuation @main has reached, as the step rules of @main's proof.

  Before the gather the TensorCore still owes its start signals (call number 0 ahead); after it no call is ahead. Either
  way the debts sit at call indices, so the regions' own waits pass under them.
-/
import proofs.«218829_g6193342841233_cont_9to1_m_903_15_alg».proof.Proof.KI.RegionGlue
import proofs.«218829_g6193342841233_cont_9to1_m_903_15_alg».proof.Proof.KI.Region0Seg
import proofs.«218829_g6193342841233_cont_9to1_m_903_15_alg».proof.Proof.KI.Region1Seg

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F] [∀ e, Nonempty (Elt F e)]

/-- The TensorCore's buffers at a valuation, on every device. -/
abbrev VW (W : Valuation τ sig (Elt F)) : (c : Dev nD) → (b : Ref sig .tc) → Buf (Elt F) ((c.tc : Thread nD τ).loc b) := fun _ b => W b
/-- What the TensorCore owes before call `n`, on every device. -/
abbrev OW (n : ℕ) : Dev nD → CellTallies nD τ sig (HIx 1) := fun c => (K (F := F)).Otc c n
/-- The pairs its waits may have recorded before call `n`, on every device. -/
abbrev RW (n : ℕ) : Dev nD → Set (SemLoc sig × HIx 1) := fun c => RcN (F := F) c n

/-- Both regions' proof data before call `n`, at valuation `W`. -/
def rdatsAt (n : ℕ) (W : Valuation τ sig (Elt F)) : (p : Fin 2) → (c : Dev nD) → Pipeline.RDat τ (Elt F) (HIx 1) ℕ UU ℕ (cfgs' (F := F) p) c
  | ⟨0, _⟩, c => rdat0 (OW (F := F) n) (RW (F := F) n) (VW W) c
  | ⟨1, _⟩, c => rdat1 c (VW W c) (OW (F := F) n c) (RW (F := F) n c)

/-- What the repack leaves in the packed table, entered at `W`. -/
def OutR0 (d : Dev nD) (W : Valuation τ sig (Elt F)) (f1 : (v1' : DevRef τ sig).ty.Contents (Elt F)) : Prop :=
  Out0 (OW (F := F) 0) (RW (F := F) 0) (VW W) d f1
/-- What the projection leaves in its result, entered at `W`. -/
def OutR1 (d : Dev nD) (W : Valuation τ sig (Elt F)) (A8 : (v8' : DevRef τ sig).ty.Contents (Elt F)) : Prop :=
  (rdat1 d (VW W d) (OW (F := F) 1 d) (RW (F := F) 1 d)).ArrAt (3 : Fin 4) cfg2.N A8

theorem waitPairs_none (cfg : Pipeline.Cfg sig Λ₀) : ∀ x ∈ cfg.waitPairs (none : HIx 1), x.2 = none := by
  rintro x ⟨w, s, rfl⟩; rfl

variable (P : (K (F := F)).Pay (nD := nD) (Val := Elt F) (Name := ℕ) (U := UU))

theorem stepR0 (κ : GSem nD τ sig → ℕ) : StepR0 P (OutR0 (F := F)) κ := fun d W Φ =>
  step_of_region P κ 0 0 (rdatsAt 0 W)
    (region0 (OW (F := F) 0) (RW (F := F) 0) (VW W) (rdatsAt 0 W) (fun _ => rfl) (fun c g => Otc_none c 0 g))
    d W main_v1 (OutR0 d W) (cfg0.waitPairs (none : HIx 1)) (waitPairs_none _)
    (region0_pre _ _ _ _ _ _ d) (region0_post _ _ _ _ _ _ d) Φ

theorem stepR1 (κ : GSem nD τ sig → ℕ) : StepR1 P (OutR1 (F := F)) κ := fun d W Φ =>
  step_of_region P κ 1 1 (rdatsAt 1 W)
    (region1 (rdatsAt 1 W) (VW W) (OW (F := F) 1) (RW (F := F) 1) (fun c g => Otc_none c 1 g) (fun _ => rfl))
    d W main_v8 (OutR1 d W) (cfg2.waitPairs (none : HIx 1)) (waitPairs_none _)
    (region1_pre _ _ _ _ _ _ d) (region1_post _ _ _ _ _ _ d) Φ

end Cert.KernelIdeal.Hand

end
-- ==== Proof.KI.SCPay.lean ====
/-
  What the gather call's handshakes carry.

  The batch of 1024 row numbers is cut into 32 consecutive groups of 32; group w = 2 s + c is the task of
  vector subcore s of SparseCore c. A task needs three things: its own 32 row numbers (read only, but
  nobody else needs them, so it takes them outright), its own 32 rows of the output (to overwrite), and
  the whole packed table (to read rows from, wherever the row numbers point). The table is read by all 32
  tasks at once, so each takes a read share of the whole of it; a read share fixes the contents, and any
  two shares of one array agree on them.

  A row number n in [0, 99999] names line(n) = n - 57344 or n of the packed table (LineSpec). What a task
  hands back is its output rows filled so: output row b, column j holds packed-table entry
  (line(idx[b]), j). The statement is relational in the coordinates' values, so that it carries no proof
  that line(idx[b]) is a row of the table; that is a fact about the row numbers, used where the rows are read.
-/
import proofs.«218829_g6193342841233_cont_9to1_m_903_15_alg».proof.Proof.KI.Setup
import proofs.«218829_g6193342841233_cont_9to1_m_903_15_alg».proof.Proof.LineSpec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

/-! ## The three arrays of the call, as the TensorCore names them -/

abbrev idxLoc (d : Dev nD) : Loc nD τ sig := (SparseCore.T d).loc main_arg0
abbrev v1Loc (d : Dev nD) : Loc nD τ sig := (SparseCore.T d).loc main_v1
abbrev v2Loc (d : Dev nD) : Loc nD τ sig := (SparseCore.T d).loc main_v2

/-! ## The 32 groups of rows -/

theorem hdivI : 32 ∣ S1024.size 0 := ⟨32, rfl⟩
theorem hdivO : 32 ∣ S1024x128.size 0 := ⟨32, rfl⟩

/-- Group w of the row numbers: positions 32 w … 32 w + 31. -/
abbrev rowsI (w : Fin 32) : Finset S1024.Idx := (Rect.part (s := S1024) (a₀ := 0) hdivI w).set
/-- Group w of the output: rows 32 w … 32 w + 31, all 128 columns. -/
abbrev rowsO (w : Fin 32) : Finset S1024x128.Idx := (Rect.part (s := S1024x128) (a₀ := 0) hdivO w).set

/-- The group of vector subcore s of SparseCore c. -/
def wid (c : Fin 2) (s : Fin 16) : Fin 32 := ⟨2 * s.val + c.val, by omega⟩

/-- Task w's read share of the packed table: the w-th of 32 tokens split off the full share. -/
abbrev tok (w : Fin 32) : PosShare TreeShare := Transfers.shareTok fullShare 32 w

variable (m : (ℓ : Loc nD τ sig) → Buf (Elt F) ℓ) (Ok1 : (d : Dev nD) → Buf (Elt F) (v1Loc d) → Prop)

/-- On the output positions R, f2 is the gather of f1: position (b, j) holds f1 at (line(idx[b]), j). -/
def Gath (d : Dev nD) (f1 : Buf (Elt F) (v1Loc d)) (f2 : Buf (Elt F) (v2Loc d)) (R : Finset S1024x128.Idx) : Prop :=
  ∀ (i : S1024x128.Idx) (b : S1024.Idx) (k : S57344x128.Idx), i ∈ R → (b 0).val = (i 0).val →
    (k 0).val = (lineOf (m (idxLoc d) b)).toNat → (k 1).val = (i 1).val → f2 i = f1 k

/-- What task w is handed: a read share of the table at contents satisfying Ok1, its row numbers, its output rows. -/
def goP (d : Dev nD) (w : Fin 32) : sProp 𝕄 :=
  iprop(∃ f1 : Buf (Elt F) (v1Loc d), ⌜Ok1 d f1⌝ ∗ (v1Loc d ↦{tok w} f1) ∗ (idxLoc d ↦[rowsI w]{fullShare} m (idxLoc d))
    ∗ ∃ f : Buf (Elt F) (v2Loc d), v2Loc d ↦[rowsO w]{fullShare} f)

/-- What it hands back: the same, its output rows now the gather of the table it read. -/
def tdP (d : Dev nD) (w : Fin 32) : sProp 𝕄 :=
  iprop(∃ f1 : Buf (Elt F) (v1Loc d), ⌜Ok1 d f1⌝ ∗ (v1Loc d ↦{tok w} f1) ∗ (idxLoc d ↦[rowsI w]{fullShare} m (idxLoc d))
    ∗ ∃ f2 : Buf (Elt F) (v2Loc d), ⌜Gath m d f1 f2 (rowsO w)⌝ ∗ v2Loc d ↦[rowsO w]{fullShare} f2)

instance goP_storable (d : Dev nD) (w : Fin 32) : BI.Storable (upEmb : UEmb _ 𝕄) (goP m Ok1 d w) := by unfold goP; infer_instance
instance tdP_storable (d : Dev nD) (w : Fin 32) : BI.Storable (upEmb : UEmb _ 𝕄) (tdP m Ok1 d w) := by unfold tdP; infer_instance

/-- A SparseCore is handed its sixteen tasks' operands and hands back their results; nothing rides on a thread. -/
def P : (K (F := F)).Pay (nD := nD) (Val := Elt F) (Name := ℕ) (U := UU) where
  st := fun q d c => match q with | 0 => bigSep Finset.univ fun s : Fin 16 => goP m Ok1 d (wid (Fin.cast nCore_zero c) s)
  dn := fun q d c => match q with | 0 => bigSep Finset.univ fun s : Fin 16 => tdP m Ok1 d (wid (Fin.cast nCore_zero c) s)
  go := fun q d c i => match q with | 0 => goP m Ok1 d (wid (Fin.cast nCore_zero c) (Fin.cast nSub_zero i))
  td := fun q d c i => match q with | 0 => tdP m Ok1 d (wid (Fin.cast nCore_zero c) (Fin.cast nSub_zero i))
  x := fun _ _ => iprop(emp)

instance P_storable : (P (F := F) m Ok1).IsStorable where
  st q d c := match q with
    | 0 => (inferInstance : BI.Storable (upEmb : UEmb _ 𝕄) (bigSep Finset.univ fun s : Fin 16 => goP m Ok1 d (wid (Fin.cast nCore_zero c) s)))
  dn q d c := match q with
    | 0 => (inferInstance : BI.Storable (upEmb : UEmb _ 𝕄) (bigSep Finset.univ fun s : Fin 16 => tdP m Ok1 d (wid (Fin.cast nCore_zero c) s)))
  go q d c i := match q with
    | 0 => (inferInstance : BI.Storable (upEmb : UEmb _ 𝕄) (goP m Ok1 d (wid (Fin.cast nCore_zero c) (Fin.cast nSub_zero i))))
  td q d c i := match q with
    | 0 => (inferInstance : BI.Storable (upEmb : UEmb _ 𝕄) (tdP m Ok1 d (wid (Fin.cast nCore_zero c) (Fin.cast nSub_zero i))))

/-! The payloads as equations, to rewrite with instead of unfolding the record. -/

theorem P_st (d : Dev nD) (c : Fin ((K (F := F)).nCore 0)) :
    (P m Ok1).st 0 d c = bigSep Finset.univ fun s : Fin 16 => goP m Ok1 d (wid (Fin.cast nCore_zero c) s) := rfl
theorem P_dn (d : Dev nD) (c : Fin ((K (F := F)).nCore 0)) :
    (P m Ok1).dn 0 d c = bigSep Finset.univ fun s : Fin 16 => tdP m Ok1 d (wid (Fin.cast nCore_zero c) s) := rfl
theorem P_go (d : Dev nD) (c : Fin ((K (F := F)).nCore 0)) (i : Fin ((K (F := F)).nSub 0)) :
    (P m Ok1).go 0 d c i = goP m Ok1 d (wid (Fin.cast nCore_zero c) (Fin.cast nSub_zero i)) := rfl
theorem P_td (d : Dev nD) (c : Fin ((K (F := F)).nCore 0)) (i : Fin ((K (F := F)).nSub 0)) :
    (P m Ok1).td 0 d c i = tdP m Ok1 d (wid (Fin.cast nCore_zero c) (Fin.cast nSub_zero i)) := rfl
theorem P_x (q : Fin 1) (thr : Thread nD τ) : (P m Ok1).x q thr = iprop(emp) := rfl
theorem P_ox : (P m Ok1).ox = fun _ _ => 0 := rfl

end Cert.KernelIdeal.Hand

end
-- ==== Proof.KI.SCStep.lean ====
/-
  The gather call as one step of @main's proof.

  The TensorCore holds every unscoped buffer whole. Of these the call takes three: the row numbers, the packed table and
  the output. The table is split into the 32 tasks' read shares and a remainder the TensorCore keeps across the call; the
  row numbers and the output go out by groups of rows. When the call returns, the shares rejoin the remainder — so the table
  is still at the contents it went out with — and the output's groups join into one array, the gather of the table at the
  lines the row numbers name.
-/
import proofs.«218829_g6193342841233_cont_9to1_m_903_15_alg».proof.Proof.KI.Main
import proofs.«218829_g6193342841233_cont_9to1_m_903_15_alg».proof.Proof.KI.SCPay

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

abbrev a0' : DevRef τ sig := Proc.devRef .tc (main_arg0 : Ref sig .tc)
/-- The call's three arrays. -/
abbrev S3 : Finset (DevRef τ sig) := {a0', v1', v2'}

theorem S3_sub : S3 ⊆ ucRefs τ sig := by decide

theorem held_S3 (d : Dev nD) (W : Valuation τ sig (Elt F)) :
    (held (T d) S3 W : sProp (MM F)) = iprop((idxLoc d ↦{fullShare} W a0') ∗ (v1Loc d ↦{fullShare} W v1') ∗ v2Loc d ↦{fullShare} W v2') := by
  unfold held S3
  rw [SparseCore.bigSep_insert' (by decide), SparseCore.bigSep_insert' (by decide), bigSep_singleton]

/-- The buffers the call does not touch do not see the output's new contents. -/
theorem held_rest_update (d : Dev nD) (W : Valuation τ sig (Elt F)) (f2 : (v2' : DevRef τ sig).ty.Contents (Elt F)) :
    (held (T d) (ucRefs τ sig \ S3) (Function.update W v2' f2) : sProp (MM F)) = held (T d) (ucRefs τ sig \ S3) W :=
  bigSep_congr fun b hb => by
    rw [Function.update_of_ne (fun e => (Finset.mem_sdiff.mp hb).2 (by rw [e]; decide))]

section Step

variable (m : (ℓ : Loc nD τ sig) → Buf (Elt F) ℓ) (Ok1 : (d : Dev nD) → Buf (Elt F) (v1Loc d) → Prop)
variable (κ : GSem nD τ sig → ℕ)

/-- What the call needs of the valuation it is entered at: the row numbers are the launch's, the table is as the tasks expect. -/
def PreSC (d : Dev nD) (W : Valuation τ sig (Elt F)) : Prop := W a0' = m (idxLoc d) ∧ Ok1 d (W v1')
/-- What it leaves in the output: the gather of the table it was entered with. -/
def OutSC (d : Dev nD) (W : Valuation τ sig (Elt F)) (f2 : (v2' : DevRef τ sig).ty.Contents (Elt F)) : Prop :=
  Gath m d (W v1') f2 Finset.univ

theorem stepSC
    (hst : ∀ (d : Dev nD) (f1 : Buf (Elt F) (v1Loc d)) (f : Buf (Elt F) (v2Loc d)),
      iprop(⌜Ok1 d f1⌝ ∗ (v1Loc d ↦{fullShare} f1) ∗ (idxLoc d ↦{fullShare} m (idxLoc d)) ∗ v2Loc d ↦{fullShare} f)
        ⊢ (iprop((v1Loc d ↦{Transfers.shareDrop fullShare 32} f1) ∗ bigSep Finset.univ fun c : Fin ((K (F := F)).nCore 0) => (P m Ok1).st 0 d c) : sProp (MM F)))
    (hdn : ∀ (d : Dev nD) (f1 : Buf (Elt F) (v1Loc d)),
      iprop((v1Loc d ↦{Transfers.shareDrop fullShare 32} f1) ∗ bigSep Finset.univ fun c : Fin ((K (F := F)).nCore 0) => (P m Ok1).dn 0 d c)
        ⊢ (iprop(∃ f2 : Buf (Elt F) (v2Loc d), ⌜Gath m d f1 f2 Finset.univ⌝ ∗ (v1Loc d ↦{fullShare} f1) ∗ (idxLoc d ↦{fullShare} m (idxLoc d)) ∗ v2Loc d ↦{fullShare} f2) : sProp (MM F))) :
    StepSC (P m Ok1) (PreSC m Ok1) (OutSC m) κ := by
  intro d W Φ hpre
  obtain ⟨hidx, hok⟩ := hpre
  rw [StableHlo.held_sub_split (T d) S3_sub W, held_S3, hidx]
  iintro ⟨#Hctx, Hst, ⟨⟨Hi, H1, H2⟩, Hrest⟩, Hk⟩
  ihave Hs := (hst d (W v1') (W v2')) $$ [Hi H1 H2]
  · isplitr; · ipureintro; exact hok
    isplitl [H1]; · iexact H1
    isplitl [Hi]; · iexact Hi
    iexact H2
  icases Hs with ⟨Hdrop, Hsts⟩
  iapply ((K (F := F)).wp_run (D (F := F)) 𝒱 (EH := EH) (P := P m Ok1) κ d 0) $$ [Hst Hsts Hdrop Hrest Hk]
  isplitr; · iexact Hctx
  isplitl [Hst]; · iexact Hst
  isplitl [Hsts]; · iexact Hsts
  iintro ⟨Hst, Hdn⟩
  ihave Hd := (hdn d (W v1')) $$ [Hdrop Hdn]
  · isplitl [Hdrop] <;> iassumption
  icases Hd with ⟨%f2, %hg, H1, Hi, H2⟩
  ispecialize Hk $$ %f2
  iapply Hk
  isplitr; · ipureintro; exact hg
  isplitl [Hst]; · iexact Hst
  rw [StableHlo.held_sub_split (T d) S3_sub (Function.update W v2' f2), held_S3, held_rest_update,
    Function.update_of_ne (show a0' ≠ v2' by decide), Function.update_of_ne (show v1' ≠ v2' by decide), Function.update_self, hidx]
  isplitr [Hrest]
  · isplitl [Hi]; · iexact Hi
    isplitl [H1]; · iexact H1
    iexact H2
  iexact Hrest

end Step

end Cert.KernelIdeal.Hand

end
-- ==== Proof.KI.SCTask.lean ====
/-
  The gather task of one vector subcore.

  Task (c, s) serves group w = 2 s + c of the batch: it copies its 32 row numbers into its first scratch,
  computes their lines into its second scratch in two 16-lane steps, gathers the 32 named rows of the
  packed table into its third scratch, and copies that to its 32 rows of the output. Each copy is waited
  for before the next starts, each on a semaphore of its own, so the run is a straight line.

  The one thing the run needs to know about the data is that the gather's row list names rows of the
  table: a row number in [0, 99999] has its line below 57344. The value is carried in the run itself: the
  contents each step leaves are named, and at the end the output rows are read back through those names.
-/
import proofs.«218829_g6193342841233_cont_9to1_m_903_15_alg».proof.Proof.KI.Setup
import proofs.«218829_g6193342841233_cont_9to1_m_903_15_alg».proof.Proof.KI.SCPay
import Idealize.ShloMosaic.Lib.Pipeline.Value
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

open Idealize.ShloMosaic.Tactic

variable [FloatOps F]

/-! ## The task's place and its views, spelt as the kernel spells them -/

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The group of the task at grid coordinates L = (c, s): 2 s + c. -/
def widL (L : grid1.Coords) : Fin 32 :=
  ⟨2 * (L 1).val + (L 0).val, by
    have h0 : (L 0).val < 2 := (L 0).isLt
    have h1 : (L 1).val < 16 := (L 1).isLt
    omega⟩

abbrev tV : Memref sig .scVector .hbm S57344x128 .f32 := Memref.whole main_v1_scv
abbrev iV : Memref sig .scVector .hbm S1024 .i32 := Memref.whole main_arg0_scv
abbrev oV : Memref sig .scVector .hbm S1024x128 .f32 := Memref.whole main_v2_scv
abbrev s0 : Memref sig .scVector .vmem S32 .i32 := Memref.whole cc1_scratch0
abbrev s1 : Memref sig .scVector .vmem S32 .i32 := Memref.whole cc1_scratch1
abbrev s2 : Memref sig .scVector .vmem S32x128 .f32 := Memref.whole cc1_scratch2

/-- The task's 32 row numbers, as the kernel slices them out of the batch. -/
abbrev iSl (L : grid1.Coords) : Memref sig .scVector .hbm S32 .i32 :=
  (iV : Memref sig .scVector .hbm S1024 .i32).slice (Rect.unit (s := S1024) (k1_off1 L) S32.size (k1_off1_inb L)) (fun _ => rfl)
/-- The task's 32 output rows, as the kernel slices them out of the result. -/
abbrev oSl (L : grid1.Coords) : Memref sig .scVector .hbm S32x128 .f32 :=
  (oV : Memref sig .scVector .hbm S1024x128 .f32).slice (Rect.unit (s := S1024x128) (k1_off2 L) S32x128.size (k1_off2_inb L)) (fun _ => rfl)

omit [FloatOps F] in
/-- The kernel's slice of the row numbers at offset 64 s + 32 c is group 2 s + c: 32 (2 s + c) = 64 s + 32 c. -/
theorem rect_iSl (L : grid1.Coords) :
    Rect.unit (s := S1024) (k1_off1 L) S32.size (k1_off1_inb L) = Rect.part (s := S1024) (a₀ := 0) hdivI (widL L) := by
  unfold Rect.part Rect.block
  congr 1 <;> funext a
  · rw [k1_off1_eq]
    match a with
    | 0 => simp [Shape.partIx, Shape.partSize, widL]; omega
  · match a with
    | 0 => simp [Shape.partSize]

omit [FloatOps F] in
/-- The same for the output rows; the second axis is taken whole. -/
theorem rect_oSl (L : grid1.Coords) :
    Rect.unit (s := S1024x128) (k1_off2 L) S32x128.size (k1_off2_inb L) = Rect.part (s := S1024x128) (a₀ := 0) hdivO (widL L) := by
  unfold Rect.part Rect.block
  congr 1 <;> funext a
  · rw [k1_off2_eq]
    match a with
    | 0 => simp [Shape.partIx, Shape.partSize, widL]; omega
    | 1 => simp [Shape.partIx, Shape.partSize]
  · match a with
    | 0 => simp [Shape.partSize]
    | 1 => simp [Shape.partSize]

omit [FloatOps F] in
theorem set_iSl (L : grid1.Coords) : (iSl L).view.set = rowsI (widL L) := by
  show ((View.whole (main_arg0_scv : Ref sig .scVector)).slice (Rect.unit (s := S1024) (k1_off1 L) S32.size (k1_off1_inb L))).set = _
  rw [View.set_slice_whole, rect_iSl]
omit [FloatOps F] in
theorem set_oSl (L : grid1.Coords) : (oSl L).view.set = rowsO (widL L) := by
  show ((View.whole (main_v2_scv : Ref sig .scVector)).slice (Rect.unit (s := S1024x128) (k1_off2 L) S32x128.size (k1_off2_inb L))).set = _
  rw [View.set_slice_whole, rect_oSl]

variable (m : (ℓ : Loc nD τ sig) → Buf (Elt F) ℓ) (Ok1 : (d : Dev nD) → Buf (Elt F) (v1Loc d) → Prop)

/-! ## The subcore's own storage: three scratch buffers, three DMA semaphores -/

variable (d : Dev nD) (L : grid1.Coords)

/-- The gather's semaphore, the row numbers' copy-in semaphore, the rows' copy-out semaphore. -/
abbrev cGcell (d : Dev nD) (c : Fin τ.nSC) (i : Fin τ.nSub) : GSem nD τ sig := (V d c i, .dma cc1_scratch3.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc1_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The handed resources in the kernel's spelling -/

omit [FloatOps F] in
theorem pts_iSl (f : Buf (Elt F) (idxLoc d)) :
    ((iSl L).view.loc (V d (cV L) (jV L)) ↦[(iSl L).view.set]{fullShare} f : sProp 𝕄) = idxLoc d ↦[rowsI (widL L)]{fullShare} f := by
  rw [set_iSl]
omit [FloatOps F] in
theorem pts_oSl (f : Buf (Elt F) (v2Loc d)) :
    ((oSl L).view.loc (V d (cV L) (jV L)) ↦[(oSl L).view.set]{fullShare} f : sProp 𝕄) = v2Loc d ↦[rowsO (widL L)]{fullShare} f := by
  rw [set_oSl]
omit [FloatOps F] in
theorem pts_tV (q : PosShare TreeShare) (f : Buf (Elt F) (v1Loc d)) :
    ((tV : Memref sig .scVector .hbm S57344x128 .f32).view.loc (V d (cV L) (jV L)) ↦{q} f : sProp 𝕄) = v1Loc d ↦{q} f := rfl

omit [FloatOps F] in
theorem pts_s0 (f : Buf (Elt F) ((V d (cV L) (jV L)).loc cc1_scratch0)) :
    ((s0 : Memref sig .scVector .vmem S32 .i32).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1 : Memref sig .scVector .vmem S32 .i32).view.loc (V d (cV L) (jV L)) ↦{fullShare} f : sProp 𝕄) = (V d (cV L) (jV L)).loc cc1_scratch1 ↦{fullShare} f := rfl
omit [FloatOps F] in
theorem pts_s2 (f : Buf (Elt F) ((V d (cV L) (jV L)).loc cc1_scratch2)) :
    ((s2 : Memref sig .scVector .vmem S32x128 .f32).view.loc (V d (cV L) (jV L)) ↦{fullShare} f : sProp 𝕄) = (V d (cV L) (jV L)).loc cc1_scratch2 ↦{fullShare} f := rfl

/-! ## The row numbers' lines

After the copy-in, position y of the subcore's first scratch holds row number idx[32 w + y]. The two
16-lane steps store, at the same position of the second scratch, its line: n - 57344 where n >= 57344,
else n. Both stores are one function of the position, so once they cover the scratch every position
reads that function, whatever the scratch held before; and the line of a row number in [0, 99999] is
below 57344, the number of lines of the packed table. -/

omit [FloatOps F] in
/-- The first 16-lane step, lane by lane: the line of the lane's word. -/
theorem pay1_apply (v : Vec F S16 .i32) (x : S16.Idx) : k1_pay1 v x = lineOf (v x) := by
  unfold k1_pay1
  simp only [shapeCast_self]
  exact Cert.LineSpec.select_sge_sub_apply v x
omit [FloatOps F] in
/-- The second step is the same operation. -/
theorem pay2_apply (v : Vec F S16 .i32) (x : S16.Idx) : k1_pay2 v x = lineOf (v x) := by
  unfold k1_pay2
  simp only [shapeCast_self]
  exact Cert.LineSpec.select_sge_sub_apply v x

/-- The line of the task's y-th row number. -/
def lineAt (d : Dev nD) (L : grid1.Coords) (y : S32.Idx) : BitVec 32 :=
  lineOf (m (idxLoc d) ((iSl L).view.emb y))

abbrev loHalf : Rect S32 := Rect.unit (s := S32) ![0] S16.size inb_S32_S16_0
abbrev hiHalf : Rect S32 := Rect.unit (s := S32) ![16] S16.size inb_S32_S16_16

/-- What the two steps leave in the second scratch, over any prior contents g, given any prior contents f0 of the first. -/
abbrev linesList (d : Dev nD) (L : grid1.Coords) (f0 : (s0 : Memref sig .scVector .vmem S32 .i32).view.ty.Contents (Elt F)) :
    List (View.Piece (Elt F) S32 .i32) :=
  [⟨hiHalf, k1_pay2 (View.readAt (Elt F) (s0 : Memref sig .scVector .vmem S32 .i32).view hiHalf.toLoadRect
      (View.write (Elt F) (s0 : Memref sig .scVector .vmem S32 .i32).view f0 (ReadAs.same.apply (View.read (Elt F) (iSl L).view (m (idxLoc d)))) Finset.univ))⟩,
   ⟨loHalf, k1_pay1 (View.readAt (Elt F) (s0 : Memref sig .scVector .vmem S32 .i32).view loHalf.toLoadRect
      (View.write (Elt F) (s0 : Memref sig .scVector .vmem S32 .i32).view f0 (ReadAs.same.apply (View.read (Elt F) (iSl L).view (m (idxLoc d)))) Finset.univ))⟩]

omit [FloatOps F] in
/-- Each step's lane x holds the line of the row number at the lane's position. -/
theorem lines_pieces (d : Dev nD) (L : grid1.Coords) (f0 : (s0 : Memref sig .scVector .vmem S32 .i32).view.ty.Contents (Elt F)) :
    ∀ p ∈ linesList m d L f0, ∀ x : p.1.shape.Idx, p.2 x = lineAt m d L (p.1.emb x) := by
  intro p hp
  simp only [linesList, List.mem_cons, List.mem_nil_iff, or_false] at hp
  rcases hp with rfl | rfl
  · intro x
    show k1_pay2 _ x = _
    rw [pay2_apply, View.readAt_apply, View.read_write_univ]
    rfl
  · intro x
    show k1_pay1 _ x = _
    rw [pay1_apply, View.readAt_apply, View.read_write_univ]
    rfl

omit [FloatOps F] in
/-- The two halves cover the 32 positions. -/
theorem lines_cover (d : Dev nD) (L : grid1.Coords) (f0 : (s0 : Memref sig .scVector .vmem S32 .i32).view.ty.Contents (Elt F)) (y : S32.Idx) :
    ∃ p ∈ linesList m d L f0, y ∈ p.1.set := by
  have hy : (y 0).val < 32 := (y 0).isLt
  by_cases h : (y 0).val < 16
  · refine ⟨⟨loHalf, _⟩, List.mem_cons_of_mem _ List.mem_cons_self, ?_⟩
    show y ∈ loHalf.set
    refine Rect.mem_set_unit.mpr fun a => ?_
    match a with
    | 0 => simp; omega
  · refine ⟨⟨hiHalf, _⟩, List.mem_cons_self, ?_⟩
    show y ∈ hiHalf.set
    refine Rect.mem_set_unit.mpr fun a => ?_
    match a with
    | 0 => simp; omega

omit [FloatOps F] in
/-- Every word of the second scratch, at the moment the gather is issued, names a line of the packed table. -/
theorem lines_inb (hidx : ∀ (d : Dev nD) (b : S1024.Idx), 0 ≤ (m (idxLoc d) b).toInt ∧ (m (idxLoc d) b).toInt ≤ 99999) (d : Dev nD) (L : grid1.Coords)
    (g : (s1 : Memref sig .scVector .vmem S32 .i32).view.ty.Contents (Elt F)) (f0 : (s0 : Memref sig .scVector .vmem S32 .i32).view.ty.Contents (Elt F)) :
    ∀ x : S32.Idx, ((s1 : Memref sig .scVector .vmem S32 .i32).view.read (Elt F)
        ((s1 : Memref sig .scVector .vmem S32 .i32).view.writes (Elt F) g (linesList m d L f0)) x).toNat
      < S57344x128.size gathers_S57344x128_S32x128.axis := by
  intro x
  rw [View.read_writes_apply_of_pieces _ _ (lineAt m d L) _ (lines_pieces m d L f0) x (lines_cover m d L f0 x)]
  exact Cert.LineSpec.lineOf_lt _ (hidx d _).1 (hidx d _).2

/-! ## The value the task leaves

The copy-out writes, at position x = (r, j) of the task's 32 output rows, what the third scratch holds
there; the gather put there packed-table entry (row named by word r of the second scratch, column j);
word r of the second scratch is the line of the task's r-th row number; and the task's r-th row number is
idx[32 w + r], the row number of output row 32 w + r. So output entry (32 w + r, j) is packed-table entry
(line(idx[32 w + r]), j). -/

/-- The packed table, as the kernel slices it for the gather: whole. -/
abbrev tSl : Memref sig .scVector .hbm S57344x128 .f32 :=
  (tV : Memref sig .scVector .hbm S57344x128 .f32).slice (Rect.unit (s := S57344x128) ![0, 0] S57344x128.size inb_S57344x128_S57344x128_0_0) (fun _ => rfl)

omit [FloatOps F] in
theorem gath_of_run (d : Dev nD) (L : grid1.Coords) (f1 : Buf (Elt F) (v1Loc d)) (fo : Buf (Elt F) (v2Loc d))
    (fs2 : (s2 : Memref sig .scVector .vmem S32x128 .f32).view.ty.Contents (Elt F))
    (g1 : (s1 : Memref sig .scVector .vmem S32 .i32).view.ty.Contents (Elt F))
    (f0 : (s0 : Memref sig .scVector .vmem S32 .i32).view.ty.Contents (Elt F))
    (hn : S32.numel = S32x128.size gathers_S57344x128_S32x128.axis')
    (hin' : ∀ x : S32.Idx, ((s1 : Memref sig .scVector .vmem S32 .i32).view.read (Elt F)
        ((s1 : Memref sig .scVector .vmem S32 .i32).view.writes (Elt F) g1 (linesList m d L f0)) x).toNat
      < S57344x128.size gathers_S57344x128_S32x128.axis) :
    Gath m d f1
      ((oSl L).view.writes (Elt F) fo [⟨Rect.whole S32x128, ReadAs.same.apply
        ((s2 : Memref sig .scVector .vmem S32x128 .f32).view.read (Elt F)
          ((s2 : Memref sig .scVector .vmem S32x128 .f32).view.writes (Elt F) fs2 [⟨Rect.whole S32x128,
            SparseCore.gatherPayload gathers_S57344x128_S32x128 (tSl.view.read (Elt F) f1)
              (SparseCore.rows ((s1 : Memref sig .scVector .vmem S32 .i32).view.read (Elt F)
                ((s1 : Memref sig .scVector .vmem S32 .i32).view.writes (Elt F) g1 (linesList m d L f0))) hn hin')⟩]))⟩])
      (rowsO (widL L)) := by
  intro i b k hi hb hk0 hk1
  rw [← set_oSl L] at hi
  obtain ⟨x, -, rfl⟩ := Finset.mem_map.mp hi
  -- the output entry is what the copy-out's payload holds at x
  have e1 : ∀ (w : S32x128.Idx → Elt F .f32),
      ((oSl L).view.writes (Elt F) fo [⟨Rect.whole S32x128, w⟩]) ((oSl L).view.emb x) = w x := by
    intro w
    have := View.read_writes_cons_emb (oSl L).view fo (Rect.whole S32x128) w [] x
    rw [Rect.emb_whole_apply] at this
    exact this
  rw [e1]
  -- which is what the third scratch holds at x: the gather's payload
  have e2 : ∀ (G : S32x128.Idx → Elt F .f32),
      (s2 : Memref sig .scVector .vmem S32x128 .f32).view.read (Elt F)
        ((s2 : Memref sig .scVector .vmem S32x128 .f32).view.writes (Elt F) fs2 [⟨Rect.whole S32x128, G⟩]) x = G x := by
    intro G
    have := View.read_writes_cons_emb (s2 : Memref sig .scVector .vmem S32x128 .f32).view fs2 (Rect.whole S32x128) G [] x
    rw [Rect.emb_whole_apply] at this
    exact this
  show (s2 : Memref sig .scVector .vmem S32x128 .f32).view.read (Elt F) _ x = _
  rw [e2]
  unfold SparseCore.gatherPayload
  generalize hrr : SparseCore.rows ((s1 : Memref sig .scVector .vmem S32 .i32).view.read (Elt F)
      ((s1 : Memref sig .scVector .vmem S32 .i32).view.writes (Elt F) g1 (linesList m d L f0))) hn hin' = r
  show f1 (tSl.view.emb (gathers_S57344x128_S32x128.idx r x)) = f1 k
  congr 1
  -- every word of the list is the line of the task's row number at that position
  have hword : ∀ y : S32.Idx, (s1 : Memref sig .scVector .vmem S32 .i32).view.read (Elt F)
      ((s1 : Memref sig .scVector .vmem S32 .i32).view.writes (Elt F) g1 (linesList m d L f0)) y = lineAt m d L y :=
    fun y => View.read_writes_apply_of_pieces _ _ (lineAt m d L) _ (lines_pieces m d L f0) y (lines_cover m d L f0 y)
  -- the three views' coordinates: the table's slice is the whole table; the task's slices start at its offsets
  have ht : ∀ (j : S57344x128.Idx) (a : Fin 2), ((tSl.view.emb j) a).val = (j a).val := by
    intro j a
    show ![0, 0] a + 1 * (j a).val = (j a).val
    match a with
    | 0 => simp
    | 1 => simp
  have ho : ∀ a : Fin 2, (((oSl L).view.emb x) a).val = k1_off2 L a + 1 * (x a).val := fun _ => rfl
  have hi' : ∀ y : S32.Idx, (((iSl L).view.emb y) 0).val = k1_off1 L 0 + 1 * (y 0).val := fun _ => rfl
  funext a
  apply Fin.ext
  rw [ht]
  match a with
  | 0 =>
    -- the position of the list that serves output row x 0
    obtain ⟨y, hy⟩ : ∃ y : S32.Idx, y = S32.rowMajor.symm ((x gathers_S57344x128_S32x128.axis').cast hn.symm) := ⟨_, rfl⟩
    have hrow : ((gathers_S57344x128_S32x128.idx r x) 0).val = (lineAt m d L y).toNat := by
      have h1 := Shape.Gathers.idx_axis gathers_S57344x128_S32x128 r x
      have h2 : (gathers_S57344x128_S32x128.idx r x) 0
          = (gathers_S57344x128_S32x128.idx r x) gathers_S57344x128_S32x128.axis := rfl
      rw [h2, h1, ← hrr, hy, ← hword]
      rfl
    rw [hrow, hk0]
    unfold lineAt
    congr 3
    funext a'
    apply Fin.ext
    match a' with
    | 0 =>
      have hy0 : (y 0).val = (x 0).val := by
        have h3 : (S32.rowMajor y).val = (y 0).val := Shape.rowMajor_val_one (d := ![32]) y
        have h5 : S32.rowMajor y = (x gathers_S57344x128_S32x128.axis').cast hn.symm := by
          rw [hy, Equiv.apply_symm_apply]
        rw [h5] at h3
        exact h3.symm
      rw [hi', hb, ho, hy0, k1_off1_eq, k1_off2_eq]
      simp
  | 1 =>
    have h4 := Shape.Gathers.idx_of_ne gathers_S57344x128_S32x128 r x 1 (by decide)
    rw [h4, hk1, ho, k1_off2_eq]
    simp

/-! ## The run -/

theorem tile_body (hF : (K (F := F)).Facts) (hidx : ∀ (d : Dev nD) (b : S1024.Idx), 0 ≤ (m (idxLoc d) b).toInt ∧ (m (idxLoc d) b).toInt ≤ 99999)
    (O : CellTallies nD τ sig (HIx 1)) (W : Waits sig (HIx 1)) (hO : ∀ g, O g none = 0) :
    iprop(levAts (K (F := F)).L (K (F := F)).lev ∗ goP m Ok1 d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            s0 (Memref.isWhole_whole _) s1 (Memref.isWhole_whole _) s2 (Memref.isWhole_whole _) cc1_scratch3 cc1_scoped0 cc1_scoped1)
          fun _ => iprop(tdP m Ok1 d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  simp only [k1_part1_eq_skeleton]; unfold k1_part1_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold goP tdP
  iintro ⟨#Hlv, ⟨%f1, %hok, Ht, Hi, %fo, Ho⟩, ⟨⟨%f0, H0⟩, ⟨%fs1, H1⟩, ⟨%fs2, H2⟩, Hrest⟩, ⟨HG, HA, HB, Hsrest⟩, HO⟩
  ihave #Hmw := ((K (F := F)).mayWaits_none (thr := V d (cV L) (jV L)) hO) $$ Hlv
  ihave Hi := (Entails.of_eq (pts_iSl (F := F) d L (m (idxLoc d))).symm) $$ Hi
  ihave Ho := (Entails.of_eq (pts_oSl (F := F) d L fo).symm) $$ Ho
  ihave Ht := (Entails.of_eq (pts_tV (F := F) d L (tok (widL L)) f1).symm) $$ Ht
  ihave H0 := (Entails.of_eq (pts_s0 (F := F) d L f0).symm) $$ H0
  ihave H1 := (Entails.of_eq (pts_s1 (F := F) d L fs1).symm) $$ H1
  ihave H2 := (Entails.of_eq (pts_s2 (F := F) d L fs2).symm) $$ H2
  have hin := lines_inb m hidx d L
  sl_exec
  sl_step
  -- the task's results
  isplitl [Ht Hi Ho]
  · iexists f1
    isplitr; · ipureintro; exact hok
    isplitl [Ht]; · iexact Ht
    isplitl [Hi]
    · iapply (Entails.of_eq (pts_iSl (F := F) d L (m (idxLoc d)))); iexact Hi
    iexists _
    isplitr [Ho]
    on_goal 2 => iapply (Entails.of_eq (pts_oSl (F := F) d L _)); iexact Ho
    ipureintro
    exact gath_of_run m d L f1 fo fs2 _ f0 _ _
  -- the subcore's own storage, as it was handed
  isplitl [H0 H1 H2 Hrest]
  · isplitl [H0]; · iexists _; iexact H0
    isplitl [H1]; · iexists _; iexact H1
    isplitl [H2]; · iexists _; iexact H2
    iexact Hrest
  isplitl [HG HA HB Hsrest]
  · isplitl [HG]; · iexact HG
    isplitl [HA]; · iexact HA
    isplitl [HB]; · iexact HB
    iexact Hsrest
  -- the waits recorded are the task's own three, at no call's index
  iexists _
  isplitr [HO]
  on_goal 2 => iexact HO
  ipureintro
  intro p hp
  simp only [Finset.mem_insert] at hp
  rcases hp with rfl | rfl | rfl | hp
  exacts [Or.inr rfl, Or.inr rfl, Or.inr rfl, Or.inl hp]

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          s0 (Memref.isWhole_whole _) s1 (Memref.isWhole_whole _) s2 (Memref.isWhole_whole _) cc1_scratch3 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Nothing rides on the thread: the obligation's premise without its empty component. -/
theorem obl_pre {A G B C O : sProp 𝕄} : iprop(A ∗ emp ∗ G ∗ B ∗ C ∗ O) ⊢ iprop(A ∗ G ∗ B ∗ C ∗ O) := by
  iintro ⟨HA, -, HG, HB, HC, HO⟩
  isplitl [HA]; · iexact HA
  isplitl [HG]; · iexact HG
  isplitl [HB]; · iexact HB
  isplitl [HC]; · iexact HC
  iexact HO

theorem tileObl (hidx : ∀ (d : Dev nD) (b : S1024.Idx), 0 ≤ (m (idxLoc d) b).toInt ∧ (m (idxLoc d) b).toInt ≤ 99999) : (K (F := F)).TileObl (D (F := F)) 𝒱 (P m Ok1) v₀ 0 := by
  intro d c i O W hO _ _
  -- this kernel owes nothing for a protocol of its own, and nothing rides on the thread
  simp only [P_ox, P_x, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((tile_body m Ok1 d (coordsV ⟨_, hc.1⟩ ⟨_, hc.2⟩) facts hidx O W hO).trans (wp_mono frame _ _ fun _ => obl_post))

end Cert.KernelIdeal.Hand

end
-- ==== Proof.KI.SCSplit.lean ====
/-
  How the gather call's operands go out to the 32 tasks and come back.

  Into the call the TensorCore holds three arrays whole: the packed table (at contents f1), the batch of
  row numbers, and the output. The row numbers and the output are cut into the 32 groups of 32 rows, one
  per task. The table is only read, by every task: its full share is cut into 32 read tokens, one per
  task, and a remainder that stays with the TensorCore for the length of the call. Group w = 2 s + c
  belongs to subcore s of SparseCore c, a bijection between the 2 x 16 tasks and the 32 groups, so a
  SparseCore's operands are exactly its sixteen tasks' operands.

  Out of the call each task hands back its token at the contents it read, and any two shares of one
  array agree on the contents; the remainder therefore pins every task's contents to f1, the tokens and
  the remainder make the full share again, and the output groups, each the gather of f1 on its rows, make
  the whole output, the gather of f1 everywhere.
-/
import proofs.«218829_g6193342841233_cont_9to1_m_903_15_alg».proof.Proof.KI.Setup
import proofs.«218829_g6193342841233_cont_9to1_m_903_15_alg».proof.Proof.KI.SCPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LineSpec (lineOf)

variable {F : FTy → Type}

local notation "𝕄" => MM F

variable (m : (ℓ : Loc nD τ sig) → Buf (Elt F) ℓ) (Ok1 : (d : Dev nD) → Buf (Elt F) (v1Loc d) → Prop)

/-! ## Groups and tasks: w = 2 s + c is a bijection between (SparseCore, subcore) and group -/

/-- Group number from (c, s) and back: c = w mod 2, s = w div 2. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => by
    have hw := w.isLt
    refine Fin.ext ?_
    show 2 * (w.val / 2) + w.val % 2 = w.val; omega

theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## A SparseCore's operands are its tasks' -/

theorem vecSplit : (K (F := F)).VecSplit' (P m Ok1) 0 := by
  intro d c
  show (bigSep Finset.univ fun s : Fin 16 => goP m Ok1 d (wid (Fin.cast nCore_zero c) s)) ⊢ |={Set.univ}=> iprop(
      (bigSep Finset.univ fun i : Fin ((K (F := F)).nSub 0) => goP m Ok1 d (wid (Fin.cast nCore_zero c) (Fin.cast nSub_zero i)))
      ∗ ((bigSep Finset.univ fun i : Fin ((K (F := F)).nSub 0) => tdP m Ok1 d (wid (Fin.cast nCore_zero c) (Fin.cast nSub_zero i)))
          -∗ bigSep Finset.univ fun s : Fin 16 => tdP m Ok1 d (wid (Fin.cast nCore_zero c) s)))
  rw [bigSep_tasks (F := F) (fun s => goP m Ok1 d (wid (Fin.cast nCore_zero c) s)),
    bigSep_tasks (F := F) (fun s => tdP m Ok1 d (wid (Fin.cast nCore_zero c) s))]
  iintro H; imodintro
  isplitl [H]; · iexact H
  iintro H; iexact H

/-! ## The 32 groups tile the row numbers and the output -/

theorem rowsI_disjoint : ∀ i ∈ (Finset.univ : Finset (Fin 32)), ∀ j ∈ (Finset.univ : Finset (Fin 32)), i ≠ j → Disjoint (rowsI i) (rowsI j) :=
  fun _ _ _ _ h => Rect.part_disjoint hdivI h
theorem rowsI_cover : (Finset.univ : Finset (Fin 32)).biUnion rowsI = Finset.univ := Rect.biUnion_part hdivI
theorem rowsO_disjoint : ∀ i ∈ (Finset.univ : Finset (Fin 32)), ∀ j ∈ (Finset.univ : Finset (Fin 32)), i ≠ j → Disjoint (rowsO i) (rowsO j) :=
  fun _ _ _ _ h => Rect.part_disjoint hdivO h
theorem rowsO_cover : (Finset.univ : Finset (Fin 32)).biUnion rowsO = Finset.univ := Rect.biUnion_part hdivO

theorem idx_rows (d : Dev nD) (f : Buf (Elt F) (idxLoc d)) :
    (idxLoc d ↦{fullShare} f : sProp 𝕄) = bigSep Finset.univ fun w : Fin 32 => idxLoc d ↦[rowsI w]{fullShare} f := by
  rw [← pointsTo_biUnion Finset.univ (ℓ := idxLoc d) rowsI rowsI_disjoint, rowsI_cover]; try rfl
theorem out_rows (d : Dev nD) (f : Buf (Elt F) (v2Loc d)) :
    (v2Loc d ↦{fullShare} f : sProp 𝕄) = bigSep Finset.univ fun w : Fin 32 => v2Loc d ↦[rowsO w]{fullShare} f := by
  rw [← pointsTo_biUnion Finset.univ (ℓ := v2Loc d) rowsO rowsO_disjoint, rowsO_cover]; try rfl

/-! ## The TensorCore's side of the call -/

/-- One group's operands, from its three pieces, given the table's contents are acceptable. -/
theorem goP_intro (d : Dev nD) (f1 : Buf (Elt F) (v1Loc d)) (f : Buf (Elt F) (v2Loc d)) (hok : Ok1 d f1) (w : Fin 32) :
    iprop((v1Loc d ↦{tok w} f1) ∗ (idxLoc d ↦[rowsI w]{fullShare} m (idxLoc d)) ∗ (v2Loc d ↦[rowsO w]{fullShare} f))
      ⊢ (goP m Ok1 d w : sProp 𝕄) := by
  unfold goP
  iintro ⟨Ht, Hi, Ho⟩
  iexists f1
  isplitr; · ipureintro; exact hok
  isplitl [Ht]; · iexact Ht
  isplitl [Hi]; · iexact Hi
  iexists f; iexact Ho

/-- Into the call: the table as 32 read tokens and a remainder the TensorCore keeps; the row numbers and the output by groups. -/
theorem st_intro (d : Dev nD) (f1 : Buf (Elt F) (v1Loc d)) (f : Buf (Elt F) (v2Loc d)) :
    iprop(⌜Ok1 d f1⌝ ∗ (v1Loc d ↦{fullShare} f1) ∗ (idxLoc d ↦{fullShare} m (idxLoc d)) ∗ (v2Loc d ↦{fullShare} f))
      ⊢ iprop((v1Loc d ↦{Transfers.shareDrop fullShare 32} f1)
          ∗ bigSep Finset.univ fun c : Fin ((K (F := F)).nCore 0) => (P m Ok1).st 0 d c) := by
  show _ ⊢ iprop((v1Loc d ↦{Transfers.shareDrop fullShare 32} f1)
      ∗ bigSep Finset.univ fun c : Fin ((K (F := F)).nCore 0) => bigSep Finset.univ fun s : Fin 16 => goP m Ok1 d (wid (Fin.cast nCore_zero c) s))
  rw [bigSep_cores (F := F) (fun c => bigSep Finset.univ fun s : Fin 16 => goP m Ok1 d (wid c s)), ← bigSep_wid (fun w => goP m Ok1 d w),
    idx_rows, out_rows]
  iintro ⟨%hok, Ht, Hi, Ho⟩
  ihave Ht := (Transfers.pointsTo_toks_split fullShare 32) $$ Ht
  icases Ht with ⟨Hrem, Htoks⟩
  isplitl [Hrem]; · iexact Hrem
  have hjoin : iprop((bigSep Finset.univ fun w : Fin 32 => v1Loc d ↦{tok w} f1)
      ∗ (bigSep Finset.univ fun w : Fin 32 => idxLoc d ↦[rowsI w]{fullShare} m (idxLoc d))
      ∗ (bigSep Finset.univ fun w : Fin 32 => v2Loc d ↦[rowsO w]{fullShare} f)) ⊢ (bigSep Finset.univ fun w : Fin 32 => goP m Ok1 d w : sProp 𝕄) := by
    rw [← bigSep_sep', ← bigSep_sep']
    exact bigSep_mono fun w _ => goP_intro m Ok1 d f1 f hok w
  iapply hjoin
  isplitl [Htoks]; · iexact Htoks
  isplitl [Hi]; · iexact Hi
  iexact Ho

/-! ## Out of the call

Each task's results speak of the table contents it read. The remainder share the TensorCore kept is of the
same array, and two shares of one array agree on its contents; so every task read the contents f1 the
TensorCore put in. With the contents pinned, the 32 tokens and the remainder are the full share again, the
row-number groups are the batch, and the output groups are the whole output at the function that is each
task's on its group, which is the gather of f1 on every group, hence everywhere. -/

/-- One group's results, the table contents pinned to f1. -/
def tdQ (d : Dev nD) (f1 : Buf (Elt F) (v1Loc d)) (w : Fin 32) : sProp 𝕄 :=
  iprop((v1Loc d ↦{tok w} f1) ∗ (idxLoc d ↦[rowsI w]{fullShare} m (idxLoc d))
    ∗ ∃ f2 : Buf (Elt F) (v2Loc d), ⌜Gath m d f1 f2 (rowsO w)⌝ ∗ v2Loc d ↦[rowsO w]{fullShare} f2)

/-- Beside the remainder at f1, a task's table contents are f1. -/
theorem tdP_pin (d : Dev nD) (f1 : Buf (Elt F) (v1Loc d)) (w : Fin 32) :
    iprop((v1Loc d ↦{Transfers.shareDrop fullShare 32} f1) ∗ tdP m Ok1 d w)
      ⊢ iprop((v1Loc d ↦{Transfers.shareDrop fullShare 32} f1) ∗ tdQ m d f1 w) := by
  unfold tdP tdQ
  iintro ⟨Hr, %f1', %hok, Ht, Hi, %f2, %hg, Ho⟩
  ihave Hag := (persistent_entails_right pointsTo_agree) $$ [Hr Ht]
  · isplitl [Hr]; · iexact Hr
    iexact Ht
  icases Hag with ⟨%hag, Hr, Ht⟩
  have e : f1' = f1 := funext fun i => ((hag i (Finset.mem_inter.mpr ⟨Finset.mem_univ _, Finset.mem_univ _⟩)).1).symm
  subst e
  isplitl [Hr]; · iexact Hr
  isplitl [Ht]; · iexact Ht
  isplitl [Hi]; · iexact Hi
  iexists f2; isplitr; · ipureintro; exact hg
  iexact Ho

/-- A resource that each summand can use and give back can be used by all of them in turn. -/
theorem bigSep_thread {I : Type} [DecidableEq I] (s : Finset I) (R : sProp 𝕄) (Φ Ψ : I → sProp 𝕄)
    (h : ∀ i, iprop(R ∗ Φ i) ⊢ iprop(R ∗ Ψ i)) : iprop(R ∗ bigSep s Φ) ⊢ iprop(R ∗ bigSep s Ψ) := by
  induction s using Finset.induction_on with
  | empty => rw [bigSep_empty, bigSep_empty]
  | insert i s hi ih =>
    have e1 : bigSep (insert i s) Φ = iprop(Φ i ∗ bigSep s Φ) := bigSep_insert hi
    have e2 : bigSep (insert i s) Ψ = iprop(Ψ i ∗ bigSep s Ψ) := bigSep_insert hi
    rw [e1, e2]
    iintro ⟨HR, Hi, Hs⟩
    ihave H := (h i) $$ [HR Hi]
    · isplitl [HR]; · iexact HR
      iexact Hi
    icases H with ⟨HR, Hi⟩
    ihave H := ih $$ [HR Hs]
    · isplitl [HR]; · iexact HR
      iexact Hs
    icases H with ⟨HR, Hs⟩
    isplitl [HR]; · iexact HR
    isplitl [Hi]; · iexact Hi
    iexact Hs

variable [FloatOps F]

/-- The output groups, each the gather of f1 on its rows, are the whole output, the gather of f1 everywhere. -/
theorem out_join (d : Dev nD) (f1 : Buf (Elt F) (v1Loc d)) :
    (bigSep Finset.univ fun w : Fin 32 => iprop(∃ f2 : Buf (Elt F) (v2Loc d), ⌜Gath m d f1 f2 (rowsO w)⌝ ∗ v2Loc d ↦[rowsO w]{fullShare} f2))
      ⊢ (iprop(∃ f2 : Buf (Elt F) (v2Loc d), ⌜Gath m d f1 f2 Finset.univ⌝ ∗ v2Loc d ↦{fullShare} f2) : sProp 𝕄) := by
  refine (bigSep_exists_pi Finset.univ (fun (w : Fin 32) (f2 : Buf (Elt F) (v2Loc d)) =>
    iprop(⌜Gath m d f1 f2 (rowsO w)⌝ ∗ v2Loc d ↦[rowsO w]{fullShare} f2))).trans ?_
  iintro ⟨%fs, H⟩
  ihave H := (bigSep_pure_sep Finset.univ (fun w : Fin 32 => Gath m d f1 (fs w) (rowsO w))
    (fun w : Fin 32 => v2Loc d ↦[rowsO w]{fullShare} fs w)) $$ H
  icases H with ⟨%hG, H⟩
  ihave H' := (pointsTo_biUnion_join Finset.univ rowsO fs (fs 0) rowsO_disjoint) $$ H
  icases H' with ⟨%g, %hg, Hg⟩
  rw [rowsO_cover]
  iexists g
  isplitr
  · ipureintro
    intro i b k _ hb hk0 hk1
    obtain ⟨w, hw⟩ := Rect.exists_mem_part hdivO i
    rw [hg w (Finset.mem_univ _) i hw]
    exact hG w (Finset.mem_univ _) i b k hw hb hk0 hk1
  · iexact Hg

/-- Out of the call: the table whole at the contents put in, the row numbers whole, the output whole at the gather. -/
theorem dn_elim (d : Dev nD) (f1 : Buf (Elt F) (v1Loc d)) :
    iprop((v1Loc d ↦{Transfers.shareDrop fullShare 32} f1)
        ∗ bigSep Finset.univ fun c : Fin ((K (F := F)).nCore 0) => (P m Ok1).dn 0 d c)
      ⊢ iprop(∃ f2 : Buf (Elt F) (v2Loc d), ⌜Gath m d f1 f2 Finset.univ⌝ ∗ (v1Loc d ↦{fullShare} f1)
          ∗ (idxLoc d ↦{fullShare} m (idxLoc d)) ∗ (v2Loc d ↦{fullShare} f2)) := by
  show iprop((v1Loc d ↦{Transfers.shareDrop fullShare 32} f1)
      ∗ bigSep Finset.univ fun c : Fin ((K (F := F)).nCore 0) => bigSep Finset.univ fun s : Fin 16 => tdP m Ok1 d (wid (Fin.cast nCore_zero c) s)) ⊢ _
  rw [bigSep_cores (F := F) (fun c => bigSep Finset.univ fun s : Fin 16 => tdP m Ok1 d (wid c s)), ← bigSep_wid (fun w => tdP m Ok1 d w)]
  refine (bigSep_thread Finset.univ _ _ (fun w => tdQ m d f1 w) (tdP_pin m Ok1 d f1)).trans ?_
  unfold tdQ
  rw [bigSep_sep', bigSep_sep', idx_rows d (m (idxLoc d))]
  iintro ⟨Hr, Htoks, Hi, Ho⟩
  ihave Ho := (out_join m d f1) $$ Ho
  icases Ho with ⟨%f2, %hG, Ho⟩
  iexists f2
  isplitr; · ipureintro; exact hG
  isplitl [Hr Htoks]
  · iapply (Transfers.pointsTo_toks_join fullShare 32)
    isplitl [Hr]; · iexact Hr
    iexact Htoks
  isplitl [Hi]; · iexact Hi
  iexact Ho

end Cert.KernelIdeal.Hand

end
-- ==== Proof.KI.Final.lean ====
/-
  What the final valuation of the entry function holds, read off the relation that says how it arises.

  The final valuation is the launch one pushed through: the table's transpose, the repacked table written by the
  first call, the gathered lines written by the gather, six host operations computing the half selector and the
  transposed projection matrix, the projection's result written by the second call, and that result's transpose.
  Each host operation rewrites exactly one array and each call exactly one; so an array none of them writes holds
  at the end what it held at launch (the three arguments), an array written once and never again holds what that
  one step put there (everything else), and the array written last holds the last operation's value.
-/
import proofs.«218829_g6193342841233_cont_9to1_m_903_15_alg».proof.Proof.KI.Main

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

section Final

variable (Out0 : Dev nD → Valuation τ sig (Elt F) → (v1' : DevRef τ sig).ty.Contents (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- The valuation the projection call is entered at: the launch one after the table's transpose, the two written
    arrays f1 (repacked table) and f2 (gathered lines), and the six host operations in between. -/
abbrev Wmid (W0 : Valuation τ sig (Elt F)) (f1 : (v1' : DevRef τ sig).ty.Contents (Elt F))
    (f2 : (v2' : DevRef τ sig).ty.Contents (Elt F)) : Valuation τ sig (Elt F) :=
  StableHlo.after (midOps (F := F)) (Function.update (Function.update ((opTab (F := F)).result W0) v1' f1) v2' f2)

/-! ## (1) No step writes an argument -/

theorem reach_args (d : Dev nD) (W0 Wf : Valuation τ sig (Elt F)) (h : Reach Out0 OutSC Out1 d W0 Wf) :
    Wf (Proc.devRef .tc (main_arg0 : Ref sig .tc)) = W0 (Proc.devRef .tc (main_arg0 : Ref sig .tc))
    ∧ Wf (Proc.devRef .tc (main_arg1 : Ref sig .tc)) = W0 (Proc.devRef .tc (main_arg1 : Ref sig .tc))
    ∧ Wf (Proc.devRef .tc (main_arg2 : Ref sig .tc)) = W0 (Proc.devRef .tc (main_arg2 : Ref sig .tc)) := by
  obtain ⟨f1, f2, A8, -, -, -, rfl⟩ := h
  refine ⟨?_, ?_, ?_⟩ <;>
    simp (disch := decide) only [StableHlo.after_cons, StableHlo.after_nil, StableHlo.nullary_result_ne', StableHlo.unary_result_ne',
      StableHlo.binary_result_ne', StableHlo.reshape_result_ne', Function.update_of_ne]

/-! ## (2) The result array holds the projection's result, transposed -/

theorem reach_result (d : Dev nD) (W0 Wf : Valuation τ sig (Elt F)) (h : Reach Out0 OutSC Out1 d W0 Wf) :
    ∃ (f1 : (v1' : DevRef τ sig).ty.Contents (Elt F)) (f2 : (v2' : DevRef τ sig).ty.Contents (Elt F))
      (A8 : (v8' : DevRef τ sig).ty.Contents (Elt F)),
      Out0 d ((opTab (F := F)).result W0) f1
      ∧ OutSC d (Function.update ((opTab (F := F)).result W0) v1' f1) f2
      ∧ Out1 d (Wmid W0 f1 f2) A8
      ∧ Wf (Proc.devRef .tc (main_v9 : Ref sig .tc))
          = transpose S1024x100000 [1, 0] (A8 : (⟨S100000x1024, .f32⟩ : BufTy).Contents (Elt F)) transposes_S100000x1024_S1024x100000_1_0 := by
  obtain ⟨f1, f2, A8, h0, hsc, h1, rfl⟩ := h
  refine ⟨f1, f2, A8, h0, hsc, h1, ?_⟩
  simp (disch := decide) only [StableHlo.unary_result', Function.update_self]

/-! ## (3) The valuation the projection call is entered at -/

section Mid

variable (W0 : Valuation τ sig (Elt F)) (f1 : (v1' : DevRef τ sig).ty.Contents (Elt F))
  (f2 : (v2' : DevRef τ sig).ty.Contents (Elt F))

/-- The table's transpose, right after it is computed. -/
theorem tab_v0 : (opTab (F := F)).result W0 (Proc.devRef .tc (main_v0 : Ref sig .tc))
    = transpose S64x100000 [1, 0] (W0 (Proc.devRef .tc (main_arg1 : Ref sig .tc)) : (⟨S100000x64, .f32⟩ : BufTy).Contents (Elt F)) transposes_S100000x64_S64x100000_1_0 := by
  simp (disch := decide) only [StableHlo.unary_result']

/-- ... and still there when the projection call is entered. -/
theorem mid_v0 : Wmid W0 f1 f2 (Proc.devRef .tc (main_v0 : Ref sig .tc))
    = transpose S64x100000 [1, 0] (W0 (Proc.devRef .tc (main_arg1 : Ref sig .tc)) : (⟨S100000x64, .f32⟩ : BufTy).Contents (Elt F)) transposes_S100000x64_S64x100000_1_0 := by
  simp (disch := decide) only [StableHlo.after_cons, StableHlo.after_nil, StableHlo.nullary_result_ne', StableHlo.unary_result_ne',
    StableHlo.binary_result_ne', StableHlo.reshape_result_ne', Function.update_of_ne, StableHlo.unary_result']

/-- The repacked table and the gathered lines are what the two calls wrote. -/
theorem mid_v1 : Wmid W0 f1 f2 v1' = f1 := by
  simp (disch := decide) only [StableHlo.after_cons, StableHlo.after_nil, StableHlo.nullary_result_ne', StableHlo.unary_result_ne',
    StableHlo.binary_result_ne', StableHlo.reshape_result_ne', Function.update_of_ne, Function.update_self]
theorem mid_v2 : Wmid W0 f1 f2 v2' = f2 := by
  simp (disch := decide) only [StableHlo.after_cons, StableHlo.after_nil, StableHlo.nullary_result_ne', StableHlo.unary_result_ne',
    StableHlo.binary_result_ne', StableHlo.reshape_result_ne', Function.update_of_ne, Function.update_self]

/-- The projection matrix transposed. -/
theorem mid_v7 : Wmid W0 f1 f2 (Proc.devRef .tc (main_v7 : Ref sig .tc))
    = transpose S64x100000 [1, 0] (W0 (Proc.devRef .tc (main_arg2 : Ref sig .tc)) : (⟨S100000x64, .f32⟩ : BufTy).Contents (Elt F)) transposes_S100000x64_S64x100000_1_0 := by
  simp (disch := decide) only [StableHlo.after_cons, StableHlo.after_nil, StableHlo.nullary_result_ne', StableHlo.unary_result_ne',
    StableHlo.binary_result_ne', StableHlo.reshape_result_ne', Function.update_of_ne, StableHlo.unary_result']

/-- The half selector: the indices tested against the broadcast constant 57344, the bit widened, made a column. -/
theorem mid_v6 : Wmid W0 f1 f2 (Proc.devRef .tc (main_v6 : Ref sig .tc))
    = shapeCast S1024x1 (extui 32 (cmpi .sge (W0 (Proc.devRef .tc (main_arg0 : Ref sig .tc)) : (⟨S1024, .i32⟩ : BufTy).Contents (Elt F))
        (broadcastInDim S1024 ![] bcast_S_S1024 (constantI S_ 32 57344#32))) natLt_1_32) shapeCasts_S1024_S1024x1 := by
  simp (disch := decide) only [StableHlo.after_cons, StableHlo.after_nil, StableHlo.nullary_result_ne', StableHlo.unary_result_ne',
    StableHlo.binary_result_ne', StableHlo.reshape_result_ne', Function.update_of_ne,
    StableHlo.nullary_result', StableHlo.unary_result', StableHlo.binary_result', StableHlo.reshape_result']
  -- what is left is the reshape written position by position, at the result array's own shape
  rfl

end Mid

/-! ## (4) The final memory agrees with the final valuation -/

section Fin

variable (m : (ℓ : Loc nD τ sig) → Buf (Elt F) ℓ)

/-- What the final physical state is known to satisfy on device d: there is a valuation reached from the launch one
    that every unscoped array of the device holds. -/
def fq (d : Dev nD) (s' : Phys nD τ sig (Elt F)) : Prop :=
  ∃ Wf, Reach Out0 OutSC Out1 d (W₀ m d) Wf ∧ ∀ b ∈ ucRefs τ sig, s'.mem.mem (d, b) = Wf b

/-- Owning every unscoped array whole at a valuation, together with the state interpretation of the physical
    state, pins the physical contents of each of those arrays to the valuation's. -/
theorem hfin (d : Dev nD) (s' : Phys nD τ sig (Elt F)) :
    iprop(FIN Out0 OutSC Out1 m d ∗ SI s') ⊢ (⌜fq Out0 OutSC Out1 m d s'⌝ : sProp (MM F)) := by
  unfold FIN held
  iintro ⟨⟨%Wf, %hR, Hheld⟩, HSI⟩
  ihave %h := (SI_pointsTo_bufs_agree (st := s') (c := d) (qs := fun _ => fullShare) (F := Wf) (ucRefs τ sig)) $$ [HSI Hheld]
  · isplitl [HSI]
    · iexact HSI
    · iexact Hheld
  ipureintro
  exact ⟨Wf, hR, h⟩

end Fin

end Final

end Cert.KernelIdeal.Hand

end
-- ==== Proof.KI.LaunchDeal.lean ====
/-
  The launch element dealt: the handshakes' part to the launch theorem, the pipelines' staging cells' ghost state
  and tokens to @main's proof on each device, nothing to the kernels' proofs.
-/
import proofs.«218829_g6193342841233_cont_9to1_m_903_15_alg».proof.Proof.KI.LaunchElem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Both families of the pipelines' launch ghost state, regrouped per device and pipeline. -/
theorem G_eq :
    (bigSep Finset.univ fun d : Dev nD => G (F := F) d)
      = iprop((bigSep Finset.univ fun d : Dev nD => bigSep Finset.univ fun p : Fin 2 => Pipeline.cellsGhost (cfgs' (F := F)) EP p d)
          ∗ (bigSep Finset.univ fun d : Dev nD => bigSep Finset.univ fun p : Fin 2 => (Pipeline.toksInit (cfgs' (F := F)) EP p d : sProp (MM F)))) := by
  unfold G
  rw [← bigSep_sep']
  exact bigSep_congr fun d _ => bigSep_sep' _ _ _

/-- The launch element pays for the handshakes' rounds and both pipelines' staging cells; a payload family whose
    kernels consume nothing of the launch's takes nothing. -/
theorem hu₀ (P : (K (F := F)).Pay (nD := nD) (Val := Elt F) (Name := ℕ) (U := UU)) (hPx : ∀ q thr, P.x q thr = iprop(emp)) :
    (ownU (u₀ (F := F)) : sProp (MM F))
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  ihave H := (ownU_split3 _ _ _) $$ Hu
  icases H with ⟨HH, HP⟩
  imod (Pipeline.fund_ghost (cfgs' (F := F)) EP cells_inj) $$ HP with ⟨Hg, Ht⟩
  imodintro
  isplitl [HH]; · iexact HH
  isplitl [Hg Ht]
  · rw [G_eq]; isplitl [Hg] <;> iassumption
  · rw [show (bigSep Finset.univ fun thr : Thread nD τ => bigSep Finset.univ fun q : Fin 1 => P.x q thr) = (iprop(emp) : sProp (MM F)) from by
      rw [bigSep_congr fun thr _ => (bigSep_congr fun q _ => hPx q thr).trans (bigSep_emp' _), bigSep_emp']]
    iempintro

end Cert.KernelIdeal.Hand

end
-- ==== Proof.KI.Run.lean ====
/-
  The whole program's run, from the pieces.

  The launch theorem for a program with SparseCore calls takes: what each kind of thread's program does (the
  TensorCore's entry function; each vector subcore's task), the launch element of the ghost state dealt to the
  threads, and a reading of the final assertions against the final physical state. Here the entry function's proof
  is the step-by-step composition, the vector subcores' obligations and the three calls' step rules are taken as
  hypotheses, and the final reading is: on each device every unscoped array holds a valuation reached from the
  launch one. Two consequences are then read off that relation: the arguments end as they began, and the result
  array holds the transposed result of the projection.
-/
import proofs.«218829_g6193342841233_cont_9to1_m_903_15_alg».proof.Proof.KI.Main
import proofs.«218829_g6193342841233_cont_9to1_m_903_15_alg».proof.Proof.KI.Final
import proofs.«218829_g6193342841233_cont_9to1_m_903_15_alg».proof.Proof.KI.LaunchDeal

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (ucRefs unscopedBufs_held sub_ucRefs)

variable {F : FTy → Type} [FloatOps F]

section Run

variable (P : (K (F := F)).Pay (nD := nD) (Val := Elt F) (Name := ℕ) (U := UU))
variable (Out0 : Dev nD → Valuation τ sig (Elt F) → (v1' : DevRef τ sig).ty.Contents (Elt F) → Prop)
  (PreSC : Dev nD → Valuation τ sig (Elt F) → Prop)
  (OutSC : Dev nD → Valuation τ sig (Elt F) → (v2' : DevRef τ sig).ty.Contents (Elt F) → Prop)
  (Out1 : Dev nD → Valuation τ sig (Elt F) → (v8' : DevRef τ sig).ty.Contents (Elt F) → Prop)

/-- THE RUN: the program terminates without fault, and on each device every unscoped array ends at a valuation
    reached from the launch one. -/
theorem run_main_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.KernelIdeal.defs (F := F)) (Cert.KernelIdeal.threads (F := F)) ⟨m, fun _ => 0, ρ⟩
      (fun r => ∀ c : Dev nD, ∃ Wf, Reach Out0 OutSC Out1 c (W₀ m c) Wf ∧ ∀ b ∈ ucRefs τ sig, r.2.mem (c, b) = Wf b) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G d) (FIN Out0 OutSC Out1 m) (u₀ (F := F)) (sep_elim_left.trans (hu₀ P hPx))
    (fun κ d => hmain P Out0 PreSC OutSC Out1 κ m ρ (h0 κ) (hsc κ) (h1 κ) hpre d)
    (fq Out0 OutSC Out1 m) (hfin Out0 OutSC Out1 m) _ (fun _ h => h) hheld

/-! ## The four arrays the claims speak of are unscoped arrays of the device -/

theorem arg0_mem : (Proc.devRef .tc (main_arg0 : Ref sig .tc) : DevRef τ sig) ∈ ucRefs τ sig := by decide
theorem arg1_mem : (Proc.devRef .tc (main_arg1 : Ref sig .tc) : DevRef τ sig) ∈ ucRefs τ sig := by decide
theorem arg2_mem : (Proc.devRef .tc (main_arg2 : Ref sig .tc) : DevRef τ sig) ∈ ucRefs τ sig := by decide
theorem v9_mem : (Proc.devRef .tc (main_v9 : Ref sig .tc) : DevRef τ sig) ∈ ucRefs τ sig := by decide

/-- From the final reading on one device: the three arguments hold what they held at launch. -/
theorem args_of_reach (m : (ℓ : Loc nD τ sig) → Buf (Elt F) ℓ) (mem' : (ℓ : Loc nD τ sig) → Buf (Elt F) ℓ) (c : Dev nD)
    (Wf : Valuation τ sig (Elt F)) (hR : Reach Out0 OutSC Out1 c (W₀ m c) Wf) (hmem : ∀ b ∈ ucRefs τ sig, mem' (c, b) = Wf b) :
    mem' ((c.tc : Thread nD τ).loc main_arg0) = m ((c.tc : Thread nD τ).loc main_arg0)
    ∧ mem' ((c.tc : Thread nD τ).loc main_arg1) = m ((c.tc : Thread nD τ).loc main_arg1)
    ∧ mem' ((c.tc : Thread nD τ).loc main_arg2) = m ((c.tc : Thread nD τ).loc main_arg2) := by
  obtain ⟨a0, a1, a2⟩ := reach_args Out0 OutSC Out1 c (W₀ m c) Wf hR
  exact ⟨(hmem _ arg0_mem).trans a0, (hmem _ arg1_mem).trans a1, (hmem _ arg2_mem).trans a2⟩

/-- (a) THE FRAME: the program runs and its argument arrays end unchanged. -/
theorem run_frame_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := F)) _ _).mono
    (fun r h c => by
      obtain ⟨Wf, hR, hmem⟩ := h c
      exact args_of_reach Out0 OutSC Out1 m r.2.mem c Wf hR hmem)
    (run_main_of P Out0 PreSC OutSC Out1 hPx hheld m ρ htile hvec h0 hsc h1 hpre)

/-- (b) THE VALUE: the program runs; on each device the result array holds the transpose of a projection result A8
    related, through the three calls' relations, to the launch valuation; and the arguments end unchanged. -/
theorem run_value_of [∀ e, Nonempty (Elt F e)] [P.IsStorable] (hPx : ∀ q thr, P.x q thr = iprop(emp)) (hheld : P.held = ∅)
    (m : (ℓ : Loc nD τ sig) → Buf (Elt F) ℓ) (ρ : Dev nD → PrngReg)
    (htile : (K (F := F)).TileObl (D (F := F)) 𝒱 P v₀ 0)
    (hvec : (K (F := F)).VecSplit P 0)
    (h0 : ∀ κ, StepR0 P Out0 κ) (hsc : ∀ κ, StepSC P PreSC OutSC κ) (h1 : ∀ κ, StepR1 P Out1 κ)
    (hpre : ∀ d f1, Out0 d ((opTab (F := F)).result (W₀ m d)) f1 → PreSC d (Function.update ((opTab (F := F)).result (W₀ m d)) v1' f1)) :
    θ_run (Cert.KernelIdeal.defs (F := F)) (Cert.KernelIdeal.threads (F := F)) ⟨m, fun _ => 0, ρ⟩ (fun r => ∀ c : Dev nD,
      (∃ (f1 : (v1' : DevRef τ sig).ty.Contents (Elt F)) (f2 : (v2' : DevRef τ sig).ty.Contents (Elt F))
          (A8 : (v8' : DevRef τ sig).ty.Contents (Elt F)),
        Out0 c ((opTab (F := F)).result (W₀ m c)) f1
        ∧ OutSC c (Function.update ((opTab (F := F)).result (W₀ m c)) v1' f1) f2
        ∧ Out1 c (Wmid (W₀ m c) f1 f2) A8
        ∧ r.2.mem ((c.tc : Thread nD τ).loc main_v9)
            = transpose S1024x100000 [1, 0] (A8 : (⟨S100000x1024, .f32⟩ : BufTy).Contents (Elt F)) transposes_S100000x1024_S1024x100000_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := F)) _ _).mono
    (fun r h c => by
      obtain ⟨Wf, hR, hmem⟩ := h c
      obtain ⟨f1, f2, A8, e0, esc, e1, e9⟩ := reach_result Out0 OutSC Out1 c (W₀ m c) Wf hR
      exact ⟨⟨f1, f2, A8, e0, esc, e1, (hmem _ v9_mem).trans e9⟩, args_of_reach Out0 OutSC Out1 m r.2.mem c Wf hR hmem⟩)
    (run_main_of P Out0 PreSC OutSC Out1 hPx hheld m ρ htile hvec h0 hsc h1 hpre)

end Run

end Cert.KernelIdeal.Hand

end
-- ==== Proof.KI.Assemble.lean ====
/-
  The program's run.

  The gather's tasks expect of the packed table what the repack leaves in it; with that, the three step rules of @main's
  proof are the two regions' records and the gather call's payloads, and the launch theorem gives the run: every weakly
  fair execution of the device's threads terminates, no thread faulting, the arguments unchanged and the result the
  projection's array transposed, of which the three calls' relations are known.
-/
import proofs.«218829_g6193342841233_cont_9to1_m_903_15_alg».proof.Proof.KI.Steps
import proofs.«218829_g6193342841233_cont_9to1_m_903_15_alg».proof.Proof.KI.SCStep
import proofs.«218829_g6193342841233_cont_9to1_m_903_15_alg».proof.Proof.KI.SCTask
import proofs.«218829_g6193342841233_cont_9to1_m_903_15_alg».proof.Proof.KI.SCSplit
import proofs.«218829_g6193342841233_cont_9to1_m_903_15_alg».proof.Proof.KI.Run

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F] [∀ e, Nonempty (Elt F e)]
variable (m : (ℓ : Loc nD τ sig) → Buf (Elt F) ℓ) (ρ : Dev nD → PrngReg)

/-- What the gather's tasks expect of the packed table: what the repack, entered after the table's transposition, leaves. -/
def Ok1 (d : Dev nD) (f1 : Buf (Elt F) (v1Loc d)) : Prop := OutR0 d ((opTab (F := F)).result (W₀ m d)) f1

/-- The repack writes neither the row numbers nor anything but the packed table: the gather is entered as it expects. -/
theorem pre_gather (d : Dev nD) (f1 : (v1' : DevRef τ sig).ty.Contents (Elt F))
    (h : OutR0 d ((opTab (F := F)).result (W₀ m d)) f1) :
    PreSC m (Ok1 m) d (Function.update ((opTab (F := F)).result (W₀ m d)) v1' f1) := by
  refine ⟨?_, ?_⟩
  · rw [Function.update_of_ne (show a0' ≠ v1' by decide),
      (opTab (F := F)).result_of_not_mem (W₀ m d) (b := a0')
        (show a0' ∉ ({Proc.devRef .tc (main_v0 : Ref sig .tc)} : Finset (DevRef τ sig)) from by decide)]
    rfl
  · rw [Function.update_self]; exact h

/-- The row numbers lie in the table's range, on every device. -/
def IdxOK : Prop := ∀ (d : Dev nD) (i : S1024.Idx), 0 ≤ (m (idxLoc d) i).toInt ∧ (m (idxLoc d) i).toInt ≤ 99999

theorem run_main (hidx : IdxOK m) :
    θ_run (Cert.KernelIdeal.defs (F := F)) (Cert.KernelIdeal.threads (F := F)) ⟨m, fun _ => 0, ρ⟩
      (fun r => ∀ c : Dev nD, ∃ Wf, Reach OutR0 (OutSC m) OutR1 c (W₀ m c) Wf ∧ ∀ b ∈ ucRefs τ sig, r.2.mem (c, b) = Wf b) :=
  run_main_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

theorem frame (hidx : IdxOK m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

theorem run_value (hidx : IdxOK m) :
    θ_run (Cert.KernelIdeal.defs (F := F)) (Cert.KernelIdeal.threads (F := F)) ⟨m, fun _ => 0, ρ⟩ (fun r => ∀ c : Dev nD,
      (∃ (f1 : (v1' : DevRef τ sig).ty.Contents (Elt F)) (f2 : (v2' : DevRef τ sig).ty.Contents (Elt F)) (A8 : (v8' : DevRef τ sig).ty.Contents (Elt F)),
        OutR0 c ((opTab (F := F)).result (W₀ m c)) f1
        ∧ OutSC m c (Function.update ((opTab (F := F)).result (W₀ m c)) v1' f1) f2
        ∧ OutR1 c (Wmid (W₀ m c) f1 f2) A8
        ∧ r.2.mem ((c.tc : Thread nD τ).loc main_v9) = transpose S1024x100000 [1, 0] (A8 : (⟨S100000x1024, .f32⟩ : BufTy).Contents (Elt F)) transposes_S100000x1024_S1024x100000_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value_of (P m (Ok1 m)) OutR0 (PreSC m (Ok1 m)) (OutSC m) OutR1 (P_x m (Ok1 m)) rfl m ρ
    (tileObl m (Ok1 m) hidx) (SparseCore.Cfg.VecSplit.of_plain (vecSplit m (Ok1 m)))
    (stepR0 _) (fun κ => stepSC m (Ok1 m) κ (st_intro m (Ok1 m)) (dn_elim m (Ok1 m))) (stepR1 _) (pre_gather m)

end Cert.KernelIdeal.Hand

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibGatherRows.lean ====
/-
  A row gather, read at an index.

  `x[idx]` for an operand `x : [N, F]` and a column of start indices `idx : [E, 1]` copies whole rows: row `e` of
  the `[E, F]` result is the operand's row named by start index `e`, the index word read signed and clamped into
  `[0, N − 1]`; the column `f` passes through untouched. The host operation reads the operand at the operand index
  the dimension numbers compute from the result index; for the whole-row dimension numbers that operand index is
  `(clampRow idx e, f)`, so the operation at `(e, f)` is `x (clampRow idx e, f)`, for every element type.
-/
import Idealize.ShloMosaic.PureOps.Ideal
import Idealize.ShloMosaic.Lib.ValueIdx
import proofs.«218829_g6193342841233_cont_9to1_m_903_15_alg».proof.Proof.LibRowOps

noncomputable section

namespace Cert.Lib.RowOps

open Idealize.ShloMosaic Idealize.ShloMosaic.ValueIdx

/-- A host gather whose dimension numbers are the whole-row ones, read at `(e, f)`: the operand at row
    `clampRow idx e` (start index `e` read signed, clamped into `[0, N − 1]`) and the same column `f`. The
    dimension numbers are taken as any record `d` equal to `rowGather N E F wf`, so that a printed record is
    matched by `rfl`. -/
theorem hostGather_rows {N E F w : Nat} {α : Type} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F])
    (hd : d = rowGather N E F wf)
    (x : (⟨2, ![N, F]⟩ : Shape).Idx → α) (idx : IVec ⟨2, ![E, 1]⟩ w) (e : Fin E) (f : Fin F) :
    Host.gather d x idx (ix2 e f) = x (ix2 (clampRow hN idx e) f) := by
  subst hd
  -- the host operation is the operand read at the operand index of the result index
  show x ((rowGather N E F wf).operandIdx (ix2 e f) idx) = x (ix2 (clampRow hN idx e) f)
  rw [rowGather_operandIdx hN wf idx e f]

end Cert.Lib.RowOps

end
-- ==== Proof.RefValue.lean ====
/-
  The reference's result read at an entry, for indices in range.

  `result idx table W` is `take(table, idx) · Wᵀ` as the reference spells it: wrap a negative index, gather whole
  rows (each start clamped into the table), replace a row whose index is out of range by the fill value, and
  contract the 64 columns against the transpose of `W`. When every index `i` satisfies `0 ≤ i ≤ 99999` (read
  signed) none of the guards acts:

    * the wrap tests `i < 0`, which fails, so the wrapped index is `i` itself;
    * the range mask is the conjunction of `0 ≤ i` and `i ≤ 99999`, both true, so the mask is 1 on every row and
      the select takes the gathered row, never the fill value;
    * the gather clamps the start to `min (max i 0) 99999`, which is `i`, and a non-negative signed word is its own
      unsigned value, so the row read is row `i.toNat` of the table;
    * the transpose swaps the two coordinates of `W`, and the contraction is the sum over the shared coordinate.

  Hence entry `(b, v)` of the result is `∑ d < 64, table[idx[b], d] · W[v, d]`, as extended reals.
-/
import proofs.«218829_g6193342841233_cont_9to1_m_903_15_alg».proof.Proof.RefRun
import proofs.«218829_g6193342841233_cont_9to1_m_903_15_alg».proof.Proof.LibGatherRows
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.StackMember
import Idealize.ShloMosaic.Lib.Affine

noncomputable section

open scoped BigOperators

namespace Cert.ReferenceIdeal.RefValue

open Cert.ReferenceIdeal Cert.ReferenceIdeal.Gen Cert.ReferenceIdeal.RefRun Cert.Lib.RowOps
  Idealize.ShloMosaic Idealize.ShloMosaic.ValueIdx Idealize.ShloMosaic.StackMember

/-! ## Words in range -/

/-- A 32-bit word whose signed reading is not negative has the same unsigned reading. -/
theorem toInt_toNat_of_nonneg (x : BitVec 32) (h : 0 ≤ x.toInt) : x.toInt.toNat = x.toNat := by
  have hc := BitVec.toInt_eq_toNat_cond x
  have hl := x.isLt
  split_ifs at hc <;> omega

/-- A word in `[0, 99999]` (signed) names a row of the table. -/
theorem toNat_lt_of_range (x : BitVec 32) (h : 0 ≤ x.toInt ∧ x.toInt ≤ 99999) : x.toNat < 100000 := by
  have := toInt_toNat_of_nonneg x h.1
  omega

/-! ## The index side -/

/-- A non-negative index is not wrapped: the test `i < 0` fails and the select keeps `i`. -/
theorem wrapIdx_apply (idx : IVec S1024 32) (b : Fin 1024) (h : 0 ≤ (idx (ix1 b)).toInt) :
    wrapIdx idx (ix1 b) = idx (ix1 b) := by
  have hc : IntOp.cmpi .slt (idx (ix1 b)) 0#32 = 0#1 :=
    eq_zero_of_ne_one fun h1 => by
      have h2 := IntOp.cmpi_slt.1 h1
      rw [show (0#32 : BitVec 32).toInt = 0 from by decide] at h2
      omega
  show Scalar.select (IntOp.cmpi .slt (idx (ix1 b)) 0#32) (IntOp.addi (idx (ix1 b)) 100000#32) (idx (ix1 b))
    = idx (ix1 b)
  rw [hc, select_zero]

/-- A vector of 1024 entries laid out as a column reads, at row `b`, its entry `b`. Stated over an arbitrary
    vector. -/
theorem bcastCol_apply {α : Type} (x : S1024.Idx → α) (b : Fin 1024) (z : Fin 1) :
    broadcastInDim S1024x1 ![0] bcast_S1024_S1024x1_0 x (ix2 b z) = x (ix1 b) :=
  broadcastInDim_apply (![0] : Fin 1 → Fin 2) bcast_S1024_S1024x1_0 x (ix2 b z) (ix1 b)
    (fun a => match a with | ⟨0, _⟩ => rfl)

/-- A vector of 1024 entries copied along 64 columns reads, at `(b, d)`, its entry `b`. -/
theorem bcastRows_apply {α : Type} (x : S1024.Idx → α) (b : Fin 1024) (d : Fin 64) :
    broadcastInDim S1024x64 ![0] bcast_S1024_S1024x64_0 x (ix2 b d) = x (ix1 b) :=
  broadcastInDim_apply (![0] : Fin 1 → Fin 2) bcast_S1024_S1024x64_0 x (ix2 b d) (ix1 b)
    (fun a => match a with | ⟨0, _⟩ => rfl)

/-- The index column at row `b` (its one entry) is the wrapped index `b`. -/
theorem idxCol_apply (idx : IVec S1024 32) (b : Fin 1024) (z : Fin 1) :
    idxCol idx (ix2 b z) = wrapIdx idx (ix1 b) :=
  bcastCol_apply (wrapIdx idx) b z

/-! ## The range mask -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- A reduction by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-- With every index in `[0, 99999]` the range mask is 1 on every row: both comparisons hold at every entry
    of the index column. -/
theorem inRange_apply (idx : IVec S1024 32)
    (hidx : ∀ b : Fin 1024, 0 ≤ (idx (ix1 b)).toInt ∧ (idx (ix1 b)).toInt ≤ 99999) (b : Fin 1024) :
    inRange idx (ix1 b) = 1#1 := by
  unfold inRange
  refine reduce_andi_of_all _ _ reducesTo_S1024x1_S1024_d1 h_S_ (ix1 b) rfl fun i => ?_
  obtain ⟨b', z, rfl⟩ : ∃ (b' : Fin 1024) (z : Fin 1), i = ix2 b' z := ⟨i 0, i 1, eq_ix2 i⟩
  show IntOp.andi (IntOp.cmpi .sge (idxCol idx (ix2 b' z)) 0#32) (IntOp.cmpi .sle (idxCol idx (ix2 b' z)) 99999#32) = 1#1
  rw [idxCol_apply, wrapIdx_apply idx b' (hidx b').1]
  exact IntOp.andi_eq_one.2
    ⟨IntOp.cmpi_sge.2 (by rw [show (0#32 : BitVec 32).toInt = 0 from by decide]; exact (hidx b').1),
     IntOp.cmpi_sle.2 (by rw [show (99999#32 : BitVec 32).toInt = 99999 from by decide]; exact (hidx b').2)⟩

/-! ## The looked-up rows -/

variable {F : FTy → Type} [FloatOps F]

/-- In range, row `b` of the looked-up rows is the table's row `idx[b]`: the mask is 1, so the select takes the
    gathered row, and the gather's clamp leaves an index in `[0, 99999]` alone. -/
theorem emb_apply (idx : IVec S1024 32) (table : FVec F S100000x64 .f32)
    (hidx : ∀ b : Fin 1024, 0 ≤ (idx (ix1 b)).toInt ∧ (idx (ix1 b)).toInt ≤ 99999) (b : Fin 1024) (d : Fin 64) :
    emb idx table (ix2 b d) = table (ix2 ⟨(idx (ix1 b)).toNat, toNat_lt_of_range _ (hidx b)⟩ d) := by
  have hm : broadcastInDim S1024x64 ![0] bcast_S1024_S1024x64_0 (inRange idx) (ix2 b d) = 1#1 :=
    (bcastRows_apply (inRange idx) b d).trans (inRange_apply idx hidx b)
  show Scalar.select (broadcastInDim S1024x64 ![0] bcast_S1024_S1024x64_0 (inRange idx) (ix2 b d))
    (rows idx table (ix2 b d)) _ = _
  rw [hm, select_one]
  unfold rows
  refine (hostGather_rows (by decide : 0 < 100000) _ gather_S100000x64_S1024x1_S1024x64_1_0_n_n_0_1_164_wf rfl
    table (idxCol idx) b d).trans ?_
  refine congrArg table (congrArg (fun r => ix2 r d) (Fin.ext ?_))
  show min (idxCol idx (ix2 b 0)).toInt.toNat (100000 - 1) = (idx (ix1 b)).toNat
  rw [idxCol_apply, wrapIdx_apply idx b (hidx b).1, toInt_toNat_of_nonneg _ (hidx b).1]
  have := toNat_lt_of_range _ (hidx b)
  omega

/-! ## The result -/

/-- THE REFERENCE READ AT AN ENTRY. With every index in `[0, 99999]`, entry `(b, v)` of the result is the inner
    product of the table's row `idx[b]` and row `v` of `W`, over the 64 columns, as extended reals. -/
theorem result_apply (idx : IVec S1024 32) (table W : FVec Ideal S100000x64 .f32)
    (hidx : ∀ b : Fin 1024, 0 ≤ (idx (ix1 b)).toInt ∧ (idx (ix1 b)).toInt ≤ 99999) (b : Fin 1024) (v : Fin 100000) :
    result idx table W (ix2 b v)
      = ∑ d : Fin 64, table (ix2 ⟨(idx (ix1 b)).toNat, toNat_lt_of_range _ (hidx b)⟩ d) * W (ix2 v d) := by
  show Host.dotGeneral (DotDims.plain 1024 64 100000) none (emb idx table)
    (transpose S64x100000 [1, 0] W transposes_S100000x64_S64x100000_1_0) (ix2 b v) = _
  refine (dotGeneral_plain_apply none (emb idx table)
    (transpose S64x100000 [1, 0] W transposes_S100000x64_S64x100000_1_0) b v).trans ?_
  refine Finset.sum_congr rfl fun d _ => ?_
  rw [emb_apply idx table hidx b d, transpose_ix2_apply W transposes_S100000x64_S64x100000_1_0 d v]

end Cert.ReferenceIdeal.RefValue

end
-- ==== Proof.SpecAlgebra.lean ====
/-
  Two facts about finite sums over the extended reals, and the reading of a one-bit comparison result,
  widened to 32 bits and converted to a float, as the indicator 1 / 0.

  (i)  Multiplying a family by the indicator of a single index c and summing picks out the term at c:
       every other term is x r * 0 = 0, and the term at c is x c * 1 = x c. No finiteness of the x r is
       needed: over the extended reals anything times 0 is 0 (infinities included) and 1 is a unit.
  (ii) Multiplication of extended reals commutes, so a sum of products may be read with the factors of
       every term swapped.
  The indicator comes from a bit: a one-bit word zero-extended to 32 bits is 0 or 1 as a signed integer,
  and the conversion to a float over the extended reals is that integer exactly.
-/
import Idealize.ShloMosaic.PureOps.Ideal
import Idealize.ShloMosaic.Lib.Affine

noncomputable section

namespace Cert.SpecAlgebra

open Idealize.ShloMosaic

/-! ## (i) A sum against the indicator of one index -/

/-- Indicator on the right, written "r = c". -/
theorem sum_mul_indicator {ι : Type} [Fintype ι] [DecidableEq ι] (c : ι) (x : ι → EReal) :
    ∑ r, x r * (if r = c then (1 : EReal) else 0) = x c := by
  rw [Finset.sum_eq_single c]
  · rw [if_pos rfl, mul_one]
  · intro b _ hb
    rw [if_neg hb, mul_zero]
  · intro hc
    exact absurd (Finset.mem_univ c) hc

/-- Indicator on the right, written "c = r". -/
theorem sum_mul_indicator' {ι : Type} [Fintype ι] [DecidableEq ι] (c : ι) (x : ι → EReal) :
    ∑ r, x r * (if c = r then (1 : EReal) else 0) = x c := by
  rw [Finset.sum_eq_single c]
  · rw [if_pos rfl, mul_one]
  · intro b _ hb
    rw [if_neg (fun h => hb h.symm), mul_zero]
  · intro hc
    exact absurd (Finset.mem_univ c) hc

/-- Indicator on the left, written "r = c". -/
theorem sum_indicator_mul {ι : Type} [Fintype ι] [DecidableEq ι] (c : ι) (x : ι → EReal) :
    ∑ r, (if r = c then (1 : EReal) else 0) * x r = x c := by
  rw [Finset.sum_eq_single c]
  · rw [if_pos rfl, one_mul]
  · intro b _ hb
    rw [if_neg hb, zero_mul]
  · intro hc
    exact absurd (Finset.mem_univ c) hc

/-- Indicator on the left, written "c = r". -/
theorem sum_indicator_mul' {ι : Type} [Fintype ι] [DecidableEq ι] (c : ι) (x : ι → EReal) :
    ∑ r, (if c = r then (1 : EReal) else 0) * x r = x c := by
  rw [Finset.sum_eq_single c]
  · rw [if_pos rfl, one_mul]
  · intro b _ hb
    rw [if_neg (fun h => hb h.symm), zero_mul]
  · intro hc
    exact absurd (Finset.mem_univ c) hc

/-! ## (ii) The factors of every term swapped -/

theorem sum_mul_comm {ι : Type} [Fintype ι] (w e : ι → EReal) : ∑ d, w d * e d = ∑ d, e d * w d :=
  Finset.sum_congr rfl fun d _ => mul_comm (w d) (e d)

/-- The instance the contraction over a 64-long axis uses. -/
theorem sum_mul_comm_64 (w e : Fin 64 → EReal) : ∑ d : Fin 64, w d * e d = ∑ d : Fin 64, e d * w d :=
  sum_mul_comm w e

/-! ## The indicator as a converted bit -/

/-- A one-bit word zero-extended to 32 bits reads 1 or 0 as a signed integer. -/
theorem toInt_setWidth_bit (b : BitVec 1) : (b.setWidth 32).toInt = if b = 1#1 then 1 else 0 := by
  revert b; decide

/-- Converted to a float over the extended reals (the integer, exactly) it is the indicator of the bit. -/
theorem sitofp_extui_bit (b : BitVec 1) :
    FloatOps.sitofp (F := Ideal) .f32 (b.setWidth 32) = if b = 1#1 then (1 : EReal) else 0 := by
  show (((b.setWidth 32).toInt : ℝ) : EReal) = _
  rw [toInt_setWidth_bit]
  split <;> simp

/-- The same at a position of an array of bits. -/
theorem sitofp_extui_apply {s : Shape} (v : IVec s 1) (h : 1 < 32) (i : s.Idx) :
    sitofp (F := Ideal) .f32 (extui 32 v h) i = if v i = 1#1 then (1 : EReal) else 0 :=
  sitofp_extui_bit (v i)

/-- With the bits those of an equality test of two integer arrays: the indicator of equality there. -/
theorem sitofp_extui_cmpi_eq_apply {s : Shape} (x y : IVec s 32) (h : 1 < 32) (i : s.Idx) :
    sitofp (F := Ideal) .f32 (extui 32 (cmpi .eq x y) h) i = if x i = y i then (1 : EReal) else 0 := by
  rw [sitofp_extui_apply]
  simp only [cmpi, IntOp.cmpi_eq]

end Cert.SpecAlgebra

end
-- ==== Proof.FinalAlgebra.lean ====
/-
  The arithmetic of the whole chain over the extended reals.

  The table's rows are packed two to a line (row l in columns 0..63 of line l, row l + 57344 in columns
  64..127), each index n is turned into its line and the bit "n >= 57344", the lines named by the indices
  are fetched, the half named by the bit is kept, and the result is contracted with W over the 64 columns.
  Because fetching the line and keeping the half named by the bit reads row n exactly, the contraction is
  the sum over the 64 columns of W[v, d] * table[idx b, d]; and since multiplication of extended reals
  commutes, that is the sum of table[idx b, d] * W[v, d], the product the reference forms.
-/
import proofs.«218829_g6193342841233_cont_9to1_m_903_15_alg».proof.Proof.LineSpec
import proofs.«218829_g6193342841233_cont_9to1_m_903_15_alg».proof.Proof.SpecAlgebra

noncomputable section

namespace Cert.FinalAlgebra

open Idealize.ShloMosaic

/-- A choice on "the bit of w >= 57344 is 1" is the choice on the truth of 57344 <= w. -/
theorem ite_sge_bit {α : Type} (w : BitVec 32) (a b : α) :
    (if IntOp.cmpi .sge w 57344#32 = 1#1 then a else b) = if (57344#32 : BitVec 32).sle w then a else b := by
  show (if BitVec.ofBool ((57344#32 : BitVec 32).sle w) = 1#1 then a else b) = _
  cases h : (57344#32 : BitVec 32).sle w <;> simp

/-- The half kept for index b, with the bit read back from the widened selector word: it is entry d of row idx b.
    (The selector word is the widened bit of "idx b >= 57344"; testing it "> 0" returns that bit; the kept half of the
    fetched line is then the row, by the line arithmetic.) -/
theorem kept_half (table : Fin 100000 → Fin 64 → EReal) (idx : Fin 1024 → BitVec 32)
    (f1 : Fin 57344 → Fin 128 → EReal) (f2 : Fin 1024 → Fin 128 → EReal) (sel : Fin 1024 → BitVec 32)
    (Hidx : ∀ b, 0 ≤ (idx b).toInt ∧ (idx b).toInt ≤ 99999)
    (H1 : ∀ (l : Fin 57344) (c : Fin 64),
      f1 l ⟨c.val, by have := c.isLt; omega⟩ = table ⟨l.val, by have := l.isLt; omega⟩ c
      ∧ ∀ h : l.val + 57344 < 100000, f1 l ⟨64 + c.val, by have := c.isLt; omega⟩ = table ⟨l.val + 57344, h⟩ c)
    (H2 : ∀ (b : Fin 1024) (j : Fin 128) (l : Fin 57344), (LineSpec.lineOf (idx b)).toNat = l.val → f2 b j = f1 l j)
    (Hsel : ∀ b, sel b = (IntOp.cmpi .sge (idx b) 57344#32).setWidth 32) (b : Fin 1024) (d : Fin 64) :
    (if IntOp.cmpi .sgt (sel b) 0#32 = 1#1 then f2 b ⟨64 + d.val, by have := d.isLt; omega⟩
      else f2 b ⟨d.val, by have := d.isLt; omega⟩)
    = table ⟨(idx b).toNat, LineSpec.toNat_lt (idx b) (Hidx b).1 (Hidx b).2⟩ d := by
  rw [Hsel b, LineSpec.sgt_zero_extui_sge, ite_sge_bit]
  exact LineSpec.join (fun c n => table n c) f1 f2 idx H1 H2 Hidx b d

/-- THE CHAIN, with the kept half written as a choice on "the bit is 1". -/
theorem chain (table W : Fin 100000 → Fin 64 → EReal) (idx : Fin 1024 → BitVec 32)
    (f1 : Fin 57344 → Fin 128 → EReal) (f2 : Fin 1024 → Fin 128 → EReal) (sel : Fin 1024 → BitVec 32)
    (A8 : Fin 100000 → Fin 1024 → EReal)
    (Hidx : ∀ b, 0 ≤ (idx b).toInt ∧ (idx b).toInt ≤ 99999)
    (H1 : ∀ (l : Fin 57344) (c : Fin 64),
      f1 l ⟨c.val, by have := c.isLt; omega⟩ = table ⟨l.val, by have := l.isLt; omega⟩ c
      ∧ ∀ h : l.val + 57344 < 100000, f1 l ⟨64 + c.val, by have := c.isLt; omega⟩ = table ⟨l.val + 57344, h⟩ c)
    (H2 : ∀ (b : Fin 1024) (j : Fin 128) (l : Fin 57344), (LineSpec.lineOf (idx b)).toNat = l.val → f2 b j = f1 l j)
    (Hsel : ∀ b, sel b = (IntOp.cmpi .sge (idx b) 57344#32).setWidth 32)
    (H8 : ∀ v b, A8 v b = ∑ d : Fin 64, W v d *
      (if IntOp.cmpi .sgt (sel b) 0#32 = 1#1 then f2 b ⟨64 + d.val, by have := d.isLt; omega⟩
        else f2 b ⟨d.val, by have := d.isLt; omega⟩)) :
    ∀ b v, A8 v b = ∑ d : Fin 64, table ⟨(idx b).toNat, LineSpec.toNat_lt (idx b) (Hidx b).1 (Hidx b).2⟩ d * W v d := by
  intro b v
  rw [H8 v b, SpecAlgebra.sum_mul_comm]
  refine Finset.sum_congr rfl fun d _ => ?_
  exact congrArg (fun t => t * W v d) (kept_half table idx f1 f2 sel Hidx H1 H2 Hsel b d)

/-- THE CHAIN, with the kept half written through the scalar choice on the bit (what a vector select under a
    one-bit mask is at each position). -/
theorem chain_select (table W : Fin 100000 → Fin 64 → EReal) (idx : Fin 1024 → BitVec 32)
    (f1 : Fin 57344 → Fin 128 → EReal) (f2 : Fin 1024 → Fin 128 → EReal) (sel : Fin 1024 → BitVec 32)
    (A8 : Fin 100000 → Fin 1024 → EReal)
    (Hidx : ∀ b, 0 ≤ (idx b).toInt ∧ (idx b).toInt ≤ 99999)
    (H1 : ∀ (l : Fin 57344) (c : Fin 64),
      f1 l ⟨c.val, by have := c.isLt; omega⟩ = table ⟨l.val, by have := l.isLt; omega⟩ c
      ∧ ∀ h : l.val + 57344 < 100000, f1 l ⟨64 + c.val, by have := c.isLt; omega⟩ = table ⟨l.val + 57344, h⟩ c)
    (H2 : ∀ (b : Fin 1024) (j : Fin 128) (l : Fin 57344), (LineSpec.lineOf (idx b)).toNat = l.val → f2 b j = f1 l j)
    (Hsel : ∀ b, sel b = (IntOp.cmpi .sge (idx b) 57344#32).setWidth 32)
    (H8 : ∀ v b, A8 v b = ∑ d : Fin 64, W v d *
      Scalar.select (IntOp.cmpi .sgt (sel b) 0#32) (f2 b ⟨64 + d.val, by have := d.isLt; omega⟩)
        (f2 b ⟨d.val, by have := d.isLt; omega⟩)) :
    ∀ b v, A8 v b = ∑ d : Fin 64, table ⟨(idx b).toNat, LineSpec.toNat_lt (idx b) (Hidx b).1 (Hidx b).2⟩ d * W v d :=
  -- the scalar choice IS the choice on "the bit is 1", by definition
  chain table W idx f1 f2 sel A8 Hidx H1 H2 Hsel H8

end Cert.FinalAlgebra

end
-- ==== Proof.HostValue.lean ====
/-
  The host-side operations of the program's entry function, read at one position.

  A transposed matrix at (j, i) is the operand at (i, j). The selector array is built from the indices by
  the signed test "index >= 57344" against a broadcast scalar constant, the one-bit result widened to 32 bits,
  and the length-1024 result reshaped to 1024 rows of one column; a reshape keeps row-major order, and the
  row-major position of (b, 0) in a 1024 x 1 array is b * 1 + 0 = b, so row b holds the widened test of
  index b.

  Every shape relation an operation takes is an argument here (any proof of it will do), so the statements
  apply whichever instance of the program's stated facts the term at hand carries.
-/
import proofs.«218829_g6193342841233_cont_9to1_m_903_15_alg».proof.Proof.Gen.KernelIdeal
import Idealize.ShloMosaic.Lib.ValueLayout

noncomputable section

namespace Cert.HostValue

open Idealize.ShloMosaic Idealize.ShloMosaic.ValueIdx Cert.KernelIdeal

/-! ## (i) The two transposes -/

/-- The table (or W) transposed, 100000 x 64 to 64 x 100000: position (c, l) holds the operand's (l, c). -/
theorem transpose_in_apply {α : Type} (x : S100000x64.Idx → α) (h : S100000x64.Transposes [1, 0] S64x100000)
    (c : Fin 64) (l : Fin 100000) :
    transpose S64x100000 [1, 0] x h (ix2 c l) = x (ix2 l c) :=
  transpose_ix2_apply x h c l

/-- The result transposed, 100000 x 1024 to 1024 x 100000: position (b, v) holds the operand's (v, b). -/
theorem transpose_out_apply {α : Type} (x : S100000x1024.Idx → α) (h : S100000x1024.Transposes [1, 0] S1024x100000)
    (b : Fin 1024) (v : Fin 100000) :
    transpose S1024x100000 [1, 0] x h (ix2 b v) = x (ix2 v b) :=
  transpose_ix2_apply x h b v

/-! ## (ii) The selector chain -/

/-- The broadcast scalar constant is the constant at every position. -/
theorem bcast_const_apply (hb : S_.BroadcastsInDim S1024 (![] : Fin 0 → Fin S1024.rank)) (k : BitVec 32) (i : S1024.Idx) :
    broadcastInDim S1024 ![] hb (constantI S_ 32 k) i = k := rfl

/-- Before the reshape: position i of the length-1024 array is the widened bit of "idx i >= 57344". -/
theorem selector_flat_apply (idx : IVec S1024 32) (hb : S_.BroadcastsInDim S1024 (![] : Fin 0 → Fin S1024.rank))
    (hn : 1 < 32) (i : S1024.Idx) :
    extui 32 (cmpi .sge idx (broadcastInDim S1024 ![] hb (constantI S_ 32 57344#32))) hn i
      = (IntOp.cmpi .sge (idx i) 57344#32).setWidth 32 := rfl

/-- A length-1024 array reshaped to 1024 x 1 holds, at (b, 0), the operand's entry b. -/
theorem reshape_col_apply {α : Type} (x : S1024.Idx → α) (hc : S1024.ShapeCasts S1024x1) (b : Fin 1024) :
    shapeCast S1024x1 x hc (ix2 b (0 : Fin 1)) = x (ix1 b) :=
  shapeCast_apply x hc (ix2 b (0 : Fin 1)) (ix1 b)
    (by rw [Shape.rowMajor_val_one, Shape.rowMajor_val_two]; show b.val = b.val * 1 + 0; omega)

/-- THE SELECTOR at row b: the widened bit of "idx b >= 57344". -/
theorem selector_apply (idx : IVec S1024 32) (hb : S_.BroadcastsInDim S1024 (![] : Fin 0 → Fin S1024.rank))
    (hn : 1 < 32) (hc : S1024.ShapeCasts S1024x1) (b : Fin 1024) :
    shapeCast S1024x1 (extui 32 (cmpi .sge idx (broadcastInDim S1024 ![] hb (constantI S_ 32 57344#32))) hn) hc
        (ix2 b (0 : Fin 1))
      = (IntOp.cmpi .sge (idx (ix1 b)) 57344#32).setWidth 32 := by
  rw [reshape_col_apply]
  rfl

end Cert.HostValue

end
-- ==== Proof.Bridge.lean ====
/-
  The kernel's three stages against the reference, entry by entry.

  The kernel computes `take(table, idx) · Wᵀ` in three stages. (1) A repack: the table, read through its transpose, is cut at
  row 57344 and laid out two rows to a line of 128 columns, row l in columns 0..63 of line l and row l + 57344 (when
  there is one) in columns 64..127. (2) A gather of lines: output row b is the line named by index b, which is
  idx b itself below 57344 and idx b - 57344 from there on. (3) A projection: for each index the half of its line
  named by the bit "idx b >= 57344" is kept and contracted, over its 64 columns, with row v of W; the result is
  produced transposed, 100000 by 1024, and transposed back at the end.

  Keeping the half named by the bit undoes the packing, so the kept half of output row b is row idx b of the
  table, and the contraction is the sum over d < 64 of W[v, d] · table[idx b, d]. Multiplication of extended
  reals commutes, so this is the sum of table[idx b, d] · W[v, d] — which is what the reference's result is at
  (b, v) when every index lies in [0, 99999] (there its wrap, clamp and fill guards do nothing).

  The arithmetic is stated once over plain row and column numbers (the chain lemma cited below). This module
  moves each stage's guarantee from arrays read at an index to that form, one adapter per stage, and then joins
  the chain to the reference's value read at an entry.
-/
import proofs.«218829_g6193342841233_cont_9to1_m_903_15_alg».proof.Proof.RefValue
import proofs.«218829_g6193342841233_cont_9to1_m_903_15_alg».proof.Proof.FinalAlgebra
import proofs.«218829_g6193342841233_cont_9to1_m_903_15_alg».proof.Proof.HostValue
import proofs.«218829_g6193342841233_cont_9to1_m_903_15_alg».proof.Proof.LineSpec

noncomputable section

open scoped BigOperators

namespace Cert.Bridge

open Idealize.ShloMosaic Idealize.ShloMosaic.ValueIdx Cert.KernelIdeal

/-- The selector column the entry function builds from the indices: the bit "idx >= 57344", widened to 32 bits,
    the 1024 words laid out as 1024 rows of one column. -/
abbrev selector (idx : IVec S1024 32) (hb : S_.BroadcastsInDim S1024 (![] : Fin 0 → Fin S1024.rank)) (hn : 1 < 32)
    (hc : S1024.ShapeCasts S1024x1) : IVec S1024x1 32 :=
  shapeCast S1024x1 (extui 32 (cmpi .sge idx (broadcastInDim S1024 ![] hb (constantI S_ 32 57344#32))) hn) hc

/-! ## One adapter per stage -/

/-- Stage 1, the repack. Its guarantee is stated against the transposed table; a transposed matrix at (c, n) is
    the matrix at (n, c), so line l holds table row l in its low half and table row l + 57344 in its high half. -/
theorem adapt_repack (table : FVec Ideal S100000x64 .f32) (f1 : S57344x128.Idx → EReal)
    (h : S100000x64.Transposes [1, 0] S64x100000)
    (H1 : ∀ (l : Fin 57344) (c : Fin 64),
      f1 (ix2 l ⟨c.val, by have := c.isLt; omega⟩)
          = transpose S64x100000 [1, 0] table h (ix2 c ⟨l.val, by have := l.isLt; omega⟩)
      ∧ ∀ hl : l.val + 57344 < 100000, f1 (ix2 l ⟨64 + c.val, by have := c.isLt; omega⟩)
          = transpose S64x100000 [1, 0] table h (ix2 c ⟨l.val + 57344, hl⟩)) :
    ∀ (l : Fin 57344) (c : Fin 64),
      f1 (ix2 l ⟨c.val, by have := c.isLt; omega⟩) = table (ix2 ⟨l.val, by have := l.isLt; omega⟩ c)
      ∧ ∀ hl : l.val + 57344 < 100000, f1 (ix2 l ⟨64 + c.val, by have := c.isLt; omega⟩)
          = table (ix2 ⟨l.val + 57344, hl⟩ c) := by
  intro l c
  obtain ⟨hlo, hhi⟩ := H1 l c
  exact ⟨hlo.trans (Cert.HostValue.transpose_in_apply table h c _),
    fun hl => (hhi hl).trans (Cert.HostValue.transpose_in_apply table h c _)⟩

/-- Stage 2, the gather of lines. Its guarantee relates positions by the values of their coordinates; at the
    positions (b, j) of the output and (l, j) of the packed table it says: when l is the line of index b, output
    row b is line l. -/
theorem adapt_gather (idx : IVec S1024 32) (f1 : S57344x128.Idx → EReal) (f2 : S1024x128.Idx → EReal)
    (H2 : ∀ (i : S1024x128.Idx) (b : S1024.Idx) (k : S57344x128.Idx), (b 0).val = (i 0).val →
      (k 0).val = (Cert.LineSpec.lineOf (idx b)).toNat → (k 1).val = (i 1).val → f2 i = f1 k) :
    ∀ (b : Fin 1024) (j : Fin 128) (l : Fin 57344), (Cert.LineSpec.lineOf (idx (ix1 b))).toNat = l.val →
      f2 (ix2 b j) = f1 (ix2 l j) :=
  fun b j l hl => H2 (ix2 b j) (ix1 b) (ix2 l j) rfl hl.symm rfl

/-- Stage 3, the projection. Its guarantee reads W through its transpose; at (d, v) that is W at (v, d). -/
theorem adapt_project (W : FVec Ideal S100000x64 .f32) (f2 : S1024x128.Idx → EReal) (sel : IVec S1024x1 32)
    (A8 : S100000x1024.Idx → EReal) (h' : S100000x64.Transposes [1, 0] S64x100000)
    (H8 : ∀ (v : Fin 100000) (b : Fin 1024), A8 (ix2 v b) = ∑ d : Fin 64,
      transpose S64x100000 [1, 0] W h' (ix2 d v) *
        Scalar.select (IntOp.cmpi .sgt (sel (ix2 b (0 : Fin 1))) 0#32)
          (f2 (ix2 b ⟨64 + d.val, by have := d.isLt; omega⟩)) (f2 (ix2 b ⟨d.val, by have := d.isLt; omega⟩))) :
    ∀ (v : Fin 100000) (b : Fin 1024), A8 (ix2 v b) = ∑ d : Fin 64,
      W (ix2 v d) *
        Scalar.select (IntOp.cmpi .sgt (sel (ix2 b (0 : Fin 1))) 0#32)
          (f2 (ix2 b ⟨64 + d.val, by have := d.isLt; omega⟩)) (f2 (ix2 b ⟨d.val, by have := d.isLt; omega⟩)) := by
  intro v b
  rw [H8 v b]
  refine Finset.sum_congr rfl fun d _ => ?_
  rw [Cert.HostValue.transpose_in_apply W h' d v]

/-! ## The joint -/

/-- THE KERNEL'S RESULT IS THE REFERENCE'S, entry by entry. Given the three stages' guarantees (the repack `f1`
    of the transposed table, the gathered lines `f2`, the projection `A8` against the selector column) and every
    index in [0, 99999], the projection transposed back is the reference's result at every (b, v). -/
theorem kernel_eq_reference (idx : IVec S1024 32) (table W : FVec Ideal S100000x64 .f32)
    (hidx : ∀ b : Fin 1024, 0 ≤ (idx (ix1 b)).toInt ∧ (idx (ix1 b)).toInt ≤ 99999)
    (f1 : S57344x128.Idx → EReal) (f2 : S1024x128.Idx → EReal) (A8 : S100000x1024.Idx → EReal)
    (h h' : S100000x64.Transposes [1, 0] S64x100000) (h'' : S100000x1024.Transposes [1, 0] S1024x100000)
    (hb : S_.BroadcastsInDim S1024 (![] : Fin 0 → Fin S1024.rank)) (hn : 1 < 32) (hc : S1024.ShapeCasts S1024x1)
    (H1 : ∀ (l : Fin 57344) (c : Fin 64),
      f1 (ix2 l ⟨c.val, by have := c.isLt; omega⟩)
          = transpose S64x100000 [1, 0] table h (ix2 c ⟨l.val, by have := l.isLt; omega⟩)
      ∧ ∀ hl : l.val + 57344 < 100000, f1 (ix2 l ⟨64 + c.val, by have := c.isLt; omega⟩)
          = transpose S64x100000 [1, 0] table h (ix2 c ⟨l.val + 57344, hl⟩))
    (H2 : ∀ (i : S1024x128.Idx) (b : S1024.Idx) (k : S57344x128.Idx), (b 0).val = (i 0).val →
      (k 0).val = (Cert.LineSpec.lineOf (idx b)).toNat → (k 1).val = (i 1).val → f2 i = f1 k)
    (H8 : ∀ (v : Fin 100000) (b : Fin 1024), A8 (ix2 v b) = ∑ d : Fin 64,
      transpose S64x100000 [1, 0] W h' (ix2 d v) *
        Scalar.select (IntOp.cmpi .sgt (selector idx hb hn hc (ix2 b (0 : Fin 1))) 0#32)
          (f2 (ix2 b ⟨64 + d.val, by have := d.isLt; omega⟩)) (f2 (ix2 b ⟨d.val, by have := d.isLt; omega⟩))) :
    ∀ (b : Fin 1024) (v : Fin 100000),
      transpose S1024x100000 [1, 0] A8 h'' (ix2 b v) = Cert.ReferenceIdeal.RefRun.result idx table W (ix2 b v) := by
  intro b v
  -- the final transpose reads the projection at (v, b); the reference at (b, v) is the inner product of rows
  refine (Cert.HostValue.transpose_out_apply A8 h'' b v).trans ?_
  refine Eq.trans ?_ (Cert.ReferenceIdeal.RefValue.result_apply idx table W hidx b v).symm
  -- the chain over plain row and column numbers, each array read at an index
  exact Cert.FinalAlgebra.chain_select (fun n c => table (ix2 n c)) (fun v d => W (ix2 v d)) (fun b => idx (ix1 b))
    (fun l j => f1 (ix2 l j)) (fun b j => f2 (ix2 b j)) (fun b => selector idx hb hn hc (ix2 b (0 : Fin 1)))
    (fun v b => A8 (ix2 v b)) hidx (adapt_repack table f1 h H1) (adapt_gather idx f1 f2 H2)
    (Cert.HostValue.selector_apply idx hb hn hc) (adapt_project W f2 (selector idx hb hn hc) A8 h' H8) b v

end Cert.Bridge

end
-- ==== Proof.ValViews.lean ====
/-
  The arrays the value statements speak of, each at its own tensor type.

  A valuation assigns to every buffer of the device contents of that buffer's type, and the type is looked up
  in the program's signature; so an entry of "the valuation at buffer x" is not, as written, an extended real one
  can multiply or sum. Each array the three stages read or write is named here once as a function from its index
  set to the extended reals (or to 32-bit words, for the selector): the same contents, seen at the type the
  signature gives that buffer. All of these are abbreviations and unfold on sight.
-/
import proofs.«218829_g6193342841233_cont_9to1_m_903_15_alg».proof.Proof.KI.Main
import Idealize.ShloMosaic.PureOps.Ideal

noncomputable section

namespace Cert.KernelIdeal.Hand

open Cert.KernelIdeal Cert.KernelIdeal.Gen
open Idealize.ShloMosaic Idealize.ShloMosaic.TcCoe

/-- The transposed table, 64 by 100000, as a valuation holds it. -/
abbrev tabT (W : Valuation τ sig (Elt Ideal)) : S64x100000.Idx → EReal := W (Proc.devRef .tc (main_v0 : Ref sig .tc))
/-- The gathered lines, 1024 by 128, as a valuation holds them. -/
abbrev linesOf (W : Valuation τ sig (Elt Ideal)) : S1024x128.Idx → EReal := W v2'
/-- The half-selector column, 1024 by 1, as a valuation holds it. -/
abbrev selOf (W : Valuation τ sig (Elt Ideal)) : IVec S1024x1 32 := W (Proc.devRef .tc (main_v6 : Ref sig .tc))
/-- The transposed projection matrix, 64 by 100000, as a valuation holds it. -/
abbrev wT (W : Valuation τ sig (Elt Ideal)) : S64x100000.Idx → EReal := W (Proc.devRef .tc (main_v7 : Ref sig .tc))
/-- Contents of the packed-table buffer, 57344 lines of 128 columns. -/
abbrev asPacked (f1 : (v1' : DevRef τ sig).ty.Contents (Elt Ideal)) : S57344x128.Idx → EReal := f1
/-- Contents of the gathered-lines buffer. -/
abbrev asLines (f2 : (v2' : DevRef τ sig).ty.Contents (Elt Ideal)) : S1024x128.Idx → EReal := f2
/-- Contents of the projection's result buffer, 100000 by 1024. -/
abbrev asProj (A8 : (v8' : DevRef τ sig).ty.Contents (Elt Ideal)) : S100000x1024.Idx → EReal := A8

end Cert.KernelIdeal.Hand

end
-- ==== Proof.Algebraic.lean ====
/-
  The algebraic claim: the idealized kernel and the idealized reference end with equal results.

  Both programs are run from memories that agree on the three arguments (indices, table, W), the kernel's under
  the input-domain precondition. The claim asks for one array per device that both result buffers end at. Take
  the reference's own composed term of the arguments, `take(table, idx) · Wᵀ` as the reference spells it.

  The reference half is the reference's run: its result buffer ends at that term of ITS launch arguments, and
  those are the kernel's, by the agreement.

  The kernel half. The kernel's run ends with its result buffer at the transpose of an array A8 of which three
  things are known, one per stage: the repacked table f1 stands in the repack relation to the transposed table
  it was computed from; the gathered lines f2 are the gather of f1 at the lines the indices name; and A8 is the
  projection of f2, under the half selector, against the transposed W. The arrays each stage was entered with
  are read off the chain of host operations (the table's transpose, the selector's five operations, W's
  transpose, none of which touches what an earlier stage wrote). With every index in [0, 99999] — which is what
  the precondition says of the indices — the three guarantees compose to: A8 transposed is the reference's term,
  entry by entry, hence as arrays.

  What the two compute stages guarantee in terms of values is taken here as two hypotheses (`HV0`, `HV1`),
  stated for whatever relations `Out0`, `Out1` the run's statement carries, and the run itself as a third
  (`hrun`); the gather's guarantee is its stated relation. The theorem is the implication from those three to
  the claim.
-/
import proofs.«218829_g6193342841233_cont_9to1_m_903_15_alg».proof.Defs
import proofs.«218829_g6193342841233_cont_9to1_m_903_15_alg».proof.Proof.Bridge
import proofs.«218829_g6193342841233_cont_9to1_m_903_15_alg».proof.Proof.PreFacts
import proofs.«218829_g6193342841233_cont_9to1_m_903_15_alg».proof.Proof.KI.Final
import proofs.«218829_g6193342841233_cont_9to1_m_903_15_alg».proof.Proof.KI.SCStep
import proofs.«218829_g6193342841233_cont_9to1_m_903_15_alg».proof.Proof.ValViews
import proofs.«218829_g6193342841233_cont_9to1_m_903_15_alg».proof.Proof.Gen.KernelIdeal
import proofs.«218829_g6193342841233_cont_9to1_m_903_15_alg».proof.Proof.Gen.ReferenceIdeal
import proofs.«218829_g6193342841233_cont_9to1_m_903_15_alg».proof.Proof.Gen.Pre_input_domain

noncomputable section

open scoped BigOperators

namespace Cert.AlgebraicProof

open Cert.KernelIdeal Cert.KernelIdeal.Gen Cert.KernelIdeal.Hand
open Idealize.ShloMosaic Idealize.ShloMosaic.TcCoe Idealize.ShloMosaic.ValueIdx Idealize.SL.Sem

/-- The reference's term of the kernel's launch arguments on device `c`: the array both results end at. -/
abbrev shared (m : (ℓ : Loc nD τ sig) → Buf (Elt Ideal) ℓ) (c : Dev nD) : FVec Ideal S1024x100000 .f32 :=
  Cert.ReferenceIdeal.RefRun.result (F := Ideal) (m ((c.tc : Thread nD τ).loc main_arg0))
    (m ((c.tc : Thread nD τ).loc main_arg1)) (m ((c.tc : Thread nD τ).loc main_arg2))

/-- THE KERNEL'S RESULT ARRAY IS THE SHARED TERM, from the three stages' guarantees at the valuations the
    stages were entered with. -/
theorem kernel_value
    (Out0 : Dev nD → Valuation τ sig (Elt Ideal) → (v1' : DevRef τ sig).ty.Contents (Elt Ideal) → Prop)
    (Out1 : Dev nD → Valuation τ sig (Elt Ideal) → (v8' : DevRef τ sig).ty.Contents (Elt Ideal) → Prop)
    (HV0 : ∀ (c : Dev nD) (W : Valuation τ sig (Elt Ideal)) (f1 : (v1' : DevRef τ sig).ty.Contents (Elt Ideal)),
      Out0 c W f1 → ∀ (l : Fin 57344) (k : Fin 64),
        asPacked f1 (ix2 l ⟨k.val, by have := k.isLt; omega⟩) = tabT W (ix2 k ⟨l.val, by have := l.isLt; omega⟩)
        ∧ ∀ hl : l.val + 57344 < 100000,
          asPacked f1 (ix2 l ⟨64 + k.val, by have := k.isLt; omega⟩) = tabT W (ix2 k ⟨l.val + 57344, hl⟩))
    (HV1 : ∀ (c : Dev nD) (W : Valuation τ sig (Elt Ideal)) (A8 : (v8' : DevRef τ sig).ty.Contents (Elt Ideal)),
      Out1 c W A8 → ∀ (v : Fin 100000) (b : Fin 1024),
        asProj A8 (ix2 v b) = ∑ d : Fin 64, wT W (ix2 d v) *
          Scalar.select (IntOp.cmpi .sgt (selOf W (ix2 b (0 : Fin 1))) 0#32)
            (linesOf W (ix2 b ⟨64 + d.val, by have := d.isLt; omega⟩))
            (linesOf W (ix2 b ⟨d.val, by have := d.isLt; omega⟩)))
    (m : (ℓ : Loc nD τ sig) → Buf (Elt Ideal) ℓ) (hpre : Cert.Pre_KernelIdeal m) (c : Dev nD)
    (f1 : (v1' : DevRef τ sig).ty.Contents (Elt Ideal)) (f2 : (v2' : DevRef τ sig).ty.Contents (Elt Ideal))
    (A8 : (v8' : DevRef τ sig).ty.Contents (Elt Ideal))
    (h0 : Out0 c ((opTab (F := Ideal)).result (W₀ m c)) f1)
    (hsc : OutSC m c (Function.update ((opTab (F := Ideal)).result (W₀ m c)) v1' f1) f2)
    (h1 : Out1 c (Wmid (W₀ m c) f1 f2) A8) :
    transpose S1024x100000 [1, 0] (A8 : (⟨S100000x1024, .f32⟩ : BufTy).Contents (Elt Ideal))
        transposes_S100000x1024_S1024x100000_1_0 = shared m c := by
  -- every index is in range: the precondition's third conjunct
  have hidx : ∀ b : Fin 1024, 0 ≤ ((m ((c.tc : Thread nD τ).loc main_arg0) : IVec S1024 32) (ix1 b)).toInt
      ∧ ((m ((c.tc : Thread nD τ).loc main_arg0) : IVec S1024 32) (ix1 b)).toInt ≤ 99999 :=
    fun b => Cert.PreFacts.idx_range (F := Ideal) _ _ _ (hpre c) (ix1 b)
  -- the repack, against the transposed table it was entered with
  have e0 : tabT ((opTab (F := Ideal)).result (W₀ m c))
      = transpose S64x100000 [1, 0] (W₀ m c (Proc.devRef .tc (main_arg1 : Ref sig .tc)) : (⟨S100000x64, .f32⟩ : BufTy).Contents (Elt Ideal))
          transposes_S100000x64_S64x100000_1_0 := tab_v0 (W₀ m c)
  have H1 := HV0 c _ f1 h0
  rw [e0] at H1
  -- the gather: the relation at every position of the output
  have hg : Gath m c f1 f2 Finset.univ := by
    have hg' := hsc
    unfold OutSC at hg'
    rwa [Function.update_self] at hg'
  -- the projection, against the selector, the transposed W and the gathered lines it was entered with
  have e7 : wT (Wmid (W₀ m c) f1 f2)
      = transpose S64x100000 [1, 0] (W₀ m c (Proc.devRef .tc (main_arg2 : Ref sig .tc)) : (⟨S100000x64, .f32⟩ : BufTy).Contents (Elt Ideal))
          transposes_S100000x64_S64x100000_1_0 := mid_v7 (W₀ m c) f1 f2
  have e6 : selOf (Wmid (W₀ m c) f1 f2)
      = Cert.Bridge.selector (W₀ m c (Proc.devRef .tc (main_arg0 : Ref sig .tc)) : (⟨S1024, .i32⟩ : BufTy).Contents (Elt Ideal))
          bcast_S_S1024 natLt_1_32 shapeCasts_S1024_S1024x1 := mid_v6 (W₀ m c) f1 f2
  have e2 : linesOf (Wmid (W₀ m c) f1 f2) = asLines f2 := mid_v2 (W₀ m c) f1 f2
  have H8 := HV1 c _ A8 h1
  rw [e7, e6, e2] at H8
  refine funext fun j => ?_
  obtain ⟨b, v, rfl⟩ : ∃ (b : Fin 1024) (v : Fin 100000), j = ix2 b v := ⟨j 0, j 1, eq_ix2 j⟩
  exact Cert.Bridge.kernel_eq_reference _ _ _ hidx f1 f2 A8 _ _ _ _ _ _ H1
    (fun i b k hb hk0 hk1 => hg i b k (Finset.mem_univ i) hb hk0 hk1) H8 b v

/-- THE ALGEBRAIC CLAIM, from the kernel's run with its stages' relations, the two compute stages' value
    readings, and the reference's run. -/
theorem algebraic
    (Out0 : Dev nD → Valuation τ sig (Elt Ideal) → (v1' : DevRef τ sig).ty.Contents (Elt Ideal) → Prop)
    (Out1 : Dev nD → Valuation τ sig (Elt Ideal) → (v8' : DevRef τ sig).ty.Contents (Elt Ideal) → Prop)
    (HV0 : ∀ (c : Dev nD) (W : Valuation τ sig (Elt Ideal)) (f1 : (v1' : DevRef τ sig).ty.Contents (Elt Ideal)),
      Out0 c W f1 → ∀ (l : Fin 57344) (k : Fin 64),
        asPacked f1 (ix2 l ⟨k.val, by have := k.isLt; omega⟩) = tabT W (ix2 k ⟨l.val, by have := l.isLt; omega⟩)
        ∧ ∀ hl : l.val + 57344 < 100000,
          asPacked f1 (ix2 l ⟨64 + k.val, by have := k.isLt; omega⟩) = tabT W (ix2 k ⟨l.val + 57344, hl⟩))
    (HV1 : ∀ (c : Dev nD) (W : Valuation τ sig (Elt Ideal)) (A8 : (v8' : DevRef τ sig).ty.Contents (Elt Ideal)),
      Out1 c W A8 → ∀ (v : Fin 100000) (b : Fin 1024),
        asProj A8 (ix2 v b) = ∑ d : Fin 64, wT W (ix2 d v) *
          Scalar.select (IntOp.cmpi .sgt (selOf W (ix2 b (0 : Fin 1))) 0#32)
            (linesOf W (ix2 b ⟨64 + d.val, by have := d.isLt; omega⟩))
            (linesOf W (ix2 b ⟨d.val, by have := d.isLt; omega⟩)))
    (hrun : ∀ (m : (ℓ : Loc nD τ sig) → Buf (Elt Ideal) ℓ) (ρ : Dev nD → PrngReg), Cert.Pre_KernelIdeal m →
      θ_run (Cert.KernelIdeal.defs (F := Ideal)) (Cert.KernelIdeal.threads (F := Ideal)) ⟨m, fun _ => 0, ρ⟩
        (fun r => ∀ c : Dev nD,
          (∃ (f1 : (v1' : DevRef τ sig).ty.Contents (Elt Ideal)) (f2 : (v2' : DevRef τ sig).ty.Contents (Elt Ideal))
              (A8 : (v8' : DevRef τ sig).ty.Contents (Elt Ideal)),
            Out0 c ((opTab (F := Ideal)).result (W₀ m c)) f1
            ∧ OutSC m c (Function.update ((opTab (F := Ideal)).result (W₀ m c)) v1' f1) f2
            ∧ Out1 c (Wmid (W₀ m c) f1 f2) A8
            ∧ r.2.mem ((c.tc : Thread nD τ).loc main_v9)
                = transpose S1024x100000 [1, 0] (A8 : (⟨S100000x1024, .f32⟩ : BufTy).Contents (Elt Ideal))
                    transposes_S100000x1024_S1024x100000_1_0)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => shared m c, ?_, ?_⟩
  · -- the kernel: its run, then the stages' guarantees composed
    refine (θ_run _ _ _).mono (fun r h c => ?_) (hrun m g hpre)
    obtain ⟨⟨f1, f2, A8, h0, hsc, h1, hres⟩, ha0, ha1, ha2⟩ := h c
    exact ⟨hres.trans (kernel_value Out0 Out1 HV0 HV1 m hpre c f1 f2 A8 h0 hsc h1), ha0, ha1, ha2⟩
  · -- the reference: its run, read at arguments that are the kernel's
    refine (θ_run _ _ _).mono (fun r h c => ?_) (Cert.ReferenceIdeal.RefRun.run (F := Ideal) m' g')
    obtain ⟨hres, ha0, ha1, ha2⟩ := h c
    obtain ⟨e0, e1, e2⟩ := hagree c
    refine ⟨hres.trans ?_, ha0, ha1, ha2⟩
    show Cert.ReferenceIdeal.RefRun.result (F := Ideal) _ _ _ = Cert.ReferenceIdeal.RefRun.result (F := Ideal) _ _ _
    rw [e0, e1, e2]

end Cert.AlgebraicProof

end
-- ==== Proof.KI.Region0Value.lean ====
/-
  What region 0 leaves in the paired table, at real-number arithmetic.

  The repack body forms, on the matrix unit, (block)ᵀ · I for each of its two input blocks, I the 64 × 64 identity
  built from two iotas, a comparison, a widening and an integer-to-float conversion. Over the extended reals x · 1 = x
  and x · 0 = 0 for EVERY x, infinities included, so each product is the block transposed, entry by entry, with no
  finiteness needed. Row block t of the paired table is written once, at point t, from window 0's buffer (column
  block t of the transposed table, whole) and window 1's (column block t + 7 where the table has those columns: all
  of blocks 7‥11 and the first 1696 columns of block 12). Hence after the seven write-backs: row l < 57344 of the
  paired table holds column l of the transposed table in entries 0‥63, and column l + 57344 in entries 64‥127
  whenever l + 57344 < 100000.
-/
import proofs.«218829_g6193342841233_cont_9to1_m_903_15_alg».proof.Proof.KI.Region0
import Idealize.ShloMosaic.Lib.ValueIdx
import Idealize.ShloMosaic.PureOps.Ideal.Laws
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.ValueIdx
open Idealize.ShloMosaic.SparseCore.Cfg (HIx)
open Idealize.SL Idealize.SL.Sem
open scoped BigOperators

/-! ## The two products at real-number arithmetic -/

/-- A sum of products against the indicator of one index picks out that index's term: every other term is
    `x r * 0 = 0` and the term at `c` is `x c * 1` (over the extended reals, with no finiteness needed). -/
private theorem sum_mul_ind (c : Fin 64) (x : Fin 64 → EReal) : ∑ r, x r * (if r = c then (1 : EReal) else 0) = x c := by
  rw [Finset.sum_eq_single c]
  · rw [if_pos rfl, mul_one]
  · intro b _ hb; rw [if_neg hb, mul_zero]
  · intro hc; exact absurd (Finset.mem_univ c) hc

/-- A one-bit word widened to 32 bits reads 1 or 0 as a signed integer. -/
private theorem toInt_bit (b : BitVec 1) : (b.setWidth 32).toInt = if b = 1#1 then 1 else 0 := by
  revert b; decide

/-- The matrix both products multiply by is the 64 × 64 identity: entry (k, c) is the converted bit of "row number =
    column number". -/
theorem r0_pay1_apply (k cc : Fin 64) : k0_pay1 (F := Ideal) (ix2 k cc) = if k = cc then (1 : EReal) else 0 := by
  unfold k0_pay1
  show (((((cmpi .eq (iota .tc S64x64 32 [0] _) (iota .tc S64x64 32 [1] _)) (ix2 k cc)).setWidth 32).toInt : ℝ) : EReal) = _
  rw [toInt_bit]
  have e0 : iota .tc S64x64 32 [0] iota_S64x64_d0_w32 (ix2 k cc) = BitVec.ofNat 32 k.val := iota_single_apply _ _ _ _ _ _
  have e1 : iota .tc S64x64 32 [1] iota_S64x64_d1_w32 (ix2 k cc) = BitVec.ofNat 32 cc.val := iota_single_apply _ _ _ _ _ _
  simp only [cmpi, IntOp.cmpi_eq, e0, e1]
  have hk : (BitVec.ofNat 32 k.val = BitVec.ofNat 32 cc.val) ↔ k = cc := by
    constructor
    · intro h
      have := congrArg BitVec.toNat h
      simp only [BitVec.toNat_ofNat] at this
      have hk := k.isLt; have hc := cc.isLt
      exact Fin.ext (by omega)
    · rintro rfl; rfl
  by_cases h : k = cc
  · subst h; simp
  · have : ¬ (BitVec.ofNat 32 k.val = BitVec.ofNat 32 cc.val) := fun e => h (hk.mp e)
    simp [this, h]

/-- The contraction of both products runs over the one 64-long axis. -/
private abbrev dd := dot_S64x8192_S64x64_S8192x64_0_0_1_1_n_n

/-- A block times the identity, transposed: entry (l, c) of the product is entry (c, l) of the block — the sum over the
    contraction index k of block (k, l) · [k = c]. -/
theorem prodT_apply (v : S64x8192.Idx → EReal) (l : Fin 8192) (cc : Fin 64) :
    FloatOps.matmul (F := Ideal) dd none (φ₁ := .f32) (φ₂ := .f32) v (k0_pay1 (F := Ideal)) (constant S8192x64 .f32 0x00000000#32) (ix2 l cc)
      = v (ix2 cc l) := by
  rw [Ideal.matmul_constant_zero_apply]
  rw [← (contrEquiv1 dd 64 rfl rfl).symm.sum_comp]
  have hL : ∀ i : Fin 64, dd.lhsIdx (ix2 l cc) ((contrEquiv1 dd 64 rfl rfl).symm i) = ix2 i l := fun i => by
    funext a
    match a with
    | ⟨0, _⟩ => exact Fin.ext ((dd.lhsIdx_val_of_single (cl := 0) rfl _ _).trans (contrEquiv1_symm_val dd 64 rfl rfl i))
    | ⟨1, _⟩ => rfl
  have hR : ∀ i : Fin 64, dd.rhsIdx (ix2 l cc) ((contrEquiv1 dd 64 rfl rfl).symm i) = ix2 i cc := fun i => by
    funext a
    match a with
    | ⟨0, _⟩ => exact Fin.ext ((dd.rhsIdx_val_of_single (cr := 0) rfl _ _).trans (contrEquiv1_symm_val dd 64 rfl rfl i))
    | ⟨1, _⟩ => rfl
  simp only [hL, hR, r0_pay1_apply]
  exact sum_mul_ind cc fun i => v (ix2 i l)

/-- The first product, entry by entry: the block transposed. -/
theorem r0_pay2_apply (v : S64x8192.Idx → EReal) (l : Fin 8192) (cc : Fin 64) :
    k0_pay2 (F := Ideal) v (ix2 l cc) = v (ix2 cc l) := by
  unfold k0_pay2
  rw [shapeCast_self]
  exact prodT_apply v l cc
/-- The second product likewise. -/
theorem r0_pay3_apply (v : S64x8192.Idx → EReal) (l : Fin 8192) (cc : Fin 64) :
    k0_pay3 (F := Ideal) v (ix2 l cc) = v (ix2 cc l) := by
  unfold k0_pay3
  rw [shapeCast_self]
  exact prodT_apply v l cc

/-! ## The output block, entry by entry -/

/-- The two rectangles the body stores into: columns 0‥63 and columns 64‥127 of the block. -/
private abbrev R0 : Rect S8192x128 := Rect.unit (s := S8192x128) ![0, 0] S8192x64.size inb_S8192x128_S8192x64_0_0
private abbrev R64 : Rect S8192x128 := Rect.unit (s := S8192x128) ![0, 64] S8192x64.size inb_S8192x128_S8192x64_0_64

private theorem R0_emb (l : Fin 8192) (cc : Fin 64) : R0.emb (ix2 l cc) = ix2 l (⟨cc.val, by omega⟩ : Fin 128) := by
  funext a
  match a with
  | ⟨0, _⟩ => exact Fin.ext (by rw [Rect.emb_apply]; show 0 + 1 * l.val = l.val; omega)
  | ⟨1, _⟩ => exact Fin.ext (by rw [Rect.emb_apply]; show 0 + 1 * cc.val = cc.val; omega)
private theorem R64_emb (l : Fin 8192) (cc : Fin 64) : R64.emb (ix2 l cc) = ix2 l (⟨64 + cc.val, by omega⟩ : Fin 128) := by
  funext a
  match a with
  | ⟨0, _⟩ => exact Fin.ext (by rw [Rect.emb_apply]; show 0 + 1 * l.val = l.val; omega)
  | ⟨1, _⟩ => exact Fin.ext (by rw [Rect.emb_apply]; show 64 + 1 * cc.val = 64 + cc.val; omega)
private theorem rIn_idx (cc : Fin 64) (l : Fin 8192) : rIn.toLoadRect.idx (ix2 cc l) = ix2 cc l := by
  funext a
  match a with
  | ⟨0, _⟩ => exact Fin.ext (by rw [LoadRect.idx_apply]; show 0 + 1 * cc.val = cc.val; omega)
  | ⟨1, _⟩ => exact Fin.ext (by rw [LoadRect.idx_apply]; show 0 + 1 * l.val = l.val; omega)

/-- Row l of the output block holds, in its first 64 entries, column l of window 0's block; -/
theorem out2_lo (lo hi : S64x8192.Idx → EReal) (l : Fin 8192) (cc : Fin 64) :
    out2 (F := Ideal) lo hi (ix2 l (⟨cc.val, by omega⟩ : Fin 128)) = lo (ix2 cc l) := by
  unfold out2
  rw [View.canon_cons_of_not_mem _ _ (by
    rw [Rect.mem_set_unit]; intro h
    have h1 := (h ⟨1, by decide⟩).1
    exact absurd h1 (by show ¬ (64 ≤ cc.val); omega))]
  rw [← R0_emb l cc, View.canon_cons_emb, r0_pay2_apply]
  exact congrArg lo (rIn_idx cc l)
/-- in its last 64 entries, column l of window 1's block. -/
theorem out2_hi (lo hi : S64x8192.Idx → EReal) (l : Fin 8192) (cc : Fin 64) :
    out2 (F := Ideal) lo hi (ix2 l (⟨64 + cc.val, by omega⟩ : Fin 128)) = hi (ix2 cc l) := by
  unfold out2
  rw [← R64_emb l cc, View.canon_cons_emb, r0_pay3_apply]
  exact congrArg hi (rIn_idx cc l)

/-! ## The schedule in closed form -/

/-- The block index of each window at point `t`: window 0 reads column block t, window 1 column block min (t + 7, 12),
    the output window writes row block t. -/
theorem index0_eq : ∀ t : Fin cfg0.N, (cfg0.win 0).index t = ![0, t.val] :=
  (by decide +kernel : ∀ t : Fin grid0.N, win0_0.index t = ![0, t.val])
theorem index1_eq : ∀ t : Fin cfg0.N, (cfg0.win 1).index t = ![0, if t.val ≤ 4 then t.val + 7 else 12] :=
  (by decide +kernel : ∀ t : Fin grid0.N, win0_1.index t = ![0, if t.val ≤ 4 then t.val + 7 else 12])
theorem index2_eq : ∀ t : Fin cfg0.N, (cfg0.win 2).index t = ![t.val, 0] :=
  (by decide +kernel : ∀ t : Fin grid0.N, win0_2.index t = ![t.val, 0])

/-- What each fetch moves: window 0's blocks lie inside the table, so all 64 × 8192 entries; window 1's do up to
    column block 11, and of column block 12 only the first 1696 columns (100000 = 12·8192 + 1696). -/
theorem xsize0_eq : ∀ t : Fin cfg0.N, (cfg0.win 0).xsize (cfg0.grid.coords t) = ![64, 8192] :=
  (by decide +kernel : ∀ t : Fin grid0.N, win0_0.xsize (grid0.coords t) = ![64, 8192])
theorem xsize1_eq : ∀ t : Fin cfg0.N, (cfg0.win 1).xsize (cfg0.grid.coords t) = ![64, if t.val ≤ 4 then 8192 else 1696] :=
  (by decide +kernel : ∀ t : Fin grid0.N, win0_1.xsize (grid0.coords t) = ![64, if t.val ≤ 4 then 8192 else 1696])
theorem xsize2_eq : ∀ t : Fin cfg0.N, (cfg0.win 2).xsize (cfg0.grid.coords t) = ![8192, 128] :=
  (by decide +kernel : ∀ t : Fin grid0.N, win0_2.xsize (grid0.coords t) = ![8192, 128])

/-! ## What a fetch leaves in an input buffer, entry by entry -/

variable (O : Dev nD → CellTallies nD τ sig (HIx 1)) (Rc : Dev nD → Set (SemLoc sig × HIx 1))
variable (V : (c : Dev nD) → (b : Ref sig .tc) → Buf (Elt Ideal) ((c : Thread nD τ).loc b))

/-- The grid has seven points. -/
theorem t_lt7 (t : Fin cfg0.N) : t.val < 7 := by
  have h : t.val < grid0.N := t.isLt
  rw [N_0] at h; exact h

/-- Window 0's buffer after its fetch at point `t` holds column block t of the transposed table, all of it. -/
theorem fet0_apply (c : Dev nD) (t : Fin cfg0.N) (d : S64x8192.Idx → EReal) (cc : Fin 64) (l : Fin 8192) :
    fet0 (F := Ideal) V c t d (ix2 cc l)
      = V c main_v0 (ix2 cc (⟨8192 * t.val + l.val, by have := t_lt7 t; omega⟩ : Fin 100000)) := by
  have hx := xsize0_eq t
  have hi := index0_eq t
  have hlt : ∀ a, ((ix2 cc l : S64x8192.Idx) a).val < win0_0.xsize (grid0.coords t) a := fun a => by
    rw [show win0_0.xsize (grid0.coords t) = ![64, 8192] from hx]
    match a with
    | ⟨0, _⟩ => exact cc.isLt
    | ⟨1, _⟩ => exact l.isLt
  let j : (win0_0.xblock (grid0.coords t)).Idx := fun a => ⟨((ix2 cc l : S64x8192.Idx) a).val, hlt a⟩
  have hj : (ix2 cc l : S64x8192.Idx) = win0_0.xinj (grid0.coords t) j := funext fun a => Fin.ext rfl
  unfold fet0
  rw [hj, win0_0.fill_xinj]
  show V c main_v0 ((win0_0.rect t).emb j) = _
  congr 1
  funext a
  apply Fin.ext
  rw [Rect.emb_apply]
  show win0_0.index t a * S64x8192.size a + 1 * (j a).val = _
  rw [show win0_0.index t = ![0, t.val] from hi]
  match a with
  | ⟨0, _⟩ => show 0 * 64 + 1 * cc.val = cc.val; omega
  | ⟨1, _⟩ => show t.val * 8192 + 1 * l.val = 8192 * t.val + l.val; omega

/-- The column block window 1 reads at point `t`: t + 7 up to point 4, then block 12 twice. -/
def hiBlk (t : Fin cfg0.N) : Nat := if t.val ≤ 4 then t.val + 7 else 12

/-- Window 1's buffer after its fetch holds that column block of the transposed table on the columns inside the
    table (all of them up to block 11; the first 1696 of block 12); nothing is said of the others. -/
theorem fet1_apply (c : Dev nD) (t : Fin cfg0.N) (d : S64x8192.Idx → EReal) (cc : Fin 64) (l : Fin 8192)
    (hl : 8192 * hiBlk t + l.val < 100000) :
    fet1 (F := Ideal) V c t d (ix2 cc l) = V c main_v0 (ix2 cc (⟨8192 * hiBlk t + l.val, hl⟩ : Fin 100000)) := by
  have hx := xsize1_eq t
  have hi := index1_eq t
  have ht := t_lt7 t
  have hlt : ∀ a, ((ix2 cc l : S64x8192.Idx) a).val < win0_1.xsize (grid0.coords t) a := fun a => by
    rw [show win0_1.xsize (grid0.coords t) = ![64, if t.val ≤ 4 then 8192 else 1696] from hx]
    match a with
    | ⟨0, _⟩ => exact cc.isLt
    | ⟨1, _⟩ =>
      show l.val < if t.val ≤ 4 then 8192 else 1696
      unfold hiBlk at hl
      split
      · exact l.isLt
      · rename_i h; rw [if_neg h] at hl; omega
  let j : (win0_1.xblock (grid0.coords t)).Idx := fun a => ⟨((ix2 cc l : S64x8192.Idx) a).val, hlt a⟩
  have hj : (ix2 cc l : S64x8192.Idx) = win0_1.xinj (grid0.coords t) j := funext fun a => Fin.ext rfl
  unfold fet1
  rw [hj, win0_1.fill_xinj]
  show V c main_v0 ((win0_1.rect t).emb j) = _
  congr 1
  funext a
  apply Fin.ext
  rw [Rect.emb_apply]
  show win0_1.index t a * S64x8192.size a + 1 * (j a).val = _
  rw [show win0_1.index t = ![0, if t.val ≤ 4 then t.val + 7 else 12] from hi]
  match a with
  | ⟨0, _⟩ => show 0 * 64 + 1 * cc.val = cc.val; omega
  | ⟨1, _⟩ => show (if t.val ≤ 4 then t.val + 7 else 12) * 8192 + 1 * l.val = 8192 * hiBlk t + l.val; unfold hiBlk; omega

/-! ## The write-backs -/

/-- A write-back of the output's buffer at point `u` leaves the rows below row block `u` alone; -/
theorem wr_below (c : Dev nD) (u : Fin cfg0.N) (G : Buf (Elt Ideal) ((c : Thread nD τ).loc main_v1)) (X : S8192x128.Idx → EReal)
    (r : Fin 57344) (hr : r.val < 8192 * u.val) (col : Fin 128) :
    ((cfg0.win 2).blk u).view.write (Elt Ideal) G ((cfg0.win 2).cut (cfg0.grid.coords u) X) Finset.univ (ix2 r col) = G (ix2 r col) := by
  have hi := index2_eq u
  have hy : (ix2 r col : S57344x128.Idx) ∉ Finset.univ.map ((cfg0.win 2).rect u).emb := by
    rw [Rect.map_emb_univ, Rect.mem_set_unit]
    intro h
    have h0 := (h ⟨0, by decide⟩).1
    have e : (cfg0.win 2).index u ⟨0, by decide⟩ * (cfg0.win 2).size ⟨0, by decide⟩ = u.val * 8192 := by
      rw [hi]; rfl
    rw [e] at h0
    exact absurd h0 (by show ¬ (u.val * 8192 ≤ r.val); omega)
  have L := View.read_slice_write_of_not_mem (Val := Elt Ideal) (v := View.whole (main_v1 : Ref sig .tc)) ((cfg0.win 2).rect u) G
    ((cfg0.win 2).cut (cfg0.grid.coords u) X) Finset.univ hy
  simp only [View.read_whole] at L
  exact L

/-- and puts the buffer's row l at row 8192·u + l. -/
theorem wr_emb (c : Dev nD) (u : Fin cfg0.N) (G : Buf (Elt Ideal) ((c : Thread nD τ).loc main_v1)) (X : S8192x128.Idx → EReal)
    (l : Fin 8192) (col : Fin 128) :
    ((cfg0.win 2).blk u).view.write (Elt Ideal) G ((cfg0.win 2).cut (cfg0.grid.coords u) X) Finset.univ
        (ix2 (⟨8192 * u.val + l.val, by have := t_lt7 u; omega⟩ : Fin 57344) col) = X (ix2 l col) := by
  have hi := index2_eq u
  have hx := xsize2_eq u
  have hlt : ∀ a, ((ix2 l col : S8192x128.Idx) a).val < (cfg0.win 2).xsize (cfg0.grid.coords u) a := fun a => by
    rw [hx]
    match a with
    | ⟨0, _⟩ => exact l.isLt
    | ⟨1, _⟩ => exact col.isLt
  let x : ((cfg0.win 2).xblock (cfg0.grid.coords u)).Idx := fun a => ⟨((ix2 l col : S8192x128.Idx) a).val, hlt a⟩
  have hx' : (cfg0.win 2).xinj (cfg0.grid.coords u) x = (ix2 l col : S8192x128.Idx) := funext fun a => Fin.ext rfl
  have he : ((cfg0.win 2).rect u).emb x = (ix2 (⟨8192 * u.val + l.val, by have := t_lt7 u; omega⟩ : Fin 57344) col : S57344x128.Idx) := by
    funext a
    apply Fin.ext
    rw [Rect.emb_apply]
    show (cfg0.win 2).index u a * S8192x128.size a + 1 * (x a).val = _
    rw [hi]
    match a with
    | ⟨0, _⟩ => show u.val * 8192 + 1 * l.val = 8192 * u.val + l.val; omega
    | ⟨1, _⟩ => show 0 * 128 + 1 * col.val = col.val; omega
  have L := View.read_slice_write_emb (Val := Elt Ideal) (v := View.whole (main_v1 : Ref sig .tc)) ((cfg0.win 2).rect u) G
    ((cfg0.win 2).cut (cfg0.grid.coords u) X) (Finset.mem_univ x)
  simp only [View.read_whole] at L
  rw [← he, ← hx']
  exact L

/-- The same, the row named by its number. -/
theorem wr_row (c : Dev nD) (u : Fin cfg0.N) (G : Buf (Elt Ideal) ((c : Thread nD τ).loc main_v1)) (X : S8192x128.Idx → EReal)
    (r : Fin 57344) (l : Fin 8192) (hrl : r.val = 8192 * u.val + l.val) (col : Fin 128) :
    ((cfg0.win 2).blk u).view.write (Elt Ideal) G ((cfg0.win 2).cut (cfg0.grid.coords u) X) Finset.univ (ix2 r col) = X (ix2 l col) := by
  have e : r = (⟨8192 * u.val + l.val, by have := t_lt7 u; omega⟩ : Fin 57344) := Fin.ext hrl
  rw [e]
  exact wr_emb c u G X l col

/-! ## The paired table after the region -/

/-- What the body may leave in the output's buffer at point `u`: the pair of products of two fetched buffers. -/
theorem leaves2 (c : Dev nD) (u : Fin cfg0.N) (X : S8192x128.Idx → EReal) (h : (rdat0 O Rc V c).Leaves 2 u X) :
    ∃ d0 d1, X = out2 (fet0 V c u d0) (fet1 V c u d1) := by
  obtain ⟨Y, -, hA⟩ := h
  exact hA

/-- One more write-back: the contents before it, row block `u` overwritten by what the body may have left. -/
theorem arrAt2_succ (c : Dev nD) (u : Fin cfg0.N) (A : Buf (Elt Ideal) ((c : Thread nD τ).loc main_v1))
    (h : (rdat0 O Rc V c).ArrAt 2 (u.val + 1) A) :
    ∃ G X, (rdat0 O Rc V c).ArrAt 2 u.val G ∧ (rdat0 O Rc V c).Leaves 2 u X
      ∧ A = ((cfg0.win 2).blk u).view.write (Elt Ideal) G ((cfg0.win 2).cut (cfg0.grid.coords u) X) Finset.univ := by
  unfold Pipeline.RDat.ArrAt at h
  simp only [u.isLt, ↓reduceDIte] at h
  rw [if_pos (flush0_2 u)] at h
  exact h

/-- Row `r` of the paired table is right: its first 64 entries are column r of the transposed table, and its last 64
    column r + 57344 when the table has that column. -/
def RowOK (c : Dev nD) (A : Buf (Elt Ideal) ((c : Thread nD τ).loc main_v1)) (r : Fin 57344) : Prop :=
  ∀ k : Fin 64, A (ix2 r (⟨k.val, by omega⟩ : Fin 128)) = V c main_v0 (ix2 k (⟨r.val, by omega⟩ : Fin 100000))
    ∧ ∀ hl : r.val + 57344 < 100000, A (ix2 r (⟨64 + k.val, by omega⟩ : Fin 128)) = V c main_v0 (ix2 k (⟨r.val + 57344, hl⟩ : Fin 100000))

/-- After the write-backs of the points below `n`, the rows of the first `n` row blocks are right. -/
theorem rows_of_arrAt (c : Dev nD) : ∀ (n : Nat), n ≤ 7 → ∀ A, (rdat0 O Rc V c).ArrAt 2 n A → ∀ r : Fin 57344, r.val < 8192 * n → RowOK V c A r
  | 0, _, _, _, r, hr => absurd hr (by omega)
  | n + 1, hn, A, h, r, hr => by
    let u : Fin cfg0.N := ⟨n, by rw [show cfg0.N = 7 from N_0]; omega⟩
    obtain ⟨G, X, hG, hX, rfl⟩ := arrAt2_succ O Rc V c u A h
    obtain ⟨d0, d1, rfl⟩ := leaves2 O Rc V c u X hX
    by_cases hlt : r.val < 8192 * n
    · have ih := rows_of_arrAt c n (by omega) G hG r hlt
      intro k
      refine ⟨?_, fun hl => ?_⟩
      · rw [wr_below c u G _ r hlt]; exact (ih k).1
      · rw [wr_below c u G _ r hlt]; exact (ih k).2 hl
    · have hl8 : r.val - 8192 * n < 8192 := by omega
      let l : Fin 8192 := ⟨r.val - 8192 * n, hl8⟩
      have hrl : r.val = 8192 * u.val + l.val := by show r.val = 8192 * n + (r.val - 8192 * n); omega
      intro k
      refine ⟨?_, fun hl => ?_⟩
      · rw [wr_row c u G _ r l hrl, out2_lo, fet0_apply]
        congr 2
        exact Fin.ext hrl.symm
      · have hb : hiBlk u = n + 7 := by unfold hiBlk; show (if n ≤ 4 then n + 7 else 12) = n + 7; split <;> omega
        have hl' : 8192 * hiBlk u + l.val < 100000 := by rw [hb]; show 8192 * (n + 7) + (r.val - 8192 * n) < 100000; omega
        rw [wr_row c u G _ r l hrl, out2_hi, fet1_apply V c u d1 k l hl']
        congr 2
        exact Fin.ext (by show 8192 * hiBlk u + (r.val - 8192 * n) = r.val + 57344; rw [hb]; omega)

/-- THE PAIRED TABLE after region 0: whatever the seven write-backs may have left, every row l < 57344 holds column l
    of the transposed table in its first 64 entries, and column l + 57344 in its last 64 wherever the table has that
    column. (Rows whose partner column lies past the table's end hold, in their last 64 entries, words nothing names:
    no index reaches them.) -/
theorem pairs_of_out0 (c : Dev nD) (A : Buf (Elt Ideal) ((c : Thread nD τ).loc main_v1))
    (h : (rdat0 O Rc V c).ArrAt 2 cfg0.N A) (l : Fin 57344) (k : Fin 64) :
    A (ix2 l (⟨k.val, by omega⟩ : Fin 128)) = V c main_v0 (ix2 k (⟨l.val, by omega⟩ : Fin 100000))
      ∧ ∀ hl : l.val + 57344 < 100000, A (ix2 l (⟨64 + k.val, by omega⟩ : Fin 128)) = V c main_v0 (ix2 k (⟨l.val + 57344, hl⟩ : Fin 100000)) :=
  rows_of_arrAt O Rc V c 7 le_rfl A (by rw [show cfg0.N = 7 from N_0] at h; exact h) l (by have := l.isLt; omega) k

end Cert.KernelIdeal.Hand

end
-- ==== Proof.KI.Region1Arr.lean ====
import proofs.«218829_g6193342841233_cont_9to1_m_903_15_alg».proof.Proof.KI.Region1Data
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Cfg Window)

/-! ## What a written-back array holds, element by element

An array the pipeline writes back block by block holds, at every element some write-back covered, an element some
body left in the staging buffer at a point whose block covers it: the last such point's. So a property that every
element the body may leave at a point has — stated with the element's place in the array — is a property of every
covered element of every array the proof data allow after the write-backs. Nothing is asked of the blocks'
overlaps, and nothing of the staging contents outside the part a write-back moves. -/

theorem arrAt_forall {Val : EltTy → Type} {Ix : Type} [DecidableEq Ix] {Name : Type} [DecidableEq Name] {U : Type} [URA U]
    {Lvl : Type} {cfg : Cfg sig Λ₀} {c : Dev nD} (rd : RDat τ Val Ix Name U Lvl cfg c) (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (G : Buf Val ((cfg.win w).arr.view.loc (c.tc : Thread nD τ))), rd.ArrAt w n G →
      ∀ (t : Fin cfg.N) (i : ((cfg.win w).arr.view.loc (c.tc : Thread nD τ)).2.ty.Idx),
        t.val < n → (cfg.win w).flush t = true → i ∈ ((cfg.win w).blk t).view.set → P i (G i)
  | 0, _, _, _, _, ht, _, _ => absurd ht (Nat.not_lt_zero _)
  | n + 1, G, hG, t, i, ht, hf, hi => by
    simp only [RDat.ArrAt] at hG
    by_cases hn : n < cfg.N
    · rw [dif_pos hn] at hG
      by_cases hfn : (cfg.win w).flush ⟨n, hn⟩ = true
      · -- the write-back of point `n`: under its block the element is one the body left there; elsewhere the array
        -- is as before, and the covering point is an earlier one
        rw [if_pos hfn] at hG
        obtain ⟨G₀, X, hG₀, hX, rfl⟩ := hG
        by_cases hin : i ∈ ((cfg.win w).blk ⟨n, hn⟩).view.set
        · obtain ⟨y, rfl⟩ := View.exists_emb_of_mem_set _ hin
          rw [View.write_emb_of_mem _ _ (Finset.mem_univ y)]
          exact hP ⟨n, hn⟩ hfn X hX y
        · rw [View.write_of_not_mem _ _ _ (by rw [View.setOn_univ]; exact hin)]
          have htn : t.val < n := by
            rcases Nat.lt_succ_iff_lt_or_eq.mp ht with h | h
            · exact h
            · exact absurd (by rw [show (⟨n, hn⟩ : Fin cfg.N) = t from Fin.ext h.symm]; exact hi) hin
          exact arrAt_forall rd w P hP n G₀ hG₀ t i htn hf hi
      · rw [if_neg hfn] at hG
        have htn : t.val < n := by
          rcases Nat.lt_succ_iff_lt_or_eq.mp ht with h | h
          · exact h
          · exact absurd (by rw [show (⟨n, hn⟩ : Fin cfg.N) = t from Fin.ext h.symm]; exact hf) hfn
        exact arrAt_forall rd w P hP n G hG t i htn hf hi
    · rw [dif_neg hn] at hG
      exact arrAt_forall rd w P hP n G hG t i (by have := t.isLt; omega) hf hi

end Cert.KernelIdeal.Hand

end
-- ==== Proof.KI.Region1Value.lean ====
import proofs.«218829_g6193342841233_cont_9to1_m_903_15_alg».proof.Proof.KI.Region1Arr
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.RA
open Idealize.ShloMosaic.Pipeline (RDat Cfg Window)

/-! ## The product at an element, at the ideal values

At the ideal values the matrix unit's product has no rounding and no order of summation: the element at row `r` and
column `b` of the body's payload is the sum over the 64 contracted positions `d` of the transposed weights' element
`(d, r)` times the selected half of pair `b` at `d` — the upper half where the selector word is positive. It reads
column `r` of the weights' block and no other: what the block's buffer holds past the array's end does not reach a
row inside the array. -/

theorem k2_pay1_apply (v0 : Vec Ideal S1024x128 .f32) (v2 : Vec Ideal S1024x1 .i32) (v11 : Vec Ideal S64x4096 .f32)
    (r : Fin 4096) (b : Fin 1024) :
    k2_pay1 v0 v2 v11 (ix2 r b) = ∑ d : Fin 64, v11 (ix2 d r)
      * Scalar.select (IntOp.cmpi .sgt (v2 (ix2 b (0 : Fin 1))) 0#32)
          (v0 (ix2 b (⟨64 + d.val, by have := d.isLt; omega⟩ : Fin 128)))
          (v0 (ix2 b (⟨d.val, by have := d.isLt; omega⟩ : Fin 128))) := by
  unfold k2_pay1
  simp only [shapeCast_self, matmul]
  rw [Ideal.matmul_constant_zero_apply]
  rw [← Equiv.sum_comp (contrEquiv1 dot_S64x4096_S1024x64_S4096x1024_0_1_1_0_n_n 64 rfl rfl).symm]
  refine Finset.sum_congr rfl fun d _ => ?_
  congr 1
  · -- the left operand at (contracted position, row)
    refine congrArg v11 (funext fun a => ?_)
    match a with
    | ⟨0, _⟩ =>
      exact Fin.ext ((DotDims.lhsIdx_val_of_single _ (cl := (0 : Fin 2)) rfl _ _).trans
        (contrEquiv1_symm_val dot_S64x4096_S1024x64_S4096x1024_0_1_1_0_n_n 64 rfl rfl d))
    | ⟨1, _⟩ => rfl
  · -- the right operand at (column, contracted position): the select of the two half-rows
    have hi : dot_S64x4096_S1024x64_S4096x1024_0_1_1_0_n_n.rhsIdx (ix2 r b)
        ((contrEquiv1 dot_S64x4096_S1024x64_S4096x1024_0_1_1_0_n_n 64 rfl rfl).symm d) = ix2 b d := by
      funext a
      match a with
      | ⟨0, _⟩ => rfl
      | ⟨1, _⟩ =>
        exact Fin.ext ((DotDims.rhsIdx_val_of_single _ (cr := (1 : Fin 2)) rfl _ _).trans
          (contrEquiv1_symm_val dot_S64x4096_S1024x64_S4096x1024_0_1_1_0_n_n 64 rfl rfl d))
    rw [hi, select_apply]
    congr 1
    · rw [broadcastTo_apply _ _ (ix2 b d) (ix2 b (0 : Fin 1)) (fun a => by match a with | ⟨0, _⟩ => rfl | ⟨1, _⟩ => rfl)]
      rfl
    · exact extractStridedSlice_apply _ _ _ (ix2 b d) (ix2 b (⟨64 + d.val, by have := d.isLt; omega⟩ : Fin 128))
        (fun a => by match a with | ⟨0, _⟩ => exact (Nat.zero_add _).symm | ⟨1, _⟩ => rfl)
    · exact extractStridedSlice_apply _ _ _ (ix2 b d) (ix2 b (⟨d.val, by have := d.isLt; omega⟩ : Fin 128))
        (fun a => by match a with | ⟨0, _⟩ => exact (Nat.zero_add _).symm | ⟨1, _⟩ => exact (Nat.zero_add _).symm)

/-! ## The blocks' places, decided over the grid

Point `t` of the 25 handles the block of 4096 result rows (weight columns) from `4096 t`: the whole of it below the
last point, its first 1696 rows there. The other two operands are whole at every point. -/

theorem r1_idx0 : ∀ (t : Fin grid2.N) a, win2_0.index t a = 0 := by decide +kernel
theorem r1_idx1 : ∀ (t : Fin grid2.N) a, win2_1.index t a = 0 := by decide +kernel
theorem r1_idx2 : ∀ t : Fin grid2.N, win2_2.index t 0 = 0 ∧ win2_2.index t 1 = t.val := by decide +kernel
theorem r1_idx3 : ∀ t : Fin grid2.N, win2_3.index t 0 = t.val ∧ win2_3.index t 1 = 0 := by decide +kernel
theorem r1_xs3 : ∀ t : Fin grid2.N, t.val * 4096 + win2_3.xsize (grid2.coords t) 0 = min (t.val * 4096 + 4096) 100000
    ∧ win2_3.xsize (grid2.coords t) 1 = 1024 := by decide +kernel
theorem r1_xs2 : ∀ t : Fin grid2.N, win2_2.xsize (grid2.coords t) 0 = 64
    ∧ win2_2.xsize (grid2.coords t) 1 = win2_3.xsize (grid2.coords t) 0 := by decide +kernel

/-! ## The fetched buffers at an element -/

section Fetched

variable {F : FTy → Type} [FloatOps F] (c : Dev nD) (V : (b : Ref sig .tc) → Buf (Elt F) ((c.tc : Thread nD τ).loc b))

/-- The pairs' buffer holds the pairs, whatever it held before the fetch: the block is the whole array. -/
theorem r1_fetP0_apply (t : Fin cfg2.N) (d : S1024x128.Idx → Elt F .f32) (b : Fin 1024) (k : Fin 128) :
    fetP0 c V t d (ix2 b k) = V main_v2 (ix2 b k) := by
  have hm : win2_0.moved (grid2.coords t) (ix2 b k) = true :=
    (win2_0.moved_iff _ _).mpr fun a => by match a with | ⟨0, _⟩ => exact b.isLt | ⟨1, _⟩ => exact k.isLt
  unfold fetP0 Window.fill
  rw [dif_pos hm, View.read_apply]
  show V main_v2 _ = V main_v2 _
  refine congrArg (V main_v2) (funext fun a => Fin.ext ?_)
  show ((win2_0.rect t).emb _ a).val = _
  rw [Window.rect_emb_val, r1_idx0 t a, Nat.zero_mul, Nat.zero_add]

/-- The selectors' likewise. -/
theorem r1_fetP1_apply (t : Fin cfg2.N) (d : S1024x1.Idx → Elt F .i32) (b : Fin 1024) (k : Fin 1) :
    fetP1 c V t d (ix2 b k) = V main_v6 (ix2 b k) := by
  have hm : win2_1.moved (grid2.coords t) (ix2 b k) = true :=
    (win2_1.moved_iff _ _).mpr fun a => by match a with | ⟨0, _⟩ => exact b.isLt | ⟨1, _⟩ => exact k.isLt
  unfold fetP1 Window.fill
  rw [dif_pos hm, View.read_apply]
  show V main_v6 _ = V main_v6 _
  refine congrArg (V main_v6) (funext fun a => Fin.ext ?_)
  show ((win2_1.rect t).emb _ a).val = _
  rw [Window.rect_emb_val, r1_idx1 t a, Nat.zero_mul, Nat.zero_add]

/-- The transposed weights' buffer at a column inside the array holds the array's column `4096 t + r`, whatever it
    held before the fetch. -/
theorem r1_fetP2_apply (t : Fin cfg2.N) (d : S64x4096.Idx → Elt F .f32) (k : Fin 64) (r : Fin 4096)
    (hr : r.val < win2_3.xsize (grid2.coords t) 0) (v : Fin 100000) (hv : v.val = t.val * 4096 + r.val) :
    fetP2 c V t d (ix2 k r) = V main_v7 (ix2 k v) := by
  have hm : win2_2.moved (grid2.coords t) (ix2 k r) = true :=
    (win2_2.moved_iff _ _).mpr fun a => by
      match a with
      | ⟨0, _⟩ => rw [show win2_2.xsize (grid2.coords t) ⟨0, _⟩ = 64 from (r1_xs2 t).1]; exact k.isLt
      | ⟨1, _⟩ => rw [show win2_2.xsize (grid2.coords t) ⟨1, _⟩ = _ from (r1_xs2 t).2]; exact hr
  unfold fetP2 Window.fill
  rw [dif_pos hm, View.read_apply]
  show V main_v7 _ = V main_v7 _
  refine congrArg (V main_v7) (funext fun a => Fin.ext ?_)
  show ((win2_2.rect t).emb _ a).val = _
  rw [Window.rect_emb_val]
  match a with
  | ⟨0, _⟩ => rw [show win2_2.index t ⟨0, _⟩ = 0 from (r1_idx2 t).1, Nat.zero_mul, Nat.zero_add]
  | ⟨1, _⟩ => rw [show win2_2.index t ⟨1, _⟩ = t.val from (r1_idx2 t).2]; exact hv.symm

end Fetched

/-! ## The result array after the projection, at the ideal values -/

section Final

variable (c : Dev nD) (V : (b : Ref sig .tc) → Buf (Elt Ideal) ((c.tc : Thread nD τ).loc b))

/-- The projection's operands at their tensor types: the transposed weights, the half selectors, the gathered pairs. -/
abbrev r1_w : Vec Ideal S64x100000 .f32 := V main_v7
abbrev r1_sel : Vec Ideal S1024x1 .i32 := V main_v6
abbrev r1_pairs : Vec Ideal S1024x128 .f32 := V main_v2

/-- Row `v`, column `b` of the projection: the contraction of column `v` of the transposed weights with the selected
    half of pair `b`. -/
def r1_val (v : Fin 100000) (b : Fin 1024) : Ideal .f32 :=
  ∑ d : Fin 64, r1_w c V (ix2 d v)
    * Scalar.select (IntOp.cmpi .sgt (r1_sel c V (ix2 b (0 : Fin 1))) 0#32)
        (r1_pairs c V (ix2 b (⟨64 + d.val, by have := d.isLt; omega⟩ : Fin 128)))
        (r1_pairs c V (ix2 b (⟨d.val, by have := d.isLt; omega⟩ : Fin 128)))

/-- Every element a body may leave in the part of the result's staging buffer that the write-back at point `t` moves
    is the projection's element at its place in the array: the payload reads the weights' buffer only at the
    element's own column, which lies inside the array. -/
theorem r1_leaves_val (O : CellTallies nD τ sig (HIx 1)) (Rc : Set (SemLoc sig × HIx 1)) (t : Fin cfg2.N)
    (X : Vec Ideal S4096x1024 .f32) (hX : (rdat1 (F := Ideal) c V O Rc).Leaves (3 : Fin 4) t X)
    (y : (win2_3.xblock (grid2.coords t)).Idx) (v : Fin 100000) (b : Fin 1024)
    (hv : v.val = t.val * 4096 + (y 0).val) (hb : b.val = (y 1).val) :
    X (win2_3.xinj (grid2.coords t) y) = r1_val c V v b := by
  obtain ⟨Y, -, hYX⟩ := hX
  obtain ⟨d0, d1, d2, rfl⟩ : ∃ d0 d1 d2, X = k2_pay1 (fetP0 c V t d0) (fetP1 c V t d1) (fetP2 c V t d2) := hYX
  have hy0 : (y 0).val < win2_3.xsize (grid2.coords t) 0 := (y 0).isLt
  have hy1 : (y 1).val < 1024 := (show (y 1).val < win2_3.xsize (grid2.coords t) 1 from (y 1).isLt).trans_eq (r1_xs3 t).2
  have h4 : win2_3.xsize (grid2.coords t) 0 ≤ 4096 := win2_3.xsize_le (grid2.coords t) 0
  have hx : win2_3.xinj (grid2.coords t) y = ix2 (⟨(y 0).val, by omega⟩ : Fin 4096) b := by
    funext a
    match a with
    | ⟨0, _⟩ => rfl
    | ⟨1, _⟩ => exact Fin.ext hb.symm
  rw [hx, k2_pay1_apply]
  unfold r1_val
  refine Finset.sum_congr rfl fun d _ => ?_
  rw [r1_fetP2_apply c V t d2 d ⟨(y 0).val, by omega⟩ hy0 v hv, r1_fetP1_apply, r1_fetP0_apply, r1_fetP0_apply]

/-- THE VALUE: whatever array the proof data allow after the projection's last write-back holds, at row `v` and
    column `b`, the contraction of the weights' column `v` with the selected half of pair `b`. Every row is covered by
    the block of the point `v / 4096`. -/
theorem region1_value (O : CellTallies nD τ sig (HIx 1)) (Rc : Set (SemLoc sig × HIx 1))
    (A8 : Vec Ideal S100000x1024 .f32)
    (h : (rdat1 (F := Ideal) c V O Rc).ArrAt (3 : Fin 4) cfg2.N A8) (v : Fin 100000) (b : Fin 1024) :
    A8 (ix2 v b) = ∑ d : Fin 64, r1_w c V (ix2 d v)
      * Scalar.select (IntOp.cmpi .sgt (r1_sel c V (ix2 b (0 : Fin 1))) 0#32)
          (r1_pairs c V (ix2 b (⟨64 + d.val, by have := d.isLt; omega⟩ : Fin 128)))
          (r1_pairs c V (ix2 b (⟨d.val, by have := d.isLt; omega⟩ : Fin 128))) := by
  have hN : cfg2.N = 25 := N_2
  let t : Fin cfg2.N := ⟨v.val / 4096, by have := v.isLt; omega⟩
  -- the place of an element of point `u`'s block in the array
  have hemb : ∀ (u : Fin cfg2.N) (y : (win2_3.xblock (grid2.coords u)).Idx),
      (((win2_3.blk u).view.emb y : S100000x1024.Idx) 0).val = u.val * 4096 + (y 0).val
        ∧ (((win2_3.blk u).view.emb y : S100000x1024.Idx) 1).val = (y 1).val := fun u y => by
    constructor
    · show ((win2_3.rect u).emb y 0).val = _
      rw [Window.rect_emb_val, show win2_3.index u 0 = u.val from (r1_idx3 u).1]; rfl
    · show ((win2_3.rect u).emb y 1).val = _
      rw [Window.rect_emb_val, show win2_3.index u 1 = 0 from (r1_idx3 u).2, Nat.zero_mul, Nat.zero_add]
  have key := arrAt_forall (rdat1 (F := Ideal) c V O Rc) (3 : Fin 4)
    (fun (i : S100000x1024.Idx) (x : Ideal .f32) => x = r1_val c V (i 0) (i 1))
    (fun u _ X hX y => r1_leaves_val c V O Rc u X hX y _ _ (hemb u y).1 (hemb u y).2)
    cfg2.N A8 h t (ix2 v b) t.isLt (flush2_3 t) (by
      show ix2 v b ∈ ((View.whole main_v8).slice (win2_3.rect t)).set
      rw [View.set_slice_whole, Rect.mem_set_unit]
      intro a
      have hv := v.isLt
      have h3 := r1_xs3 t
      match a with
      | ⟨0, _⟩ =>
        show win2_3.index t 0 * 4096 ≤ v.val ∧ v.val < win2_3.index t 0 * 4096 + win2_3.xsize (grid2.coords t) 0
        rw [show win2_3.index t 0 = t.val from (r1_idx3 t).1]
        have ht : t.val = v.val / 4096 := rfl
        omega
      | ⟨1, _⟩ =>
        show win2_3.index t 1 * 1024 ≤ b.val ∧ b.val < win2_3.index t 1 * 1024 + win2_3.xsize (grid2.coords t) 1
        rw [show win2_3.index t 1 = 0 from (r1_idx3 t).2, h3.2]
        have := b.isLt
        omega)
  exact key

end Final

end Cert.KernelIdeal.Hand

end
-- ==== Proof.Values.lean ====
/-
  The two compute regions' values, at the relations @main's proof uses, and the algebraic claim from them.

  @main's proof records, for each of its two pipeline regions, a relation between the valuation the region was
  entered with and the contents of the one array it writes; the relation is "these contents are what the region's
  record says the array holds after its last write-back". What such contents ARE, entry by entry, is a statement
  about the region's record alone, for any valuation family, any bookkeeping of what the core owes, any device:

    * the repack: line l of the packed table holds, in its low 64 columns, row l of the table (column l of the
      transposed table it reads) and, in its high 64 columns, row l + 57344 when that is a row;
    * the projection: entry (v, b) of its result is the sum over d < 64 of the transposed W at (d, v) times the
      entry of gathered line b in the half the selector at b names, column d of that half.

  Those two statements are named here (`Region0Value`, `Region1Value`). Specialised to the valuation family that
  is constant across devices and to @main's own bookkeeping they are, word for word, the two value readings the
  algebraic claim was derived from; so the claim follows from the two statements and the kernel's run.
-/
import proofs.«218829_g6193342841233_cont_9to1_m_903_15_alg».proof.Proof.Algebraic
import proofs.«218829_g6193342841233_cont_9to1_m_903_15_alg».proof.Proof.KI.Steps
import proofs.«218829_g6193342841233_cont_9to1_m_903_15_alg».proof.Proof.KI.Region0Value
import proofs.«218829_g6193342841233_cont_9to1_m_903_15_alg».proof.Proof.KI.Region1Value

noncomputable section

open scoped BigOperators

namespace Cert.Values

open Cert.AlgebraicProof
open Cert.KernelIdeal Cert.KernelIdeal.Gen Cert.KernelIdeal.Hand
open Idealize.ShloMosaic Idealize.ShloMosaic.TcCoe Idealize.ShloMosaic.ValueIdx Idealize.SL.Sem
open Idealize.ShloMosaic.SparseCore.Cfg (HIx)

/-- An array of extended reals (of 32-bit words), named at its index set so that its entries multiply and add. -/
abbrev fRead (S : Shape) (x : S.Idx → EReal) : S.Idx → EReal := x
abbrev iRead (S : Shape) (x : IVec S 32) : IVec S 32 := x

/-- What the repack region is to guarantee of the packed table it leaves, given the transposed table `V c main_v0`
    it was entered with: line l holds row l in its low half and row l + 57344, when there is one, in its high half. -/
def Region0Value : Prop :=
  ∀ (O : Dev nD → CellTallies nD τ sig (HIx 1)) (Rc : Dev nD → Set (SemLoc sig × HIx 1))
    (V : (c : Dev nD) → (b : Ref sig .tc) → Buf (Elt Ideal) ((c : Thread nD τ).loc b)) (c : Dev nD)
    (A : Buf (Elt Ideal) ((c : Thread nD τ).loc main_v1)),
    (rdat0 O Rc V c).ArrAt 2 cfg0.N A → ∀ (l : Fin 57344) (k : Fin 64),
      fRead S57344x128 A (ix2 l ⟨k.val, by have := k.isLt; omega⟩)
          = fRead S64x100000 (V c main_v0) (ix2 k ⟨l.val, by have := l.isLt; omega⟩)
      ∧ ∀ hl : l.val + 57344 < 100000,
        fRead S57344x128 A (ix2 l ⟨64 + k.val, by have := k.isLt; omega⟩)
          = fRead S64x100000 (V c main_v0) (ix2 k ⟨l.val + 57344, hl⟩)

/-- What the projection region is to guarantee of its result, given the gathered lines, the selector column and the
    transposed W it was entered with: entry (v, b) is the contraction, over the 64 columns, of column v of the
    transposed W with the half of line b the selector names. -/
def Region1Value : Prop :=
  ∀ (c : Dev nD) (V : (b : Ref sig .tc) → Buf (Elt Ideal) ((c.tc : Thread nD τ).loc b))
    (O : CellTallies nD τ sig (HIx 1)) (Rc : Set (SemLoc sig × HIx 1))
    (A8 : Buf (Elt Ideal) ((c.tc : Thread nD τ).loc main_v8)),
    (rdat1 (F := Ideal) c V O Rc).ArrAt (3 : Fin 4) cfg2.N A8 → ∀ (v : Fin 100000) (b : Fin 1024),
      fRead S100000x1024 A8 (ix2 v b) = ∑ d : Fin 64, fRead S64x100000 (V main_v7) (ix2 d v) *
        Scalar.select (IntOp.cmpi .sgt (iRead S1024x1 (V main_v6) (ix2 b (0 : Fin 1))) 0#32)
          (fRead S1024x128 (V main_v2) (ix2 b ⟨64 + d.val, by have := d.isLt; omega⟩))
          (fRead S1024x128 (V main_v2) (ix2 b ⟨d.val, by have := d.isLt; omega⟩))

/-- The repack region's guarantee holds: it is the region's value theorem. -/
theorem region0Value : Region0Value :=
  fun O Rc V c A h l k => pairs_of_out0 O Rc V c A h l k

/-- The projection region's guarantee holds: it is the region's value theorem, whose arrays are the valuation's at
    the three buffers the region reads. -/
theorem region1Value : Region1Value :=
  fun c V O Rc A8 h v b => region1_value c V O Rc A8 h v b

/-- The repack's guarantee at the relation @main's proof uses for it: the region's record at the valuation entered
    with, whose array `main_v0` is that valuation's. -/
theorem hv0 (R0 : Region0Value) :
    ∀ (c : Dev nD) (W : Valuation τ sig (Elt Ideal)) (f1 : (v1' : DevRef τ sig).ty.Contents (Elt Ideal)),
      OutR0 (F := Ideal) c W f1 → ∀ (l : Fin 57344) (k : Fin 64),
        asPacked f1 (ix2 l ⟨k.val, by have := k.isLt; omega⟩) = tabT W (ix2 k ⟨l.val, by have := l.isLt; omega⟩)
        ∧ ∀ hl : l.val + 57344 < 100000,
          asPacked f1 (ix2 l ⟨64 + k.val, by have := k.isLt; omega⟩) = tabT W (ix2 k ⟨l.val + 57344, hl⟩) :=
  fun c W f1 h l k => R0 (OW (F := Ideal) 0) (RW (F := Ideal) 0) (VW W) c f1 h l k

/-- The projection's guarantee at the relation @main's proof uses for it, likewise. -/
theorem hv1 (R1 : Region1Value) :
    ∀ (c : Dev nD) (W : Valuation τ sig (Elt Ideal)) (A8 : (v8' : DevRef τ sig).ty.Contents (Elt Ideal)),
      OutR1 (F := Ideal) c W A8 → ∀ (v : Fin 100000) (b : Fin 1024),
        asProj A8 (ix2 v b) = ∑ d : Fin 64, wT W (ix2 d v) *
          Scalar.select (IntOp.cmpi .sgt (selOf W (ix2 b (0 : Fin 1))) 0#32)
            (linesOf W (ix2 b ⟨64 + d.val, by have := d.isLt; omega⟩))
            (linesOf W (ix2 b ⟨d.val, by have := d.isLt; omega⟩)) :=
  fun c W A8 h v b => R1 c (VW W c) (OW (F := Ideal) 1 c) (RW (F := Ideal) 1 c) A8 h v b

/-- THE ALGEBRAIC CLAIM from the kernel's run at the relations @main's proof uses for the three calls; the two
    regions' value guarantees are the theorems above. -/
theorem alg
    (hrun : ∀ (m : (ℓ : Loc nD τ sig) → Buf (Elt Ideal) ℓ) (ρ : Dev nD → PrngReg), Cert.Pre_KernelIdeal m →
      θ_run (Cert.KernelIdeal.defs (F := Ideal)) (Cert.KernelIdeal.threads (F := Ideal)) ⟨m, fun _ => 0, ρ⟩
        (fun r => ∀ c : Dev nD,
          (∃ (f1 : (v1' : DevRef τ sig).ty.Contents (Elt Ideal)) (f2 : (v2' : DevRef τ sig).ty.Contents (Elt Ideal))
              (A8 : (v8' : DevRef τ sig).ty.Contents (Elt Ideal)),
            OutR0 (F := Ideal) c ((opTab (F := Ideal)).result (W₀ m c)) f1
            ∧ OutSC m c (Function.update ((opTab (F := Ideal)).result (W₀ m c)) v1' f1) f2
            ∧ OutR1 (F := Ideal) c (Wmid (W₀ m c) f1 f2) A8
            ∧ r.2.mem ((c.tc : Thread nD τ).loc main_v9)
                = transpose S1024x100000 [1, 0] (A8 : (⟨S100000x1024, .f32⟩ : BufTy).Contents (Elt Ideal))
                    transposes_S100000x1024_S1024x100000_1_0)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))) :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic (OutR0 (F := Ideal)) (OutR1 (F := Ideal)) (hv0 region0Value) (hv1 region1Value) hrun

end Cert.Values

end
-- ==== Proof.lean ====
/-
  The certificate of a row lookup followed by a projection: 1024 row numbers looked up in a table of 100000 rows of 64
  words, the rows found multiplied against a second 100000 × 64 matrix, computed by a kernel that packs the table's rows in pairs, gathers
  the 1024 packed rows on the SparseCores' vector subcores, picks each row's half and multiplies on the TensorCore.

  The mathematics. Row n of the table sits in packed row line(n) — n itself below 57344, n − 57344 from there on — in
  the low or the high half accordingly: the repack multiplies each transposed block of the table by the 64 × 64 identity,
  which at the extended reals returns the block's transpose (x · 1 = x, x · 0 = 0, a sum of zeros and one term). The gather
  copies packed row line(idx[b]) to output row b; the selector bit "idx[b] ≥ 57344" then picks the half that holds table row
  idx[b]. The projection forms Σ_d W[v, d] · table[idx[b], d]; the reference forms Σ_d table[idx[b], d] · W[v, d]: equal term
  by term, multiplication on the extended reals being commutative. No law used needs finiteness. The blocks that overhang
  the arrays' ends (the table's last column block, the projection matrix's last block and the result's) carry words nothing
  names; they only ever reach packed half-rows the selector discards and result rows past the array, which are not written.

  The frames. Every weakly fair execution of the device's 35 threads terminates with no thread faulting and the arguments
  unchanged: the launch handshakes by the SparseCore launch theorem; each vector subcore's task (three copies it waits for
  itself, the middle one a row gather whose lines are in range because the row numbers are, by the precondition) by symbolic
  execution; each TensorCore call by the pipeline's region rule inside @main's proof, the TensorCore's outstanding start
  signals lent across the region; @main's host operations step by step. The same text proves the frame of the program as
  printed for machine words and of its reading at the extended reals; the value of the result is read at the extended reals
  only. The idealization rewrote no operation, so that the idealized program is the printed one's reading is immediate.
-/
import proofs.«218829_g6193342841233_cont_9to1_m_903_15_alg».proof.Defs
import proofs.«218829_g6193342841233_cont_9to1_m_903_15_alg».proof.Proof.Gen.Kernel
import proofs.«218829_g6193342841233_cont_9to1_m_903_15_alg».proof.Proof.Gen.KernelIdeal
import proofs.«218829_g6193342841233_cont_9to1_m_903_15_alg».proof.Proof.Gen.ReferenceIdeal
import proofs.«218829_g6193342841233_cont_9to1_m_903_15_alg».proof.Proof.Gen.Pre_input_domain
import proofs.«218829_g6193342841233_cont_9to1_m_903_15_alg».proof.Proof.PreFacts
import proofs.«218829_g6193342841233_cont_9to1_m_903_15_alg».proof.Proof.RefRun
import proofs.«218829_g6193342841233_cont_9to1_m_903_15_alg».proof.Proof.K.Assemble
import proofs.«218829_g6193342841233_cont_9to1_m_903_15_alg».proof.Proof.KI.Assemble
import proofs.«218829_g6193342841233_cont_9to1_m_903_15_alg».proof.Proof.Values

noncomputable section

namespace Cert.Proof

open Idealize.ShloMosaic Idealize.SL.Sem

/-- The precondition bounds the row numbers, on every device: what the word-level program's frame asks. -/
theorem idxOK_K (m : (ℓ : Loc Cert.Kernel.nD Cert.Kernel.τ Cert.Kernel.sig) → Buf (Elt Bits) ℓ)
    (h : Cert.Pre_Kernel (hPre_input_domain := Cert.Pre_input_domain.Gen.facts) m) : Cert.Kernel.Hand.IdxOK m :=
  fun d i => Cert.PreFacts.idx_range _ _ _ (h d) i

/-- The same for the idealized program. -/
theorem idxOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Hand.IdxOK m :=
  fun d i => Cert.PreFacts.idx_range _ _ _ (h d) i

theorem frame_K : Cert.frame_Kernel (hKernel := Cert.Kernel.Gen.facts) (hPre_input_domain := Cert.Pre_input_domain.Gen.facts) :=
  fun m g hpre => Cert.Kernel.Hand.frame (F := Bits) m g (idxOK_K m hpre)

theorem frame_KI : Cert.frame_KernelIdeal (hKernelIdeal := Cert.KernelIdeal.Gen.facts) (hPre_input_domain := Cert.Pre_input_domain.Gen.facts) :=
  fun m g hpre => Cert.KernelIdeal.Hand.frame (F := Ideal) m g (idxOK_KI m hpre)

/-- The reference's frame is its run with the result dropped. -/
theorem frame_R : Cert.frame_ReferenceIdeal (hReferenceIdeal := Cert.ReferenceIdeal.Gen.facts) (hPre_input_domain := Cert.Pre_input_domain.Gen.facts) :=
  fun m g _ => (θ_run _ _ _).mono (fun _ h c => (h c).2) (Cert.ReferenceIdeal.RefRun.run (F := Ideal) m g)

theorem claim : Cert.Claim :=
  ⟨Cert.Kernel.Gen.facts, Cert.KernelIdeal.Gen.facts, Cert.ReferenceIdeal.Gen.facts, Cert.Pre_input_domain.Gen.facts,
    frame_K, frame_KI, frame_R, trivial,
    Cert.Values.alg (fun m ρ hpre => Cert.KernelIdeal.Hand.run_value (F := Ideal) m ρ (idxOK_KI m hpre))⟩

end Cert.Proof

end
